-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S64x40 .f32) (main_arg6 : FVec F S40 .f32) (main_arg7 : FVec F S40 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x40 .f32 := Host.absf main_arg5
  let main_cst_6 : FVec F S_ .f32 := constant S_ .f32 0x7F800000#32
  let main_v20 : FVec F S64x40 .f32 := broadcastInDim S64x40 ![] bcast_S_S64x40 main_cst_6
  let main_v21 : IVec S64x40 1 := cmpf .olt main_v19 main_v20
  let main_c_7 : IVec S_ 1 := constantI S_ 1 1#1
  let main_v22 : IVec S_ 1 := (fun x v => Host.reduce IntOp.andi x v reducesTo_S64x40_S_d0_1 h_S_) main_v21 main_c_7
  let main_v23 : IVec S_ 1 := andi main_v18 main_v22
  let main_v24 : FVec F S40 .f32 := Host.absf main_arg6
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  let main_v29 : FVec F S40 .f32 := Host.absf main_arg7
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x64 .f32) (main_arg3 : FVec F S64 .f32) (main_arg4 : FVec F S64 .f32) (main_arg5 : FVec F S64x40 .f32) (main_arg6 : FVec F S40 .f32) (main_arg7 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S1x64 : Shape := ⟨2, ![1, 64]⟩
abbrev S100000x64 : Shape := ⟨2, ![100000, 64]⟩
abbrev S5000x128 : Shape := ⟨2, ![5000, 128]⟩
abbrev S5000x64 : Shape := ⟨2, ![5000, 64]⟩
abbrev S5000x1 : Shape := ⟨2, ![5000, 1]⟩
abbrev S5000 : Shape := ⟨1, ![5000]⟩
abbrev S1700000x64 : Shape := ⟨2, ![1700000, 64]⟩
abbrev S1x40 : Shape := ⟨2, ![1, 40]⟩
abbrev S100000x40 : Shape := ⟨2, ![100000, 40]⟩
abbrev S5000x40 : Shape := ⟨2, ![5000, 40]⟩
abbrev S1700000x40 : Shape := ⟨2, ![1700000, 40]⟩

abbrev nBuf : Space → Nat
  | .hbm => 102
  | .vmem => 46
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64, .f32⟩
  | .hbm, ⟨5, _⟩ => ⟨S64x40, .f32⟩
  | .hbm, ⟨6, _⟩ => ⟨S40, .f32⟩
  | .hbm, ⟨7, _⟩ => ⟨S40, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S1x64, .f32⟩
  | .hbm, ⟨29, _⟩ => ⟨S100000x64, .f32⟩
  | .hbm, ⟨30, _⟩ => ⟨S100000x1, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000x64, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000x64, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x1, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S1x40, .f32⟩
  | .hbm, ⟨66, _⟩ => ⟨S100000x40, .f32⟩
  | .hbm, ⟨67, _⟩ => ⟨S100000x1, .f32⟩
  | .hbm, ⟨68, _⟩ => ⟨S_, .i32⟩
  | .hbm, ⟨69, _⟩ => ⟨S1700000, .i32⟩
  | .hbm, ⟨70, _⟩ => ⟨S1700000, .i1⟩
  | .hbm, ⟨71, _⟩ => ⟨S_, .i32⟩
  | .hbm, ⟨72, _⟩ => ⟨S1700000, .i32⟩
  | .hbm, ⟨73, _⟩ => ⟨S1700000, .i32⟩
  | .hbm, ⟨74, _⟩ => ⟨S1700000, .i32⟩
  | .hbm, ⟨75, _⟩ => ⟨S1700000x1, .i32⟩
  | .hbm, ⟨76, _⟩ => ⟨S1700000x40, .f32⟩
  | .hbm, ⟨77, _⟩ => ⟨S_, .i32⟩
  | .hbm, ⟨78, _⟩ => ⟨S1700000, .i32⟩
  | .hbm, ⟨79, _⟩ => ⟨S1700000, .i1⟩
  | .hbm, ⟨80, _⟩ => ⟨S_, .i32⟩
  | .hbm, ⟨81, _⟩ => ⟨S1700000, .i32⟩
  | .hbm, ⟨82, _⟩ => ⟨S1700000, .i32⟩
  | .hbm, ⟨83, _⟩ => ⟨S1700000, .i32⟩
  | .hbm, ⟨84, _⟩ => ⟨S1700000x1, .i32⟩
  | .hbm, ⟨85, _⟩ => ⟨S1700000x40, .f32⟩
  | .hbm, ⟨86, _⟩ => ⟨S_, .i32⟩
  | .hbm, ⟨87, _⟩ => ⟨S1700000, .i32⟩
  | .hbm, ⟨88, _⟩ => ⟨S1700000, .i1⟩
  | .hbm, ⟨89, _⟩ => ⟨S_, .i32⟩
  | .hbm, ⟨90, _⟩ => ⟨S1700000, .i32⟩
  | .hbm, ⟨91, _⟩ => ⟨S1700000, .i32⟩
  | .hbm, ⟨92, _⟩ => ⟨S1700000, .i32⟩
  | .hbm, ⟨93, _⟩ => ⟨S1700000x1, .i32⟩
  | .hbm, ⟨94, _⟩ => ⟨S1700000x1, .f32⟩
  | .hbm, ⟨95, _⟩ => ⟨S1700000x40, .f32⟩
  | .hbm, ⟨96, _⟩ => ⟨S_, .f32⟩
  | .hbm, ⟨97, _⟩ => ⟨S100000x40, .f32⟩
  | .hbm, ⟨98, _⟩ => ⟨S1700000x1, .i32⟩
  | .hbm, ⟨99, _⟩ => ⟨S100000x40, .f32⟩
  | .hbm, ⟨100, _⟩ => ⟨S1x40, .f32⟩
  | .hbm, ⟨101, _⟩ => ⟨S100000x40, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S5000x1, .f32⟩
  | .local _ .vmem, ⟨7, _⟩ => ⟨S5000x1, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x1, .f32⟩
  | .local _ .vmem, ⟨13, _⟩ => ⟨S5000x1, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x1, .f32⟩
  | .local _ .vmem, ⟨19, _⟩ => ⟨S5000x1, .f32⟩
  | .local _ .vmem, ⟨20, _⟩ => ⟨S1x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S64x40, .f32⟩
  | .local _ .vmem, ⟨26, _⟩ => ⟨S1x40, .f32⟩
  | .local _ .vmem, ⟨27, _⟩ => ⟨S5000x40, .f32⟩
  | .local _ .vmem, ⟨28, _⟩ => ⟨S5000x40, .f32⟩
  | .local _ .vmem, ⟨29, _⟩ => ⟨S5000x1, .f32⟩
  | .local _ .vmem, ⟨30, _⟩ => ⟨S5000x1, .f32⟩
  | .local _ .vmem, ⟨31, _⟩ => ⟨S5000x40, .f32⟩
  | .local _ .vmem, ⟨32, _⟩ => ⟨S5000x40, .f32⟩
  | .local _ .vmem, ⟨33, _⟩ => ⟨S5000x40, .f32⟩
  | .local _ .vmem, ⟨34, _⟩ => ⟨S5000x40, .f32⟩
  | .local _ .vmem, ⟨35, _⟩ => ⟨S5000x1, .f32⟩
  | .local _ .vmem, ⟨36, _⟩ => ⟨S5000x1, .f32⟩
  | .local _ .vmem, ⟨37, _⟩ => ⟨S5000x40, .f32⟩
  | .local _ .vmem, ⟨38, _⟩ => ⟨S5000x40, .f32⟩
  | .local _ .vmem, ⟨39, _⟩ => ⟨S5000x40, .f32⟩
  | .local _ .vmem, ⟨40, _⟩ => ⟨S5000x40, .f32⟩
  | .local _ .vmem, ⟨41, _⟩ => ⟨S5000x1, .f32⟩
  | .local _ .vmem, ⟨42, _⟩ => ⟨S5000x1, .f32⟩
  | .local _ .vmem, ⟨43, _⟩ => ⟨S1x40, .f32⟩
  | .local _ .vmem, ⟨44, _⟩ => ⟨S5000x40, .f32⟩
  | .local _ .vmem, ⟨45, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17_0 : Ref sig .tc := ⟨.hbm, 29, rfl⟩
abbrev main_v17_1 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_4 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_6 : Ref sig .tc := ⟨.hbm, 49, rfl⟩
abbrev main_v32 : Ref sig .tc := ⟨.hbm, 50, rfl⟩
abbrev main_v33 : Ref sig .tc := ⟨.hbm, 51, rfl⟩
abbrev main_c_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_8 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46_0 : Ref sig .tc := ⟨.hbm, 66, rfl⟩
abbrev main_v46_1 : Ref sig .tc := ⟨.hbm, 67, rfl⟩
abbrev main_c_9 : Ref sig .tc := ⟨.hbm, 68, rfl⟩
abbrev main_v47 : Ref sig .tc := ⟨.hbm, 69, rfl⟩
abbrev main_v48 : Ref sig .tc := ⟨.hbm, 70, rfl⟩
abbrev main_c_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_c_11 : Ref sig .tc := ⟨.hbm, 77, rfl⟩
abbrev main_v54 : Ref sig .tc := ⟨.hbm, 78, rfl⟩
abbrev main_v55 : Ref sig .tc := ⟨.hbm, 79, rfl⟩
abbrev main_c_12 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_c_13 : Ref sig .tc := ⟨.hbm, 86, rfl⟩
abbrev main_v61 : Ref sig .tc := ⟨.hbm, 87, rfl⟩
abbrev main_v62 : Ref sig .tc := ⟨.hbm, 88, rfl⟩
abbrev main_c_14 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_15 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg3_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg3_1 : Ref sig .tc := ⟨.vmem, 28, rfl⟩
abbrev cc3_stg4_0 : Ref sig .tc := ⟨.vmem, 29, rfl⟩
abbrev cc3_stg4_1 : Ref sig .tc := ⟨.vmem, 30, rfl⟩
abbrev cc4_stg0_0 : Ref sig .tc := ⟨.vmem, 31, rfl⟩
abbrev cc4_stg0_1 : Ref sig .tc := ⟨.vmem, 32, rfl⟩
abbrev cc4_stg1_0 : Ref sig .tc := ⟨.vmem, 33, rfl⟩
abbrev cc4_stg1_1 : Ref sig .tc := ⟨.vmem, 34, rfl⟩
abbrev cc4_stg2_0 : Ref sig .tc := ⟨.vmem, 35, rfl⟩
abbrev cc4_stg2_1 : Ref sig .tc := ⟨.vmem, 36, rfl⟩
abbrev cc4_stg3_0 : Ref sig .tc := ⟨.vmem, 37, rfl⟩
abbrev cc4_stg3_1 : Ref sig .tc := ⟨.vmem, 38, rfl⟩
abbrev cc5_stg0_0 : Ref sig .tc := ⟨.vmem, 39, rfl⟩
abbrev cc5_stg0_1 : Ref sig .tc := ⟨.vmem, 40, rfl⟩
abbrev cc5_stg1_0 : Ref sig .tc := ⟨.vmem, 41, rfl⟩
abbrev cc5_stg1_1 : Ref sig .tc := ⟨.vmem, 42, rfl⟩
abbrev cc5_stg2_0 : Ref sig .tc := ⟨.vmem, 43, rfl⟩
abbrev cc5_stg3_0 : Ref sig .tc := ⟨.vmem, 44, rfl⟩
abbrev cc5_stg3_1 : Ref sig .tc := ⟨.vmem, 45, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem3_1 : DmaSem sig := 22
abbrev cc3_sem0_0 : DmaSem sig := 23
abbrev cc3_sem0_1 : DmaSem sig := 24
abbrev cc3_sem1_0 : DmaSem sig := 25
abbrev cc3_sem2_0 : DmaSem sig := 26
abbrev cc3_sem3_0 : DmaSem sig := 27
abbrev cc3_sem3_1 : DmaSem sig := 28
abbrev cc3_sem4_0 : DmaSem sig := 29
abbrev cc3_sem4_1 : DmaSem sig := 30
abbrev cc4_sem0_0 : DmaSem sig := 31
abbrev cc4_sem0_1 : DmaSem sig := 32
abbrev cc4_sem1_0 : DmaSem sig := 33
abbrev cc4_sem1_1 : DmaSem sig := 34
abbrev cc4_sem2_0 : DmaSem sig := 35
abbrev cc4_sem2_1 : DmaSem sig := 36
abbrev cc4_sem3_0 : DmaSem sig := 37
abbrev cc4_sem3_1 : DmaSem sig := 38
abbrev cc5_sem0_0 : DmaSem sig := 39
abbrev cc5_sem0_1 : DmaSem sig := 40
abbrev cc5_sem1_0 : DmaSem sig := 41
abbrev cc5_sem1_1 : DmaSem sig := 42
abbrev cc5_sem2_0 : DmaSem sig := 43
abbrev cc5_sem3_0 : DmaSem sig := 44
abbrev cc5_sem3_1 : DmaSem sig := 45

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![340], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x40 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x40 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S5000x1 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![340], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x40 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x40 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S5000x40 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x40 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x40 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x40 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  inb_S5000x1_S5000x1_0_0 : ∀ a, (![0, 0] : Fin 2 → Nat) a + S5000x1.size a ≤ S5000x1.size a
  h_S5000x1 : 0 < S5000x1.numel
  shapeCasts_S5000x64_S5000x64 : S5000x64.ShapeCasts S5000x64
  shapeCasts_S5000x1_S5000x1 : S5000x1.ShapeCasts S5000x1
  bcast_S_S100000x64 : S_.BroadcastsInDim S100000x64 (![] : Fin 0 → Fin S100000x64.rank)
  shapeCasts_S40_S1x40 : S40.ShapeCasts S1x40
  inb_S64x40_S64x40_0_0 : ∀ a, (![0, 0] : Fin 2 → Nat) a + S64x40.size a ≤ S64x40.size a
  h_S64x40 : 0 < S64x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  broadcasts_S5000x1_S5000x40 : S5000x1.Broadcasts S5000x40
  inb_S5000x40_S5000x40_0_0 : ∀ a, (![0, 0] : Fin 2 → Nat) a + S5000x40.size a ≤ S5000x40.size a
  h_S5000x40 : 0 < S5000x40.numel
  shapeCasts_S5000x40_S5000x40 : S5000x40.ShapeCasts S5000x40
  bcast_S_S100000x40 : S_.BroadcastsInDim S100000x40 (![] : Fin 0 → Fin S100000x40.rank)
  scatter_S100000_S1700000x1_S1700000_n_0_0_1_wf : ScatterDims.WF S100000 S1700000x1 S1700000 [] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  gather_S100000x1_S1700000x1_S1700000x1_1_0_n_n_0_1_11_wf : GatherDims.WF S100000x1 S1700000x1 S1700000x1 [1] [0] [] [0] [] 1 ![1, 1]
  scatter_S100000x64_S1700000x1_S1700000x64_1_0_0_1_wf : ScatterDims.WF S100000x64 S1700000x1 S1700000x64 [1] [0] [0] 1
  dot_S5000x64_S64x40_S5000x40_1_0_0_1_n_n_wf : DotDims.WF S5000x64 S64x40 S5000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x1.size a ≤ S100000x1.size a
  hwx0_4 : ∀ i : grid0.Coords, EltTy.bits .f32 = 32 ∨ (Rect.block (s := S100000x1) S5000x1.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S1700000x64.size a
  hwx1_0 : ∀ i : grid1.Coords, EltTy.bits .f32 = 32 ∨ (Rect.block (s := S1700000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S1700000x64.size a
  hwx1_1 : ∀ i : grid1.Coords, EltTy.bits .f32 = 32 ∨ (Rect.block (s := S1700000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S1700000x1.size a
  hwx1_2 : ∀ i : grid1.Coords, EltTy.bits .f32 = 32 ∨ (Rect.block (s := S1700000x1) S5000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S1700000x64.size a
  hwx1_3 : ∀ i : grid1.Coords, EltTy.bits .f32 = 32 ∨ (Rect.block (s := S1700000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x40.size a ≤ S64x40.size a
  hwx3_1 : ∀ i : grid3.Coords, EltTy.bits .f32 = 32 ∨ (Rect.block (s := S64x40) S64x40.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x40.size a ≤ S1x40.size a
  hwx3_2 : ∀ i : grid3.Coords, EltTy.bits .f32 = 32 ∨ (Rect.block (s := S1x40) S1x40.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x40.size a ≤ S100000x40.size a
  hwx3_3 : ∀ i : grid3.Coords, EltTy.bits .f32 = 32 ∨ (Rect.block (s := S100000x40) S5000x40.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x1.size a ≤ S100000x1.size a
  hwx3_4 : ∀ i : grid3.Coords, EltTy.bits .f32 = 32 ∨ (Rect.block (s := S100000x1) S5000x1.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x40.size a ≤ S1700000x40.size a
  hwx4_0 : ∀ i : grid4.Coords, EltTy.bits .f32 = 32 ∨ (Rect.block (s := S1700000x40) S5000x40.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x40.size a ≤ S1700000x40.size a
  hwx4_1 : ∀ i : grid4.Coords, EltTy.bits .f32 = 32 ∨ (Rect.block (s := S1700000x40) S5000x40.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S1700000x1.size a
  hwx4_2 : ∀ i : grid4.Coords, EltTy.bits .f32 = 32 ∨ (Rect.block (s := S1700000x1) S5000x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x40.size a ≤ S1700000x40.size a
  hwx4_3 : ∀ i : grid4.Coords, EltTy.bits .f32 = 32 ∨ (Rect.block (s := S1700000x40) S5000x40.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x40.size a ≤ S100000x40.size a
  hwx5_0 : ∀ i : grid5.Coords, EltTy.bits .f32 = 32 ∨ (Rect.block (s := S100000x40) S5000x40.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x1.size a ≤ S100000x1.size a
  hwx5_1 : ∀ i : grid5.Coords, EltTy.bits .f32 = 32 ∨ (Rect.block (s := S100000x1) S5000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x40.size a ≤ S1x40.size a
  hwx5_2 : ∀ i : grid5.Coords, EltTy.bits .f32 = 32 ∨ (Rect.block (s := S1x40) S1x40.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x40.size a ≤ S100000x40.size a
  hwx5_3 : ∀ i : grid5.Coords, EltTy.bits .f32 = 32 ∨ (Rect.block (s := S100000x40) S5000x40.size (cc5_transform_3 i) (hinb5_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def gather_S100000x1_S1700000x1_S1700000x1_1_0_n_n_0_1_11 : GatherDims S100000x1 S1700000x1 S1700000x1 where
  offsetDims := [1]
  collapsedSliceDims := [0]
  operandBatchingDims := []
  startIndicesBatchingDims := []
  startIndexMap := [0]
  indexVectorDim := 1
  sliceSizes := ![1, 1]
  wf := gather_S100000x1_S1700000x1_S1700000x1_1_0_n_n_0_1_11_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x40_S5000x40_1_0_0_1_n_n : DotDims S5000x64 S64x40 S5000x40 where
  lhsContracting := [1]
  rhsContracting := [0]
  lhsNonContracting := [0]
  rhsNonContracting := [1]
  lhsBatch := []
  rhsBatch := []
  wf := dot_S5000x64_S64x40_S5000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17_0) S5000x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v17_1) S5000x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v24) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v38) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v39) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v42) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v43) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v44) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v44) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S64x40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v45) S1x40.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v46_0) S5000x40.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v46_1) S5000x1.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v53) S5000x40.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v60) S5000x40.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v67) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v68) S5000x40.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v71) S5000x40.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v15) S5000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v72) S1x40.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v73) S5000x40.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S100000x64 : Shape := ⟨2, ![100000, 64]⟩
abbrev S1x64 : Shape := ⟨2, ![1, 64]⟩
abbrev S_ : Shape := ⟨0, ![]⟩
abbrev S100000x1 : Shape := ⟨2, ![100000, 1]⟩
abbrev S1700000x1 : Shape := ⟨2, ![1700000, 1]⟩
abbrev S1700000x64 : Shape := ⟨2, ![1700000, 64]⟩
abbrev S100000x40 : Shape := ⟨2, ![100000, 40]⟩
abbrev S1x40 : Shape := ⟨2, ![1, 40]⟩
abbrev S1700000x40 : Shape := ⟨2, ![1700000, 40]⟩

abbrev nBuf : Space → Nat
  | .hbm => 165
  | .vmem => 0
  | .smem => 0
  | _ => 0

abbrev hbmTy0_0 (i : Nat) : BufTy := match i % 128 with
  | 0 => ⟨S100000x128, .f32⟩
  | 1 => ⟨S2x1600000, .i32⟩
  | 2 => ⟨S128x64, .f32⟩
  | 3 => ⟨S64, .f32⟩
  | 4 => ⟨S64, .f32⟩
  | 5 => ⟨S64x40, .f32⟩
  | 6 => ⟨S40, .f32⟩
  | 7 => ⟨S40, .f32⟩
  | 8 => ⟨S100000, .i32⟩
  | 9 => ⟨S1x1600000, .i32⟩
  | 10 => ⟨S1600000, .i32⟩
  | 11 => ⟨S1700000, .i32⟩
  | 12 => ⟨S1x1600000, .i32⟩
  | 13 => ⟨S1600000, .i32⟩
  | 14 => ⟨S1700000, .i32⟩
  | 15 => ⟨S100000x64, .f32⟩
  | 16 => ⟨S1x64, .f32⟩
  | 17 => ⟨S100000x64, .f32⟩
  | 18 => ⟨S100000x64, .f32⟩
  | 19 => ⟨S100000x64, .f32⟩
  | 20 => ⟨S_, .f32⟩
  | 21 => ⟨S100000, .f32⟩
  | 22 => ⟨S100000x1, .f32⟩
  | 23 => ⟨S100000x1, .f32⟩
  | 24 => ⟨S_, .f32⟩
  | 25 => ⟨S100000x1, .f32⟩
  | 26 => ⟨S100000x1, .f32⟩
  | 27 => ⟨S100000x64, .f32⟩
  | 28 => ⟨S100000x64, .f32⟩
  | 29 => ⟨S_, .i32⟩
  | 30 => ⟨S1700000, .i32⟩
  | 31 => ⟨S1700000, .i1⟩
  | 32 => ⟨S_, .i32⟩
  | 33 => ⟨S1700000, .i32⟩
  | 34 => ⟨S1700000, .i32⟩
  | 35 => ⟨S1700000, .i32⟩
  | 36 => ⟨S1700000x1, .i32⟩
  | 37 => ⟨S1700000x64, .f32⟩
  | 38 => ⟨S_, .i32⟩
  | 39 => ⟨S1700000, .i32⟩
  | 40 => ⟨S1700000, .i1⟩
  | 41 => ⟨S_, .i32⟩
  | 42 => ⟨S1700000, .i32⟩
  | 43 => ⟨S1700000, .i32⟩
  | 44 => ⟨S1700000, .i32⟩
  | 45 => ⟨S1700000x1, .i32⟩
  | 46 => ⟨S1700000x64, .f32⟩
  | 47 => ⟨S1700000x64, .f32⟩
  | 48 => ⟨S_, .f32⟩
  | 49 => ⟨S1700000, .f32⟩
  | 50 => ⟨S1700000x1, .f32⟩
  | 51 => ⟨S_, .i32⟩
  | 52 => ⟨S1700000, .i32⟩
  | 53 => ⟨S1700000, .i1⟩
  | 54 => ⟨S_, .i32⟩
  | 55 => ⟨S1700000, .i32⟩
  | 56 => ⟨S1700000, .i32⟩
  | 57 => ⟨S1700000, .i32⟩
  | 58 => ⟨S1700000x1, .i32⟩
  | 59 => ⟨S1700000x64, .f32⟩
  | 60 => ⟨S1700000x64, .f32⟩
  | 61 => ⟨S1700000x64, .f32⟩
  | 62 => ⟨S_, .f32⟩
  | 63 => ⟨S100000x64, .f32⟩
  | 64 => ⟨S1700000x1, .i32⟩
  | 65 => ⟨S100000x64, .f32⟩
  | 66 => ⟨S_, .f32⟩
  | 67 => ⟨S1700000, .f32⟩
  | 68 => ⟨S_, .f32⟩
  | 69 => ⟨S100000, .f32⟩
  | 70 => ⟨S1700000x1, .i32⟩
  | 71 => ⟨S100000, .f32⟩
  | 72 => ⟨S_, .f32⟩
  | 73 => ⟨S100000, .f32⟩
  | 74 => ⟨S100000, .f32⟩
  | 75 => ⟨S100000x1, .f32⟩
  | 76 => ⟨S100000x64, .f32⟩
  | 77 => ⟨S100000x64, .f32⟩
  | 78 => ⟨S1x64, .f32⟩
  | 79 => ⟨S100000x64, .f32⟩
  | 80 => ⟨S100000x64, .f32⟩
  | 81 => ⟨S_, .f32⟩
  | 82 => ⟨S100000x64, .f32⟩
  | 83 => ⟨S100000x64, .f32⟩
  | 84 => ⟨S100000x40, .f32⟩
  | 85 => ⟨S1x40, .f32⟩
  | 86 => ⟨S100000x40, .f32⟩
  | 87 => ⟨S100000x40, .f32⟩
  | 88 => ⟨S100000x40, .f32⟩
  | 89 => ⟨S_, .f32⟩
  | 90 => ⟨S100000, .f32⟩
  | 91 => ⟨S100000x1, .f32⟩
  | 92 => ⟨S100000x1, .f32⟩
  | 93 => ⟨S_, .f32⟩
  | 94 => ⟨S100000x1, .f32⟩
  | 95 => ⟨S100000x1, .f32⟩
  | 96 => ⟨S100000x40, .f32⟩
  | 97 => ⟨S100000x40, .f32⟩
  | 98 => ⟨S_, .i32⟩
  | 99 => ⟨S1700000, .i32⟩
  | 100 => ⟨S1700000, .i1⟩
  | 101 => ⟨S_, .i32⟩
  | 102 => ⟨S1700000, .i32⟩
  | 103 => ⟨S1700000, .i32⟩
  | 104 => ⟨S1700000, .i32⟩
  | 105 => ⟨S1700000x1, .i32⟩
  | 106 => ⟨S1700000x40, .f32⟩
  | 107 => ⟨S_, .i32⟩
  | 108 => ⟨S1700000, .i32⟩
  | 109 => ⟨S1700000, .i1⟩
  | 110 => ⟨S_, .i32⟩
  | 111 => ⟨S1700000, .i32⟩
  | 112 => ⟨S1700000, .i32⟩
  | 113 => ⟨S1700000, .i32⟩
  | 114 => ⟨S1700000x1, .i32⟩
  | 115 => ⟨S1700000x40, .f32⟩
  | 116 => ⟨S1700000x40, .f32⟩
  | 117 => ⟨S_, .f32⟩
  | 118 => ⟨S1700000, .f32⟩
  | 119 => ⟨S1700000x1, .f32⟩
  | 120 => ⟨S_, .i32⟩
  | 121 => ⟨S1700000, .i32⟩
  | 122 => ⟨S1700000, .i1⟩
  | 123 => ⟨S_, .i32⟩
  | 124 => ⟨S1700000, .i32⟩
  | 125 => ⟨S1700000, .i32⟩
  | 126 => ⟨S1700000, .i32⟩
  | 127 => ⟨S1700000x1, .i32⟩
  | _ => ⟨S100000x128, .f32⟩

abbrev hbmTy0_1 (i : Nat) : BufTy := match i % 128 with
  | 0 => ⟨S1700000x40, .f32⟩
  | 1 => ⟨S1700000x40, .f32⟩
  | 2 => ⟨S1700000x40, .f32⟩
  | 3 => ⟨S_, .f32⟩
  | 4 => ⟨S100000x40, .f32⟩
  | 5 => ⟨S1700000x1, .i32⟩
  | 6 => ⟨S100000x40, .f32⟩
  | 7 => ⟨S_, .f32⟩
  | 8 => ⟨S1700000, .f32⟩
  | 9 => ⟨S_, .f32⟩
  | 10 => ⟨S100000, .f32⟩
  | 11 => ⟨S1700000x1, .i32⟩
  | 12 => ⟨S100000, .f32⟩
  | 13 => ⟨S_, .f32⟩
  | 14 => ⟨S100000, .f32⟩
  | 15 => ⟨S100000, .f32⟩
  | 16 => ⟨S100000x1, .f32⟩
  | 17 => ⟨S100000x40, .f32⟩
  | 18 => ⟨S100000x40, .f32⟩
  | 19 => ⟨S1x40, .f32⟩
  | 20 => ⟨S100000x40, .f32⟩
  | 21 => ⟨S100000x40, .f32⟩
  | 22 => ⟨S_, .f32⟩
  | 23 => ⟨S100000, .f32⟩
  | 24 => ⟨S_, .f32⟩
  | 25 => ⟨S100000, .f32⟩
  | 26 => ⟨S100000, .f32⟩
  | 27 => ⟨S100000x1, .f32⟩
  | 28 => ⟨S100000x40, .f32⟩
  | 29 => ⟨S100000x40, .f32⟩
  | 30 => ⟨S100000x40, .f32⟩
  | 31 => ⟨S_, .f32⟩
  | 32 => ⟨S100000, .f32⟩
  | 33 => ⟨S100000x1, .f32⟩
  | 34 => ⟨S100000x1, .f32⟩
  | 35 => ⟨S100000x40, .f32⟩
  | 36 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call0_v0 : Ref sig .tc := ⟨.hbm, 19, rfl⟩
abbrev main_call0_cst : Ref sig .tc := ⟨.hbm, 20, rfl⟩
abbrev main_call0_v1 : Ref sig .tc := ⟨.hbm, 21, rfl⟩
abbrev main_call0_v2 : Ref sig .tc := ⟨.hbm, 22, rfl⟩
abbrev main_v11 : Ref sig .tc := ⟨.hbm, 23, rfl⟩
abbrev main_cst : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_0 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_1 : Ref sig .tc := ⟨.hbm, 38, rfl⟩
abbrev main_v23 : Ref sig .tc := ⟨.hbm, 39, rfl⟩
abbrev main_v24 : Ref sig .tc := ⟨.hbm, 40, rfl⟩
abbrev main_c_2 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_3 : Ref sig .tc := ⟨.hbm, 48, rfl⟩
abbrev main_v31 : Ref sig .tc := ⟨.hbm, 49, rfl⟩
abbrev main_v32 : Ref sig .tc := ⟨.hbm, 50, rfl⟩
abbrev main_c_4 : Ref sig .tc := ⟨.hbm, 51, rfl⟩
abbrev main_v33 : Ref sig .tc := ⟨.hbm, 52, rfl⟩
abbrev main_v34 : Ref sig .tc := ⟨.hbm, 53, rfl⟩
abbrev main_c_5 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_6 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_7 : Ref sig .tc := ⟨.hbm, 66, rfl⟩
abbrev main_v45 : Ref sig .tc := ⟨.hbm, 67, rfl⟩
abbrev main_cst_8 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_9 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_call1_cst : Ref sig .tc := ⟨.hbm, 81, rfl⟩
abbrev main_call1_v0 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_call2_v0 : Ref sig .tc := ⟨.hbm, 88, rfl⟩
abbrev main_call2_cst : Ref sig .tc := ⟨.hbm, 89, rfl⟩
abbrev main_call2_v1 : Ref sig .tc := ⟨.hbm, 90, rfl⟩
abbrev main_call2_v2 : Ref sig .tc := ⟨.hbm, 91, rfl⟩
abbrev main_v62 : Ref sig .tc := ⟨.hbm, 92, rfl⟩
abbrev main_cst_10 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_c_11 : Ref sig .tc := ⟨.hbm, 98, rfl⟩
abbrev main_v67 : Ref sig .tc := ⟨.hbm, 99, rfl⟩
abbrev main_v68 : Ref sig .tc := ⟨.hbm, 100, rfl⟩
abbrev main_c_12 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_c_13 : Ref sig .tc := ⟨.hbm, 107, rfl⟩
abbrev main_v74 : Ref sig .tc := ⟨.hbm, 108, rfl⟩
abbrev main_v75 : Ref sig .tc := ⟨.hbm, 109, rfl⟩
abbrev main_c_14 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_cst_15 : Ref sig .tc := ⟨.hbm, 117, rfl⟩
abbrev main_v82 : Ref sig .tc := ⟨.hbm, 118, rfl⟩
abbrev main_v83 : Ref sig .tc := ⟨.hbm, 119, rfl⟩
abbrev main_c_16 : Ref sig .tc := ⟨.hbm, 120, rfl⟩
abbrev main_v84 : Ref sig .tc := ⟨.hbm, 121, rfl⟩
abbrev main_v85 : Ref sig .tc := ⟨.hbm, 122, rfl⟩
abbrev main_c_17 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_cst_18 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_cst_19 : Ref sig .tc := ⟨.hbm, 135, rfl⟩
abbrev main_v96 : Ref sig .tc := ⟨.hbm, 136, rfl⟩
abbrev main_cst_20 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_cst_21 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_call3_cst : Ref sig .tc := ⟨.hbm, 150, rfl⟩
abbrev main_call3_v0 : Ref sig .tc := ⟨.hbm, 151, rfl⟩
abbrev main_call3_cst_0 : Ref sig .tc := ⟨.hbm, 152, rfl⟩
abbrev main_call3_v1 : Ref sig .tc := ⟨.hbm, 153, rfl⟩
abbrev main_call3_v2 : Ref sig .tc := ⟨.hbm, 154, rfl⟩
abbrev main_call3_v3 : Ref sig .tc := ⟨.hbm, 155, rfl⟩
abbrev main_call3_v4 : Ref sig .tc := ⟨.hbm, 156, rfl⟩
abbrev main_call3_v5 : Ref sig .tc := ⟨.hbm, 157, rfl⟩
abbrev main_call3_v6 : Ref sig .tc := ⟨.hbm, 158, rfl⟩
abbrev main_call3_cst_1 : Ref sig .tc := ⟨.hbm, 159, rfl⟩
abbrev main_call3_v7 : Ref sig .tc := ⟨.hbm, 160, rfl⟩
abbrev main_call3_v8 : Ref sig .tc := ⟨.hbm, 161, rfl⟩
abbrev main_call3_v9 : Ref sig .tc := ⟨.hbm, 162, rfl⟩
abbrev main_call3_v10 : Ref sig .tc := ⟨.hbm, 163, rfl⟩
abbrev main_v108 : Ref sig .tc := ⟨.hbm, 164, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  bcast_S_S1700000 : S_.BroadcastsInDim S1700000 (![] : Fin 0 → Fin S1700000.rank)
  bcast_S1700000_S1700000x1_0 : S1700000.BroadcastsInDim S1700000x1 (![0] : Fin 1 → Fin S1700000x1.rank)
  reducesTo_S1700000x64_S1700000_d1 : S1700000x64.ReducesTo [1] S1700000
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S_S100000 : S_.BroadcastsInDim S100000 (![] : Fin 0 → Fin S100000.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  bcast_S100000x1_S100000x40_0_1 : S100000x1.BroadcastsInDim S100000x40 (![0, 1] : Fin 2 → Fin S100000x40.rank)
  reducesTo_S1700000x40_S1700000_d1 : S1700000x40.ReducesTo [1] S1700000
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  scatter_S100000_S1700000x1_S1700000_n_0_0_1_wf : ScatterDims.WF S100000 S1700000x1 S1700000 [] [0] [0] 1
  dot_S100000x64_S64x40_S100000x40_1_0_0_1_n_n_wf : DotDims.WF S100000x64 S64x40 S100000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

class Facts : Prop extends Facts₀ where

variable [Facts]
-- ==== Proof.KRun.lean ====
/-
  The idealized kernel's run with its result named: every weakly fair execution of @main terminates, nothing faulting, the
  arguments unchanged, and the result array holds what the last of the twelve segment boundaries holds for it — the sixth
  pallas region's output array after its twenty write-backs. The boundaries' contents are folded from the launch memory:
  a stretch of host operations applies them in order, a region leaves each of its output arrays at its blocks' write-backs
  and every other buffer as it was.
-/
import proofs.«154407_j62689342652829_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run, with the result array read off the last boundary's contents beside the arguments. -/
theorem run_value : θ_run defs (onTc (τ := τ) (main (F := F))) ⟨m, fun _ => 0, ρ⟩ (fun r => ∀ c : Dev nD,
      r.2.mem ((c.tc : Thread nD τ).loc main_v73) = W12 m ρ c (Proc.devRef .tc main_v73)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v73 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c)⟩)

end Cert.KernelIdeal.KRun

end
-- ==== Proof.LibPlainDot.lean ====
/-
  A plain matrix product's contraction sum, re-indexed by the contracted coordinate.

  For a dot of an [n, K] operand with a [K, M] operand into [n, M] that contracts the left operand's axis 1 with the
  right operand's axis 0 and has no batch axes, the sum over the contraction index of left(row i, k) * right(k, column i)
  is the sum over k : Fin K of L (i 0, k) * R (k, i 1): what both a kernel's matrix unit and a host dot_general
  compute at an output index over the extended reals.
-/
import Idealize.ShloMosaic.PureOps.Ideal.Laws
import Idealize.ShloMosaic.Lib.ValueIdx

namespace Cert.LibPlainDot

open Idealize.ShloMosaic Idealize.ShloMosaic.ValueIdx

variable {n K M : Nat}

/-- The dimension numbers of a plain product: contract axis 1 with axis 0, keep axis 0 and axis 1, no batch axes. -/
structure IsPlain (d : DotDims ⟨2, ![n, K]⟩ ⟨2, ![K, M]⟩ ⟨2, ![n, M]⟩) : Prop where
  lc : d.lhsContracting = [1]
  rc : d.rhsContracting = [0]
  ln : d.lhsNonContracting = [0]
  rn : d.rhsNonContracting = [1]
  lb : d.lhsBatch = []
  rb : d.rhsBatch = []

/-- The contraction sum of a plain product at output index `i` is the sum over the contracted coordinate. -/
theorem sum_contr {α : Type} [AddCommMonoid α] (d : DotDims ⟨2, ![n, K]⟩ ⟨2, ![K, M]⟩ ⟨2, ![n, M]⟩) (hd : IsPlain d)
    (f : (⟨2, ![n, K]⟩ : Shape).Idx → (⟨2, ![K, M]⟩ : Shape).Idx → α) (i : (⟨2, ![n, M]⟩ : Shape).Idx) :
    ∑ q : d.contr.Idx, f (d.lhsIdx i q) (d.rhsIdx i q) = ∑ k : Fin K, f (ix2 (i 0) k) (ix2 k (i 1)) := by
  obtain ⟨lc, rc, ln, rn, lb, rb, wf⟩ := d
  obtain ⟨h1, h2, h3, h4, h5, h6⟩ := hd
  simp only at h1 h2 h3 h4 h5 h6
  subst h1 h2 h3 h4 h5 h6
  let d : DotDims ⟨2, ![n, K]⟩ ⟨2, ![K, M]⟩ ⟨2, ![n, M]⟩ := ⟨[1], [0], [0], [1], [], [], wf⟩
  show ∑ q : d.contr.Idx, f (d.lhsIdx i q) (d.rhsIdx i q) = _
  rw [← Equiv.sum_comp (contrEquiv1 d K rfl rfl).symm]
  refine Finset.sum_congr rfl fun k _ => ?_
  have hk := contrEquiv1_symm_val d K rfl rfl k
  have el : d.lhsIdx i ((contrEquiv1 d K rfl rfl).symm k) = ix2 (i 0) k := funext fun a => Fin.ext (by
    match a with
    | ⟨0, _⟩ =>
      show (d.lhsIdx i _ 0).val = (i 0).val
      unfold DotDims.lhsIdx
      rw [dif_neg (show ¬(0 : Fin (⟨2, ![n, K]⟩ : Shape).rank) ∈ d.lhsBatch from List.not_mem_nil),
        dif_pos (show (0 : Fin (⟨2, ![n, K]⟩ : Shape).rank) ∈ d.lhsNonContracting from List.mem_singleton.mpr rfl)]
      rfl
    | ⟨1, _⟩ => exact (d.lhsIdx_val_of_single rfl i _).trans hk)
  have er : d.rhsIdx i ((contrEquiv1 d K rfl rfl).symm k) = ix2 k (i 1) := funext fun a => Fin.ext (by
    match a with
    | ⟨0, _⟩ => exact (d.rhsIdx_val_of_single rfl i _).trans hk
    | ⟨1, _⟩ =>
      show (d.rhsIdx i _ 1).val = (i 1).val
      unfold DotDims.rhsIdx
      rw [dif_neg (show ¬(1 : Fin (⟨2, ![K, M]⟩ : Shape).rank) ∈ d.rhsBatch from List.not_mem_nil),
        dif_pos (show (1 : Fin (⟨2, ![K, M]⟩ : Shape).rank) ∈ d.rhsNonContracting from List.mem_singleton.mpr rfl)]
      rfl)
  rw [el, er]
  try rfl

end Cert.LibPlainDot
-- ==== Proof.LibDotApply.lean ====
/-
  A plain matrix product read at an entry, over the extended reals.

  For an [n, K] operand and a [K, M] operand contracted over K with no batch axes, the kernel's matrix-unit product
  into a zero accumulator and the host's dot_general both read, at entry (p, c), the sum over k : Fin K of
  L (p, k) * R (k, c): there is no rounding and no order of accumulation left in either.
-/
import proofs.«154407_j62689342652829_2_alg».proof.Proof.LibPlainDot
import Idealize.ShloMosaic.PureOps.Ideal.Laws
import Idealize.ShloMosaic.Lib.ValueIdx

noncomputable section

namespace Cert.LibDotApply

open Idealize.ShloMosaic Idealize.ShloMosaic.ValueIdx Cert.LibPlainDot

variable {n K M : Nat} {φ₁ φ₂ : FTy}

/-- A kernel's matrix-unit product of plain dimension numbers into a zero accumulator, at entry (p, c). -/
theorem matmul_zero_apply (d : DotDims ⟨2, ![n, K]⟩ ⟨2, ![K, M]⟩ ⟨2, ![n, M]⟩) (hd : IsPlain d) (prec : Option ContractPrecision)
    (lhs : FVec Ideal ⟨2, ![n, K]⟩ φ₁) (rhs : FVec Ideal ⟨2, ![K, M]⟩ φ₂) (p : Fin n) (c : Fin M) :
    FloatOps.matmul d prec lhs rhs (constant ⟨2, ![n, M]⟩ .f32 0x00000000#32) (ix2 p c)
      = ∑ k : Fin K, lhs (ix2 p k) * rhs (ix2 k c) :=
  (Ideal.matmul_constant_zero_apply d prec lhs rhs (ix2 p c)).trans
    (sum_contr d hd (fun a b => lhs a * rhs b) (ix2 p c))

/-- The host's dot_general of plain dimension numbers, at entry (p, c). -/
theorem dotGeneral_apply (d : DotDims ⟨2, ![n, K]⟩ ⟨2, ![K, M]⟩ ⟨2, ![n, M]⟩) (hd : IsPlain d) (prec : Option ContractPrecision)
    (sched : HostSchedule) (lhs : FVec Ideal ⟨2, ![n, K]⟩ φ₁) (rhs : FVec Ideal ⟨2, ![K, M]⟩ φ₂) (p : Fin n) (c : Fin M) :
    FloatOps.dotGeneral d prec sched lhs rhs (ix2 p c) = ∑ k : Fin K, lhs (ix2 p k) * rhs (ix2 k c) :=
  (Ideal.dotGeneral_apply d prec sched lhs rhs (ix2 p c)).trans
    (sum_contr d hd (fun a b => lhs a * rhs b) (ix2 p c))

end Cert.LibDotApply

end
-- ==== Proof.LibDenseLayer.lean ====
/-
  A dense layer of a multilayer perceptron, read one row at a time over the extended reals.

  A row h of K activations, a K-by-M weight matrix W and M biases b give the affine row
  c ↦ (∑ k, h k * W k c) + b c; a hidden layer clamps each entry below at zero. A kernel's spelling of the layer
  (matrix-unit product into a zero accumulator, the bias a [1, M] row broadcast down the rows, the clamp against a
  splat zero, narrowing casts that are the identity over the extended reals) and the host's spelling (dot_general,
  the bias an [M] vector broadcast in two steps, the clamp against a broadcast scalar zero) both read, at row p, as
  these functions of row p of the layer's input. Nothing here needs finiteness: both spellings add and multiply
  the same extended reals in the same order.
-/
import proofs.«154407_j62689342652829_2_alg».proof.Proof.LibDotApply
import Idealize.ShloMosaic.PureOps.Ideal.Laws
import Idealize.ShloMosaic.Lib.ValueIdx
import Idealize.ShloMosaic.Lib.Pipeline.Value

noncomputable section

namespace Cert.LibDenseLayer

open Idealize.ShloMosaic Idealize.ShloMosaic.ValueIdx Cert.LibPlainDot Cert.LibDotApply

variable {n K M : Nat}

/-! ## The layer as functions of one row -/

/-- The affine map of a row: entry c is the dot product of the row with column c of W, plus bias c. -/
def affine (h : Fin K → EReal) (W : Fin K → Fin M → EReal) (b : Fin M → EReal) : Fin M → EReal :=
  fun c => (∑ k : Fin K, h k * W k c) + b c

/-- The rectifier: each entry clamped below at the float zero (the word 0x00000000, which denotes 0). -/
def relu (v : Fin M → EReal) : Fin M → EReal := fun c => max (v c) (Ideal.ofBits .f32 0x00000000#32)

/-- Row p of a matrix of extended reals. -/
def row (v : (⟨2, ![n, K]⟩ : Shape).Idx → EReal) (p : Fin n) : Fin K → EReal := fun k => v (ix2 p k)

/-- A matrix of extended reals as a function of its two coordinates. -/
def mat (W : (⟨2, ![K, M]⟩ : Shape).Idx → EReal) : Fin K → Fin M → EReal := fun k c => W (ix2 k c)

/-- A vector of extended reals as a function of its coordinate. -/
def vec (b : (⟨1, ![M]⟩ : Shape).Idx → EReal) : Fin M → EReal := fun c => b (ix1 c)

/-- A coordinate below M is 0 when M = 1: the index a broadcast reads on an axis of extent M. -/
theorem val_eq_ite (c : Fin M) : c.val = if M = 1 then 0 else c.val := by
  have := c.isLt
  split
  · omega
  · rfl

/-- An [M] vector reshaped to a [1, M] matrix has the vector as its row 0: entry (0, c) and entry c sit at the
    same row-major position. -/
theorem row_shapeCast_vec (b : (⟨1, ![M]⟩ : Shape).Idx → EReal) (h : (⟨1, ![M]⟩ : Shape).ShapeCasts ⟨2, ![1, M]⟩) :
    row (shapeCast ⟨2, ![1, M]⟩ b h) 0 = vec b := by
  funext c
  exact shapeCast_apply b h (ix2 0 c) (ix1 c) (by
    rw [Shape.rowMajor_val_one, Shape.rowMajor_val_two]
    show c.val = 0 * M + c.val
    omega)

/-! ## The kernel's spelling -/

/-- The kernel's affine stage: the matrix-unit product of the activations with the weights narrowed to bf16, into a
    zero accumulator, plus the [1, M] bias row broadcast down the n rows. -/
def kAffine (d : DotDims ⟨2, ![n, K]⟩ ⟨2, ![K, M]⟩ ⟨2, ![n, M]⟩) (h : FVec Ideal ⟨2, ![n, K]⟩ .bf16)
    (W : FVec Ideal ⟨2, ![K, M]⟩ .f32) (b : FVec Ideal ⟨2, ![1, M]⟩ .f32)
    (hlt : FTy.bits .bf16 < FTy.bits .f32) (hsc : (⟨2, ![1, M]⟩ : Shape).ShapeCasts ⟨2, ![1, M]⟩)
    (hbc : (⟨2, ![1, M]⟩ : Shape).Broadcasts ⟨2, ![n, M]⟩) : FVec Ideal ⟨2, ![n, M]⟩ .f32 :=
  addf (matmul d none h (truncf .bf16 W hlt) (constant ⟨2, ![n, M]⟩ .f32 0x00000000#32))
    (broadcastTo ⟨2, ![n, M]⟩ (shapeCast ⟨2, ![1, M]⟩ b hsc) hbc)

/-- The kernel's hidden layer: the affine stage clamped against a splat zero, then narrowed to bf16. -/
def kHidden (d : DotDims ⟨2, ![n, K]⟩ ⟨2, ![K, M]⟩ ⟨2, ![n, M]⟩) (h : FVec Ideal ⟨2, ![n, K]⟩ .bf16)
    (W : FVec Ideal ⟨2, ![K, M]⟩ .f32) (b : FVec Ideal ⟨2, ![1, M]⟩ .f32)
    (hlt : FTy.bits .bf16 < FTy.bits .f32) (hsc : (⟨2, ![1, M]⟩ : Shape).ShapeCasts ⟨2, ![1, M]⟩)
    (hbc : (⟨2, ![1, M]⟩ : Shape).Broadcasts ⟨2, ![n, M]⟩) : FVec Ideal ⟨2, ![n, M]⟩ .bf16 :=
  truncf .bf16 (maximumf (kAffine d h W b hlt hsc hbc) (broadcast ⟨2, ![n, M]⟩ (Scalar.ofBits .f32 0x00000000#32))) hlt

/-- Row p of the kernel's affine stage is the affine map of row p of the activations; the bias is row 0 of the
    [1, M] block. -/
theorem row_kAffine (d : DotDims ⟨2, ![n, K]⟩ ⟨2, ![K, M]⟩ ⟨2, ![n, M]⟩) (hd : IsPlain d)
    (h : FVec Ideal ⟨2, ![n, K]⟩ .bf16) (W : FVec Ideal ⟨2, ![K, M]⟩ .f32) (b : FVec Ideal ⟨2, ![1, M]⟩ .f32)
    (hlt : FTy.bits .bf16 < FTy.bits .f32) (hsc : (⟨2, ![1, M]⟩ : Shape).ShapeCasts ⟨2, ![1, M]⟩)
    (hbc : (⟨2, ![1, M]⟩ : Shape).Broadcasts ⟨2, ![n, M]⟩) (p : Fin n) :
    row (kAffine d h W b hlt hsc hbc) p = affine (row h p) (mat W) (row b 0) := by
  funext c
  have hm : FloatOps.matmul d none h (truncf .bf16 W hlt) (constant ⟨2, ![n, M]⟩ .f32 0x00000000#32) (ix2 p c)
      = ∑ k : Fin K, h (ix2 p k) * W (ix2 k c) := matmul_zero_apply d hd none h (truncf .bf16 W hlt) p c
  have hb : broadcastTo ⟨2, ![n, M]⟩ (shapeCast ⟨2, ![1, M]⟩ b hsc) hbc (ix2 p c) = b (ix2 0 c) := by
    rw [shapeCast_self]
    exact broadcastTo_apply b hbc (ix2 p c) (ix2 0 c) (fun a => match a with
      | ⟨0, _⟩ => by show (0 : Nat) = if (1 : Nat) = 1 then 0 else _; rw [if_pos rfl]
      | ⟨1, _⟩ => by show c.val = if M = 1 then 0 else c.val; exact val_eq_ite c)
  show FloatOps.matmul d none h (truncf .bf16 W hlt) (constant ⟨2, ![n, M]⟩ .f32 0x00000000#32) (ix2 p c)
      + broadcastTo ⟨2, ![n, M]⟩ (shapeCast ⟨2, ![1, M]⟩ b hsc) hbc (ix2 p c) = _
  rw [hm, hb]
  rfl

/-- Row p of the kernel's hidden layer is the rectified affine map of row p of the activations. -/
theorem row_kHidden (d : DotDims ⟨2, ![n, K]⟩ ⟨2, ![K, M]⟩ ⟨2, ![n, M]⟩) (hd : IsPlain d)
    (h : FVec Ideal ⟨2, ![n, K]⟩ .bf16) (W : FVec Ideal ⟨2, ![K, M]⟩ .f32) (b : FVec Ideal ⟨2, ![1, M]⟩ .f32)
    (hlt : FTy.bits .bf16 < FTy.bits .f32) (hsc : (⟨2, ![1, M]⟩ : Shape).ShapeCasts ⟨2, ![1, M]⟩)
    (hbc : (⟨2, ![1, M]⟩ : Shape).Broadcasts ⟨2, ![n, M]⟩) (p : Fin n) :
    row (kHidden d h W b hlt hsc hbc) p = relu (affine (row h p) (mat W) (row b 0)) := by
  funext c
  show max (row (kAffine d h W b hlt hsc hbc) p c) (Ideal.ofBits .f32 0x00000000#32) = _
  rw [row_kAffine d hd h W b hlt hsc hbc p]
  rfl

/-! ## The host's spelling -/

/-- The host's affine stage: dot_general of the activations with the weights, plus the [M] bias broadcast first to
    a [1, M] row and then down the n rows. -/
def hAffine (d : DotDims ⟨2, ![n, K]⟩ ⟨2, ![K, M]⟩ ⟨2, ![n, M]⟩) (h : FVec Ideal ⟨2, ![n, K]⟩ .f32)
    (W : FVec Ideal ⟨2, ![K, M]⟩ .f32) (b : FVec Ideal ⟨1, ![M]⟩ .f32)
    (h1 : (⟨1, ![M]⟩ : Shape).BroadcastsInDim ⟨2, ![1, M]⟩ ![1])
    (h2 : (⟨2, ![1, M]⟩ : Shape).BroadcastsInDim ⟨2, ![n, M]⟩ ![0, 1]) : FVec Ideal ⟨2, ![n, M]⟩ .f32 :=
  addf (Host.dotGeneral d none h W)
    (broadcastInDim ⟨2, ![n, M]⟩ ![0, 1] h2 (broadcastInDim ⟨2, ![1, M]⟩ ![1] h1 b))

/-- The host's hidden layer: the affine stage clamped against a scalar zero broadcast to every entry. -/
def hHidden (d : DotDims ⟨2, ![n, K]⟩ ⟨2, ![K, M]⟩ ⟨2, ![n, M]⟩) (h : FVec Ideal ⟨2, ![n, K]⟩ .f32)
    (W : FVec Ideal ⟨2, ![K, M]⟩ .f32) (b : FVec Ideal ⟨1, ![M]⟩ .f32)
    (h1 : (⟨1, ![M]⟩ : Shape).BroadcastsInDim ⟨2, ![1, M]⟩ ![1])
    (h2 : (⟨2, ![1, M]⟩ : Shape).BroadcastsInDim ⟨2, ![n, M]⟩ ![0, 1])
    (h0 : (⟨0, ![]⟩ : Shape).BroadcastsInDim ⟨2, ![n, M]⟩ ![]) : FVec Ideal ⟨2, ![n, M]⟩ .f32 :=
  maximumf (hAffine d h W b h1 h2) (broadcastInDim ⟨2, ![n, M]⟩ ![] h0 (constant ⟨0, ![]⟩ .f32 0x00000000#32))

/-- Row p of the host's affine stage is the affine map of row p of the activations. -/
theorem row_hAffine (d : DotDims ⟨2, ![n, K]⟩ ⟨2, ![K, M]⟩ ⟨2, ![n, M]⟩) (hd : IsPlain d)
    (h : FVec Ideal ⟨2, ![n, K]⟩ .f32) (W : FVec Ideal ⟨2, ![K, M]⟩ .f32) (b : FVec Ideal ⟨1, ![M]⟩ .f32)
    (h1 : (⟨1, ![M]⟩ : Shape).BroadcastsInDim ⟨2, ![1, M]⟩ ![1])
    (h2 : (⟨2, ![1, M]⟩ : Shape).BroadcastsInDim ⟨2, ![n, M]⟩ ![0, 1]) (p : Fin n) :
    row (hAffine d h W b h1 h2) p = affine (row h p) (mat W) (vec b) := by
  funext c
  have hm : FloatOps.dotGeneral d none .single h W (ix2 p c) = ∑ k : Fin K, h (ix2 p k) * W (ix2 k c) :=
    dotGeneral_apply d hd none .single h W p c
  have hb : broadcastInDim ⟨2, ![n, M]⟩ ![0, 1] h2 (broadcastInDim ⟨2, ![1, M]⟩ ![1] h1 b) (ix2 p c) = b (ix1 c) :=
    (broadcastInDim_apply _ h2 (broadcastInDim ⟨2, ![1, M]⟩ ![1] h1 b) (ix2 p c) (ix2 0 c) (fun a => match a with
      | ⟨0, _⟩ => by show (0 : Nat) = if (1 : Nat) = 1 then 0 else _; rw [if_pos rfl]
      | ⟨1, _⟩ => by show c.val = if M = 1 then 0 else c.val; exact val_eq_ite c)).trans
    (broadcastInDim_apply _ h1 b (ix2 0 c) (ix1 c) (fun a => match a with
      | ⟨0, _⟩ => by show c.val = if M = 1 then 0 else c.val; exact val_eq_ite c))
  show FloatOps.dotGeneral d none .single h W (ix2 p c)
      + broadcastInDim ⟨2, ![n, M]⟩ ![0, 1] h2 (broadcastInDim ⟨2, ![1, M]⟩ ![1] h1 b) (ix2 p c) = _
  rw [hm, hb]
  rfl

/-- Row p of the host's hidden layer is the rectified affine map of row p of the activations. -/
theorem row_hHidden (d : DotDims ⟨2, ![n, K]⟩ ⟨2, ![K, M]⟩ ⟨2, ![n, M]⟩) (hd : IsPlain d)
    (h : FVec Ideal ⟨2, ![n, K]⟩ .f32) (W : FVec Ideal ⟨2, ![K, M]⟩ .f32) (b : FVec Ideal ⟨1, ![M]⟩ .f32)
    (h1 : (⟨1, ![M]⟩ : Shape).BroadcastsInDim ⟨2, ![1, M]⟩ ![1])
    (h2 : (⟨2, ![1, M]⟩ : Shape).BroadcastsInDim ⟨2, ![n, M]⟩ ![0, 1])
    (h0 : (⟨0, ![]⟩ : Shape).BroadcastsInDim ⟨2, ![n, M]⟩ ![]) (p : Fin n) :
    row (hHidden d h W b h1 h2 h0) p = relu (affine (row h p) (mat W) (vec b)) := by
  funext c
  show max (row (hAffine d h W b h1 h2) p c) (Ideal.ofBits .f32 0x00000000#32) = _
  rw [row_hAffine d hd h W b h1 h2 p]
  rfl

end Cert.LibDenseLayer

end
-- ==== Proof.LibSageRow.lean ====
/-
  One output row of a normalised two-operand linear layer, over the extended reals.

  A graph-convolution layer sends a node's aggregated neighbour features `a` and its own features `h` to
  `a · Wl + b + h · Wr`, then divides the row by its Euclidean length, the length clamped below by a small
  positive `eps`. Over the extended reals addition is commutative and associative with no side condition, so the
  three summands may be added in any order; and dividing by a nonzero `n` is multiplying by `1 / n`, at the
  infinities too, because the quotient is by definition the product with the inverse whenever the divisor is not zero.
-/
import Idealize.ShloMosaic.PureOps.Ideal
import Idealize.ShloMosaic.PureOps.Ideal.Laws
import Idealize.ShloMosaic.Lib.IdealHost

noncomputable section

namespace Cert.LibSageRow

open Idealize.ShloMosaic

variable {K M : Nat}

/-- Entry `c` of the row before normalisation: the aggregated features through the left weights, plus the bias,
    plus the node's own features through the right weights. -/
def affine (a h : Fin K → EReal) (wl wr : Fin K → Fin M → EReal) (b : Fin M → EReal) (c : Fin M) : EReal :=
  (∑ k, a k * wl k c + b c) + ∑ k, h k * wr k c

/-- Entry `c` of the row `z` divided by its Euclidean length, the length clamped below by `eps`. -/
def unit (z : Fin M → EReal) (eps : EReal) (c : Fin M) : EReal :=
  Ideal.div (z c) (max (Ideal.sqrt (∑ c', z c' * z c')) eps)

/-- Adding the bias last, after both products, gives the same entry. -/
theorem affine_bias_last (a h : Fin K → EReal) (wl wr : Fin K → Fin M → EReal) (b : Fin M → EReal) (c : Fin M) :
    (∑ k, a k * wl k c + ∑ k, h k * wr k c) + b c = affine a h wl wr b c := by
  unfold affine; exact add_right_comm _ _ _

/-- Multiplying by the reciprocal of a nonzero number is dividing by it, for every extended real `s`. -/
theorem mul_one_div {s n : EReal} (hn : n ≠ 0) : s * Ideal.div 1 n = Ideal.div s n := by
  unfold Ideal.div; rw [if_neg hn, if_neg hn, one_mul]

/-- A count clamped below by one is never zero. -/
theorem max_one_ne_zero (c : EReal) : max c 1 ≠ 0 :=
  ne_of_gt (lt_of_lt_of_le zero_lt_one (le_max_right c 1))

end Cert.LibSageRow

end
-- ==== Proof.LibKeepdims.lean ====
/-
  Row-wise reductions with kept dimensions, read at an entry.

  For an [a, b] matrix: a sum or a maximum along axis 1 at row p is the sum, or the fold of `max` from the initial
  value, over the b entries of row p — for a lane reduction inside a kernel body and for a host reduction alike; the
  reduced [a] vector cast to an [a, 1] column reads at (p, 0) the vector at p; and an [a, 1] column broadcast to [a, b]
  reads at (p, c) the column at (p, 0). Together these read `reduce(keepdims=True)` followed by a broadcast back.
-/
import Idealize.ShloMosaic.PureOps.Ideal.Laws
import Idealize.ShloMosaic.Lib.Pipeline.Value
import Idealize.ShloMosaic.Lib.ValueIdx

noncomputable section

namespace Cert.LibKeepdims

open Idealize.ShloMosaic Idealize.ShloMosaic.ValueIdx

variable {α : Type}

/-- An [a] vector cast to an [a, 1] column reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An [a, 1] column broadcast to [a, b] reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- The reduced index p of a reduction along axis 1 with coordinate k put back is (p, k). -/
theorem lift_row {a b : ℕ} (h : (⟨2, ![a, b]⟩ : Shape).Reduces [1] ⟨1, ![a]⟩) (p : Fin a)
    (k : Fin ((⟨2, ![a, b]⟩ : Shape).size 1)) : h.lift (ix1 p) k = ix2 p (⟨k.val, k.isLt⟩ : Fin b) := by
  funext c; apply Fin.ext
  match c with
  | ⟨0, _⟩ => rfl
  | ⟨1, _⟩ => rfl

/-- A lane sum along axis 1, at row p: the sum of the row. -/
theorem multiReduction_add_row {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- A lane maximum along axis 1, at row p: the fold of `max` from the accumulator's value over the row. -/
theorem multiReduction_max_row {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (fun f => Finset.fold max (Ideal.ofBits φ acc) f (Finset.univ : Finset (Fin b)))
      (funext fun k => congrArg src (lift_row h p k)))

/-- The host's sum along axis 1, at row p: the initial value plus the sum of the row. -/
theorem hostReduceAdd_row {a b : ℕ} (h' : (⟨2, ![a, b]⟩ : Shape).ReducesTo [1] ⟨1, ![a]⟩)
    (h : (⟨2, ![a, b]⟩ : Shape).Reduces [1] ⟨1, ![a]⟩) (x : (⟨2, ![a, b]⟩ : Shape).Idx → EReal) (init : EReal) (p : Fin a) :
    Ideal.hostReduceAdd h' x init (ix1 p) = init + ∑ k : Fin b, x (ix2 p k) :=
  (Ideal.hostReduceAdd_single h' h x init (ix1 p)).trans
    (congrArg (init + ·) (Finset.sum_congr rfl fun k _ => congrArg x (lift_row h p k)))

/-- The host's maximum along axis 1, at row p: the fold of `max` from the initial value over the row. -/
theorem hostReduce_max_row {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := φ)) x init h' hu (ix1 p)
      = (Finset.univ : Finset (Fin b)).fold max (init (Shape.Idx.first hu)) (fun k => x (ix2 p k)) :=
  (Host.reduce_eq_fold_single (FloatOps.maximumf (F := Ideal) (φ := φ)) x init h' h hu (ix1 p)).trans
    (congrArg (fun f => Finset.fold max (init (Shape.Idx.first hu)) f (Finset.univ : Finset (Fin b)))
      (funext fun k => congrArg x (lift_row h p k)))

end Cert.LibKeepdims

end
-- ==== Proof.LibLsmRow.lean ====
/-
  Log-softmax along the rows of a matrix, read at an entry, over the extended reals.

  For a row v the log-softmax at column c is (v c - M) - log (sum over q of exp (v q - M)), M the largest entry of the
  row folded from negative infinity. A kernel body spells it on an [a, b] block with lane reductions that keep the
  reduced axis as a unit axis and broadcast it back: the maximum along axis 1, the block less it, the exponential,
  the sum along axis 1, its logarithm, and the shifted block less that. Read at (r, c) this is the log-softmax of row r.
-/
import proofs.«154407_j62689342652829_2_alg».proof.Proof.LibKeepdims
import Idealize.ShloMosaic.PureOps.Ideal.Laws
import Idealize.ShloMosaic.Lib.Pipeline.Value
import Idealize.ShloMosaic.Lib.ValueIdx

noncomputable section

namespace Cert.LibLsmRow

open Idealize.ShloMosaic Idealize.ShloMosaic.ValueIdx

/-- The largest entry of a row, folded from negative infinity. -/
def rowMax {b : ℕ} (v : Fin b → EReal) : EReal :=
  (Finset.univ : Finset (Fin b)).fold max (Ideal.ofBits .f32 0xFF800000#32) v

/-- Log-softmax of a row at a column: the entry less the row's maximum, less the logarithm of the sum of the
    exponentials of the row's entries less the maximum. -/
def lsmRow {b : ℕ} (v : Fin b → EReal) (c : Fin b) : EReal :=
  (v c - rowMax v) - Ideal.log (∑ q : Fin b, Ideal.exp (v q - rowMax v))

/-- Negative infinity is below the fold that starts from it, so taking the maximum with it again changes nothing. -/
theorem max_negInf_rowMax {b : ℕ} (v : Fin b → EReal) : max (Ideal.ofBits .f32 0xFF800000#32) (rowMax v) = rowMax v :=
  max_eq_right (by unfold rowMax; exact (Finset.le_fold_max _).mpr (Or.inl le_rfl))

variable {a b : ℕ}

/-- The row maximum kept as a column and broadcast back, at (r, c): the maximum of row r. -/
theorem keptMax_apply (x : FVec Ideal ⟨2, ![a, b]⟩ .f32) (hr : (⟨2, ![a, b]⟩ : Shape).Reduces [1] ⟨1, ![a]⟩)
    (hc : (⟨1, ![a]⟩ : Shape).ShapeCasts ⟨2, ![a, 1]⟩) (hb : (⟨2, ![a, 1]⟩ : Shape).Broadcasts ⟨2, ![a, b]⟩)
    (hφ : FKind.Formats .f32) (hacc : (0xFF800000#32 : BitVec FTy.f32.bits) = FKind.maximumf.neutral .f32 hφ) (r : Fin a) (c : Fin b) :
    broadcastTo ⟨2, ![a, b]⟩ (shapeCast ⟨2, ![a, 1]⟩ (multiReduction .maximumf [1] ⟨1, ![a]⟩ x 0xFF800000#32 hr hφ hacc) hc) hb (ix2 r c)
      = rowMax (fun q => x (ix2 r q)) := by
  rw [Cert.LibKeepdims.broadcastTo_a1_ab_apply, Cert.LibKeepdims.shapeCast_a_a1_apply,
    Cert.LibKeepdims.multiReduction_max_row]
  rfl

/-- A kernel body's log-softmax of an [a, b] block along axis 1, at (r, c): the log-softmax of row r at column c. -/
theorem kernel_apply (x : FVec Ideal ⟨2, ![a, b]⟩ .f32) (hr : (⟨2, ![a, b]⟩ : Shape).Reduces [1] ⟨1, ![a]⟩)
    (hc : (⟨1, ![a]⟩ : Shape).ShapeCasts ⟨2, ![a, 1]⟩) (hb : (⟨2, ![a, 1]⟩ : Shape).Broadcasts ⟨2, ![a, b]⟩)
    (hφ : FKind.Formats .f32) (hmax : (0xFF800000#32 : BitVec FTy.f32.bits) = FKind.maximumf.neutral .f32 hφ)
    (hadd : (0x00000000#32 : BitVec FTy.f32.bits) = FKind.add.neutral .f32 hφ) (r : Fin a) (c : Fin b) :
    subf
      (subf x (broadcastTo ⟨2, ![a, b]⟩ (shapeCast ⟨2, ![a, 1]⟩ (multiReduction .maximumf [1] ⟨1, ![a]⟩ x 0xFF800000#32 hr hφ hmax) hc) hb))
      (broadcastTo ⟨2, ![a, b]⟩
        (log (shapeCast ⟨2, ![a, 1]⟩
          (multiReduction .add [1] ⟨1, ![a]⟩
            (exp (subf x (broadcastTo ⟨2, ![a, b]⟩ (shapeCast ⟨2, ![a, 1]⟩ (multiReduction .maximumf [1] ⟨1, ![a]⟩ x 0xFF800000#32 hr hφ hmax) hc) hb)))
            0x00000000#32 hr hφ hadd) hc)) hb)
      (ix2 r c)
    = lsmRow (fun q => x (ix2 r q)) c := by
  rw [subf_apply, subf_apply, keptMax_apply, Cert.LibKeepdims.broadcastTo_a1_ab_apply]
  show (x (ix2 r c) - rowMax fun q => x (ix2 r q)) - Ideal.log (shapeCast ⟨2, ![a, 1]⟩ _ hc (ix2 r (0 : Fin 1))) = _
  rw [Cert.LibKeepdims.shapeCast_a_a1_apply, Cert.LibKeepdims.multiReduction_add_row]
  unfold lsmRow
  refine congrArg (fun s => (x (ix2 r c) - rowMax fun q => x (ix2 r q)) - Ideal.log s) (Finset.sum_congr rfl fun k _ => ?_)
  show Ideal.exp (subf x _ (ix2 r k)) = _
  rw [subf_apply, keptMax_apply]

end Cert.LibLsmRow

end
-- ==== Proof.GnnSpec.lean ====
/-
  The stages of one gated graph-convolution layer as functions of whole arrays, entry by entry, over the extended reals.

  A node's row x of K features goes through a linear map to the row z = x·W + b of M features; z is divided by its
  Euclidean length clamped below by a small positive eps, and the clamped length is kept beside it. An edge takes the
  normalised rows a, b of its two end points, forms their inner product, and sends the source's row scaled by that
  inner product times a per-edge factor. A node's aggregate is multiplied by a per-node factor and a bias row is
  added; the result is clamped below at zero (first layer) or passed through the log-softmax of its row (second layer).
-/
import proofs.«154407_j62689342652829_2_alg».proof.Proof.LibDenseLayer
import proofs.«154407_j62689342652829_2_alg».proof.Proof.LibSageRow
import proofs.«154407_j62689342652829_2_alg».proof.Proof.LibLsmRow
import Idealize.ShloMosaic.PureOps.Ideal
import Idealize.ShloMosaic.Lib.ValueIdx

noncomputable section

namespace Cert.GnnSpec

open Idealize.ShloMosaic Idealize.ShloMosaic.ValueIdx

/-- The clamp of a row's length: the float word of 9.99999996e-13. -/
def eps : EReal := Ideal.ofBits .f32 0x2B8CBCCC#32

variable {n K M E : ℕ}

/-- The Euclidean length of a row, clamped below by e. -/
def rowLen (z : Fin M → EReal) (e : EReal) : EReal := max (Ideal.sqrt (∑ c, z c * z c)) e

/-- Row p of x·W + b, the bias being row 0 of a one-row matrix. -/
def linRow (X : (⟨2, ![n, K]⟩ : Shape).Idx → EReal) (W : (⟨2, ![K, M]⟩ : Shape).Idx → EReal)
    (B : (⟨2, ![1, M]⟩ : Shape).Idx → EReal) (p : Fin n) : Fin M → EReal :=
  Cert.LibDenseLayer.affine (Cert.LibDenseLayer.row X p) (Cert.LibDenseLayer.mat W) (Cert.LibDenseLayer.row B 0)

/-- The normalised linear stage: entry (p, c) is entry c of row p of x·W + b over that row's clamped length. -/
def nrmOf (X : (⟨2, ![n, K]⟩ : Shape).Idx → EReal) (W : (⟨2, ![K, M]⟩ : Shape).Idx → EReal)
    (B : (⟨2, ![1, M]⟩ : Shape).Idx → EReal) : (⟨2, ![n, M]⟩ : Shape).Idx → EReal :=
  fun i => Cert.LibSageRow.unit (linRow X W B (i 0)) eps (i 1)

/-- The clamped lengths of the rows of x·W + b, as a column. -/
def lenOf (X : (⟨2, ![n, K]⟩ : Shape).Idx → EReal) (W : (⟨2, ![K, M]⟩ : Shape).Idx → EReal)
    (B : (⟨2, ![1, M]⟩ : Shape).Idx → EReal) : (⟨2, ![n, 1]⟩ : Shape).Idx → EReal :=
  fun i => rowLen (linRow X W B (i 0)) eps

/-- The per-edge message: the inner product of rows e of a and b, times the factor of edge e, times a at (e, c). -/
def gateOf (a b : (⟨2, ![E, M]⟩ : Shape).Idx → EReal) (f : (⟨2, ![E, 1]⟩ : Shape).Idx → EReal) :
    (⟨2, ![E, M]⟩ : Shape).Idx → EReal :=
  fun i => ((∑ k : Fin M, a (ix2 (i 0) k) * b (ix2 (i 0) k)) * f (ix2 (i 0) (0 : Fin 1))) * a (ix2 (i 0) (i 1))

/-- Row p of the aggregate times node p's factor, plus the bias row. -/
def preRow (agg : (⟨2, ![n, M]⟩ : Shape).Idx → EReal) (f : (⟨2, ![n, 1]⟩ : Shape).Idx → EReal)
    (B : (⟨2, ![1, M]⟩ : Shape).Idx → EReal) (p : Fin n) : Fin M → EReal :=
  fun q => agg (ix2 p q) * f (ix2 p (0 : Fin 1)) + B (ix2 (0 : Fin 1) q)

/-- The first layer's finish: that row clamped below at zero. -/
def meanReluOf (agg : (⟨2, ![n, M]⟩ : Shape).Idx → EReal) (f : (⟨2, ![n, 1]⟩ : Shape).Idx → EReal)
    (B : (⟨2, ![1, M]⟩ : Shape).Idx → EReal) : (⟨2, ![n, M]⟩ : Shape).Idx → EReal :=
  fun i => max (preRow agg f B (i 0) (i 1)) (Ideal.ofBits .f32 0x00000000#32)

/-- The second layer's finish: the log-softmax of that row. -/
def meanLsmOf (agg : (⟨2, ![n, M]⟩ : Shape).Idx → EReal) (f : (⟨2, ![n, 1]⟩ : Shape).Idx → EReal)
    (B : (⟨2, ![1, M]⟩ : Shape).Idx → EReal) : (⟨2, ![n, M]⟩ : Shape).Idx → EReal :=
  fun i => Cert.LibLsmRow.lsmRow (preRow agg f B (i 0)) (i 1)

end Cert.GnnSpec

end
-- ==== Proof.KOut.lean ====
/-
  The idealized kernel's result as one function of its eight argument arrays: the host operations between the pallas
  regions written as functions of the arrays they read (the edge list's two rows with the self loops appended, the wrapped
  and the plain index columns, the in-degree and its clamped reciprocal, gathers of rows, scatters into zeros), and the
  layer's stages composed twice.
-/
import proofs.«154407_j62689342652829_2_alg».proof.Proof.Gen.KernelIdeal
import proofs.«154407_j62689342652829_2_alg».proof.Proof.GnnSpec
import Idealize.ShloMosaic.PureOps.Ideal

noncomputable section

namespace Cert.KernelIdeal.KFold

open Cert.KernelIdeal Cert.KernelIdeal.Gen
open Idealize.ShloMosaic Idealize.ShloMosaic.TcCoe Idealize.ShloMosaic.ValueIdx Idealize.SL.Sem
open Cert.GnnSpec

/-! ## The host operations between the stages, as functions of the arrays they read -/

/-- Row r of the edge list with the self loops appended: the 1,600,000 given end points followed by 0 … 99,999. -/
def srcT (x1 : (⟨S2x1600000, .i32⟩ : BufTy).Contents (Elt Ideal)) : (⟨S1700000, .i32⟩ : BufTy).Contents (Elt Ideal) :=
  concatenate S1700000 0 [⟨S1600000, shapeCast S1600000 (extractStridedSlice S1x1600000 ![0, 0] x1 slices_S2x1600000_S1x1600000_0_0) shapeCasts_S1x1600000_S1600000⟩, ⟨S100000, iotaInDim S100000 32 0⟩] concatenates_S1600000_S100000_S1700000_d0
def dstT (x1 : (⟨S2x1600000, .i32⟩ : BufTy).Contents (Elt Ideal)) : (⟨S1700000, .i32⟩ : BufTy).Contents (Elt Ideal) :=
  concatenate S1700000 0 [⟨S1600000, shapeCast S1600000 (extractStridedSlice S1x1600000 ![1, 0] x1 slices_S2x1600000_S1x1600000_1_0) shapeCasts_S1x1600000_S1600000⟩, ⟨S100000, iotaInDim S100000 32 0⟩] concatenates_S1600000_S100000_S1700000_d0

/-- An index vector as the one-column array a scatter takes. -/
def colT (i : (⟨S1700000, .i32⟩ : BufTy).Contents (Elt Ideal)) : (⟨S1700000x1, .i32⟩ : BufTy).Contents (Elt Ideal) :=
  broadcastInDim S1700000x1 ![0] bcast_S1700000_S1700000x1_0 i
/-- An index vector with its negative entries moved up by the number of nodes, as the one-column array a gather takes. -/
def wrapT (i : (⟨S1700000, .i32⟩ : BufTy).Contents (Elt Ideal)) : (⟨S1700000x1, .i32⟩ : BufTy).Contents (Elt Ideal) :=
  broadcastInDim S1700000x1 ![0] bcast_S1700000_S1700000x1_0
    (select (cmpi .slt i (broadcastInDim S1700000 ![] bcast_S_S1700000 (constantI S_ 32 0#32)))
      (addi i (broadcastInDim S1700000 ![] bcast_S_S1700000 (constantI S_ 32 100000#32))) i)

/-- The all-ones vector over the nodes. -/
def onesN : FVec Ideal S100000 .f32 := broadcastInDim S100000 ![] bcast_S_S100000 (constant (F := Ideal) S_ .f32 0x3F800000#32)
/-- The number of edges arriving at each node: ones scattered by destination into zeros. -/
def cntT (dst : (⟨S1700000, .i32⟩ : BufTy).Contents (Elt Ideal)) : FVec Ideal S100000 .f32 :=
  Host.scatterAdd scatter_S100000_S1700000x1_S1700000_n_0_0_1
    (broadcastInDim S100000 ![] bcast_S_S100000 (constant (F := Ideal) S_ .f32 0x00000000#32)) (colT dst)
    (broadcastInDim S1700000 ![] bcast_S_S1700000 (constant (F := Ideal) S_ .f32 0x3F800000#32))
/-- One over that count clamped below by one, as a column. -/
def invT (dst : (⟨S1700000, .i32⟩ : BufTy).Contents (Elt Ideal)) : FVec Ideal S100000x1 .f32 :=
  shapeCast S100000x1 (Host.divf onesN (maximumf (cntT dst) onesN)) shapeCasts_S100000_S100000x1

def g64 := gather_S100000x64_S1700000x1_S1700000x64_1_0_n_n_0_1_164
def g40 := gather_S100000x40_S1700000x1_S1700000x40_1_0_n_n_0_1_140
def g1 := gather_S100000x1_S1700000x1_S1700000x1_1_0_n_n_0_1_11

/-- The layer's stages composed, first layer. -/
def nrm1 (x0 : FVec Ideal S100000x128 .f32) (x2 : FVec Ideal S128x64 .f32) (x3 : FVec Ideal S64 .f32) : FVec Ideal S100000x64 .f32 :=
  nrmOf x0 x2 (shapeCast S1x64 x3 shapeCasts_S64_S1x64)
def len1 (x0 : FVec Ideal S100000x128 .f32) (x2 : FVec Ideal S128x64 .f32) (x3 : FVec Ideal S64 .f32) : FVec Ideal S100000x1 .f32 :=
  lenOf x0 x2 (shapeCast S1x64 x3 shapeCasts_S64_S1x64)
def msgK64 (nrm : FVec Ideal S100000x64 .f32) (len : FVec Ideal S100000x1 .f32) (src dst : (⟨S1700000, .i32⟩ : BufTy).Contents (Elt Ideal)) : FVec Ideal S1700000x64 .f32 :=
  gateOf (Host.gather g64 nrm (wrapT src)) (Host.gather g64 nrm (wrapT dst)) (Host.gather g1 len (wrapT src))
def aggK64 (msg : FVec Ideal S1700000x64 .f32) (dst : (⟨S1700000, .i32⟩ : BufTy).Contents (Elt Ideal)) : FVec Ideal S100000x64 .f32 :=
  Host.scatterAdd scatter_S100000x64_S1700000x1_S1700000x64_1_0_0_1 (broadcastInDim S100000x64 ![] bcast_S_S100000x64 (constant (F := Ideal) S_ .f32 0x00000000#32)) (colT dst) msg
def out1 (agg : FVec Ideal S100000x64 .f32) (dst : (⟨S1700000, .i32⟩ : BufTy).Contents (Elt Ideal)) (x4 : FVec Ideal S64 .f32) : FVec Ideal S100000x64 .f32 :=
  meanReluOf agg (invT dst) (shapeCast S1x64 x4 shapeCasts_S64_S1x64)
/-- Second layer. -/
def nrm2 (h : FVec Ideal S100000x64 .f32) (x5 : FVec Ideal S64x40 .f32) (x6 : FVec Ideal S40 .f32) : FVec Ideal S100000x40 .f32 :=
  nrmOf h x5 (shapeCast S1x40 x6 shapeCasts_S40_S1x40)
def len2 (h : FVec Ideal S100000x64 .f32) (x5 : FVec Ideal S64x40 .f32) (x6 : FVec Ideal S40 .f32) : FVec Ideal S100000x1 .f32 :=
  lenOf h x5 (shapeCast S1x40 x6 shapeCasts_S40_S1x40)
def msgK40 (nrm : FVec Ideal S100000x40 .f32) (len : FVec Ideal S100000x1 .f32) (src dst : (⟨S1700000, .i32⟩ : BufTy).Contents (Elt Ideal)) : FVec Ideal S1700000x40 .f32 :=
  gateOf (Host.gather g40 nrm (wrapT src)) (Host.gather g40 nrm (wrapT dst)) (Host.gather g1 len (wrapT src))
def aggK40 (msg : FVec Ideal S1700000x40 .f32) (dst : (⟨S1700000, .i32⟩ : BufTy).Contents (Elt Ideal)) : FVec Ideal S100000x40 .f32 :=
  Host.scatterAdd scatter_S100000x40_S1700000x1_S1700000x40_1_0_0_1 (broadcastInDim S100000x40 ![] bcast_S_S100000x40 (constant (F := Ideal) S_ .f32 0x00000000#32)) (colT dst) msg
def out2 (agg : FVec Ideal S100000x40 .f32) (dst : (⟨S1700000, .i32⟩ : BufTy).Contents (Elt Ideal)) (x7 : FVec Ideal S40 .f32) : FVec Ideal S100000x40 .f32 :=
  meanLsmOf agg (invT dst) (shapeCast S1x40 x7 shapeCasts_S40_S1x40)

/-- The result as a function of the eight arguments. -/
def kOut (x0 : FVec Ideal S100000x128 .f32) (x1 : (⟨S2x1600000, .i32⟩ : BufTy).Contents (Elt Ideal)) (x2 : FVec Ideal S128x64 .f32)
    (x3 x4 : FVec Ideal S64 .f32) (x5 : FVec Ideal S64x40 .f32) (x6 x7 : FVec Ideal S40 .f32) : FVec Ideal S100000x40 .f32 :=
  out2 (aggK40 (msgK40
      (nrm2 (out1 (aggK64 (msgK64 (nrm1 x0 x2 x3) (len1 x0 x2 x3) (srcT x1) (dstT x1)) (dstT x1)) (dstT x1) x4) x5 x6)
      (len2 (out1 (aggK64 (msgK64 (nrm1 x0 x2 x3) (len1 x0 x2 x3) (srcT x1) (dstT x1)) (dstT x1)) (dstT x1) x4) x5 x6)
      (srcT x1) (dstT x1)) (dstT x1)) (dstT x1) x7

end Cert.KernelIdeal.KFold

end
-- ==== Proof.LibNormRows.lean ====
/-
  Two readings at an entry, over the extended reals, of what a dense normalised layer's kernel body computes on a block.

  A block of rows, each divided by its own Euclidean length clamped below: spelt as square, sum along the lanes, cast the
  sums to a column, take the root, clamp below by a broadcast scalar, broadcast the column back over the lanes and
  divide. At (p, c) this is entry c of row p divided by the clamped length of row p — `LibSageRow.unit`.

  Two plain matrix products into zero accumulators, added, plus a one-row bias broadcast over the rows: at (p, c) the
  sum over k of the first left operand's row p against the first right operand's column c, the same for the second
  pair, and the bias at c — `LibSageRow.affine`, whose bias is added between the two products (the two orders agree
  because addition of extended reals is commutative and associative).
  Generic in the block's extents.
-/
import proofs.«154407_j62689342652829_2_alg».proof.Proof.LibDotApply
import proofs.«154407_j62689342652829_2_alg».proof.Proof.LibKeepdims
import proofs.«154407_j62689342652829_2_alg».proof.Proof.LibSageRow
import Idealize.ShloMosaic.Lib.ValueLayout
import Idealize.ShloMosaic.Lib.Pipeline.Value
import Idealize.ShloMosaic.Lib.ValueIdx

noncomputable section

namespace Cert.LibNormRows

open Idealize.ShloMosaic Idealize.ShloMosaic.ValueIdx
open Cert.LibSageRow Cert.LibKeepdims Cert.LibDotApply Cert.LibPlainDot

/-- A block whose rows are each divided by their own length, as a body spells it: square, sum along the lanes, cast
    the sums to a column, take the root, clamp below, broadcast the column back and divide. At (p, c) this is the
    normalised row p at c. -/
theorem unit_apply {a b : ℕ} (z : FVec Ideal ⟨2, ![a, b]⟩ .f32)
    (hr : (⟨2, ![a, b]⟩ : Shape).Reduces [1] ⟨1, ![a]⟩) (hφ : FKind.Formats .f32)
    (hacc : (0x00000000#32 : BitVec FTy.f32.bits) = FKind.add.neutral .f32 hφ)
    (hc : (⟨1, ![a]⟩ : Shape).ShapeCasts ⟨2, ![a, 1]⟩) (hb : (⟨2, ![a, 1]⟩ : Shape).Broadcasts ⟨2, ![a, b]⟩)
    (e : Ideal .f32) (p : Fin a) (c : Fin b) :
    divf z (broadcastTo ⟨2, ![a, b]⟩ (maximumf (sqrt (shapeCast ⟨2, ![a, 1]⟩
        (multiReduction .add [1] ⟨1, ![a]⟩ (mulf z z) 0x00000000#32 hr hφ hacc) hc)) (broadcast ⟨2, ![a, 1]⟩ e)) hb) (ix2 p c)
      = unit (fun c' => z (ix2 p c')) e c := by
  show Ideal.div (z (ix2 p c)) (broadcastTo ⟨2, ![a, b]⟩ _ hb (ix2 p c)) = _
  rw [broadcastTo_a1_ab_apply]
  show Ideal.div (z (ix2 p c)) (max (Ideal.sqrt (shapeCast ⟨2, ![a, 1]⟩ _ hc (ix2 p (0 : Fin 1)))) e) = _
  rw [shapeCast_a_a1_apply, multiReduction_add_row]
  rfl

/-- Two plain products into zero accumulators, added, plus a bias row broadcast over the rows: at (p, c) the affine
    row of `LibSageRow`, whose bias is added before the second product. -/
theorem affine_apply {n K M : ℕ} {φ₁ φ₂ : FTy} (d : DotDims ⟨2, ![n, K]⟩ ⟨2, ![K, M]⟩ ⟨2, ![n, M]⟩) (hd : IsPlain d)
    (a h : FVec Ideal ⟨2, ![n, K]⟩ φ₁) (wl wr : FVec Ideal ⟨2, ![K, M]⟩ φ₂) (brow : FVec Ideal ⟨2, ![1, M]⟩ .f32)
    (hb : (⟨2, ![1, M]⟩ : Shape).Broadcasts ⟨2, ![n, M]⟩) (p : Fin n) (c : Fin M) :
    addf (addf (matmul d none a wl (constant ⟨2, ![n, M]⟩ .f32 0x00000000#32))
        (matmul d none h wr (constant ⟨2, ![n, M]⟩ .f32 0x00000000#32))) (broadcastTo ⟨2, ![n, M]⟩ brow hb) (ix2 p c)
      = affine (fun k => a (ix2 p k)) (fun k => h (ix2 p k)) (fun k c => wl (ix2 k c)) (fun k c => wr (ix2 k c))
          (fun c => brow (ix2 (0 : Fin 1) c)) c := by
  show (matmul d none a wl (constant ⟨2, ![n, M]⟩ .f32 0x00000000#32) (ix2 p c)
      + matmul d none h wr (constant ⟨2, ![n, M]⟩ .f32 0x00000000#32) (ix2 p c))
      + broadcastTo ⟨2, ![n, M]⟩ brow hb (ix2 p c) = _
  exact (congrArg₂ (· + ·) (congrArg₂ (· + ·) (matmul_zero_apply d hd none a wl p c) (matmul_zero_apply d hd none h wr p c))
    (broadcastTo_1b_ab_apply brow hb p c)).trans
    (affine_bias_last (fun k => a (ix2 p k)) (fun k => h (ix2 p k)) (fun k c => wl (ix2 k c)) (fun k c => wr (ix2 k c))
      (fun c => brow (ix2 (0 : Fin 1) c)) c)

end Cert.LibNormRows

end
-- ==== Proof.LibGateSpell.lean ====
/-
  The divisor of a row normalisation and a per-edge gate, as a kernel body and as a host program spell them, read at an
  entry over the extended reals.

  The length of a row z clamped below by eps is max (sqrt (sum over c of z c * z c)) eps; a row divided by it is the
  normalised row of LibSageRow. A kernel body spells the clamped lengths of the rows of an [a, b] block as a column:
  square, sum along the lanes, cast the sums to an [a, 1] column, take the root, clamp below by a broadcast scalar. A
  host program spells the same column as: square, sum along axis 1 from a zero initial value, place the sums along
  axis 0 of an [a, 1] column, take the root, clamp below by a broadcast scalar constant; and it divides the block by
  that column broadcast back over axis 1.

  The gate of an edge is the inner product of two rows times a per-row factor; the message multiplies a third row by
  it, entry by entry. A kernel body spells it with a lane sum cast to a column, the column times the factor column,
  broadcast over the lanes; a host program with a sum along axis 1 from a zero initial value, placed along axis 0 of a
  column and broadcast over axis 1.
  Generic in the block's extents.
-/
import proofs.«154407_j62689342652829_2_alg».proof.Proof.LibKeepdims
import proofs.«154407_j62689342652829_2_alg».proof.Proof.LibSageRow
import proofs.«154407_j62689342652829_2_alg».proof.Proof.LibNormRows
import Idealize.ShloMosaic.Lib.IdealHost
import Idealize.ShloMosaic.Lib.Pipeline.Value
import Idealize.ShloMosaic.Lib.ValueIdx

noncomputable section

namespace Cert.LibGateSpell

open Idealize.ShloMosaic Idealize.ShloMosaic.ValueIdx
open Cert.LibKeepdims

/-- The Euclidean length of the row z, clamped below by eps. -/
abbrev rowLen {b : ℕ} (z : Fin b → EReal) (eps : EReal) : EReal :=
  max (Ideal.sqrt (∑ c, z c * z c)) eps

/-- The normalised row is the row divided, entry by entry, by its clamped length. -/
theorem unit_eq_div_rowLen {b : ℕ} (z : Fin b → EReal) (eps : EReal) (c : Fin b) :
    Cert.LibSageRow.unit z eps c = Ideal.div (z c) (rowLen z eps) := rfl

/-! ## Two host broadcasts read at an entry -/

/-- An [a] vector placed along axis 0 of an [a, 1] column reads, at (p, u), the vector at p. -/
theorem broadcastInDim_a_a1_apply {α : Type} {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply ![0] h x (ix2 p u) (ix1 p) fun ax => ?_
  match ax with
  | ⟨0, _⟩ =>
    show p.val = if a = 1 then 0 else p.val
    split
    · have := p.isLt; omega
    · rfl

/-- An [a, 1] column broadcast along its own two axes to [a, b] reads, at (p, c), the column at (p, 0). -/
theorem broadcastInDim_a1_ab_apply {α : Type} {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

variable {a b : ℕ}

/-! ## The kernel body -/

/-- The clamped lengths of a block's rows as a body spells them: square, sum along the lanes, cast the sums to a
    column, take the root, clamp below by a broadcast scalar. At (p, u) this is the clamped length of row p. -/
theorem kLen_apply (z : FVec Ideal ⟨2, ![a, b]⟩ .f32)
    (hr : (⟨2, ![a, b]⟩ : Shape).Reduces [1] ⟨1, ![a]⟩) (hφ : FKind.Formats .f32)
    (hacc : (0x00000000#32 : BitVec FTy.f32.bits) = FKind.add.neutral .f32 hφ)
    (hc : (⟨1, ![a]⟩ : Shape).ShapeCasts ⟨2, ![a, 1]⟩) (e : Ideal .f32) (p : Fin a) (u : Fin 1) :
    maximumf (sqrt (shapeCast ⟨2, ![a, 1]⟩
        (multiReduction .add [1] ⟨1, ![a]⟩ (mulf z z) 0x00000000#32 hr hφ hacc) hc)) (broadcast ⟨2, ![a, 1]⟩ e) (ix2 p u)
      = rowLen (fun c' => z (ix2 p c')) e := by
  show max (Ideal.sqrt (shapeCast ⟨2, ![a, 1]⟩ _ hc (ix2 p u))) e = _
  rw [shapeCast_a_a1_apply, multiReduction_add_row]
  rfl

/-- An edge's message as a body spells it: the two rows multiplied and summed along the lanes, the sums cast to a
    column, the column times the factor column, broadcast over the lanes, times the third row. At (e, c) this is the
    inner product of row e of x and of y, times the factor of row e, times entry c of row e of x'. The casts of a
    block to its own shape are the identity. -/
theorem kGate_apply (x y x' : FVec Ideal ⟨2, ![a, b]⟩ .f32) (n : FVec Ideal ⟨2, ![a, 1]⟩ .f32)
    (hxx : (⟨2, ![a, b]⟩ : Shape).ShapeCasts ⟨2, ![a, b]⟩) (hnn : (⟨2, ![a, 1]⟩ : Shape).ShapeCasts ⟨2, ![a, 1]⟩)
    (hr : (⟨2, ![a, b]⟩ : Shape).Reduces [1] ⟨1, ![a]⟩) (hφ : FKind.Formats .f32)
    (hacc : (0x00000000#32 : BitVec FTy.f32.bits) = FKind.add.neutral .f32 hφ)
    (hc : (⟨1, ![a]⟩ : Shape).ShapeCasts ⟨2, ![a, 1]⟩) (hb : (⟨2, ![a, 1]⟩ : Shape).Broadcasts ⟨2, ![a, b]⟩)
    (e : Fin a) (c : Fin b) :
    mulf (broadcastTo ⟨2, ![a, b]⟩ (mulf (shapeCast ⟨2, ![a, 1]⟩
        (multiReduction .add [1] ⟨1, ![a]⟩ (mulf (shapeCast ⟨2, ![a, b]⟩ x hxx) (shapeCast ⟨2, ![a, b]⟩ y hxx))
          0x00000000#32 hr hφ hacc) hc) (shapeCast ⟨2, ![a, 1]⟩ n hnn)) hb) (shapeCast ⟨2, ![a, b]⟩ x' hxx) (ix2 e c)
      = ((∑ k : Fin b, x (ix2 e k) * y (ix2 e k)) * n (ix2 e (0 : Fin 1))) * x' (ix2 e c) := by
  rw [shapeCast_self x hxx, shapeCast_self y hxx, shapeCast_self x' hxx, shapeCast_self n hnn]
  rw [mulf_apply, broadcastTo_a1_ab_apply, mulf_apply, shapeCast_a_a1_apply, multiReduction_add_row]
  rfl

/-! ## The host program -/

/-- The clamped lengths of an array's rows as a host program spells them: square, sum along axis 1 from a zero
    initial value, place the sums along axis 0 of a column, take the root, clamp below by a broadcast scalar constant. -/
def hLen (h : FVec Ideal ⟨2, ![a, b]⟩ .f32) (hr' : (⟨2, ![a, b]⟩ : Shape).ReducesTo [1] ⟨1, ![a]⟩)
    (hS : 0 < (⟨0, ![]⟩ : Shape).numel) (b0 : (⟨1, ![a]⟩ : Shape).BroadcastsInDim ⟨2, ![a, 1]⟩ ![0])
    (be : (⟨0, ![]⟩ : Shape).BroadcastsInDim ⟨2, ![a, 1]⟩ ![]) (eps : BitVec 32) : FVec Ideal ⟨2, ![a, 1]⟩ .f32 :=
  maximumf (Host.sqrt (broadcastInDim ⟨2, ![a, 1]⟩ ![0] b0
      (Host.reduceAdd (mulf h h) (constant (F := Ideal) ⟨0, ![]⟩ .f32 0x00000000#32) hr' hS)))
    (broadcastInDim ⟨2, ![a, 1]⟩ ![] be (constant (F := Ideal) ⟨0, ![]⟩ .f32 eps))

/-- The host's column of clamped lengths, written out, at (p, u): the clamped length of row p. -/
theorem hLen_spelt_apply (h : FVec Ideal ⟨2, ![a, b]⟩ .f32) (hr' : (⟨2, ![a, b]⟩ : Shape).ReducesTo [1] ⟨1, ![a]⟩)
    (hr : (⟨2, ![a, b]⟩ : Shape).Reduces [1] ⟨1, ![a]⟩)
    (hS : 0 < (⟨0, ![]⟩ : Shape).numel) (b0 : (⟨1, ![a]⟩ : Shape).BroadcastsInDim ⟨2, ![a, 1]⟩ ![0])
    (be : (⟨0, ![]⟩ : Shape).BroadcastsInDim ⟨2, ![a, 1]⟩ ![]) (eps : BitVec 32) (p : Fin a) (u : Fin 1) :
    maximumf (Host.sqrt (broadcastInDim ⟨2, ![a, 1]⟩ ![0] b0
        (Host.reduceAdd (mulf h h) (constant (F := Ideal) ⟨0, ![]⟩ .f32 0x00000000#32) hr' hS)))
      (broadcastInDim ⟨2, ![a, 1]⟩ ![] be (constant (F := Ideal) ⟨0, ![]⟩ .f32 eps)) (ix2 p u)
      = rowLen (fun c' => h (ix2 p c')) (Ideal.ofBits .f32 eps) := by
  show max (Ideal.sqrt (broadcastInDim (s := ⟨1, ![a]⟩) ⟨2, ![a, 1]⟩ ![0] b0 _ (ix2 p u)))
      (broadcastInDim (s := ⟨0, ![]⟩) ⟨2, ![a, 1]⟩ ![] be _ (ix2 p u)) = _
  rw [broadcastInDim_a_a1_apply, broadcastInDim_scalar_apply]
  show max (Ideal.sqrt (Ideal.hostReduceAdd hr' (mulf h h) (Ideal.ofBits .f32 0x00000000#32) (ix1 p)))
      (Ideal.ofBits .f32 eps) = _
  rw [hostReduceAdd_row hr' hr, Ideal.ofBits_zero_f32, zero_add]
  rfl

/-- The host's column of clamped lengths at (p, u): the clamped length of row p. -/
theorem hLen_apply (h : FVec Ideal ⟨2, ![a, b]⟩ .f32) (hr' : (⟨2, ![a, b]⟩ : Shape).ReducesTo [1] ⟨1, ![a]⟩)
    (hr : (⟨2, ![a, b]⟩ : Shape).Reduces [1] ⟨1, ![a]⟩)
    (hS : 0 < (⟨0, ![]⟩ : Shape).numel) (b0 : (⟨1, ![a]⟩ : Shape).BroadcastsInDim ⟨2, ![a, 1]⟩ ![0])
    (be : (⟨0, ![]⟩ : Shape).BroadcastsInDim ⟨2, ![a, 1]⟩ ![]) (eps : BitVec 32) (p : Fin a) (u : Fin 1) :
    hLen h hr' hS b0 be eps (ix2 p u) = rowLen (fun c' => h (ix2 p c')) (Ideal.ofBits .f32 eps) :=
  hLen_spelt_apply h hr' hr hS b0 be eps p u

/-- The host's normalisation: the array divided by its column of clamped lengths broadcast over axis 1. At (p, c)
    this is the normalised row p at c. -/
theorem hUnit_apply (h : FVec Ideal ⟨2, ![a, b]⟩ .f32) (hr' : (⟨2, ![a, b]⟩ : Shape).ReducesTo [1] ⟨1, ![a]⟩)
    (hr : (⟨2, ![a, b]⟩ : Shape).Reduces [1] ⟨1, ![a]⟩)
    (hS : 0 < (⟨0, ![]⟩ : Shape).numel) (b0 : (⟨1, ![a]⟩ : Shape).BroadcastsInDim ⟨2, ![a, 1]⟩ ![0])
    (b1 : (⟨2, ![a, 1]⟩ : Shape).BroadcastsInDim ⟨2, ![a, b]⟩ ![0, 1])
    (be : (⟨0, ![]⟩ : Shape).BroadcastsInDim ⟨2, ![a, 1]⟩ ![]) (eps : BitVec 32) (p : Fin a) (c : Fin b) :
    Host.divf h (broadcastInDim ⟨2, ![a, b]⟩ ![0, 1] b1 (hLen h hr' hS b0 be eps)) (ix2 p c)
      = Cert.LibSageRow.unit (fun c' => h (ix2 p c')) (Ideal.ofBits .f32 eps) c := by
  show Ideal.div (h (ix2 p c)) (broadcastInDim (s := ⟨2, ![a, 1]⟩) ⟨2, ![a, b]⟩ ![0, 1] b1 _ (ix2 p c)) = _
  rw [broadcastInDim_a1_ab_apply, hLen_apply h hr' hr hS b0 be eps]
  rfl

/-- The host's normalisation with the column of clamped lengths written out, at (p, c): the normalised row p at c. -/
theorem hUnit_spelt_apply (h : FVec Ideal ⟨2, ![a, b]⟩ .f32) (hr' : (⟨2, ![a, b]⟩ : Shape).ReducesTo [1] ⟨1, ![a]⟩)
    (hr : (⟨2, ![a, b]⟩ : Shape).Reduces [1] ⟨1, ![a]⟩)
    (hS : 0 < (⟨0, ![]⟩ : Shape).numel) (b0 : (⟨1, ![a]⟩ : Shape).BroadcastsInDim ⟨2, ![a, 1]⟩ ![0])
    (b1 : (⟨2, ![a, 1]⟩ : Shape).BroadcastsInDim ⟨2, ![a, b]⟩ ![0, 1])
    (be : (⟨0, ![]⟩ : Shape).BroadcastsInDim ⟨2, ![a, 1]⟩ ![]) (eps : BitVec 32) (p : Fin a) (c : Fin b) :
    Host.divf h (broadcastInDim ⟨2, ![a, b]⟩ ![0, 1] b1
        (maximumf (Host.sqrt (broadcastInDim ⟨2, ![a, 1]⟩ ![0] b0
            (Host.reduceAdd (mulf h h) (constant (F := Ideal) ⟨0, ![]⟩ .f32 0x00000000#32) hr' hS)))
          (broadcastInDim ⟨2, ![a, 1]⟩ ![] be (constant (F := Ideal) ⟨0, ![]⟩ .f32 eps)))) (ix2 p c)
      = Cert.LibSageRow.unit (fun c' => h (ix2 p c')) (Ideal.ofBits .f32 eps) c :=
  hUnit_apply h hr' hr hS b0 b1 be eps p c

/-- An edge's message as a host program spells it: the two arrays multiplied and summed along axis 1 from a zero
    initial value, the sums placed along axis 0 of a column, the column broadcast over axis 1, times the third array.
    At (e, c) this is zero plus the inner product of row e of the two, times entry c of row e of the third. -/
theorem hMsg_apply (gD gS gH : FVec Ideal ⟨2, ![a, b]⟩ .f32) (hr' : (⟨2, ![a, b]⟩ : Shape).ReducesTo [1] ⟨1, ![a]⟩)
    (hr : (⟨2, ![a, b]⟩ : Shape).Reduces [1] ⟨1, ![a]⟩) (hS : 0 < (⟨0, ![]⟩ : Shape).numel)
    (c0 : (⟨1, ![a]⟩ : Shape).BroadcastsInDim ⟨2, ![a, 1]⟩ ![0])
    (c1 : (⟨2, ![a, 1]⟩ : Shape).BroadcastsInDim ⟨2, ![a, b]⟩ ![0, 1]) (e : Fin a) (c : Fin b) :
    mulf (broadcastInDim ⟨2, ![a, b]⟩ ![0, 1] c1 (broadcastInDim ⟨2, ![a, 1]⟩ ![0] c0
        (Host.reduceAdd (mulf gD gS) (constant (F := Ideal) ⟨0, ![]⟩ .f32 0x00000000#32) hr' hS))) gH (ix2 e c)
      = (0 + ∑ k : Fin b, gD (ix2 e k) * gS (ix2 e k)) * gH (ix2 e c) := by
  rw [mulf_apply, broadcastInDim_a1_ab_apply, broadcastInDim_a_a1_apply]
  show Ideal.hostReduceAdd hr' (mulf gD gS) (Ideal.ofBits .f32 0x00000000#32) (ix1 e) * gH (ix2 e c) = _
  rw [hostReduceAdd_row hr' hr, Ideal.ofBits_zero_f32]
  rfl

end Cert.LibGateSpell

end
-- ==== Proof.NodeStage1.lean ====
/-
  The first layer's linear stage, read off the blocks: a grid of 20 points, point t holding rows 5000·t … 5000·t + 4999
  of the node features; the weights and the bias row are whole at every point. Point t writes back, for each of its rows,
  the row x·W + b divided by its clamped length, and that clamped length. Since each point's block is the restriction of
  one function of the whole arrays to its rows, and the 20 blocks tile the 100000 rows, the two output arrays end as those
  functions of the arrays the stage was entered with.
-/
import proofs.«154407_j62689342652829_2_alg».proof.Proof.Gen.KernelIdeal.Frame
import proofs.«154407_j62689342652829_2_alg».proof.Proof.GnnSpec
import proofs.«154407_j62689342652829_2_alg».proof.Proof.LibNormRows
import proofs.«154407_j62689342652829_2_alg».proof.Proof.LibDenseLayer
import proofs.«154407_j62689342652829_2_alg».proof.Proof.LibKeepdims
import proofs.«154407_j62689342652829_2_alg».proof.Proof.LibGateSpell
import Idealize.ShloMosaic.Lib.Pipeline.Value
import Idealize.ShloMosaic.Lib.ValueIdx

set_option maxRecDepth 16384

noncomputable section

namespace Cert.KernelIdeal.NodeStage1

open Cert.KernelIdeal Cert.KernelIdeal.Gen Idealize.ShloMosaic Idealize.ShloMosaic.ValueIdx Idealize.ShloMosaic.TcCoe
open Idealize.SL.Sem
open Idealize.ShloMosaic.Pipeline (Dat)
open Cert.GnnSpec

/-! ## The body's stored values at an entry -/

/-- Row y of the body's x·W + b is the affine row of row y of the block. -/
theorem lin_row (x0 : Vec Ideal S5000x128 .f32) (x1 : Vec Ideal S128x64 .f32) (x2 : Vec Ideal S1x64 .f32) (y : Fin 5000) :
    (fun c' : Fin 64 => k0_pay1 x0 x1 x2 (ix2 y c')) = linRow x0 x1 x2 y :=
  Cert.LibDenseLayer.row_kAffine dot_S5000x128_S128x64_S5000x64_1_0_0_1_n_n ⟨rfl, rfl, rfl, rfl, rfl, rfl⟩
    (truncf .bf16 x0 bitsLt_bf16_f32) x1 x2 bitsLt_bf16_f32 shapeCasts_S1x64_S1x64 broadcasts_S1x64_S5000x64 y

/-- The stored quotient at (y, q): entry q of the normalised row y. -/
theorem pay_nrm (x0 : Vec Ideal S5000x128 .f32) (x1 : Vec Ideal S128x64 .f32) (x2 : Vec Ideal S1x64 .f32) (y : Fin 5000) (q : Fin 64) :
    k0_pay3 x0 x1 x2 (ix2 y q) = Cert.LibSageRow.unit (linRow x0 x1 x2 y) eps q :=
  (Cert.LibNormRows.unit_apply (k0_pay1 x0 x1 x2) reduces_S5000x64_S5000 (.inl rfl) rfl shapeCasts_S5000_S5000x1
      broadcasts_S5000x1_S5000x64 (Scalar.ofBits .f32 0x2B8CBCCC#32) y q).trans
    (congrArg (fun z => Cert.LibSageRow.unit z eps q) (lin_row x0 x1 x2 y))

/-- The stored divisor at (y, u): the clamped length of row y. -/
theorem pay_len (x0 : Vec Ideal S5000x128 .f32) (x1 : Vec Ideal S128x64 .f32) (x2 : Vec Ideal S1x64 .f32) (y : Fin 5000) (u : Fin 1) :
    k0_pay2 x0 x1 x2 (ix2 y u) = rowLen (linRow x0 x1 x2 y) eps :=
  (Cert.LibGateSpell.kLen_apply (k0_pay1 x0 x1 x2) reduces_S5000x64_S5000 (.inl rfl) rfl shapeCasts_S5000_S5000x1
      (Scalar.ofBits .f32 0x2B8CBCCC#32) y u).trans
    (congrArg (fun z : Fin 64 → EReal => rowLen z eps) (lin_row x0 x1 x2 y))

/-! ## The blocks -/

theorem hz : (![0, 0] : Fin 2 → Nat) = fun _ => 0 := funext fun a => by fin_cases a <;> rfl

/-- The printed index maps over the grid: point t's row-blocks start at block t, everything else at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

variable (V : (c : Dev nD) → (b : Ref sig .tc) → Buf (Elt Ideal) ((c : Thread nD τ).loc b))

/-- Row y of point t's block of features is row 5000·t + y of the array, wherever the output block's row sits. -/
theorem rows_eq (c : Dev nD) (t : Fin cfg0.N) (y : Fin 5000) (p : Fin 100000) (hp : p.val = t.val * 5000 + y.val) :
    linRow (iblk0 V c 0 t) (iblk0 V c 1 t) (iblk0 V c 2 t) y
      = linRow (V c (Pipeline.arrRef spec0 0)) (V c (Pipeline.arrRef spec0 1)) (V c (Pipeline.arrRef spec0 2)) p := by
  obtain ⟨e00, e01, e10, e11, e20, e21, -, -, -, -⟩ := idx_facts t
  have h0 : Cert.LibDenseLayer.row (iblk0 V c 0 t) y = Cert.LibDenseLayer.row (V c (Pipeline.arrRef spec0 0)) p := by
    funext k
    show V c (Pipeline.arrRef spec0 0) (((cfg0.win 0).blk t).view.emb (ix2 y k)) = V c (Pipeline.arrRef spec0 0) (ix2 p k)
    refine congrArg _ (funext fun a => Fin.ext ?_)
    match a with
    | ⟨0, _⟩ => show win0_0.index t (0 : Fin 2) * 5000 + 1 * y.val = p.val; omega
    | ⟨1, _⟩ => show win0_0.index t (1 : Fin 2) * 128 + 1 * k.val = k.val; omega
  have h1 : Cert.LibDenseLayer.mat (iblk0 V c 1 t) = Cert.LibDenseLayer.mat (V c (Pipeline.arrRef spec0 1)) := by
    funext k q
    show V c (Pipeline.arrRef spec0 1) (((cfg0.win 1).blk t).view.emb (ix2 k q)) = V c (Pipeline.arrRef spec0 1) (ix2 k q)
    refine congrArg _ (funext fun a => Fin.ext ?_)
    match a with
    | ⟨0, _⟩ => show win0_1.index t (0 : Fin 2) * 128 + 1 * k.val = k.val; omega
    | ⟨1, _⟩ => show win0_1.index t (1 : Fin 2) * 64 + 1 * q.val = q.val; omega
  have h2 : Cert.LibDenseLayer.row (iblk0 V c 2 t) (0 : Fin 1) = Cert.LibDenseLayer.row (V c (Pipeline.arrRef spec0 2)) (0 : Fin 1) := by
    funext q
    show V c (Pipeline.arrRef spec0 2) (((cfg0.win 2).blk t).view.emb (ix2 (0 : Fin 1) q)) = V c (Pipeline.arrRef spec0 2) (ix2 (0 : Fin 1) q)
    refine congrArg _ (funext fun a => Fin.ext ?_)
    match a with
    | ⟨0, _⟩ => show win0_2.index t (0 : Fin 2) * 1 + 1 * 0 = 0; omega
    | ⟨1, _⟩ => show win0_2.index t (1 : Fin 2) * 64 + 1 * q.val = q.val; omega
  unfold linRow
  rw [h0, h1, h2]

/-- WHAT POINT t WRITES BACK to the normalised array is its block of the stage's function of the whole arrays. -/
theorem flushed_nrm (c : Dev nD) (t : Fin cfg0.N) :
    (dat0 V c).flushed 3 t = ((cfg0.win 3).blk t).view.read (Elt Ideal)
      (nrmOf (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x64) hz, View.ld_unit_zero (S := S1x64) hz]
  obtain ⟨-, -, -, -, -, -, e30, e31, -, -⟩ := idx_facts t
  funext j
  obtain ⟨y, q, rfl⟩ : ∃ (y : Fin 5000) (q : Fin 64), j = ix2 y q := ⟨j 0, j 1, eq_ix2 j⟩
  refine (pay_nrm (iblk0 V c 0 t) (iblk0 V c 1 t) (iblk0 V c 2 t) y q).trans ?_
  show _ = Cert.LibSageRow.unit (linRow _ _ _ ((((cfg0.win 3).blk t).view.emb (ix2 y q)) 0)) eps ((((cfg0.win 3).blk t).view.emb (ix2 y q)) 1)
  have hq : (((cfg0.win 3).blk t).view.emb (ix2 y q)) 1 = q :=
    Fin.ext (by show win0_3.index t (1 : Fin 2) * 64 + 1 * q.val = q.val; omega)
  rw [hq]
  exact congrArg (fun z => Cert.LibSageRow.unit z eps q)
    (rows_eq V c t y _ (by show win0_3.index t (0 : Fin 2) * 5000 + 1 * y.val = t.val * 5000 + y.val; omega))

/-- WHAT POINT t WRITES BACK to the length column is its block of the clamped row lengths. -/
theorem flushed_len (c : Dev nD) (t : Fin cfg0.N) :
    (dat0 V c).flushed 4 t = ((cfg0.win 4).blk t).view.read (Elt Ideal)
      (lenOf (V c (Pipeline.arrRef spec0 0)) (V c (Pipeline.arrRef spec0 1)) (V c (Pipeline.arrRef spec0 2))) := by
  show (cfg0.win 4).cut (grid0.coords t) ((dat0 V c).after 4 t) = _
  rw [after0_4]
  unfold out0_4
  rw [View.canon_unit_zero hz]
  simp only [View.ld_unit_zero (S := S5000x128) hz, View.ld_unit_zero (S := S128x64) hz, View.ld_unit_zero (S := S1x64) hz]
  obtain ⟨-, -, -, -, -, -, -, -, e40, e41⟩ := idx_facts t
  funext j
  obtain ⟨y, u, rfl⟩ : ∃ (y : Fin 5000) (u : Fin 1), j = ix2 y u := ⟨j 0, j 1, eq_ix2 j⟩
  refine (pay_len (iblk0 V c 0 t) (iblk0 V c 1 t) (iblk0 V c 2 t) y u).trans ?_
  show _ = rowLen (linRow _ _ _ ((((cfg0.win 4).blk t).view.emb (ix2 y u)) 0)) eps
  exact congrArg (fun z : Fin 64 → EReal => rowLen z eps)
    (rows_eq V c t y _ (by show win0_4.index t (0 : Fin 2) * 5000 + 1 * y.val = t.val * 5000 + y.val; omega))

/-! ## The blocks tile the arrays -/

theorem mem_blk3 (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v17_0).slice (win0_3.rect t)).set ↔ _
  rw [View.set_slice_whole, Rect.mem_set_unit]
  exact Iff.rfl

theorem mem_blk4 (t : Fin cfg0.N) (i : S100000x1.Idx) :
    i ∈ ((cfg0.win 4).blk t).view.set ↔ ∀ a : Fin 2, win0_4.index t a * S5000x1.size a ≤ (i a).val ∧ (i a).val < win0_4.index t a * S5000x1.size a + S5000x1.size a := by
  show i ∈ ((View.whole main_v17_1).slice (win0_4.rect t)).set ↔ _
  rw [View.set_slice_whole, Rect.mem_set_unit]
  exact Iff.rfl

/-- Row p lies in the block of point p / 5000. -/
theorem cover3 (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  have hN : (i 0).val / 5000 < cfg0.N := by rw [show cfg0.N = 20 from N_0]; omega
  obtain ⟨-, -, -, -, -, -, e30, e31, -, -⟩ := idx_facts ⟨(i 0).val / 5000, hN⟩
  have e30' : win0_3.index ⟨(i 0).val / 5000, hN⟩ (0 : Fin 2) = (i 0).val / 5000 := e30
  refine ⟨⟨(i 0).val / 5000, hN⟩, flush0_3 _, ?_⟩
  rw [mem_blk3]
  intro a
  match a with
  | ⟨0, _⟩ => show win0_3.index ⟨(i 0).val / 5000, hN⟩ (0 : Fin 2) * 5000 ≤ (i 0).val ∧ (i 0).val < win0_3.index ⟨(i 0).val / 5000, hN⟩ (0 : Fin 2) * 5000 + 5000; omega
  | ⟨1, _⟩ => show win0_3.index ⟨(i 0).val / 5000, hN⟩ (1 : Fin 2) * 64 ≤ (i 1).val ∧ (i 1).val < win0_3.index ⟨(i 0).val / 5000, hN⟩ (1 : Fin 2) * 64 + 64; omega

theorem cover4 (i : S100000x1.Idx) : ∃ t : Fin cfg0.N, (cfg0.win 4).flush t = true ∧ i ∈ ((cfg0.win 4).blk t).view.set := by
  have hi0 : (i 0).val < 100000 := (i 0).isLt
  have hi1 : (i 1).val < 1 := (i 1).isLt
  have hN : (i 0).val / 5000 < cfg0.N := by rw [show cfg0.N = 20 from N_0]; omega
  obtain ⟨-, -, -, -, -, -, -, -, e40, e41⟩ := idx_facts ⟨(i 0).val / 5000, hN⟩
  have e40' : win0_4.index ⟨(i 0).val / 5000, hN⟩ (0 : Fin 2) = (i 0).val / 5000 := e40
  refine ⟨⟨(i 0).val / 5000, hN⟩, flush0_4 _, ?_⟩
  rw [mem_blk4]
  intro a
  match a with
  | ⟨0, _⟩ => show win0_4.index ⟨(i 0).val / 5000, hN⟩ (0 : Fin 2) * 5000 ≤ (i 0).val ∧ (i 0).val < win0_4.index ⟨(i 0).val / 5000, hN⟩ (0 : Fin 2) * 5000 + 5000; omega
  | ⟨1, _⟩ => show win0_4.index ⟨(i 0).val / 5000, hN⟩ (1 : Fin 2) * 1 ≤ (i 1).val ∧ (i 1).val < win0_4.index ⟨(i 0).val / 5000, hN⟩ (1 : Fin 2) * 1 + 1; omega

/-! ## The arrays after the stage -/

/-- The normalised array after the stage, as a function of the arrays the stage was entered with. -/
theorem final_nrm (c : Dev nD) : (dat0 V c).arrAt 3 cfg0.N
    = nrmOf (V c (Pipeline.arrRef spec0 0)) (V c (Pipeline.arrRef spec0 1)) (V c (Pipeline.arrRef spec0 2)) :=
  (dat0 V c).arrAt_eq_of_cover 3 _ (fun t _ => flushed_nrm V c t) cover3

/-- The length column after the stage. -/
theorem final_len (c : Dev nD) : (dat0 V c).arrAt 4 cfg0.N
    = lenOf (V c (Pipeline.arrRef spec0 0)) (V c (Pipeline.arrRef spec0 1)) (V c (Pipeline.arrRef spec0 2)) :=
  (dat0 V c).arrAt_eq_of_cover 4 _ (fun t _ => flushed_len V c t) cover4

end Cert.KernelIdeal.NodeStage1

end
-- ==== Proof.EdgeStage1.lean ====
/-
  The first layer's per-edge gate stage, read off the blocks: a grid of 340 points, point t holding rows
  5000·t … 5000·t + 4999 of the two gathered endpoint arrays and of the gathered factor column. Point t writes back, for
  each of its rows e and each column c, the inner product of row e of the two endpoint arrays, times the factor of row e,
  times entry (e, c) of the first endpoint array. Since each point's block is the restriction of one function of the
  whole arrays to its rows, and the 340 blocks tile the 1700000 rows, the output array ends as that function of the
  arrays the stage was entered with.
-/
import proofs.«154407_j62689342652829_2_alg».proof.Proof.Gen.KernelIdeal.Frame
import proofs.«154407_j62689342652829_2_alg».proof.Proof.GnnSpec
import proofs.«154407_j62689342652829_2_alg».proof.Proof.LibGateSpell
import Idealize.ShloMosaic.Lib.Pipeline.Value
import Idealize.ShloMosaic.Lib.ValueIdx

set_option maxRecDepth 16384

noncomputable section

namespace Cert.KernelIdeal.EdgeStage1

open Cert.KernelIdeal Cert.KernelIdeal.Gen Idealize.ShloMosaic Idealize.ShloMosaic.ValueIdx Idealize.ShloMosaic.TcCoe
open Idealize.SL.Sem
open Idealize.ShloMosaic.Pipeline (Dat)
open Cert.GnnSpec

/-! ## The body's stored value at an entry -/

/-- The stored product at (y, q): the inner product of rows y of the two endpoint blocks, times the factor of row y,
    times entry (y, q) of the first endpoint block. -/
theorem pay_gate (x0 x1 : Vec Ideal S5000x64 .f32) (x2 : Vec Ideal S5000x1 .f32) (y : Fin 5000) (q : Fin 64) :
    k1_pay1 x0 x1 x2 x0 (ix2 y q)
      = ((∑ k : Fin 64, x0 (ix2 y k) * x1 (ix2 y k)) * x2 (ix2 y (0 : Fin 1))) * x0 (ix2 y q) :=
  Cert.LibGateSpell.kGate_apply x0 x1 x0 x2 shapeCasts_S5000x64_S5000x64 shapeCasts_S5000x1_S5000x1
    reduces_S5000x64_S5000 (.inl rfl) rfl shapeCasts_S5000_S5000x1 broadcasts_S5000x1_S5000x64 y q

/-! ## The blocks -/

theorem hz : (![0, 0] : Fin 2 → Nat) = fun _ => 0 := funext fun a => by fin_cases a <;> rfl

/-- The printed index maps over the grid: every window's row-blocks start at block t, its columns at block 0. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- The grid has 340 points. -/
theorem t_lt (t : Fin cfg1.N) : t.val < 340 :=
  lt_of_lt_of_eq t.isLt (show cfg1.N = 340 from N_1)

/-- The gate at (p, q) is read off rows p alone: if row y of three blocks agrees, entry by entry, with row p of three
    arrays, the gate expression of row y of the blocks at column q is the gate of the arrays at (p, q). -/
theorem gate_congr {E M : ℕ} (a0 a1 : FVec Ideal ⟨2, ![5000, M]⟩ .f32) (a2 : FVec Ideal ⟨2, ![5000, 1]⟩ .f32)
    (b0 b1 : (⟨2, ![E, M]⟩ : Shape).Idx → EReal) (b2 : (⟨2, ![E, 1]⟩ : Shape).Idx → EReal)
    (y : Fin 5000) (p : Fin E) (q : Fin M)
    (h0 : ∀ k : Fin M, a0 (ix2 y k) = b0 (ix2 p k)) (h1 : ∀ k : Fin M, a1 (ix2 y k) = b1 (ix2 p k))
    (h2 : a2 (ix2 y (0 : Fin 1)) = b2 (ix2 p (0 : Fin 1))) :
    ((∑ k : Fin M, a0 (ix2 y k) * a1 (ix2 y k)) * a2 (ix2 y (0 : Fin 1))) * a0 (ix2 y q) = gateOf b0 b1 b2 (ix2 p q) := by
  show _ = ((∑ k : Fin M, b0 (ix2 p k) * b1 (ix2 p k)) * b2 (ix2 p (0 : Fin 1))) * b0 (ix2 p q)
  have hs : (∑ k : Fin M, a0 (ix2 y k) * a1 (ix2 y k)) = ∑ k : Fin M, b0 (ix2 p k) * b1 (ix2 p k) :=
    Finset.sum_congr rfl fun k _ => by rw [h0 k, h1 k]
  rw [hs, h2, h0 q]

variable (V : (c : Dev nD) → (b : Ref sig .tc) → Buf (Elt Ideal) ((c : Thread nD τ).loc b))

/-- Entry (y, k) of point t's block of the first endpoint array is entry (5000·t + y, k) of the array. -/
theorem blk0 (c : Dev nD) (t : Fin cfg1.N) (y : Fin 5000) (k : Fin 64) (p : Fin 1700000) (hp : p.val = t.val * 5000 + y.val) :
    (iblk1 V c 0 t : Vec Ideal S5000x64 .f32) (ix2 y k) = V c (Pipeline.arrRef spec1 0) (ix2 p k) := by
  obtain ⟨e00, e01, -, -, -, -, -, -⟩ := idx_facts t
  show V c (Pipeline.arrRef spec1 0) (((cfg1.win 0).blk t).view.emb (ix2 y k)) = V c (Pipeline.arrRef spec1 0) (ix2 p k)
  refine congrArg _ (funext fun a => Fin.ext ?_)
  match a with
  | ⟨0, _⟩ => show win1_0.index t (0 : Fin 2) * 5000 + 1 * y.val = p.val; omega
  | ⟨1, _⟩ => show win1_0.index t (1 : Fin 2) * 64 + 1 * k.val = k.val; omega

/-- Entry (y, k) of point t's block of the second endpoint array is entry (5000·t + y, k) of the array. -/
theorem blk1 (c : Dev nD) (t : Fin cfg1.N) (y : Fin 5000) (k : Fin 64) (p : Fin 1700000) (hp : p.val = t.val * 5000 + y.val) :
    (iblk1 V c 1 t : Vec Ideal S5000x64 .f32) (ix2 y k) = V c (Pipeline.arrRef spec1 1) (ix2 p k) := by
  obtain ⟨-, -, e10, e11, -, -, -, -⟩ := idx_facts t
  show V c (Pipeline.arrRef spec1 1) (((cfg1.win 1).blk t).view.emb (ix2 y k)) = V c (Pipeline.arrRef spec1 1) (ix2 p k)
  refine congrArg _ (funext fun a => Fin.ext ?_)
  match a with
  | ⟨0, _⟩ => show win1_1.index t (0 : Fin 2) * 5000 + 1 * y.val = p.val; omega
  | ⟨1, _⟩ => show win1_1.index t (1 : Fin 2) * 64 + 1 * k.val = k.val; omega

/-- Entry (y, u) of point t's block of the factor column is entry (5000·t + y, u) of the column. -/
theorem blk2 (c : Dev nD) (t : Fin cfg1.N) (y : Fin 5000) (u : Fin 1) (p : Fin 1700000) (hp : p.val = t.val * 5000 + y.val) :
    (iblk1 V c 2 t : Vec Ideal S5000x1 .f32) (ix2 y u) = V c (Pipeline.arrRef spec1 2) (ix2 p u) := by
  obtain ⟨-, -, -, -, e20, e21, -, -⟩ := idx_facts t
  show V c (Pipeline.arrRef spec1 2) (((cfg1.win 2).blk t).view.emb (ix2 y u)) = V c (Pipeline.arrRef spec1 2) (ix2 p u)
  refine congrArg _ (funext fun a => Fin.ext ?_)
  match a with
  | ⟨0, _⟩ => show win1_2.index t (0 : Fin 2) * 5000 + 1 * y.val = p.val; omega
  | ⟨1, _⟩ => show win1_2.index t (1 : Fin 2) * 1 + 1 * u.val = u.val; omega

/-- WHAT POINT t WRITES BACK to the output array is its block of the stage's function of the whole arrays. -/
theorem flushed_gate (c : Dev nD) (t : Fin cfg1.N) :
    (dat1 V c).flushed 3 t = ((cfg1.win 3).blk t).view.read (Elt Ideal)
      (gateOf (V c (Pipeline.arrRef spec1 0)) (V c (Pipeline.arrRef spec1 1)) (V c (Pipeline.arrRef spec1 2))) := by
  show (cfg1.win 3).cut (grid1.coords t) ((dat1 V c).after 3 t) = _
  rw [after1_3]
  unfold out1_3
  rw [View.canon_unit_zero hz]
  simp only [View.ld_unit_zero (S := S5000x64) hz, View.ld_unit_zero (S := S5000x1) hz]
  obtain ⟨-, -, -, -, -, -, e30, e31⟩ := idx_facts t
  have ht := t_lt t
  funext j
  obtain ⟨y, q, rfl⟩ : ∃ (y : Fin 5000) (q : Fin 64), j = ix2 y q := ⟨j 0, j 1, eq_ix2 j⟩
  refine (pay_gate (iblk1 V c 0 t) (iblk1 V c 1 t) (iblk1 V c 2 t) y q).trans ?_
  have hy : y.val < 5000 := y.isLt
  have he : ((cfg1.win 3).blk t).view.emb (ix2 y q) = ix2 (⟨t.val * 5000 + y.val, by omega⟩ : Fin 1700000) q :=
    funext fun a => Fin.ext (by
      match a with
      | ⟨0, _⟩ => show win1_3.index t (0 : Fin 2) * 5000 + 1 * y.val = t.val * 5000 + y.val; omega
      | ⟨1, _⟩ => show win1_3.index t (1 : Fin 2) * 64 + 1 * q.val = q.val; omega)
  show _ = gateOf (V c (Pipeline.arrRef spec1 0)) (V c (Pipeline.arrRef spec1 1)) (V c (Pipeline.arrRef spec1 2))
    (((cfg1.win 3).blk t).view.emb (ix2 y q))
  exact (gate_congr (E := 1700000) (M := 64) (iblk1 V c 0 t) (iblk1 V c 1 t) (iblk1 V c 2 t)
      (V c (Pipeline.arrRef spec1 0)) (V c (Pipeline.arrRef spec1 1)) (V c (Pipeline.arrRef spec1 2))
      y ⟨t.val * 5000 + y.val, by omega⟩ q
      (fun k => blk0 V c t y k ⟨t.val * 5000 + y.val, by omega⟩ rfl)
      (fun k => blk1 V c t y k ⟨t.val * 5000 + y.val, by omega⟩ rfl)
      (blk2 V c t y (0 : Fin 1) ⟨t.val * 5000 + y.val, by omega⟩ rfl)).trans
    (congrArg (gateOf (V c (Pipeline.arrRef spec1 0)) (V c (Pipeline.arrRef spec1 1)) (V c (Pipeline.arrRef spec1 2))) he.symm)

/-! ## The blocks tile the array -/

theorem mem_blk3 (t : Fin cfg1.N) (i : S1700000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v39).slice (win1_3.rect t)).set ↔ _
  rw [View.set_slice_whole, Rect.mem_set_unit]
  exact Iff.rfl

/-- Row p lies in the block of point p / 5000. -/
theorem cover3 (i : S1700000x64.Idx) : ∃ t : Fin cfg1.N, (cfg1.win 3).flush t = true ∧ i ∈ ((cfg1.win 3).blk t).view.set := by
  have hi0 : (i 0).val < 1700000 := (i 0).isLt
  have hi1 : (i 1).val < 64 := (i 1).isLt
  have hN : (i 0).val / 5000 < cfg1.N := by rw [show cfg1.N = 340 from N_1]; omega
  obtain ⟨-, -, -, -, -, -, e30, e31⟩ := idx_facts ⟨(i 0).val / 5000, hN⟩
  have e30' : win1_3.index ⟨(i 0).val / 5000, hN⟩ (0 : Fin 2) = (i 0).val / 5000 := e30
  refine ⟨⟨(i 0).val / 5000, hN⟩, flush1_3 _, ?_⟩
  rw [mem_blk3]
  intro a
  match a with
  | ⟨0, _⟩ => show win1_3.index ⟨(i 0).val / 5000, hN⟩ (0 : Fin 2) * 5000 ≤ (i 0).val ∧ (i 0).val < win1_3.index ⟨(i 0).val / 5000, hN⟩ (0 : Fin 2) * 5000 + 5000; omega
  | ⟨1, _⟩ => show win1_3.index ⟨(i 0).val / 5000, hN⟩ (1 : Fin 2) * 64 ≤ (i 1).val ∧ (i 1).val < win1_3.index ⟨(i 0).val / 5000, hN⟩ (1 : Fin 2) * 64 + 64; omega

/-! ## The array after the stage -/

/-- The gated array after the stage, as a function of the arrays the stage was entered with. -/
theorem final_gate (c : Dev nD) : (dat1 V c).arrAt 3 cfg1.N
    = gateOf (V c (Pipeline.arrRef spec1 0)) (V c (Pipeline.arrRef spec1 1)) (V c (Pipeline.arrRef spec1 2)) :=
  (dat1 V c).arrAt_eq_of_cover 3 _ (fun t _ => flushed_gate V c t) cover3

end Cert.KernelIdeal.EdgeStage1

end
-- ==== Proof.LibMeanSpell.lean ====
/-
  The finishing stage of a scatter-mean layer, read at an entry, over the extended reals.

  After the neighbours' features have been summed into an [a, b] aggregate, the layer divides row p by the number of
  neighbours of p clamped below by one, adds a bias to every row, and ends with a clamp at zero or with a log-softmax
  along the rows. A kernel body spells the division as a product with a precomputed [a, 1] column of reciprocals and
  takes the bias as a [1, b] row, both broadcast over the block; a host program divides by the clamped counts, an [a]
  vector broadcast in two steps to [a, b], and broadcasts the [b] bias in two steps as well. Read at (p, c):

    kernel   agg (p, c) * inv (p, 0) + bias (0, c)
    host     agg (p, c) / max (cnt p) (ones p) + bias c

  and the reciprocal column, computed on the host as ones / max cnt ones and cast to a column, reads at (p, 0)
  ones p / max (cnt p) (ones p). The host's log-softmax along axis 1, spelt as a maximum reduction from negative
  infinity, a further maximum with negative infinity, a subtraction, an exponential, a sum from zero, a logarithm and
  a second subtraction, reads at (p, c) the log-softmax of row p at column c.
-/
import proofs.«154407_j62689342652829_2_alg».proof.Proof.LibKeepdims
import proofs.«154407_j62689342652829_2_alg».proof.Proof.LibLsmRow
import proofs.«154407_j62689342652829_2_alg».proof.Proof.LibDenseLayer
import proofs.«154407_j62689342652829_2_alg».proof.Proof.LibSageRow
import Idealize.ShloMosaic.PureOps.Ideal
import Idealize.ShloMosaic.PureOps.Ideal.Laws
import Idealize.ShloMosaic.Lib.ValueLayout
import Idealize.ShloMosaic.Lib.Pipeline.Value
import Idealize.ShloMosaic.Lib.ValueIdx

noncomputable section

namespace Cert.LibMeanSpell

open Idealize.ShloMosaic Idealize.ShloMosaic.ValueIdx

/-! ## Two-step broadcasts along named axes, read at an entry -/

section Broadcasts

variable {α : Type} {a b : ℕ}

/-- An [a] vector placed along axis 0 of an [a, 1] column reads, at (p, u), the vector at p. -/
theorem bid_a_a1_apply (v : (⟨1, ![a]⟩ : Shape).Idx → α) (d0 : (⟨1, ![a]⟩ : Shape).BroadcastsInDim ⟨2, ![a, 1]⟩ ![0])
    (p : Fin a) (u : Fin 1) : broadcastInDim ⟨2, ![a, 1]⟩ ![0] d0 v (ix2 p u) = v (ix1 p) :=
  broadcastInDim_apply _ d0 v (ix2 p u) (ix1 p) (fun ax => match ax with
    | ⟨0, _⟩ => by show p.val = if a = 1 then 0 else p.val; exact Cert.LibDenseLayer.val_eq_ite p)

/-- An [a, 1] column broadcast along both axes to [a, b] reads, at (p, c), the column at (p, 0). -/
theorem bid_a1_ab_apply (v : (⟨2, ![a, 1]⟩ : Shape).Idx → α) (d1 : (⟨2, ![a, 1]⟩ : Shape).BroadcastsInDim ⟨2, ![a, b]⟩ ![0, 1])
    (p : Fin a) (c : Fin b) : broadcastInDim ⟨2, ![a, b]⟩ ![0, 1] d1 v (ix2 p c) = v (ix2 p (0 : Fin 1)) :=
  broadcastInDim_apply _ d1 v (ix2 p c) (ix2 p (0 : Fin 1)) (fun ax => match ax with
    | ⟨0, _⟩ => by show p.val = if a = 1 then 0 else p.val; exact Cert.LibDenseLayer.val_eq_ite p
    | ⟨1, _⟩ => by show (0 : ℕ) = if (1 : ℕ) = 1 then 0 else _; rw [if_pos rfl])

/-- A [b] vector placed along axis 1 of a [1, b] row reads, at (u, c), the vector at c. -/
theorem bid_b_1b_apply (v : (⟨1, ![b]⟩ : Shape).Idx → α) (e1 : (⟨1, ![b]⟩ : Shape).BroadcastsInDim ⟨2, ![1, b]⟩ ![1])
    (u : Fin 1) (c : Fin b) : broadcastInDim ⟨2, ![1, b]⟩ ![1] e1 v (ix2 u c) = v (ix1 c) :=
  broadcastInDim_apply _ e1 v (ix2 u c) (ix1 c) (fun ax => match ax with
    | ⟨0, _⟩ => by show c.val = if b = 1 then 0 else c.val; exact Cert.LibDenseLayer.val_eq_ite c)

/-- A [1, b] row broadcast along both axes to [a, b] reads, at (p, c), the row at (0, c). -/
theorem bid_1b_ab_apply (v : (⟨2, ![1, b]⟩ : Shape).Idx → α) (e2 : (⟨2, ![1, b]⟩ : Shape).BroadcastsInDim ⟨2, ![a, b]⟩ ![0, 1])
    (p : Fin a) (c : Fin b) : broadcastInDim ⟨2, ![a, b]⟩ ![0, 1] e2 v (ix2 p c) = v (ix2 (0 : Fin 1) c) :=
  broadcastInDim_apply _ e2 v (ix2 p c) (ix2 (0 : Fin 1) c) (fun ax => match ax with
    | ⟨0, _⟩ => by show (0 : ℕ) = if (1 : ℕ) = 1 then 0 else _; rw [if_pos rfl]
    | ⟨1, _⟩ => by show c.val = if b = 1 then 0 else c.val; exact Cert.LibDenseLayer.val_eq_ite c)

/-- An [a] vector broadcast in two steps to [a, b] reads, at (p, c), the vector at p. -/
theorem bid_a_ab_apply (v : (⟨1, ![a]⟩ : Shape).Idx → α) (d0 : (⟨1, ![a]⟩ : Shape).BroadcastsInDim ⟨2, ![a, 1]⟩ ![0])
    (d1 : (⟨2, ![a, 1]⟩ : Shape).BroadcastsInDim ⟨2, ![a, b]⟩ ![0, 1]) (p : Fin a) (c : Fin b) :
    broadcastInDim ⟨2, ![a, b]⟩ ![0, 1] d1 (broadcastInDim ⟨2, ![a, 1]⟩ ![0] d0 v) (ix2 p c) = v (ix1 p) :=
  (bid_a1_ab_apply _ d1 p c).trans (bid_a_a1_apply v d0 p 0)

/-- A [b] vector broadcast in two steps to [a, b] reads, at (p, c), the vector at c. -/
theorem bid_b_ab_apply (v : (⟨1, ![b]⟩ : Shape).Idx → α) (e1 : (⟨1, ![b]⟩ : Shape).BroadcastsInDim ⟨2, ![1, b]⟩ ![1])
    (e2 : (⟨2, ![1, b]⟩ : Shape).BroadcastsInDim ⟨2, ![a, b]⟩ ![0, 1]) (p : Fin a) (c : Fin b) :
    broadcastInDim ⟨2, ![a, b]⟩ ![0, 1] e2 (broadcastInDim ⟨2, ![1, b]⟩ ![1] e1 v) (ix2 p c) = v (ix1 c) :=
  (bid_1b_ab_apply _ e2 p c).trans (bid_b_1b_apply v e1 0 c)

end Broadcasts

variable {a b : ℕ}

/-! ## The kernel's spelling -/

/-- The kernel's pre-activation: the aggregate times the reciprocal-count column broadcast over the lanes, plus the
    bias row broadcast over the rows. -/
def kPre (agg : FVec Ideal ⟨2, ![a, b]⟩ .f32) (inv : FVec Ideal ⟨2, ![a, 1]⟩ .f32) (bias : FVec Ideal ⟨2, ![1, b]⟩ .f32)
    (hAA : (⟨2, ![a, b]⟩ : Shape).ShapeCasts ⟨2, ![a, b]⟩) (hII : (⟨2, ![a, 1]⟩ : Shape).ShapeCasts ⟨2, ![a, 1]⟩)
    (hBB : (⟨2, ![1, b]⟩ : Shape).ShapeCasts ⟨2, ![1, b]⟩) (hb1 : (⟨2, ![a, 1]⟩ : Shape).Broadcasts ⟨2, ![a, b]⟩)
    (hb2 : (⟨2, ![1, b]⟩ : Shape).Broadcasts ⟨2, ![a, b]⟩) : FVec Ideal ⟨2, ![a, b]⟩ .f32 :=
  addf (mulf (shapeCast ⟨2, ![a, b]⟩ agg hAA) (broadcastTo ⟨2, ![a, b]⟩ (shapeCast ⟨2, ![a, 1]⟩ inv hII) hb1))
    (broadcastTo ⟨2, ![a, b]⟩ (shapeCast ⟨2, ![1, b]⟩ bias hBB) hb2)

/-- The kernel's pre-activation at (p, c): the aggregate at (p, c) times the reciprocal count of row p, plus the
    bias at c. -/
theorem kPre_apply (agg : FVec Ideal ⟨2, ![a, b]⟩ .f32) (inv : FVec Ideal ⟨2, ![a, 1]⟩ .f32) (bias : FVec Ideal ⟨2, ![1, b]⟩ .f32)
    (hAA : (⟨2, ![a, b]⟩ : Shape).ShapeCasts ⟨2, ![a, b]⟩) (hII : (⟨2, ![a, 1]⟩ : Shape).ShapeCasts ⟨2, ![a, 1]⟩)
    (hBB : (⟨2, ![1, b]⟩ : Shape).ShapeCasts ⟨2, ![1, b]⟩) (hb1 : (⟨2, ![a, 1]⟩ : Shape).Broadcasts ⟨2, ![a, b]⟩)
    (hb2 : (⟨2, ![1, b]⟩ : Shape).Broadcasts ⟨2, ![a, b]⟩) (p : Fin a) (c : Fin b) :
    kPre agg inv bias hAA hII hBB hb1 hb2 (ix2 p c)
      = agg (ix2 p c) * inv (ix2 p (0 : Fin 1)) + bias (ix2 (0 : Fin 1) c) := by
  unfold kPre
  rw [shapeCast_self, shapeCast_self, shapeCast_self, addf_apply, mulf_apply,
    Cert.LibKeepdims.broadcastTo_a1_ab_apply, broadcastTo_1b_ab_apply]

/-- The kernel's clamp at zero of the pre-activation, at (p, c). -/
theorem kRelu_apply (agg : FVec Ideal ⟨2, ![a, b]⟩ .f32) (inv : FVec Ideal ⟨2, ![a, 1]⟩ .f32) (bias : FVec Ideal ⟨2, ![1, b]⟩ .f32)
    (hAA : (⟨2, ![a, b]⟩ : Shape).ShapeCasts ⟨2, ![a, b]⟩) (hII : (⟨2, ![a, 1]⟩ : Shape).ShapeCasts ⟨2, ![a, 1]⟩)
    (hBB : (⟨2, ![1, b]⟩ : Shape).ShapeCasts ⟨2, ![1, b]⟩) (hb1 : (⟨2, ![a, 1]⟩ : Shape).Broadcasts ⟨2, ![a, b]⟩)
    (hb2 : (⟨2, ![1, b]⟩ : Shape).Broadcasts ⟨2, ![a, b]⟩) (p : Fin a) (c : Fin b) :
    maximumf (kPre agg inv bias hAA hII hBB hb1 hb2) (broadcast ⟨2, ![a, b]⟩ (Scalar.ofBits .f32 0x00000000#32)) (ix2 p c)
      = max (agg (ix2 p c) * inv (ix2 p (0 : Fin 1)) + bias (ix2 (0 : Fin 1) c)) (Ideal.ofBits .f32 0x00000000#32) := by
  show max (kPre agg inv bias hAA hII hBB hb1 hb2 (ix2 p c)) (Ideal.ofBits .f32 0x00000000#32) = _
  rw [kPre_apply]

/-! ## The host's spelling -/

/-- The host's pre-activation: the aggregate divided by the counts clamped below by one, the [a] vector of clamped
    counts broadcast in two steps to [a, b], plus the [b] bias broadcast in two steps to [a, b]. -/
def hPre (agg : FVec Ideal ⟨2, ![a, b]⟩ .f32) (cnt ones : FVec Ideal ⟨1, ![a]⟩ .f32) (bias : FVec Ideal ⟨1, ![b]⟩ .f32)
    (d0 : (⟨1, ![a]⟩ : Shape).BroadcastsInDim ⟨2, ![a, 1]⟩ ![0])
    (d1 : (⟨2, ![a, 1]⟩ : Shape).BroadcastsInDim ⟨2, ![a, b]⟩ ![0, 1])
    (e1 : (⟨1, ![b]⟩ : Shape).BroadcastsInDim ⟨2, ![1, b]⟩ ![1])
    (e2 : (⟨2, ![1, b]⟩ : Shape).BroadcastsInDim ⟨2, ![a, b]⟩ ![0, 1]) : FVec Ideal ⟨2, ![a, b]⟩ .f32 :=
  addf (Host.divf agg (broadcastInDim ⟨2, ![a, b]⟩ ![0, 1] d1 (broadcastInDim ⟨2, ![a, 1]⟩ ![0] d0 (maximumf cnt ones))))
    (broadcastInDim ⟨2, ![a, b]⟩ ![0, 1] e2 (broadcastInDim ⟨2, ![1, b]⟩ ![1] e1 bias))

/-- The host's pre-activation at (p, c): the aggregate at (p, c) divided by the clamped count of row p, plus the
    bias at c. -/
theorem hPre_apply (agg : FVec Ideal ⟨2, ![a, b]⟩ .f32) (cnt ones : FVec Ideal ⟨1, ![a]⟩ .f32) (bias : FVec Ideal ⟨1, ![b]⟩ .f32)
    (d0 : (⟨1, ![a]⟩ : Shape).BroadcastsInDim ⟨2, ![a, 1]⟩ ![0])
    (d1 : (⟨2, ![a, 1]⟩ : Shape).BroadcastsInDim ⟨2, ![a, b]⟩ ![0, 1])
    (e1 : (⟨1, ![b]⟩ : Shape).BroadcastsInDim ⟨2, ![1, b]⟩ ![1])
    (e2 : (⟨2, ![1, b]⟩ : Shape).BroadcastsInDim ⟨2, ![a, b]⟩ ![0, 1]) (p : Fin a) (c : Fin b) :
    hPre agg cnt ones bias d0 d1 e1 e2 (ix2 p c)
      = Ideal.div (agg (ix2 p c)) (max (cnt (ix1 p)) (ones (ix1 p))) + bias (ix1 c) := by
  show Ideal.div (agg (ix2 p c))
        (broadcastInDim ⟨2, ![a, b]⟩ ![0, 1] d1 (broadcastInDim ⟨2, ![a, 1]⟩ ![0] d0 (maximumf cnt ones)) (ix2 p c))
      + broadcastInDim ⟨2, ![a, b]⟩ ![0, 1] e2 (broadcastInDim ⟨2, ![1, b]⟩ ![1] e1 bias) (ix2 p c) = _
  rw [bid_a_ab_apply, bid_b_ab_apply, maximumf_apply]

/-- The host's clamp at zero of the pre-activation, the zero a scalar broadcast to every entry, at (p, c). -/
theorem hRelu_apply (agg : FVec Ideal ⟨2, ![a, b]⟩ .f32) (cnt ones : FVec Ideal ⟨1, ![a]⟩ .f32) (bias : FVec Ideal ⟨1, ![b]⟩ .f32)
    (d0 : (⟨1, ![a]⟩ : Shape).BroadcastsInDim ⟨2, ![a, 1]⟩ ![0])
    (d1 : (⟨2, ![a, 1]⟩ : Shape).BroadcastsInDim ⟨2, ![a, b]⟩ ![0, 1])
    (e1 : (⟨1, ![b]⟩ : Shape).BroadcastsInDim ⟨2, ![1, b]⟩ ![1])
    (e2 : (⟨2, ![1, b]⟩ : Shape).BroadcastsInDim ⟨2, ![a, b]⟩ ![0, 1])
    (z0 : (⟨0, ![]⟩ : Shape).BroadcastsInDim ⟨2, ![a, b]⟩ ![]) (p : Fin a) (c : Fin b) :
    maximumf (hPre agg cnt ones bias d0 d1 e1 e2)
        (broadcastInDim ⟨2, ![a, b]⟩ ![] z0 (constant ⟨0, ![]⟩ .f32 0x00000000#32)) (ix2 p c)
      = max (hPre agg cnt ones bias d0 d1 e1 e2 (ix2 p c)) (Ideal.ofBits .f32 0x00000000#32) :=
  rfl

/-! ## The reciprocal-count column -/

/-- The reciprocals of the clamped counts, computed on the host and cast to a column, at (p, u): one over the
    clamped count of row p, the one being the entry of the vector of ones. -/
theorem invCol_apply (cnt ones : FVec Ideal ⟨1, ![a]⟩ .f32) (hc : (⟨1, ![a]⟩ : Shape).ShapeCasts ⟨2, ![a, 1]⟩)
    (p : Fin a) (u : Fin 1) :
    shapeCast ⟨2, ![a, 1]⟩ (Host.divf ones (maximumf cnt ones)) hc (ix2 p u)
      = Ideal.div (ones (ix1 p)) (max (cnt (ix1 p)) (ones (ix1 p))) := by
  rw [Cert.LibKeepdims.shapeCast_a_a1_apply]
  rfl

/-! ## The host's log-softmax along the rows -/

/-- The host's row maximum as it is used: the maximum reduction along axis 1 from negative infinity, its maximum
    with a broadcast negative infinity, broadcast in two steps back to [a, b]. At (p, c): the maximum of row p. -/
theorem hKeptMax_apply (z : FVec Ideal ⟨2, ![a, b]⟩ .f32) (hr' : (⟨2, ![a, b]⟩ : Shape).ReducesTo [1] ⟨1, ![a]⟩)
    (hr : (⟨2, ![a, b]⟩ : Shape).Reduces [1] ⟨1, ![a]⟩) (hS : 0 < (⟨0, ![]⟩ : Shape).numel)
    (f0 : (⟨0, ![]⟩ : Shape).BroadcastsInDim ⟨1, ![a]⟩ ![])
    (d0 : (⟨1, ![a]⟩ : Shape).BroadcastsInDim ⟨2, ![a, 1]⟩ ![0])
    (d1 : (⟨2, ![a, 1]⟩ : Shape).BroadcastsInDim ⟨2, ![a, b]⟩ ![0, 1]) (p : Fin a) (c : Fin b) :
    broadcastInDim ⟨2, ![a, b]⟩ ![0, 1] d1 (broadcastInDim ⟨2, ![a, 1]⟩ ![0] d0
        (maximumf (broadcastInDim ⟨1, ![a]⟩ ![] f0 (constant ⟨0, ![]⟩ .f32 0xFF800000#32))
          (Host.reduce (FloatOps.maximumf (F := Ideal) (φ := .f32)) z (constant ⟨0, ![]⟩ .f32 0xFF800000#32) hr' hS))) (ix2 p c)
      = Cert.LibLsmRow.rowMax (fun q => z (ix2 p q)) := by
  rw [bid_a_ab_apply]
  show max (Ideal.ofBits .f32 0xFF800000#32)
      (Host.reduce (FloatOps.maximumf (F := Ideal) (φ := .f32)) z (constant ⟨0, ![]⟩ .f32 0xFF800000#32) hr' hS (ix1 p)) = _
  rw [Cert.LibKeepdims.hostReduce_max_row z _ hr' hr hS p]
  exact Cert.LibLsmRow.max_negInf_rowMax (fun q => z (ix2 p q))

/-- The host's log-softmax along axis 1: the block less its kept row maximum, less the logarithm of the kept row sum
    of the exponentials of the block less its kept row maximum. -/
def hLsm (z : FVec Ideal ⟨2, ![a, b]⟩ .f32) (hr' : (⟨2, ![a, b]⟩ : Shape).ReducesTo [1] ⟨1, ![a]⟩)
    (hS : 0 < (⟨0, ![]⟩ : Shape).numel) (f0 : (⟨0, ![]⟩ : Shape).BroadcastsInDim ⟨1, ![a]⟩ ![])
    (d0 : (⟨1, ![a]⟩ : Shape).BroadcastsInDim ⟨2, ![a, 1]⟩ ![0])
    (d1 : (⟨2, ![a, 1]⟩ : Shape).BroadcastsInDim ⟨2, ![a, b]⟩ ![0, 1]) : FVec Ideal ⟨2, ![a, b]⟩ .f32 :=
  subf
    (subf z (broadcastInDim ⟨2, ![a, b]⟩ ![0, 1] d1 (broadcastInDim ⟨2, ![a, 1]⟩ ![0] d0
      (maximumf (broadcastInDim ⟨1, ![a]⟩ ![] f0 (constant ⟨0, ![]⟩ .f32 0xFF800000#32))
        (Host.reduce (FloatOps.maximumf (F := Ideal) (φ := .f32)) z (constant ⟨0, ![]⟩ .f32 0xFF800000#32) hr' hS)))))
    (broadcastInDim ⟨2, ![a, b]⟩ ![0, 1] d1 (Host.log (broadcastInDim ⟨2, ![a, 1]⟩ ![0] d0
      (Host.reduceAdd
        (Host.exp (subf z (broadcastInDim ⟨2, ![a, b]⟩ ![0, 1] d1 (broadcastInDim ⟨2, ![a, 1]⟩ ![0] d0
          (maximumf (broadcastInDim ⟨1, ![a]⟩ ![] f0 (constant ⟨0, ![]⟩ .f32 0xFF800000#32))
            (Host.reduce (FloatOps.maximumf (F := Ideal) (φ := .f32)) z (constant ⟨0, ![]⟩ .f32 0xFF800000#32) hr' hS))))))
        (constant ⟨0, ![]⟩ .f32 0x00000000#32) hr' hS))))

/-- The host's log-softmax along axis 1, at (p, c): the log-softmax of row p at column c. -/
theorem hLsm_apply (z : FVec Ideal ⟨2, ![a, b]⟩ .f32) (hr' : (⟨2, ![a, b]⟩ : Shape).ReducesTo [1] ⟨1, ![a]⟩)
    (hr : (⟨2, ![a, b]⟩ : Shape).Reduces [1] ⟨1, ![a]⟩) (hS : 0 < (⟨0, ![]⟩ : Shape).numel)
    (f0 : (⟨0, ![]⟩ : Shape).BroadcastsInDim ⟨1, ![a]⟩ ![])
    (d0 : (⟨1, ![a]⟩ : Shape).BroadcastsInDim ⟨2, ![a, 1]⟩ ![0])
    (d1 : (⟨2, ![a, 1]⟩ : Shape).BroadcastsInDim ⟨2, ![a, b]⟩ ![0, 1]) (p : Fin a) (c : Fin b) :
    hLsm z hr' hS f0 d0 d1 (ix2 p c) = Cert.LibLsmRow.lsmRow (fun q => z (ix2 p q)) c := by
  unfold hLsm
  rw [subf_apply, subf_apply, hKeptMax_apply z hr' hr hS f0 d0 d1 p c, bid_a1_ab_apply]
  show (z (ix2 p c) - Cert.LibLsmRow.rowMax fun q => z (ix2 p q))
      - Ideal.log (broadcastInDim (s := ⟨1, ![a]⟩) ⟨2, ![a, 1]⟩ ![0] d0 _ (ix2 p (0 : Fin 1))) = _
  rw [bid_a_a1_apply]
  show (z (ix2 p c) - Cert.LibLsmRow.rowMax fun q => z (ix2 p q))
      - Ideal.log (Ideal.hostReduceAdd hr' _ (Ideal.ofBits .f32 0x00000000#32) (ix1 p)) = _
  rw [Cert.LibKeepdims.hostReduceAdd_row hr' hr _ _ p, Ideal.ofBits_zero_f32, zero_add]
  unfold Cert.LibLsmRow.lsmRow
  refine congrArg (fun s => (z (ix2 p c) - Cert.LibLsmRow.rowMax fun q => z (ix2 p q)) - Ideal.log s)
    (Finset.sum_congr rfl fun k _ => ?_)
  show Ideal.exp (subf z _ (ix2 p k)) = _
  rw [subf_apply, hKeptMax_apply z hr' hr hS f0 d0 d1 p k]

end Cert.LibMeanSpell

end
-- ==== Proof.MeanStage1.lean ====
/-
  The first layer's finish, read off the blocks: a grid of 20 points, point t holding rows 5000·t … 5000·t + 4999 of the
  aggregate and of the per-node factor column; the bias row is whole at every point. Point t writes back, for each of its
  rows, the row's entries times the node's factor plus the bias, clamped below at zero. Since each point's block is the
  restriction of one function of the whole arrays to its rows, and the 20 blocks tile the 100000 rows, the output array
  ends as that function of the arrays the stage was entered with.
-/
import proofs.«154407_j62689342652829_2_alg».proof.Proof.Gen.KernelIdeal.Frame
import proofs.«154407_j62689342652829_2_alg».proof.Proof.GnnSpec
import proofs.«154407_j62689342652829_2_alg».proof.Proof.LibMeanSpell
import proofs.«154407_j62689342652829_2_alg».proof.Proof.LibLsmRow
import proofs.«154407_j62689342652829_2_alg».proof.Proof.LibKeepdims
import Idealize.ShloMosaic.Lib.Pipeline.Value
import Idealize.ShloMosaic.Lib.ValueIdx

set_option maxRecDepth 16384

noncomputable section

namespace Cert.KernelIdeal.MeanStage1

open Cert.KernelIdeal Cert.KernelIdeal.Gen Idealize.ShloMosaic Idealize.ShloMosaic.ValueIdx Idealize.ShloMosaic.TcCoe
open Idealize.SL.Sem
open Idealize.ShloMosaic.Pipeline (Dat)
open Cert.GnnSpec

/-! ## The body's stored value at an entry -/

/-- The stored value at (y, q): the aggregate at (y, q) times the factor of row y, plus the bias at q, clamped below at zero. -/
theorem pay_relu (x0 : Vec Ideal S5000x64 .f32) (x1 : Vec Ideal S5000x1 .f32) (x2 : Vec Ideal S1x64 .f32) (y : Fin 5000) (q : Fin 64) :
    k2_pay1 x0 x1 x2 (ix2 y q)
      = max (x0 (ix2 y q) * x1 (ix2 y (0 : Fin 1)) + x2 (ix2 (0 : Fin 1) q)) (Ideal.ofBits .f32 0x00000000#32) :=
  Cert.LibMeanSpell.kRelu_apply x0 x1 x2 shapeCasts_S5000x64_S5000x64 shapeCasts_S5000x1_S5000x1 shapeCasts_S1x64_S1x64
    broadcasts_S5000x1_S5000x64 broadcasts_S1x64_S5000x64 y q

/-! ## The blocks -/

theorem hz : (![0, 0] : Fin 2 → Nat) = fun _ => 0 := funext fun a => by fin_cases a <;> rfl

/-- The printed index maps over the grid: point t's row-blocks start at block t, the bias row is block 0. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

variable (V : (c : Dev nD) → (b : Ref sig .tc) → Buf (Elt Ideal) ((c : Thread nD τ).loc b))

/-- Row y of point t's blocks gives the pre-activation row 5000·t + y of the whole arrays. -/
theorem rows_eq (c : Dev nD) (t : Fin cfg2.N) (y : Fin 5000) (p : Fin 100000) (hp : p.val = t.val * 5000 + y.val) :
    preRow (n := 5000) (M := 64) (iblk2 V c 0 t) (iblk2 V c 1 t) (iblk2 V c 2 t) y
      = preRow (n := 100000) (M := 64) (V c (Pipeline.arrRef spec2 0)) (V c (Pipeline.arrRef spec2 1)) (V c (Pipeline.arrRef spec2 2)) p := by
  obtain ⟨e00, e01, e10, e11, e20, e21, -, -⟩ := idx_facts t
  funext q'
  have h0 : (iblk2 V c 0 t (ix2 y q') : EReal) = V c (Pipeline.arrRef spec2 0) (ix2 p q') := by
    show V c (Pipeline.arrRef spec2 0) (((cfg2.win 0).blk t).view.emb (ix2 y q')) = V c (Pipeline.arrRef spec2 0) (ix2 p q')
    refine congrArg _ (funext fun a => Fin.ext ?_)
    match a with
    | ⟨0, _⟩ => show win2_0.index t (0 : Fin 2) * 5000 + 1 * y.val = p.val; omega
    | ⟨1, _⟩ => show win2_0.index t (1 : Fin 2) * 64 + 1 * q'.val = q'.val; omega
  have h1 : (iblk2 V c 1 t (ix2 y (0 : Fin 1)) : EReal) = V c (Pipeline.arrRef spec2 1) (ix2 p (0 : Fin 1)) := by
    show V c (Pipeline.arrRef spec2 1) (((cfg2.win 1).blk t).view.emb (ix2 y (0 : Fin 1))) = V c (Pipeline.arrRef spec2 1) (ix2 p (0 : Fin 1))
    refine congrArg _ (funext fun a => Fin.ext ?_)
    match a with
    | ⟨0, _⟩ => show win2_1.index t (0 : Fin 2) * 5000 + 1 * y.val = p.val; omega
    | ⟨1, _⟩ => show win2_1.index t (1 : Fin 2) * 1 + 1 * 0 = 0; omega
  have h2 : (iblk2 V c 2 t (ix2 (0 : Fin 1) q') : EReal) = V c (Pipeline.arrRef spec2 2) (ix2 (0 : Fin 1) q') := by
    show V c (Pipeline.arrRef spec2 2) (((cfg2.win 2).blk t).view.emb (ix2 (0 : Fin 1) q')) = V c (Pipeline.arrRef spec2 2) (ix2 (0 : Fin 1) q')
    refine congrArg _ (funext fun a => Fin.ext ?_)
    match a with
    | ⟨0, _⟩ => show win2_2.index t (0 : Fin 2) * 1 + 1 * 0 = 0; omega
    | ⟨1, _⟩ => show win2_2.index t (1 : Fin 2) * 64 + 1 * q'.val = q'.val; omega
  exact congrArg₂ (fun s b : EReal => s + b) (congrArg₂ (fun u v : EReal => u * v) h0 h1) h2

/-- WHAT POINT t WRITES BACK is its block of the stage's function of the whole arrays. -/
theorem flushed_relu (c : Dev nD) (t : Fin cfg2.N) :
    (dat2 V c).flushed 3 t = ((cfg2.win 3).blk t).view.read (Elt Ideal)
      (meanReluOf (V c (Pipeline.arrRef spec2 0)) (V c (Pipeline.arrRef spec2 1)) (V c (Pipeline.arrRef spec2 2))) := by
  show (cfg2.win 3).cut (grid2.coords t) ((dat2 V c).after 3 t) = _
  rw [after2_3]
  unfold out2_3
  rw [View.canon_unit_zero hz]
  simp only [View.ld_unit_zero (S := S5000x64) hz, View.ld_unit_zero (S := S5000x1) hz, View.ld_unit_zero (S := S1x64) hz]
  obtain ⟨-, -, -, -, -, -, e30, e31⟩ := idx_facts t
  funext j
  obtain ⟨y, q, rfl⟩ : ∃ (y : Fin 5000) (q : Fin 64), j = ix2 y q := ⟨j 0, j 1, eq_ix2 j⟩
  refine (pay_relu (iblk2 V c 0 t) (iblk2 V c 1 t) (iblk2 V c 2 t) y q).trans ?_
  show _ = max (preRow (n := 100000) (M := 64) _ _ _ ((((cfg2.win 3).blk t).view.emb (ix2 y q)) 0) ((((cfg2.win 3).blk t).view.emb (ix2 y q)) 1)) (Ideal.ofBits .f32 0x00000000#32)
  have hq : (((cfg2.win 3).blk t).view.emb (ix2 y q)) 1 = q :=
    Fin.ext (by show win2_3.index t (1 : Fin 2) * 64 + 1 * q.val = q.val; omega)
  rw [hq]
  exact congrArg (fun z : Fin 64 → EReal => max (z q) (Ideal.ofBits .f32 0x00000000#32))
    (rows_eq V c t y _ (by show win2_3.index t (0 : Fin 2) * 5000 + 1 * y.val = t.val * 5000 + y.val; omega))

/-! ## The blocks tile the array -/

theorem mem_blk3 (t : Fin cfg2.N) (i : S100000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v44).slice (win2_3.rect t)).set ↔ _
  rw [View.set_slice_whole, Rect.mem_set_unit]
  exact Iff.rfl

/-- Row p lies in the block of point p / 5000. -/
theorem cover3 (i : S100000x64.Idx) : ∃ t : Fin cfg2.N, (cfg2.win 3).flush t = true ∧ i ∈ ((cfg2.win 3).blk t).view.set := by
  have hi0 : (i 0).val < 100000 := (i 0).isLt
  have hi1 : (i 1).val < 64 := (i 1).isLt
  have hN : (i 0).val / 5000 < cfg2.N := by rw [show cfg2.N = 20 from N_2]; omega
  obtain ⟨-, -, -, -, -, -, e30, e31⟩ := idx_facts ⟨(i 0).val / 5000, hN⟩
  have e30' : win2_3.index ⟨(i 0).val / 5000, hN⟩ (0 : Fin 2) = (i 0).val / 5000 := e30
  refine ⟨⟨(i 0).val / 5000, hN⟩, flush2_3 _, ?_⟩
  rw [mem_blk3]
  intro a
  match a with
  | ⟨0, _⟩ => show win2_3.index ⟨(i 0).val / 5000, hN⟩ (0 : Fin 2) * 5000 ≤ (i 0).val ∧ (i 0).val < win2_3.index ⟨(i 0).val / 5000, hN⟩ (0 : Fin 2) * 5000 + 5000; omega
  | ⟨1, _⟩ => show win2_3.index ⟨(i 0).val / 5000, hN⟩ (1 : Fin 2) * 64 ≤ (i 1).val ∧ (i 1).val < win2_3.index ⟨(i 0).val / 5000, hN⟩ (1 : Fin 2) * 64 + 64; omega

/-! ## The array after the stage -/

/-- The output array after the stage, as a function of the arrays the stage was entered with. -/
theorem final_relu (c : Dev nD) : (dat2 V c).arrAt 3 cfg2.N
    = meanReluOf (V c (Pipeline.arrRef spec2 0)) (V c (Pipeline.arrRef spec2 1)) (V c (Pipeline.arrRef spec2 2)) :=
  (dat2 V c).arrAt_eq_of_cover 3 _ (fun t _ => flushed_relu V c t) cover3

end Cert.KernelIdeal.MeanStage1

end
-- ==== Proof.NodeStage2.lean ====
/-
  The second layer's linear stage, read off the blocks: a grid of 20 points, point t holding rows 5000·t … 5000·t + 4999
  of the node features; the weights and the bias row are whole at every point. Point t writes back, for each of its rows,
  the row x·W + b divided by its clamped length, and that clamped length. Since each point's block is the restriction of
  one function of the whole arrays to its rows, and the 20 blocks tile the 100000 rows, the two output arrays end as those
  functions of the arrays the stage was entered with.
-/
import proofs.«154407_j62689342652829_2_alg».proof.Proof.Gen.KernelIdeal.Frame
import proofs.«154407_j62689342652829_2_alg».proof.Proof.GnnSpec
import proofs.«154407_j62689342652829_2_alg».proof.Proof.LibNormRows
import proofs.«154407_j62689342652829_2_alg».proof.Proof.LibDenseLayer
import proofs.«154407_j62689342652829_2_alg».proof.Proof.LibKeepdims
import proofs.«154407_j62689342652829_2_alg».proof.Proof.LibGateSpell
import Idealize.ShloMosaic.Lib.Pipeline.Value
import Idealize.ShloMosaic.Lib.ValueIdx

set_option maxRecDepth 16384

noncomputable section

namespace Cert.KernelIdeal.NodeStage2

open Cert.KernelIdeal Cert.KernelIdeal.Gen Idealize.ShloMosaic Idealize.ShloMosaic.ValueIdx Idealize.ShloMosaic.TcCoe
open Idealize.SL.Sem
open Idealize.ShloMosaic.Pipeline (Dat)
open Cert.GnnSpec

/-! ## The body's stored values at an entry -/

/-- Row y of the body's x·W + b is the affine row of row y of the block. -/
theorem lin_row (x0 : Vec Ideal S5000x64 .f32) (x1 : Vec Ideal S64x40 .f32) (x2 : Vec Ideal S1x40 .f32) (y : Fin 5000) :
    (fun c' : Fin 40 => k3_pay1 x0 x1 x2 (ix2 y c')) = linRow x0 x1 x2 y :=
  (Cert.LibDenseLayer.row_kAffine dot_S5000x64_S64x40_S5000x40_1_0_0_1_n_n ⟨rfl, rfl, rfl, rfl, rfl, rfl⟩
    (truncf .bf16 (shapeCast S5000x64 x0 shapeCasts_S5000x64_S5000x64) bitsLt_bf16_f32) x1 x2 bitsLt_bf16_f32
    shapeCasts_S1x40_S1x40 broadcasts_S1x40_S5000x40 y).trans
    (congrArg (fun X : Vec Ideal S5000x64 .f32 => linRow X x1 x2 y) (shapeCast_self x0 shapeCasts_S5000x64_S5000x64))

/-- The stored quotient at (y, q): entry q of the normalised row y. -/
theorem pay_nrm (x0 : Vec Ideal S5000x64 .f32) (x1 : Vec Ideal S64x40 .f32) (x2 : Vec Ideal S1x40 .f32) (y : Fin 5000) (q : Fin 40) :
    k3_pay3 x0 x1 x2 (ix2 y q) = Cert.LibSageRow.unit (linRow x0 x1 x2 y) eps q :=
  (Cert.LibNormRows.unit_apply (k3_pay1 x0 x1 x2) reduces_S5000x40_S5000 (.inl rfl) rfl shapeCasts_S5000_S5000x1
      broadcasts_S5000x1_S5000x40 (Scalar.ofBits .f32 0x2B8CBCCC#32) y q).trans
    (congrArg (fun z => Cert.LibSageRow.unit z eps q) (lin_row x0 x1 x2 y))

/-- The stored divisor at (y, u): the clamped length of row y. -/
theorem pay_len (x0 : Vec Ideal S5000x64 .f32) (x1 : Vec Ideal S64x40 .f32) (x2 : Vec Ideal S1x40 .f32) (y : Fin 5000) (u : Fin 1) :
    k3_pay2 x0 x1 x2 (ix2 y u) = rowLen (linRow x0 x1 x2 y) eps :=
  (Cert.LibGateSpell.kLen_apply (k3_pay1 x0 x1 x2) reduces_S5000x40_S5000 (.inl rfl) rfl shapeCasts_S5000_S5000x1
      (Scalar.ofBits .f32 0x2B8CBCCC#32) y u).trans
    (congrArg (fun z : Fin 40 → EReal => rowLen z eps) (lin_row x0 x1 x2 y))

/-! ## The blocks -/

theorem hz : (![0, 0] : Fin 2 → Nat) = fun _ => 0 := funext fun a => by fin_cases a <;> rfl

/-- The printed index maps over the grid: point t's row-blocks start at block t, everything else at block 0. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0 :=
  (by decide +kernel : ∀ t : Fin grid3.N, _)

variable (V : (c : Dev nD) → (b : Ref sig .tc) → Buf (Elt Ideal) ((c : Thread nD τ).loc b))

/-- Row y of point t's block of features is row 5000·t + y of the array, wherever the output block's row sits. -/
theorem rows_eq (c : Dev nD) (t : Fin cfg3.N) (y : Fin 5000) (p : Fin 100000) (hp : p.val = t.val * 5000 + y.val) :
    linRow (iblk3 V c 0 t) (iblk3 V c 1 t) (iblk3 V c 2 t) y
      = linRow (V c (Pipeline.arrRef spec3 0)) (V c (Pipeline.arrRef spec3 1)) (V c (Pipeline.arrRef spec3 2)) p := by
  obtain ⟨e00, e01, e10, e11, e20, e21, -, -, -, -⟩ := idx_facts t
  have h0 : Cert.LibDenseLayer.row (iblk3 V c 0 t) y = Cert.LibDenseLayer.row (V c (Pipeline.arrRef spec3 0)) p := by
    funext k
    show V c (Pipeline.arrRef spec3 0) (((cfg3.win 0).blk t).view.emb (ix2 y k)) = V c (Pipeline.arrRef spec3 0) (ix2 p k)
    refine congrArg _ (funext fun a => Fin.ext ?_)
    match a with
    | ⟨0, _⟩ => show win3_0.index t (0 : Fin 2) * 5000 + 1 * y.val = p.val; omega
    | ⟨1, _⟩ => show win3_0.index t (1 : Fin 2) * 64 + 1 * k.val = k.val; omega
  have h1 : Cert.LibDenseLayer.mat (iblk3 V c 1 t) = Cert.LibDenseLayer.mat (V c (Pipeline.arrRef spec3 1)) := by
    funext k q
    show V c (Pipeline.arrRef spec3 1) (((cfg3.win 1).blk t).view.emb (ix2 k q)) = V c (Pipeline.arrRef spec3 1) (ix2 k q)
    refine congrArg _ (funext fun a => Fin.ext ?_)
    match a with
    | ⟨0, _⟩ => show win3_1.index t (0 : Fin 2) * 64 + 1 * k.val = k.val; omega
    | ⟨1, _⟩ => show win3_1.index t (1 : Fin 2) * 40 + 1 * q.val = q.val; omega
  have h2 : Cert.LibDenseLayer.row (iblk3 V c 2 t) (0 : Fin 1) = Cert.LibDenseLayer.row (V c (Pipeline.arrRef spec3 2)) (0 : Fin 1) := by
    funext q
    show V c (Pipeline.arrRef spec3 2) (((cfg3.win 2).blk t).view.emb (ix2 (0 : Fin 1) q)) = V c (Pipeline.arrRef spec3 2) (ix2 (0 : Fin 1) q)
    refine congrArg _ (funext fun a => Fin.ext ?_)
    match a with
    | ⟨0, _⟩ => show win3_2.index t (0 : Fin 2) * 1 + 1 * 0 = 0; omega
    | ⟨1, _⟩ => show win3_2.index t (1 : Fin 2) * 40 + 1 * q.val = q.val; omega
  unfold linRow
  rw [h0, h1, h2]

/-- WHAT POINT t WRITES BACK to the normalised array is its block of the stage's function of the whole arrays. -/
theorem flushed_nrm (c : Dev nD) (t : Fin cfg3.N) :
    (dat3 V c).flushed 3 t = ((cfg3.win 3).blk t).view.read (Elt Ideal)
      (nrmOf (V c (Pipeline.arrRef spec3 0)) (V c (Pipeline.arrRef spec3 1)) (V c (Pipeline.arrRef spec3 2))) := by
  show (cfg3.win 3).cut (grid3.coords t) ((dat3 V c).after 3 t) = _
  rw [after3_3]
  unfold out3_3
  rw [View.canon_unit_zero hz]
  simp only [View.ld_unit_zero (S := S5000x64) hz, View.ld_unit_zero (S := S64x40) hz, View.ld_unit_zero (S := S1x40) hz]
  obtain ⟨-, -, -, -, -, -, e30, e31, -, -⟩ := idx_facts t
  funext j
  obtain ⟨y, q, rfl⟩ : ∃ (y : Fin 5000) (q : Fin 40), j = ix2 y q := ⟨j 0, j 1, eq_ix2 j⟩
  refine (pay_nrm (iblk3 V c 0 t) (iblk3 V c 1 t) (iblk3 V c 2 t) y q).trans ?_
  show _ = Cert.LibSageRow.unit (linRow _ _ _ ((((cfg3.win 3).blk t).view.emb (ix2 y q)) 0)) eps ((((cfg3.win 3).blk t).view.emb (ix2 y q)) 1)
  have hq : (((cfg3.win 3).blk t).view.emb (ix2 y q)) 1 = q :=
    Fin.ext (by show win3_3.index t (1 : Fin 2) * 40 + 1 * q.val = q.val; omega)
  rw [hq]
  exact congrArg (fun z => Cert.LibSageRow.unit z eps q)
    (rows_eq V c t y _ (by show win3_3.index t (0 : Fin 2) * 5000 + 1 * y.val = t.val * 5000 + y.val; omega))

/-- WHAT POINT t WRITES BACK to the length column is its block of the clamped row lengths. -/
theorem flushed_len (c : Dev nD) (t : Fin cfg3.N) :
    (dat3 V c).flushed 4 t = ((cfg3.win 4).blk t).view.read (Elt Ideal)
      (lenOf (V c (Pipeline.arrRef spec3 0)) (V c (Pipeline.arrRef spec3 1)) (V c (Pipeline.arrRef spec3 2))) := by
  show (cfg3.win 4).cut (grid3.coords t) ((dat3 V c).after 4 t) = _
  rw [after3_4]
  unfold out3_4
  rw [View.canon_unit_zero hz]
  simp only [View.ld_unit_zero (S := S5000x64) hz, View.ld_unit_zero (S := S64x40) hz, View.ld_unit_zero (S := S1x40) hz]
  obtain ⟨-, -, -, -, -, -, -, -, e40, e41⟩ := idx_facts t
  funext j
  obtain ⟨y, u, rfl⟩ : ∃ (y : Fin 5000) (u : Fin 1), j = ix2 y u := ⟨j 0, j 1, eq_ix2 j⟩
  refine (pay_len (iblk3 V c 0 t) (iblk3 V c 1 t) (iblk3 V c 2 t) y u).trans ?_
  show _ = rowLen (linRow _ _ _ ((((cfg3.win 4).blk t).view.emb (ix2 y u)) 0)) eps
  exact congrArg (fun z : Fin 40 → EReal => rowLen z eps)
    (rows_eq V c t y _ (by show win3_4.index t (0 : Fin 2) * 5000 + 1 * y.val = t.val * 5000 + y.val; omega))

/-! ## The blocks tile the arrays -/

theorem mem_blk3 (t : Fin cfg3.N) (i : S100000x40.Idx) :
    i ∈ ((cfg3.win 3).blk t).view.set ↔ ∀ a : Fin 2, win3_3.index t a * S5000x40.size a ≤ (i a).val ∧ (i a).val < win3_3.index t a * S5000x40.size a + S5000x40.size a := by
  show i ∈ ((View.whole main_v46_0).slice (win3_3.rect t)).set ↔ _
  rw [View.set_slice_whole, Rect.mem_set_unit]
  exact Iff.rfl

theorem mem_blk4 (t : Fin cfg3.N) (i : S100000x1.Idx) :
    i ∈ ((cfg3.win 4).blk t).view.set ↔ ∀ a : Fin 2, win3_4.index t a * S5000x1.size a ≤ (i a).val ∧ (i a).val < win3_4.index t a * S5000x1.size a + S5000x1.size a := by
  show i ∈ ((View.whole main_v46_1).slice (win3_4.rect t)).set ↔ _
  rw [View.set_slice_whole, Rect.mem_set_unit]
  exact Iff.rfl

/-- Row p lies in the block of point p / 5000. -/
theorem cover3 (i : S100000x40.Idx) : ∃ t : Fin cfg3.N, (cfg3.win 3).flush t = true ∧ i ∈ ((cfg3.win 3).blk t).view.set := by
  have hi0 : (i 0).val < 100000 := (i 0).isLt
  have hi1 : (i 1).val < 40 := (i 1).isLt
  have hN : (i 0).val / 5000 < cfg3.N := by rw [show cfg3.N = 20 from N_3]; omega
  obtain ⟨-, -, -, -, -, -, e30, e31, -, -⟩ := idx_facts ⟨(i 0).val / 5000, hN⟩
  have e30' : win3_3.index ⟨(i 0).val / 5000, hN⟩ (0 : Fin 2) = (i 0).val / 5000 := e30
  refine ⟨⟨(i 0).val / 5000, hN⟩, flush3_3 _, ?_⟩
  rw [mem_blk3]
  intro a
  match a with
  | ⟨0, _⟩ => show win3_3.index ⟨(i 0).val / 5000, hN⟩ (0 : Fin 2) * 5000 ≤ (i 0).val ∧ (i 0).val < win3_3.index ⟨(i 0).val / 5000, hN⟩ (0 : Fin 2) * 5000 + 5000; omega
  | ⟨1, _⟩ => show win3_3.index ⟨(i 0).val / 5000, hN⟩ (1 : Fin 2) * 40 ≤ (i 1).val ∧ (i 1).val < win3_3.index ⟨(i 0).val / 5000, hN⟩ (1 : Fin 2) * 40 + 40; omega

theorem cover4 (i : S100000x1.Idx) : ∃ t : Fin cfg3.N, (cfg3.win 4).flush t = true ∧ i ∈ ((cfg3.win 4).blk t).view.set := by
  have hi0 : (i 0).val < 100000 := (i 0).isLt
  have hi1 : (i 1).val < 1 := (i 1).isLt
  have hN : (i 0).val / 5000 < cfg3.N := by rw [show cfg3.N = 20 from N_3]; omega
  obtain ⟨-, -, -, -, -, -, -, -, e40, e41⟩ := idx_facts ⟨(i 0).val / 5000, hN⟩
  have e40' : win3_4.index ⟨(i 0).val / 5000, hN⟩ (0 : Fin 2) = (i 0).val / 5000 := e40
  refine ⟨⟨(i 0).val / 5000, hN⟩, flush3_4 _, ?_⟩
  rw [mem_blk4]
  intro a
  match a with
  | ⟨0, _⟩ => show win3_4.index ⟨(i 0).val / 5000, hN⟩ (0 : Fin 2) * 5000 ≤ (i 0).val ∧ (i 0).val < win3_4.index ⟨(i 0).val / 5000, hN⟩ (0 : Fin 2) * 5000 + 5000; omega
  | ⟨1, _⟩ => show win3_4.index ⟨(i 0).val / 5000, hN⟩ (1 : Fin 2) * 1 ≤ (i 1).val ∧ (i 1).val < win3_4.index ⟨(i 0).val / 5000, hN⟩ (1 : Fin 2) * 1 + 1; omega

/-! ## The arrays after the stage -/

/-- The normalised array after the stage, as a function of the arrays the stage was entered with. -/
theorem final_nrm (c : Dev nD) : (dat3 V c).arrAt 3 cfg3.N
    = nrmOf (V c (Pipeline.arrRef spec3 0)) (V c (Pipeline.arrRef spec3 1)) (V c (Pipeline.arrRef spec3 2)) :=
  (dat3 V c).arrAt_eq_of_cover 3 _ (fun t _ => flushed_nrm V c t) cover3

/-- The length column after the stage. -/
theorem final_len (c : Dev nD) : (dat3 V c).arrAt 4 cfg3.N
    = lenOf (V c (Pipeline.arrRef spec3 0)) (V c (Pipeline.arrRef spec3 1)) (V c (Pipeline.arrRef spec3 2)) :=
  (dat3 V c).arrAt_eq_of_cover 4 _ (fun t _ => flushed_len V c t) cover4

end Cert.KernelIdeal.NodeStage2

end
-- ==== Proof.EdgeStage2.lean ====
/-
  The second layer's per-edge gate stage, read off the blocks: a grid of 340 points, point t holding rows
  5000·t … 5000·t + 4999 of the two gathered endpoint arrays and of the gathered factor column. Point t writes back, for
  each of its rows e and each column c, the inner product of row e of the two endpoint arrays, times the factor of row e,
  times entry (e, c) of the first endpoint array. Since each point's block is the restriction of one function of the
  whole arrays to its rows, and the 340 blocks tile the 1700000 rows, the output array ends as that function of the
  arrays the stage was entered with.
-/
import proofs.«154407_j62689342652829_2_alg».proof.Proof.Gen.KernelIdeal.Frame
import proofs.«154407_j62689342652829_2_alg».proof.Proof.GnnSpec
import proofs.«154407_j62689342652829_2_alg».proof.Proof.LibGateSpell
import Idealize.ShloMosaic.Lib.Pipeline.Value
import Idealize.ShloMosaic.Lib.ValueIdx

set_option maxRecDepth 16384

noncomputable section

namespace Cert.KernelIdeal.EdgeStage2

open Cert.KernelIdeal Cert.KernelIdeal.Gen Idealize.ShloMosaic Idealize.ShloMosaic.ValueIdx Idealize.ShloMosaic.TcCoe
open Idealize.SL.Sem
open Idealize.ShloMosaic.Pipeline (Dat)
open Cert.GnnSpec

/-! ## The body's stored value at an entry -/

/-- The stored product at (y, q): the inner product of rows y of the two endpoint blocks, times the factor of row y,
    times entry (y, q) of the first endpoint block. -/
theorem pay_gate (x0 x1 : Vec Ideal S5000x40 .f32) (x2 : Vec Ideal S5000x1 .f32) (y : Fin 5000) (q : Fin 40) :
    k4_pay1 x0 x1 x2 x0 (ix2 y q)
      = ((∑ k : Fin 40, x0 (ix2 y k) * x1 (ix2 y k)) * x2 (ix2 y (0 : Fin 1))) * x0 (ix2 y q) :=
  Cert.LibGateSpell.kGate_apply x0 x1 x0 x2 shapeCasts_S5000x40_S5000x40 shapeCasts_S5000x1_S5000x1
    reduces_S5000x40_S5000 (.inl rfl) rfl shapeCasts_S5000_S5000x1 broadcasts_S5000x1_S5000x40 y q

/-! ## The blocks -/

theorem hz : (![0, 0] : Fin 2 → Nat) = fun _ => 0 := funext fun a => by fin_cases a <;> rfl

/-- The printed index maps over the grid: every window's row-blocks start at block t, its columns at block 0. -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0 :=
  (by decide +kernel : ∀ t : Fin grid4.N, _)

/-- The grid has 340 points. -/
theorem t_lt (t : Fin cfg4.N) : t.val < 340 :=
  lt_of_lt_of_eq t.isLt (show cfg4.N = 340 from N_4)

/-- The gate at (p, q) is read off rows p alone: if row y of three blocks agrees, entry by entry, with row p of three
    arrays, the gate expression of row y of the blocks at column q is the gate of the arrays at (p, q). -/
theorem gate_congr {E M : ℕ} (a0 a1 : FVec Ideal ⟨2, ![5000, M]⟩ .f32) (a2 : FVec Ideal ⟨2, ![5000, 1]⟩ .f32)
    (b0 b1 : (⟨2, ![E, M]⟩ : Shape).Idx → EReal) (b2 : (⟨2, ![E, 1]⟩ : Shape).Idx → EReal)
    (y : Fin 5000) (p : Fin E) (q : Fin M)
    (h0 : ∀ k : Fin M, a0 (ix2 y k) = b0 (ix2 p k)) (h1 : ∀ k : Fin M, a1 (ix2 y k) = b1 (ix2 p k))
    (h2 : a2 (ix2 y (0 : Fin 1)) = b2 (ix2 p (0 : Fin 1))) :
    ((∑ k : Fin M, a0 (ix2 y k) * a1 (ix2 y k)) * a2 (ix2 y (0 : Fin 1))) * a0 (ix2 y q) = gateOf b0 b1 b2 (ix2 p q) := by
  show _ = ((∑ k : Fin M, b0 (ix2 p k) * b1 (ix2 p k)) * b2 (ix2 p (0 : Fin 1))) * b0 (ix2 p q)
  have hs : (∑ k : Fin M, a0 (ix2 y k) * a1 (ix2 y k)) = ∑ k : Fin M, b0 (ix2 p k) * b1 (ix2 p k) :=
    Finset.sum_congr rfl fun k _ => by rw [h0 k, h1 k]
  rw [hs, h2, h0 q]

variable (V : (c : Dev nD) → (b : Ref sig .tc) → Buf (Elt Ideal) ((c : Thread nD τ).loc b))

/-- Entry (y, k) of point t's block of the first endpoint array is entry (5000·t + y, k) of the array. -/
theorem blk0 (c : Dev nD) (t : Fin cfg4.N) (y : Fin 5000) (k : Fin 40) (p : Fin 1700000) (hp : p.val = t.val * 5000 + y.val) :
    (iblk4 V c 0 t : Vec Ideal S5000x40 .f32) (ix2 y k) = V c (Pipeline.arrRef spec4 0) (ix2 p k) := by
  obtain ⟨e00, e01, -, -, -, -, -, -⟩ := idx_facts t
  show V c (Pipeline.arrRef spec4 0) (((cfg4.win 0).blk t).view.emb (ix2 y k)) = V c (Pipeline.arrRef spec4 0) (ix2 p k)
  refine congrArg _ (funext fun a => Fin.ext ?_)
  match a with
  | ⟨0, _⟩ => show win4_0.index t (0 : Fin 2) * 5000 + 1 * y.val = p.val; omega
  | ⟨1, _⟩ => show win4_0.index t (1 : Fin 2) * 40 + 1 * k.val = k.val; omega

/-- Entry (y, k) of point t's block of the second endpoint array is entry (5000·t + y, k) of the array. -/
theorem blk1 (c : Dev nD) (t : Fin cfg4.N) (y : Fin 5000) (k : Fin 40) (p : Fin 1700000) (hp : p.val = t.val * 5000 + y.val) :
    (iblk4 V c 1 t : Vec Ideal S5000x40 .f32) (ix2 y k) = V c (Pipeline.arrRef spec4 1) (ix2 p k) := by
  obtain ⟨-, -, e10, e11, -, -, -, -⟩ := idx_facts t
  show V c (Pipeline.arrRef spec4 1) (((cfg4.win 1).blk t).view.emb (ix2 y k)) = V c (Pipeline.arrRef spec4 1) (ix2 p k)
  refine congrArg _ (funext fun a => Fin.ext ?_)
  match a with
  | ⟨0, _⟩ => show win4_1.index t (0 : Fin 2) * 5000 + 1 * y.val = p.val; omega
  | ⟨1, _⟩ => show win4_1.index t (1 : Fin 2) * 40 + 1 * k.val = k.val; omega

/-- Entry (y, u) of point t's block of the factor column is entry (5000·t + y, u) of the column. -/
theorem blk2 (c : Dev nD) (t : Fin cfg4.N) (y : Fin 5000) (u : Fin 1) (p : Fin 1700000) (hp : p.val = t.val * 5000 + y.val) :
    (iblk4 V c 2 t : Vec Ideal S5000x1 .f32) (ix2 y u) = V c (Pipeline.arrRef spec4 2) (ix2 p u) := by
  obtain ⟨-, -, -, -, e20, e21, -, -⟩ := idx_facts t
  show V c (Pipeline.arrRef spec4 2) (((cfg4.win 2).blk t).view.emb (ix2 y u)) = V c (Pipeline.arrRef spec4 2) (ix2 p u)
  refine congrArg _ (funext fun a => Fin.ext ?_)
  match a with
  | ⟨0, _⟩ => show win4_2.index t (0 : Fin 2) * 5000 + 1 * y.val = p.val; omega
  | ⟨1, _⟩ => show win4_2.index t (1 : Fin 2) * 1 + 1 * u.val = u.val; omega

/-- WHAT POINT t WRITES BACK to the output array is its block of the stage's function of the whole arrays. -/
theorem flushed_gate (c : Dev nD) (t : Fin cfg4.N) :
    (dat4 V c).flushed 3 t = ((cfg4.win 3).blk t).view.read (Elt Ideal)
      (gateOf (V c (Pipeline.arrRef spec4 0)) (V c (Pipeline.arrRef spec4 1)) (V c (Pipeline.arrRef spec4 2))) := by
  show (cfg4.win 3).cut (grid4.coords t) ((dat4 V c).after 3 t) = _
  rw [after4_3]
  unfold out4_3
  rw [View.canon_unit_zero hz]
  simp only [View.ld_unit_zero (S := S5000x40) hz, View.ld_unit_zero (S := S5000x1) hz]
  obtain ⟨-, -, -, -, -, -, e30, e31⟩ := idx_facts t
  have ht := t_lt t
  funext j
  obtain ⟨y, q, rfl⟩ : ∃ (y : Fin 5000) (q : Fin 40), j = ix2 y q := ⟨j 0, j 1, eq_ix2 j⟩
  refine (pay_gate (iblk4 V c 0 t) (iblk4 V c 1 t) (iblk4 V c 2 t) y q).trans ?_
  have hy : y.val < 5000 := y.isLt
  have he : ((cfg4.win 3).blk t).view.emb (ix2 y q) = ix2 (⟨t.val * 5000 + y.val, by omega⟩ : Fin 1700000) q :=
    funext fun a => Fin.ext (by
      match a with
      | ⟨0, _⟩ => show win4_3.index t (0 : Fin 2) * 5000 + 1 * y.val = t.val * 5000 + y.val; omega
      | ⟨1, _⟩ => show win4_3.index t (1 : Fin 2) * 40 + 1 * q.val = q.val; omega)
  show _ = gateOf (V c (Pipeline.arrRef spec4 0)) (V c (Pipeline.arrRef spec4 1)) (V c (Pipeline.arrRef spec4 2))
    (((cfg4.win 3).blk t).view.emb (ix2 y q))
  exact (gate_congr (E := 1700000) (M := 40) (iblk4 V c 0 t) (iblk4 V c 1 t) (iblk4 V c 2 t)
      (V c (Pipeline.arrRef spec4 0)) (V c (Pipeline.arrRef spec4 1)) (V c (Pipeline.arrRef spec4 2))
      y ⟨t.val * 5000 + y.val, by omega⟩ q
      (fun k => blk0 V c t y k ⟨t.val * 5000 + y.val, by omega⟩ rfl)
      (fun k => blk1 V c t y k ⟨t.val * 5000 + y.val, by omega⟩ rfl)
      (blk2 V c t y (0 : Fin 1) ⟨t.val * 5000 + y.val, by omega⟩ rfl)).trans
    (congrArg (gateOf (V c (Pipeline.arrRef spec4 0)) (V c (Pipeline.arrRef spec4 1)) (V c (Pipeline.arrRef spec4 2))) he.symm)

/-! ## The blocks tile the array -/

theorem mem_blk3 (t : Fin cfg4.N) (i : S1700000x40.Idx) :
    i ∈ ((cfg4.win 3).blk t).view.set ↔ ∀ a : Fin 2, win4_3.index t a * S5000x40.size a ≤ (i a).val ∧ (i a).val < win4_3.index t a * S5000x40.size a + S5000x40.size a := by
  show i ∈ ((View.whole main_v68).slice (win4_3.rect t)).set ↔ _
  rw [View.set_slice_whole, Rect.mem_set_unit]
  exact Iff.rfl

/-- Row p lies in the block of point p / 5000. -/
theorem cover3 (i : S1700000x40.Idx) : ∃ t : Fin cfg4.N, (cfg4.win 3).flush t = true ∧ i ∈ ((cfg4.win 3).blk t).view.set := by
  have hi0 : (i 0).val < 1700000 := (i 0).isLt
  have hi1 : (i 1).val < 40 := (i 1).isLt
  have hN : (i 0).val / 5000 < cfg4.N := by rw [show cfg4.N = 340 from N_4]; omega
  obtain ⟨-, -, -, -, -, -, e30, e31⟩ := idx_facts ⟨(i 0).val / 5000, hN⟩
  have e30' : win4_3.index ⟨(i 0).val / 5000, hN⟩ (0 : Fin 2) = (i 0).val / 5000 := e30
  refine ⟨⟨(i 0).val / 5000, hN⟩, flush4_3 _, ?_⟩
  rw [mem_blk3]
  intro a
  match a with
  | ⟨0, _⟩ => show win4_3.index ⟨(i 0).val / 5000, hN⟩ (0 : Fin 2) * 5000 ≤ (i 0).val ∧ (i 0).val < win4_3.index ⟨(i 0).val / 5000, hN⟩ (0 : Fin 2) * 5000 + 5000; omega
  | ⟨1, _⟩ => show win4_3.index ⟨(i 0).val / 5000, hN⟩ (1 : Fin 2) * 40 ≤ (i 1).val ∧ (i 1).val < win4_3.index ⟨(i 0).val / 5000, hN⟩ (1 : Fin 2) * 40 + 40; omega

/-! ## The array after the stage -/

/-- The gated array after the stage, as a function of the arrays the stage was entered with. -/
theorem final_gate (c : Dev nD) : (dat4 V c).arrAt 3 cfg4.N
    = gateOf (V c (Pipeline.arrRef spec4 0)) (V c (Pipeline.arrRef spec4 1)) (V c (Pipeline.arrRef spec4 2)) :=
  (dat4 V c).arrAt_eq_of_cover 3 _ (fun t _ => flushed_gate V c t) cover3

end Cert.KernelIdeal.EdgeStage2

end
-- ==== Proof.MeanStage2.lean ====
/-
  The second layer's finish, read off the blocks: a grid of 20 points, point t holding rows 5000·t … 5000·t + 4999 of the
  aggregate and of the per-node factor column; the bias row is whole at every point. Point t writes back, for each of its
  rows, the log-softmax of the row whose entries are the aggregate's times the node's factor plus the bias. Since each
  point's block is the restriction of one function of the whole arrays to its rows, and the 20 blocks tile the 100000
  rows, the output array ends as that function of the arrays the stage was entered with.
-/
import proofs.«154407_j62689342652829_2_alg».proof.Proof.Gen.KernelIdeal.Frame
import proofs.«154407_j62689342652829_2_alg».proof.Proof.GnnSpec
import proofs.«154407_j62689342652829_2_alg».proof.Proof.LibMeanSpell
import proofs.«154407_j62689342652829_2_alg».proof.Proof.LibLsmRow
import proofs.«154407_j62689342652829_2_alg».proof.Proof.LibKeepdims
import Idealize.ShloMosaic.Lib.Pipeline.Value
import Idealize.ShloMosaic.Lib.ValueIdx

set_option maxRecDepth 16384

noncomputable section

namespace Cert.KernelIdeal.MeanStage2

open Cert.KernelIdeal Cert.KernelIdeal.Gen Idealize.ShloMosaic Idealize.ShloMosaic.ValueIdx Idealize.ShloMosaic.TcCoe
open Idealize.SL.Sem
open Idealize.ShloMosaic.Pipeline (Dat)
open Cert.GnnSpec

/-! ## The body's stored value at an entry -/

/-- The stored value at (y, q): the log-softmax, at column q, of the row whose entries are the aggregate's row y times
    the factor of row y plus the bias. -/
theorem pay_lsm (x0 : Vec Ideal S5000x40 .f32) (x1 : Vec Ideal S5000x1 .f32) (x2 : Vec Ideal S1x40 .f32) (y : Fin 5000) (q : Fin 40) :
    k5_pay1 x0 x1 x2 (ix2 y q)
      = Cert.LibLsmRow.lsmRow (fun q' => x0 (ix2 y q') * x1 (ix2 y (0 : Fin 1)) + x2 (ix2 (0 : Fin 1) q')) q :=
  (Cert.LibLsmRow.kernel_apply
      (Cert.LibMeanSpell.kPre x0 x1 x2 shapeCasts_S5000x40_S5000x40 shapeCasts_S5000x1_S5000x1 shapeCasts_S1x40_S1x40
        broadcasts_S5000x1_S5000x40 broadcasts_S1x40_S5000x40)
      reduces_S5000x40_S5000 shapeCasts_S5000_S5000x1 broadcasts_S5000x1_S5000x40 (.inl rfl) rfl rfl y q).trans
    (congrArg (fun z : Fin 40 → EReal => Cert.LibLsmRow.lsmRow z q)
      (funext fun q' => Cert.LibMeanSpell.kPre_apply x0 x1 x2 shapeCasts_S5000x40_S5000x40 shapeCasts_S5000x1_S5000x1
        shapeCasts_S1x40_S1x40 broadcasts_S5000x1_S5000x40 broadcasts_S1x40_S5000x40 y q'))

/-! ## The blocks -/

theorem hz : (![0, 0] : Fin 2 → Nat) = fun _ => 0 := funext fun a => by fin_cases a <;> rfl

/-- The printed index maps over the grid: point t's row-blocks start at block t, the bias row is block 0. -/
theorem idx_facts : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

variable (V : (c : Dev nD) → (b : Ref sig .tc) → Buf (Elt Ideal) ((c : Thread nD τ).loc b))

/-- Row y of point t's blocks gives the pre-activation row 5000·t + y of the whole arrays. -/
theorem rows_eq (c : Dev nD) (t : Fin cfg5.N) (y : Fin 5000) (p : Fin 100000) (hp : p.val = t.val * 5000 + y.val) :
    preRow (n := 5000) (M := 40) (iblk5 V c 0 t) (iblk5 V c 1 t) (iblk5 V c 2 t) y
      = preRow (n := 100000) (M := 40) (V c (Pipeline.arrRef spec5 0)) (V c (Pipeline.arrRef spec5 1)) (V c (Pipeline.arrRef spec5 2)) p := by
  obtain ⟨e00, e01, e10, e11, e20, e21, -, -⟩ := idx_facts t
  funext q'
  have h0 : (iblk5 V c 0 t (ix2 y q') : EReal) = V c (Pipeline.arrRef spec5 0) (ix2 p q') := by
    show V c (Pipeline.arrRef spec5 0) (((cfg5.win 0).blk t).view.emb (ix2 y q')) = V c (Pipeline.arrRef spec5 0) (ix2 p q')
    refine congrArg _ (funext fun a => Fin.ext ?_)
    match a with
    | ⟨0, _⟩ => show win5_0.index t (0 : Fin 2) * 5000 + 1 * y.val = p.val; omega
    | ⟨1, _⟩ => show win5_0.index t (1 : Fin 2) * 40 + 1 * q'.val = q'.val; omega
  have h1 : (iblk5 V c 1 t (ix2 y (0 : Fin 1)) : EReal) = V c (Pipeline.arrRef spec5 1) (ix2 p (0 : Fin 1)) := by
    show V c (Pipeline.arrRef spec5 1) (((cfg5.win 1).blk t).view.emb (ix2 y (0 : Fin 1))) = V c (Pipeline.arrRef spec5 1) (ix2 p (0 : Fin 1))
    refine congrArg _ (funext fun a => Fin.ext ?_)
    match a with
    | ⟨0, _⟩ => show win5_1.index t (0 : Fin 2) * 5000 + 1 * y.val = p.val; omega
    | ⟨1, _⟩ => show win5_1.index t (1 : Fin 2) * 1 + 1 * 0 = 0; omega
  have h2 : (iblk5 V c 2 t (ix2 (0 : Fin 1) q') : EReal) = V c (Pipeline.arrRef spec5 2) (ix2 (0 : Fin 1) q') := by
    show V c (Pipeline.arrRef spec5 2) (((cfg5.win 2).blk t).view.emb (ix2 (0 : Fin 1) q')) = V c (Pipeline.arrRef spec5 2) (ix2 (0 : Fin 1) q')
    refine congrArg _ (funext fun a => Fin.ext ?_)
    match a with
    | ⟨0, _⟩ => show win5_2.index t (0 : Fin 2) * 1 + 1 * 0 = 0; omega
    | ⟨1, _⟩ => show win5_2.index t (1 : Fin 2) * 40 + 1 * q'.val = q'.val; omega
  exact congrArg₂ (fun s b : EReal => s + b) (congrArg₂ (fun u v : EReal => u * v) h0 h1) h2

/-- WHAT POINT t WRITES BACK is its block of the stage's function of the whole arrays. -/
theorem flushed_lsm (c : Dev nD) (t : Fin cfg5.N) :
    (dat5 V c).flushed 3 t = ((cfg5.win 3).blk t).view.read (Elt Ideal)
      (meanLsmOf (V c (Pipeline.arrRef spec5 0)) (V c (Pipeline.arrRef spec5 1)) (V c (Pipeline.arrRef spec5 2))) := by
  show (cfg5.win 3).cut (grid5.coords t) ((dat5 V c).after 3 t) = _
  rw [after5_3]
  unfold out5_3
  rw [View.canon_unit_zero hz]
  simp only [View.ld_unit_zero (S := S5000x40) hz, View.ld_unit_zero (S := S5000x1) hz, View.ld_unit_zero (S := S1x40) hz]
  obtain ⟨-, -, -, -, -, -, e30, e31⟩ := idx_facts t
  funext j
  obtain ⟨y, q, rfl⟩ : ∃ (y : Fin 5000) (q : Fin 40), j = ix2 y q := ⟨j 0, j 1, eq_ix2 j⟩
  refine (pay_lsm (iblk5 V c 0 t) (iblk5 V c 1 t) (iblk5 V c 2 t) y q).trans ?_
  show _ = Cert.LibLsmRow.lsmRow (preRow (n := 100000) (M := 40) _ _ _ ((((cfg5.win 3).blk t).view.emb (ix2 y q)) 0)) ((((cfg5.win 3).blk t).view.emb (ix2 y q)) 1)
  have hq : (((cfg5.win 3).blk t).view.emb (ix2 y q)) 1 = q :=
    Fin.ext (by show win5_3.index t (1 : Fin 2) * 40 + 1 * q.val = q.val; omega)
  rw [hq]
  exact congrArg (fun z : Fin 40 → EReal => Cert.LibLsmRow.lsmRow z q)
    (rows_eq V c t y _ (by show win5_3.index t (0 : Fin 2) * 5000 + 1 * y.val = t.val * 5000 + y.val; omega))

/-! ## The blocks tile the array -/

theorem mem_blk3 (t : Fin cfg5.N) (i : S100000x40.Idx) :
    i ∈ ((cfg5.win 3).blk t).view.set ↔ ∀ a : Fin 2, win5_3.index t a * S5000x40.size a ≤ (i a).val ∧ (i a).val < win5_3.index t a * S5000x40.size a + S5000x40.size a := by
  show i ∈ ((View.whole main_v73).slice (win5_3.rect t)).set ↔ _
  rw [View.set_slice_whole, Rect.mem_set_unit]
  exact Iff.rfl

/-- Row p lies in the block of point p / 5000. -/
theorem cover3 (i : S100000x40.Idx) : ∃ t : Fin cfg5.N, (cfg5.win 3).flush t = true ∧ i ∈ ((cfg5.win 3).blk t).view.set := by
  have hi0 : (i 0).val < 100000 := (i 0).isLt
  have hi1 : (i 1).val < 40 := (i 1).isLt
  have hN : (i 0).val / 5000 < cfg5.N := by rw [show cfg5.N = 20 from N_5]; omega
  obtain ⟨-, -, -, -, -, -, e30, e31⟩ := idx_facts ⟨(i 0).val / 5000, hN⟩
  have e30' : win5_3.index ⟨(i 0).val / 5000, hN⟩ (0 : Fin 2) = (i 0).val / 5000 := e30
  refine ⟨⟨(i 0).val / 5000, hN⟩, flush5_3 _, ?_⟩
  rw [mem_blk3]
  intro a
  match a with
  | ⟨0, _⟩ => show win5_3.index ⟨(i 0).val / 5000, hN⟩ (0 : Fin 2) * 5000 ≤ (i 0).val ∧ (i 0).val < win5_3.index ⟨(i 0).val / 5000, hN⟩ (0 : Fin 2) * 5000 + 5000; omega
  | ⟨1, _⟩ => show win5_3.index ⟨(i 0).val / 5000, hN⟩ (1 : Fin 2) * 40 ≤ (i 1).val ∧ (i 1).val < win5_3.index ⟨(i 0).val / 5000, hN⟩ (1 : Fin 2) * 40 + 40; omega

/-! ## The array after the stage -/

/-- The output array after the stage, as a function of the arrays the stage was entered with. -/
theorem final_lsm (c : Dev nD) : (dat5 V c).arrAt 3 cfg5.N
    = meanLsmOf (V c (Pipeline.arrRef spec5 0)) (V c (Pipeline.arrRef spec5 1)) (V c (Pipeline.arrRef spec5 2)) :=
  (dat5 V c).arrAt_eq_of_cover 3 _ (fun t _ => flushed_lsm V c t) cover3

end Cert.KernelIdeal.MeanStage2

end
-- ==== Proof.KFold.lean ====
/-
  What the idealized kernel's result array holds, as one function of the argument arrays: the twelve boundaries' contents
  folded from the launch memory. A stretch of host operations is read as its operations' composed term of the buffers it
  reads (index vectors, gathers, scatters, reshapes); a pallas region leaves each output array at its stage's function of
  the arrays it was entered with (the stage modules); every other buffer is as it was.
-/
import proofs.«154407_j62689342652829_2_alg».proof.Proof.Gen.KernelIdeal.Frame
import proofs.«154407_j62689342652829_2_alg».proof.Proof.GnnSpec
import proofs.«154407_j62689342652829_2_alg».proof.Proof.KOut
import proofs.«154407_j62689342652829_2_alg».proof.Proof.NodeStage1
import proofs.«154407_j62689342652829_2_alg».proof.Proof.EdgeStage1
import proofs.«154407_j62689342652829_2_alg».proof.Proof.MeanStage1
import proofs.«154407_j62689342652829_2_alg».proof.Proof.NodeStage2
import proofs.«154407_j62689342652829_2_alg».proof.Proof.EdgeStage2
import proofs.«154407_j62689342652829_2_alg».proof.Proof.MeanStage2
import Idealize.ShloMosaic.Lib.StableHlo.Run

set_option maxRecDepth 16384

noncomputable section

namespace Cert.KernelIdeal.KFold

open Cert.KernelIdeal Cert.KernelIdeal.Gen
open Idealize.ShloMosaic Idealize.ShloMosaic.TcCoe Idealize.ShloMosaic.ValueIdx Idealize.SL.Sem
open Cert.GnnSpec

/-! ## The host stretches, over an arbitrary valuation -/

section Host
variable (Wv : Valuation τ sig (Elt Ideal))

theorem host0_v3 : StableHlo.after (hostOps0 (F := Ideal)) Wv (Proc.devRef .tc main_v3) = srcT (Wv (Proc.devRef .tc main_arg1)) := by
  dsimp only [hostOps0]; after_results; rfl
theorem host0_v6 : StableHlo.after (hostOps0 (F := Ideal)) Wv (Proc.devRef .tc main_v6) = dstT (Wv (Proc.devRef .tc main_arg1)) := by
  dsimp only [hostOps0]; after_results; rfl
theorem host0_v15 : StableHlo.after (hostOps0 (F := Ideal)) Wv (Proc.devRef .tc main_v15) = invT (dstT (Wv (Proc.devRef .tc main_arg1))) := by
  dsimp only [hostOps0]; after_results; rfl
theorem host0_v16 : StableHlo.after (hostOps0 (F := Ideal)) Wv (Proc.devRef .tc main_v16) = shapeCast S1x64 (Wv (Proc.devRef .tc main_arg3)) shapeCasts_S64_S1x64 := by
  dsimp only [hostOps0]; after_results; rfl
set_option maxHeartbeats 4000000 in
theorem host1_v24 : StableHlo.after (hostOps1 (F := Ideal)) Wv (Proc.devRef .tc main_v24) = Host.gather g64 (Wv (Proc.devRef .tc main_v17_0)) (wrapT (Wv (Proc.devRef .tc main_v3))) := by
  dsimp only [hostOps1]; after_results_simp <;> rfl
set_option maxHeartbeats 4000000 in
theorem host1_v31 : StableHlo.after (hostOps1 (F := Ideal)) Wv (Proc.devRef .tc main_v31) = Host.gather g64 (Wv (Proc.devRef .tc main_v17_0)) (wrapT (Wv (Proc.devRef .tc main_v6))) := by
  dsimp only [hostOps1]; after_results_simp <;> rfl
set_option maxHeartbeats 4000000 in
theorem host1_v38 : StableHlo.after (hostOps1 (F := Ideal)) Wv (Proc.devRef .tc main_v38) = Host.gather g1 (Wv (Proc.devRef .tc main_v17_1)) (wrapT (Wv (Proc.devRef .tc main_v3))) := by
  dsimp only [hostOps1]; after_results_simp <;> rfl
theorem host2_v42 : StableHlo.after (hostOps2 (F := Ideal)) Wv (Proc.devRef .tc main_v42) = aggK64 (Wv (Proc.devRef .tc main_v39)) (Wv (Proc.devRef .tc main_v6)) := by
  dsimp only [hostOps2]; after_results; rfl
theorem host2_v43 : StableHlo.after (hostOps2 (F := Ideal)) Wv (Proc.devRef .tc main_v43) = shapeCast S1x64 (Wv (Proc.devRef .tc main_arg4)) shapeCasts_S64_S1x64 := by
  dsimp only [hostOps2]; after_results; rfl
theorem host3_v45 : StableHlo.after (hostOps3 (F := Ideal)) Wv (Proc.devRef .tc main_v45) = shapeCast S1x40 (Wv (Proc.devRef .tc main_arg6)) shapeCasts_S40_S1x40 := by
  dsimp only [hostOps3]; after_results; rfl
set_option maxHeartbeats 4000000 in
theorem host4_v53 : StableHlo.after (hostOps4 (F := Ideal)) Wv (Proc.devRef .tc main_v53) = Host.gather g40 (Wv (Proc.devRef .tc main_v46_0)) (wrapT (Wv (Proc.devRef .tc main_v3))) := by
  dsimp only [hostOps4]; after_results_simp <;> rfl
set_option maxHeartbeats 4000000 in
theorem host4_v60 : StableHlo.after (hostOps4 (F := Ideal)) Wv (Proc.devRef .tc main_v60) = Host.gather g40 (Wv (Proc.devRef .tc main_v46_0)) (wrapT (Wv (Proc.devRef .tc main_v6))) := by
  dsimp only [hostOps4]; after_results_simp <;> rfl
set_option maxHeartbeats 4000000 in
theorem host4_v67 : StableHlo.after (hostOps4 (F := Ideal)) Wv (Proc.devRef .tc main_v67) = Host.gather g1 (Wv (Proc.devRef .tc main_v46_1)) (wrapT (Wv (Proc.devRef .tc main_v3))) := by
  dsimp only [hostOps4]; after_results_simp <;> rfl
theorem host5_v71 : StableHlo.after (hostOps5 (F := Ideal)) Wv (Proc.devRef .tc main_v71) = aggK40 (Wv (Proc.devRef .tc main_v68)) (Wv (Proc.devRef .tc main_v6)) := by
  dsimp only [hostOps5]; after_results; rfl
theorem host5_v72 : StableHlo.after (hostOps5 (F := Ideal)) Wv (Proc.devRef .tc main_v72) = shapeCast S1x40 (Wv (Proc.devRef .tc main_arg7)) shapeCasts_S40_S1x40 := by
  dsimp only [hostOps5]; after_results; rfl

end Host

/-! ## Buffers no operation of a stretch writes and no region owns keep their contents -/

variable (m : (ℓ : Loc nD τ sig) → Buf (Elt Ideal) ℓ) (ρ : Dev nD → PrngReg) (c : Dev nD)
theorem keep1_main_arg0 : W1 m ρ c (Proc.devRef .tc main_arg0) = W0 m ρ c (Proc.devRef .tc main_arg0) :=
  StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem keep1_main_arg2 : W1 m ρ c (Proc.devRef .tc main_arg2) = W0 m ρ c (Proc.devRef .tc main_arg2) :=
  StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem keep2_main_v3 : W2 m ρ c (Proc.devRef .tc main_v3) = W1 m ρ c (Proc.devRef .tc main_v3) :=
  W2_of_ne m ρ c main_v3 (by decide)
theorem keep3_main_v3 : W3 m ρ c (Proc.devRef .tc main_v3) = W2 m ρ c (Proc.devRef .tc main_v3) :=
  StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem keep4_main_v3 : W4 m ρ c (Proc.devRef .tc main_v3) = W3 m ρ c (Proc.devRef .tc main_v3) :=
  W4_of_ne m ρ c main_v3 (by decide)
theorem keep5_main_v3 : W5 m ρ c (Proc.devRef .tc main_v3) = W4 m ρ c (Proc.devRef .tc main_v3) :=
  StableHlo.after_of_forall_not_mem (b := Proc.devRef .tc main_v3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem keep6_main_v3 : W6 m ρ c (Proc.devRef .tc main_v3) = W5 m ρ c (Proc.devRef .tc main_v3) :=
  W6_of_ne m ρ c main_v3 (by decide)
theorem keep7_main_v3 : W7 m ρ c (Proc.devRef .tc main_v3) = W6 m ρ c (Proc.devRef .tc main_v3) :=
  StableHlo.after_of_forall_not_mem (b := Proc.devRef .tc main_v3) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem keep8_main_v3 : W8 m ρ c (Proc.devRef .tc main_v3) = W7 m ρ c (Proc.devRef .tc main_v3) :=
  W8_of_ne m ρ c main_v3 (by decide)
theorem keep2_main_v6 : W2 m ρ c (Proc.devRef .tc main_v6) = W1 m ρ c (Proc.devRef .tc main_v6) :=
  W2_of_ne m ρ c main_v6 (by decide)
theorem keep3_main_v6 : W3 m ρ c (Proc.devRef .tc main_v6) = W2 m ρ c (Proc.devRef .tc main_v6) :=
  StableHlo.after_of_forall_not_mem (b := Proc.devRef .tc main_v6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem keep4_main_v6 : W4 m ρ c (Proc.devRef .tc main_v6) = W3 m ρ c (Proc.devRef .tc main_v6) :=
  W4_of_ne m ρ c main_v6 (by decide)
theorem keep5_main_v6 : W5 m ρ c (Proc.devRef .tc main_v6) = W4 m ρ c (Proc.devRef .tc main_v6) :=
  StableHlo.after_of_forall_not_mem (b := Proc.devRef .tc main_v6) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem keep6_main_v6 : W6 m ρ c (Proc.devRef .tc main_v6) = W5 m ρ c (Proc.devRef .tc main_v6) :=
  W6_of_ne m ρ c main_v6 (by decide)
theorem keep7_main_v6 : W7 m ρ c (Proc.devRef .tc main_v6) = W6 m ρ c (Proc.devRef .tc main_v6) :=
  StableHlo.after_of_forall_not_mem (b := Proc.devRef .tc main_v6) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem keep8_main_v6 : W8 m ρ c (Proc.devRef .tc main_v6) = W7 m ρ c (Proc.devRef .tc main_v6) :=
  W8_of_ne m ρ c main_v6 (by decide)
theorem keep9_main_v6 : W9 m ρ c (Proc.devRef .tc main_v6) = W8 m ρ c (Proc.devRef .tc main_v6) :=
  StableHlo.after_of_forall_not_mem (b := Proc.devRef .tc main_v6) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem keep10_main_v6 : W10 m ρ c (Proc.devRef .tc main_v6) = W9 m ρ c (Proc.devRef .tc main_v6) :=
  W10_of_ne m ρ c main_v6 (by decide)
theorem keep2_main_v15 : W2 m ρ c (Proc.devRef .tc main_v15) = W1 m ρ c (Proc.devRef .tc main_v15) :=
  W2_of_ne m ρ c main_v15 (by decide)
theorem keep3_main_v15 : W3 m ρ c (Proc.devRef .tc main_v15) = W2 m ρ c (Proc.devRef .tc main_v15) :=
  StableHlo.after_of_forall_not_mem (b := Proc.devRef .tc main_v15) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem keep4_main_v15 : W4 m ρ c (Proc.devRef .tc main_v15) = W3 m ρ c (Proc.devRef .tc main_v15) :=
  W4_of_ne m ρ c main_v15 (by decide)
theorem keep5_main_v15 : W5 m ρ c (Proc.devRef .tc main_v15) = W4 m ρ c (Proc.devRef .tc main_v15) :=
  StableHlo.after_of_forall_not_mem (b := Proc.devRef .tc main_v15) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem keep6_main_v15 : W6 m ρ c (Proc.devRef .tc main_v15) = W5 m ρ c (Proc.devRef .tc main_v15) :=
  (W6_arr m ρ c 1).trans (((dat2 (V5 m ρ) c).arrAt_in 1 rfl _).trans (A_eq2 (V5 m ρ) c 1))
theorem keep7_main_v15 : W7 m ρ c (Proc.devRef .tc main_v15) = W6 m ρ c (Proc.devRef .tc main_v15) :=
  StableHlo.after_of_forall_not_mem (b := Proc.devRef .tc main_v15) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem keep8_main_v15 : W8 m ρ c (Proc.devRef .tc main_v15) = W7 m ρ c (Proc.devRef .tc main_v15) :=
  W8_of_ne m ρ c main_v15 (by decide)
theorem keep9_main_v15 : W9 m ρ c (Proc.devRef .tc main_v15) = W8 m ρ c (Proc.devRef .tc main_v15) :=
  StableHlo.after_of_forall_not_mem (b := Proc.devRef .tc main_v15) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem keep10_main_v15 : W10 m ρ c (Proc.devRef .tc main_v15) = W9 m ρ c (Proc.devRef .tc main_v15) :=
  W10_of_ne m ρ c main_v15 (by decide)
theorem keep11_main_v15 : W11 m ρ c (Proc.devRef .tc main_v15) = W10 m ρ c (Proc.devRef .tc main_v15) :=
  StableHlo.after_of_forall_not_mem (b := Proc.devRef .tc main_v15) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem keep1_main_arg4 : W1 m ρ c (Proc.devRef .tc main_arg4) = W0 m ρ c (Proc.devRef .tc main_arg4) :=
  StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem keep2_main_arg4 : W2 m ρ c (Proc.devRef .tc main_arg4) = W1 m ρ c (Proc.devRef .tc main_arg4) :=
  W2_of_ne m ρ c main_arg4 (by decide)
theorem keep3_main_arg4 : W3 m ρ c (Proc.devRef .tc main_arg4) = W2 m ρ c (Proc.devRef .tc main_arg4) :=
  StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem keep4_main_arg4 : W4 m ρ c (Proc.devRef .tc main_arg4) = W3 m ρ c (Proc.devRef .tc main_arg4) :=
  W4_of_ne m ρ c main_arg4 (by decide)
theorem keep1_main_arg5 : W1 m ρ c (Proc.devRef .tc main_arg5) = W0 m ρ c (Proc.devRef .tc main_arg5) :=
  StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem keep2_main_arg5 : W2 m ρ c (Proc.devRef .tc main_arg5) = W1 m ρ c (Proc.devRef .tc main_arg5) :=
  W2_of_ne m ρ c main_arg5 (by decide)
theorem keep3_main_arg5 : W3 m ρ c (Proc.devRef .tc main_arg5) = W2 m ρ c (Proc.devRef .tc main_arg5) :=
  StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem keep4_main_arg5 : W4 m ρ c (Proc.devRef .tc main_arg5) = W3 m ρ c (Proc.devRef .tc main_arg5) :=
  W4_of_ne m ρ c main_arg5 (by decide)
theorem keep5_main_arg5 : W5 m ρ c (Proc.devRef .tc main_arg5) = W4 m ρ c (Proc.devRef .tc main_arg5) :=
  StableHlo.after_of_forall_not_mem (b := Proc.devRef .tc main_arg5) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem keep6_main_arg5 : W6 m ρ c (Proc.devRef .tc main_arg5) = W5 m ρ c (Proc.devRef .tc main_arg5) :=
  W6_of_ne m ρ c main_arg5 (by decide)
theorem keep7_main_arg5 : W7 m ρ c (Proc.devRef .tc main_arg5) = W6 m ρ c (Proc.devRef .tc main_arg5) :=
  StableHlo.after_of_forall_not_mem (b := Proc.devRef .tc main_arg5) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem keep1_main_arg6 : W1 m ρ c (Proc.devRef .tc main_arg6) = W0 m ρ c (Proc.devRef .tc main_arg6) :=
  StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem keep2_main_arg6 : W2 m ρ c (Proc.devRef .tc main_arg6) = W1 m ρ c (Proc.devRef .tc main_arg6) :=
  W2_of_ne m ρ c main_arg6 (by decide)
theorem keep3_main_arg6 : W3 m ρ c (Proc.devRef .tc main_arg6) = W2 m ρ c (Proc.devRef .tc main_arg6) :=
  StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem keep4_main_arg6 : W4 m ρ c (Proc.devRef .tc main_arg6) = W3 m ρ c (Proc.devRef .tc main_arg6) :=
  W4_of_ne m ρ c main_arg6 (by decide)
theorem keep5_main_arg6 : W5 m ρ c (Proc.devRef .tc main_arg6) = W4 m ρ c (Proc.devRef .tc main_arg6) :=
  StableHlo.after_of_forall_not_mem (b := Proc.devRef .tc main_arg6) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem keep6_main_arg6 : W6 m ρ c (Proc.devRef .tc main_arg6) = W5 m ρ c (Proc.devRef .tc main_arg6) :=
  W6_of_ne m ρ c main_arg6 (by decide)
theorem keep1_main_arg7 : W1 m ρ c (Proc.devRef .tc main_arg7) = W0 m ρ c (Proc.devRef .tc main_arg7) :=
  StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem keep2_main_arg7 : W2 m ρ c (Proc.devRef .tc main_arg7) = W1 m ρ c (Proc.devRef .tc main_arg7) :=
  W2_of_ne m ρ c main_arg7 (by decide)
theorem keep3_main_arg7 : W3 m ρ c (Proc.devRef .tc main_arg7) = W2 m ρ c (Proc.devRef .tc main_arg7) :=
  StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem keep4_main_arg7 : W4 m ρ c (Proc.devRef .tc main_arg7) = W3 m ρ c (Proc.devRef .tc main_arg7) :=
  W4_of_ne m ρ c main_arg7 (by decide)
theorem keep5_main_arg7 : W5 m ρ c (Proc.devRef .tc main_arg7) = W4 m ρ c (Proc.devRef .tc main_arg7) :=
  StableHlo.after_of_forall_not_mem (b := Proc.devRef .tc main_arg7) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem keep6_main_arg7 : W6 m ρ c (Proc.devRef .tc main_arg7) = W5 m ρ c (Proc.devRef .tc main_arg7) :=
  W6_of_ne m ρ c main_arg7 (by decide)
theorem keep7_main_arg7 : W7 m ρ c (Proc.devRef .tc main_arg7) = W6 m ρ c (Proc.devRef .tc main_arg7) :=
  StableHlo.after_of_forall_not_mem (b := Proc.devRef .tc main_arg7) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem keep8_main_arg7 : W8 m ρ c (Proc.devRef .tc main_arg7) = W7 m ρ c (Proc.devRef .tc main_arg7) :=
  W8_of_ne m ρ c main_arg7 (by decide)
theorem keep9_main_arg7 : W9 m ρ c (Proc.devRef .tc main_arg7) = W8 m ρ c (Proc.devRef .tc main_arg7) :=
  StableHlo.after_of_forall_not_mem (b := Proc.devRef .tc main_arg7) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem keep10_main_arg7 : W10 m ρ c (Proc.devRef .tc main_arg7) = W9 m ρ c (Proc.devRef .tc main_arg7) :=
  W10_of_ne m ρ c main_arg7 (by decide)
theorem keep7_main_v44 : W7 m ρ c (Proc.devRef .tc main_v44) = W6 m ρ c (Proc.devRef .tc main_v44) :=
  StableHlo.after_of_forall_not_mem (b := Proc.devRef .tc main_v44) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-! ## The boundaries' contents, level by level -/

theorem at1_v3 : W1 m ρ c (Proc.devRef .tc main_v3) = srcT (m ((c : Thread nD τ).loc main_arg1)) := host0_v3 (W0 m ρ c)
theorem at1_v6 : W1 m ρ c (Proc.devRef .tc main_v6) = dstT (m ((c : Thread nD τ).loc main_arg1)) := host0_v6 (W0 m ρ c)
theorem at1_v15 : W1 m ρ c (Proc.devRef .tc main_v15) = invT (dstT (m ((c : Thread nD τ).loc main_arg1))) := host0_v15 (W0 m ρ c)
theorem at1_v16 : W1 m ρ c (Proc.devRef .tc main_v16) = shapeCast S1x64 (m ((c : Thread nD τ).loc main_arg3)) shapeCasts_S64_S1x64 := host0_v16 (W0 m ρ c)
theorem at1_arg0 : W1 m ρ c (Proc.devRef .tc main_arg0) = (m ((c : Thread nD τ).loc main_arg0)) := keep1_main_arg0 m ρ c
theorem at1_arg2 : W1 m ρ c (Proc.devRef .tc main_arg2) = (m ((c : Thread nD τ).loc main_arg2)) := keep1_main_arg2 m ρ c
theorem at2_nrm : W2 m ρ c (Proc.devRef .tc main_v17_0) = nrm1 (m ((c : Thread nD τ).loc main_arg0)) (m ((c : Thread nD τ).loc main_arg2)) (m ((c : Thread nD τ).loc main_arg3)) := by
  have h : W2 m ρ c (Proc.devRef .tc main_v17_0) = nrmOf (W1 m ρ c (Proc.devRef .tc main_arg0)) (W1 m ρ c (Proc.devRef .tc main_arg2)) (W1 m ρ c (Proc.devRef .tc main_v16)) :=
    (W2_arr m ρ c 3).trans (Cert.KernelIdeal.NodeStage1.final_nrm (V1 m ρ) c)
  rw [h, at1_arg0, at1_arg2, at1_v16]; rfl
theorem at2_len : W2 m ρ c (Proc.devRef .tc main_v17_1) = len1 (m ((c : Thread nD τ).loc main_arg0)) (m ((c : Thread nD τ).loc main_arg2)) (m ((c : Thread nD τ).loc main_arg3)) := by
  have h : W2 m ρ c (Proc.devRef .tc main_v17_1) = lenOf (W1 m ρ c (Proc.devRef .tc main_arg0)) (W1 m ρ c (Proc.devRef .tc main_arg2)) (W1 m ρ c (Proc.devRef .tc main_v16)) :=
    (W2_arr m ρ c 4).trans (Cert.KernelIdeal.NodeStage1.final_len (V1 m ρ) c)
  rw [h, at1_arg0, at1_arg2, at1_v16]; rfl
theorem at2_v3 : W2 m ρ c (Proc.devRef .tc main_v3) = srcT (m ((c : Thread nD τ).loc main_arg1)) :=
  ((keep2_main_v3 m ρ c)).trans (at1_v3 m ρ c)
theorem at2_v6 : W2 m ρ c (Proc.devRef .tc main_v6) = dstT (m ((c : Thread nD τ).loc main_arg1)) :=
  ((keep2_main_v6 m ρ c)).trans (at1_v6 m ρ c)
theorem at4_msg : W4 m ρ c (Proc.devRef .tc main_v39) = msgK64 (nrm1 (m ((c : Thread nD τ).loc main_arg0)) (m ((c : Thread nD τ).loc main_arg2)) (m ((c : Thread nD τ).loc main_arg3))) (len1 (m ((c : Thread nD τ).loc main_arg0)) (m ((c : Thread nD τ).loc main_arg2)) (m ((c : Thread nD τ).loc main_arg3))) (srcT (m ((c : Thread nD τ).loc main_arg1))) (dstT (m ((c : Thread nD τ).loc main_arg1))) := by
  have h : W4 m ρ c (Proc.devRef .tc main_v39) = gateOf (W3 m ρ c (Proc.devRef .tc main_v24)) (W3 m ρ c (Proc.devRef .tc main_v31)) (W3 m ρ c (Proc.devRef .tc main_v38)) :=
    (W4_arr m ρ c 3).trans (Cert.KernelIdeal.EdgeStage1.final_gate (V3 m ρ) c)
  rw [h, show W3 m ρ c (Proc.devRef .tc main_v24) = _ from host1_v24 (W2 m ρ c), show W3 m ρ c (Proc.devRef .tc main_v31) = _ from host1_v31 (W2 m ρ c),
    show W3 m ρ c (Proc.devRef .tc main_v38) = _ from host1_v38 (W2 m ρ c), at2_nrm, at2_len, at2_v3, at2_v6]; rfl
theorem at4_v6 : W4 m ρ c (Proc.devRef .tc main_v6) = dstT (m ((c : Thread nD τ).loc main_arg1)) :=
  ((((keep4_main_v6 m ρ c).trans (keep3_main_v6 m ρ c)).trans (keep2_main_v6 m ρ c))).trans (at1_v6 m ρ c)
theorem at4_v15 : W4 m ρ c (Proc.devRef .tc main_v15) = invT (dstT (m ((c : Thread nD τ).loc main_arg1))) :=
  ((((keep4_main_v15 m ρ c).trans (keep3_main_v15 m ρ c)).trans (keep2_main_v15 m ρ c))).trans (at1_v15 m ρ c)
theorem at4_arg4 : W4 m ρ c (Proc.devRef .tc main_arg4) = (m ((c : Thread nD τ).loc main_arg4)) :=
  ((((keep4_main_arg4 m ρ c).trans (keep3_main_arg4 m ρ c)).trans (keep2_main_arg4 m ρ c)).trans (keep1_main_arg4 m ρ c))
theorem at6_out : W6 m ρ c (Proc.devRef .tc main_v44) = out1 (aggK64 (msgK64 (nrm1 (m ((c : Thread nD τ).loc main_arg0)) (m ((c : Thread nD τ).loc main_arg2)) (m ((c : Thread nD τ).loc main_arg3))) (len1 (m ((c : Thread nD τ).loc main_arg0)) (m ((c : Thread nD τ).loc main_arg2)) (m ((c : Thread nD τ).loc main_arg3))) (srcT (m ((c : Thread nD τ).loc main_arg1))) (dstT (m ((c : Thread nD τ).loc main_arg1)))) (dstT (m ((c : Thread nD τ).loc main_arg1)))) (dstT (m ((c : Thread nD τ).loc main_arg1))) (m ((c : Thread nD τ).loc main_arg4)) := by
  have h : W6 m ρ c (Proc.devRef .tc main_v44) = meanReluOf (W5 m ρ c (Proc.devRef .tc main_v42)) (W5 m ρ c (Proc.devRef .tc main_v15)) (W5 m ρ c (Proc.devRef .tc main_v43)) :=
    (W6_arr m ρ c 3).trans (Cert.KernelIdeal.MeanStage1.final_relu (V5 m ρ) c)
  rw [h, show W5 m ρ c (Proc.devRef .tc main_v42) = _ from host2_v42 (W4 m ρ c), show W5 m ρ c (Proc.devRef .tc main_v43) = _ from host2_v43 (W4 m ρ c),
    keep5_main_v15 m ρ c, at4_msg, at4_v6, at4_v15, at4_arg4]; rfl
theorem at6_arg5 : W6 m ρ c (Proc.devRef .tc main_arg5) = (m ((c : Thread nD τ).loc main_arg5)) :=
  ((((((keep6_main_arg5 m ρ c).trans (keep5_main_arg5 m ρ c)).trans (keep4_main_arg5 m ρ c)).trans (keep3_main_arg5 m ρ c)).trans (keep2_main_arg5 m ρ c)).trans (keep1_main_arg5 m ρ c))
theorem at6_arg6 : W6 m ρ c (Proc.devRef .tc main_arg6) = (m ((c : Thread nD τ).loc main_arg6)) :=
  ((((((keep6_main_arg6 m ρ c).trans (keep5_main_arg6 m ρ c)).trans (keep4_main_arg6 m ρ c)).trans (keep3_main_arg6 m ρ c)).trans (keep2_main_arg6 m ρ c)).trans (keep1_main_arg6 m ρ c))
theorem at8_nrm : W8 m ρ c (Proc.devRef .tc main_v46_0) = nrm2 (out1 (aggK64 (msgK64 (nrm1 (m ((c : Thread nD τ).loc main_arg0)) (m ((c : Thread nD τ).loc main_arg2)) (m ((c : Thread nD τ).loc main_arg3))) (len1 (m ((c : Thread nD τ).loc main_arg0)) (m ((c : Thread nD τ).loc main_arg2)) (m ((c : Thread nD τ).loc main_arg3))) (srcT (m ((c : Thread nD τ).loc main_arg1))) (dstT (m ((c : Thread nD τ).loc main_arg1)))) (dstT (m ((c : Thread nD τ).loc main_arg1)))) (dstT (m ((c : Thread nD τ).loc main_arg1))) (m ((c : Thread nD τ).loc main_arg4))) (m ((c : Thread nD τ).loc main_arg5)) (m ((c : Thread nD τ).loc main_arg6)) := by
  have h : W8 m ρ c (Proc.devRef .tc main_v46_0) = nrmOf (W7 m ρ c (Proc.devRef .tc main_v44)) (W7 m ρ c (Proc.devRef .tc main_arg5)) (W7 m ρ c (Proc.devRef .tc main_v45)) :=
    (W8_arr m ρ c 3).trans (Cert.KernelIdeal.NodeStage2.final_nrm (V7 m ρ) c)
  rw [h, keep7_main_v44 m ρ c, at6_out, keep7_main_arg5 m ρ c, at6_arg5, show W7 m ρ c (Proc.devRef .tc main_v45) = _ from host3_v45 (W6 m ρ c), at6_arg6]; rfl
theorem at8_len : W8 m ρ c (Proc.devRef .tc main_v46_1) = len2 (out1 (aggK64 (msgK64 (nrm1 (m ((c : Thread nD τ).loc main_arg0)) (m ((c : Thread nD τ).loc main_arg2)) (m ((c : Thread nD τ).loc main_arg3))) (len1 (m ((c : Thread nD τ).loc main_arg0)) (m ((c : Thread nD τ).loc main_arg2)) (m ((c : Thread nD τ).loc main_arg3))) (srcT (m ((c : Thread nD τ).loc main_arg1))) (dstT (m ((c : Thread nD τ).loc main_arg1)))) (dstT (m ((c : Thread nD τ).loc main_arg1)))) (dstT (m ((c : Thread nD τ).loc main_arg1))) (m ((c : Thread nD τ).loc main_arg4))) (m ((c : Thread nD τ).loc main_arg5)) (m ((c : Thread nD τ).loc main_arg6)) := by
  have h : W8 m ρ c (Proc.devRef .tc main_v46_1) = lenOf (W7 m ρ c (Proc.devRef .tc main_v44)) (W7 m ρ c (Proc.devRef .tc main_arg5)) (W7 m ρ c (Proc.devRef .tc main_v45)) :=
    (W8_arr m ρ c 4).trans (Cert.KernelIdeal.NodeStage2.final_len (V7 m ρ) c)
  rw [h, keep7_main_v44 m ρ c, at6_out, keep7_main_arg5 m ρ c, at6_arg5, show W7 m ρ c (Proc.devRef .tc main_v45) = _ from host3_v45 (W6 m ρ c), at6_arg6]; rfl
theorem at8_v3 : W8 m ρ c (Proc.devRef .tc main_v3) = srcT (m ((c : Thread nD τ).loc main_arg1)) :=
  ((((((((keep8_main_v3 m ρ c).trans (keep7_main_v3 m ρ c)).trans (keep6_main_v3 m ρ c)).trans (keep5_main_v3 m ρ c)).trans (keep4_main_v3 m ρ c)).trans (keep3_main_v3 m ρ c)).trans (keep2_main_v3 m ρ c))).trans (at1_v3 m ρ c)
theorem at8_v6 : W8 m ρ c (Proc.devRef .tc main_v6) = dstT (m ((c : Thread nD τ).loc main_arg1)) :=
  ((((((((keep8_main_v6 m ρ c).trans (keep7_main_v6 m ρ c)).trans (keep6_main_v6 m ρ c)).trans (keep5_main_v6 m ρ c)).trans (keep4_main_v6 m ρ c)).trans (keep3_main_v6 m ρ c)).trans (keep2_main_v6 m ρ c))).trans (at1_v6 m ρ c)
theorem at10_msg : W10 m ρ c (Proc.devRef .tc main_v68) = msgK40 (nrm2 (out1 (aggK64 (msgK64 (nrm1 (m ((c : Thread nD τ).loc main_arg0)) (m ((c : Thread nD τ).loc main_arg2)) (m ((c : Thread nD τ).loc main_arg3))) (len1 (m ((c : Thread nD τ).loc main_arg0)) (m ((c : Thread nD τ).loc main_arg2)) (m ((c : Thread nD τ).loc main_arg3))) (srcT (m ((c : Thread nD τ).loc main_arg1))) (dstT (m ((c : Thread nD τ).loc main_arg1)))) (dstT (m ((c : Thread nD τ).loc main_arg1)))) (dstT (m ((c : Thread nD τ).loc main_arg1))) (m ((c : Thread nD τ).loc main_arg4))) (m ((c : Thread nD τ).loc main_arg5)) (m ((c : Thread nD τ).loc main_arg6))) (len2 (out1 (aggK64 (msgK64 (nrm1 (m ((c : Thread nD τ).loc main_arg0)) (m ((c : Thread nD τ).loc main_arg2)) (m ((c : Thread nD τ).loc main_arg3))) (len1 (m ((c : Thread nD τ).loc main_arg0)) (m ((c : Thread nD τ).loc main_arg2)) (m ((c : Thread nD τ).loc main_arg3))) (srcT (m ((c : Thread nD τ).loc main_arg1))) (dstT (m ((c : Thread nD τ).loc main_arg1)))) (dstT (m ((c : Thread nD τ).loc main_arg1)))) (dstT (m ((c : Thread nD τ).loc main_arg1))) (m ((c : Thread nD τ).loc main_arg4))) (m ((c : Thread nD τ).loc main_arg5)) (m ((c : Thread nD τ).loc main_arg6))) (srcT (m ((c : Thread nD τ).loc main_arg1))) (dstT (m ((c : Thread nD τ).loc main_arg1))) := by
  have h : W10 m ρ c (Proc.devRef .tc main_v68) = gateOf (W9 m ρ c (Proc.devRef .tc main_v53)) (W9 m ρ c (Proc.devRef .tc main_v60)) (W9 m ρ c (Proc.devRef .tc main_v67)) :=
    (W10_arr m ρ c 3).trans (Cert.KernelIdeal.EdgeStage2.final_gate (V9 m ρ) c)
  rw [h, show W9 m ρ c (Proc.devRef .tc main_v53) = _ from host4_v53 (W8 m ρ c), show W9 m ρ c (Proc.devRef .tc main_v60) = _ from host4_v60 (W8 m ρ c),
    show W9 m ρ c (Proc.devRef .tc main_v67) = _ from host4_v67 (W8 m ρ c), at8_nrm, at8_len, at8_v3, at8_v6]; rfl
theorem at10_v6 : W10 m ρ c (Proc.devRef .tc main_v6) = dstT (m ((c : Thread nD τ).loc main_arg1)) :=
  ((((((((((keep10_main_v6 m ρ c).trans (keep9_main_v6 m ρ c)).trans (keep8_main_v6 m ρ c)).trans (keep7_main_v6 m ρ c)).trans (keep6_main_v6 m ρ c)).trans (keep5_main_v6 m ρ c)).trans (keep4_main_v6 m ρ c)).trans (keep3_main_v6 m ρ c)).trans (keep2_main_v6 m ρ c))).trans (at1_v6 m ρ c)
theorem at10_v15 : W10 m ρ c (Proc.devRef .tc main_v15) = invT (dstT (m ((c : Thread nD τ).loc main_arg1))) :=
  ((((((((((keep10_main_v15 m ρ c).trans (keep9_main_v15 m ρ c)).trans (keep8_main_v15 m ρ c)).trans (keep7_main_v15 m ρ c)).trans (keep6_main_v15 m ρ c)).trans (keep5_main_v15 m ρ c)).trans (keep4_main_v15 m ρ c)).trans (keep3_main_v15 m ρ c)).trans (keep2_main_v15 m ρ c))).trans (at1_v15 m ρ c)
theorem at10_arg7 : W10 m ρ c (Proc.devRef .tc main_arg7) = (m ((c : Thread nD τ).loc main_arg7)) :=
  ((((((((((keep10_main_arg7 m ρ c).trans (keep9_main_arg7 m ρ c)).trans (keep8_main_arg7 m ρ c)).trans (keep7_main_arg7 m ρ c)).trans (keep6_main_arg7 m ρ c)).trans (keep5_main_arg7 m ρ c)).trans (keep4_main_arg7 m ρ c)).trans (keep3_main_arg7 m ρ c)).trans (keep2_main_arg7 m ρ c)).trans (keep1_main_arg7 m ρ c))
/-- THE RESULT ARRAY after the run is the layer composed twice, a function of the eight arguments. -/
theorem kernel_value : W12 m ρ c (Proc.devRef .tc main_v73) = kOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  have h : W12 m ρ c (Proc.devRef .tc main_v73) = meanLsmOf (W11 m ρ c (Proc.devRef .tc main_v71)) (W11 m ρ c (Proc.devRef .tc main_v15)) (W11 m ρ c (Proc.devRef .tc main_v72)) :=
    (W12_arr m ρ c 3).trans (Cert.KernelIdeal.MeanStage2.final_lsm (V11 m ρ) c)
  rw [h, show W11 m ρ c (Proc.devRef .tc main_v71) = _ from host5_v71 (W10 m ρ c), show W11 m ρ c (Proc.devRef .tc main_v72) = _ from host5_v72 (W10 m ρ c),
    keep11_main_v15 m ρ c, at10_msg, at10_v6, at10_v15, at10_arg7]; rfl

end Cert.KernelIdeal.KFold

end
-- ==== Proof.RefStageDefs.lean ====
/-
  The stages of the reference program, as functions.

  The reference is a two-layer graph network on 100000 nodes and 1700000 edges (the 1600000 given edges and one loop per
  node). Each layer is a dense affine map of the node features; the Euclidean length of each row clamped below; the rows
  divided by it; per edge, the inner product of the normalised rows of its two ends times the affine row of its source;
  the sum of those messages over the edges into each node; the number of edges into each node; and the sum divided by
  that number clamped below by one, plus a bias, then a clamp at zero (layer 1) or a log-softmax along the rows
  (layer 2). Each stage below is literally the host operations of one such step, composed, as a function of the values
  the step reads; the result is the stages composed down to the eight arguments.
-/
import proofs.«154407_j62689342652829_2_alg».proof.Proof.Gen.ReferenceIdeal

noncomputable section

namespace Cert.ReferenceIdeal.Chain

open Cert.ReferenceIdeal Cert.ReferenceIdeal.Gen Idealize.ShloMosaic Idealize.SL.Sem Idealize.ShloMosaic.StableHlo

variable {F : FTy → Type} [FloatOps F]

/-! ## The stages -/

/-- The edges' sources: row 0 of the edge list, then every node once (its loop). -/
def S_src (x1 : IVec S2x1600000 32) : IVec S1700000 32 :=
  concatenate S1700000 0 [⟨S1600000, shapeCast S1600000 (extractStridedSlice S1x1600000 ![0, 0] x1 slices_S2x1600000_S1x1600000_0_0) shapeCasts_S1x1600000_S1600000⟩, ⟨S100000, iotaInDim S100000 32 0⟩] concatenates_S1600000_S100000_S1700000_d0

/-- The edges' destinations: row 1 of the edge list, then every node once (its loop). -/
def S_dst (x1 : IVec S2x1600000 32) : IVec S1700000 32 :=
  concatenate S1700000 0 [⟨S1600000, shapeCast S1600000 (extractStridedSlice S1x1600000 ![1, 0] x1 slices_S2x1600000_S1x1600000_1_0) shapeCasts_S1x1600000_S1600000⟩, ⟨S100000, iotaInDim S100000 32 0⟩] concatenates_S1600000_S100000_S1700000_d0

/-- Layer 1's affine map: the node features times the weights, plus the bias broadcast over the rows. -/
def S_lin1 (x0 : FVec F S100000x128 .f32) (x2 : FVec F S128x64 .f32) (x3 : FVec F S64 .f32) : FVec F S100000x64 .f32 :=
  addf (Host.dotGeneral dot_S100000x128_S128x64_S100000x64_1_0_0_1_n_n none x0 x2) (broadcastInDim S100000x64 ![0, 1] bcast_S1x64_S100000x64_0_1 (broadcastInDim S1x64 ![1] bcast_S64_S1x64_1 x3))

/-- Layer 1's row lengths: the root of the row sums of squares, kept as a column, clamped below by a small constant. -/
def S_len1 (h : FVec F S100000x64 .f32) : FVec F S100000x1 .f32 :=
  maximumf (Host.sqrt (broadcastInDim S100000x1 ![0] bcast_S100000_S100000x1_0 (Host.reduceAdd (mulf h h) (constant S_ .f32 0x00000000#32) reducesTo_S100000x64_S100000_d1 h_S_))) (broadcastInDim S100000x1 ![] bcast_S_S100000x1 (constant S_ .f32 0x2B8CBCCC#32))

/-- Layer 1's normalised rows: each row divided by its clamped length. -/
def S_nrm1 (h : FVec F S100000x64 .f32) (len : FVec F S100000x1 .f32) : FVec F S100000x64 .f32 :=
  Host.divf h (broadcastInDim S100000x64 ![0, 1] bcast_S100000x1_S100000x64_0_1 len)

/-- A vector of node numbers as a column of gather indices, a negative number counted from the end. -/
def wrapIdx (i : IVec S1700000 32) : IVec S1700000x1 32 :=
  broadcastInDim S1700000x1 ![0] bcast_S1700000_S1700000x1_0 (select (cmpi .slt i (broadcastInDim S1700000 ![] bcast_S_S1700000 (constantI S_ 32 0#32))) (addi i (broadcastInDim S1700000 ![] bcast_S_S1700000 (constantI S_ 32 100000#32))) i)

/-- Layer 1's messages: per edge, the inner product of the normalised rows of its destination and its source, times
    the affine row of its source. -/
def S_msg1 (src dst : IVec S1700000 32) (h n : FVec F S100000x64 .f32) : FVec F S1700000x64 .f32 :=
  mulf (broadcastInDim S1700000x64 ![0, 1] bcast_S1700000x1_S1700000x64_0_1 (broadcastInDim S1700000x1 ![0] bcast_S1700000_S1700000x1_0 (Host.reduceAdd (mulf (Host.gather gather_S100000x64_S1700000x1_S1700000x64_1_0_n_n_0_1_164 n (wrapIdx dst)) (Host.gather gather_S100000x64_S1700000x1_S1700000x64_1_0_n_n_0_1_164 n (wrapIdx src))) (constant S_ .f32 0x00000000#32) reducesTo_S1700000x64_S1700000_d1 h_S_))) (Host.gather gather_S100000x64_S1700000x1_S1700000x64_1_0_n_n_0_1_164 h (wrapIdx src))

/-- Layer 1's aggregate: the messages summed, from zero, into the rows of their edges' destinations. -/
def S_agg1 (dst : IVec S1700000 32) (msg : FVec F S1700000x64 .f32) : FVec F S100000x64 .f32 :=
  Host.scatterAdd scatter_S100000x64_S1700000x1_S1700000x64_1_0_0_1 (broadcastInDim S100000x64 ![] bcast_S_S100000x64 (constant S_ .f32 0x00000000#32)) (broadcastInDim S1700000x1 ![0] bcast_S1700000_S1700000x1_0 dst) msg

/-- Layer 1's counts: one per edge summed, from zero, into its destination. -/
def S_cnt1 (dst : IVec S1700000 32) : FVec F S100000 .f32 :=
  Host.scatterAdd scatter_S100000_S1700000x1_S1700000_n_0_0_1 (broadcastInDim S100000 ![] bcast_S_S100000 (constant S_ .f32 0x00000000#32)) (broadcastInDim S1700000x1 ![0] bcast_S1700000_S1700000x1_0 dst) (broadcastInDim S1700000 ![] bcast_S_S1700000 (constant S_ .f32 0x3F800000#32))

/-- Layer 1's output: the aggregate divided by the counts clamped below by one, plus the bias, clamped below at zero. -/
def S_out1 (agg : FVec F S100000x64 .f32) (cnt : FVec F S100000 .f32) (x4 : FVec F S64 .f32) : FVec F S100000x64 .f32 :=
  maximumf (addf (Host.divf agg (broadcastInDim S100000x64 ![0, 1] bcast_S100000x1_S100000x64_0_1 (broadcastInDim S100000x1 ![0] bcast_S100000_S100000x1_0 (maximumf cnt (broadcastInDim S100000 ![] bcast_S_S100000 (constant S_ .f32 0x3F800000#32)))))) (broadcastInDim S100000x64 ![0, 1] bcast_S1x64_S100000x64_0_1 (broadcastInDim S1x64 ![1] bcast_S64_S1x64_1 x4))) (broadcastInDim S100000x64 ![] bcast_S_S100000x64 (constant S_ .f32 0x00000000#32))

/-- Layer 2's affine map. -/
def S_lin2 (y : FVec F S100000x64 .f32) (x5 : FVec F S64x40 .f32) (x6 : FVec F S40 .f32) : FVec F S100000x40 .f32 :=
  addf (Host.dotGeneral dot_S100000x64_S64x40_S100000x40_1_0_0_1_n_n none y x5) (broadcastInDim S100000x40 ![0, 1] bcast_S1x40_S100000x40_0_1 (broadcastInDim S1x40 ![1] bcast_S40_S1x40_1 x6))

/-- Layer 2's clamped row lengths. -/
def S_len2 (h : FVec F S100000x40 .f32) : FVec F S100000x1 .f32 :=
  maximumf (Host.sqrt (broadcastInDim S100000x1 ![0] bcast_S100000_S100000x1_0 (Host.reduceAdd (mulf h h) (constant S_ .f32 0x00000000#32) reducesTo_S100000x40_S100000_d1 h_S_))) (broadcastInDim S100000x1 ![] bcast_S_S100000x1 (constant S_ .f32 0x2B8CBCCC#32))

/-- Layer 2's normalised rows. -/
def S_nrm2 (h : FVec F S100000x40 .f32) (len : FVec F S100000x1 .f32) : FVec F S100000x40 .f32 :=
  Host.divf h (broadcastInDim S100000x40 ![0, 1] bcast_S100000x1_S100000x40_0_1 len)

/-- Layer 2's messages. -/
def S_msg2 (src dst : IVec S1700000 32) (h n : FVec F S100000x40 .f32) : FVec F S1700000x40 .f32 :=
  mulf (broadcastInDim S1700000x40 ![0, 1] bcast_S1700000x1_S1700000x40_0_1 (broadcastInDim S1700000x1 ![0] bcast_S1700000_S1700000x1_0 (Host.reduceAdd (mulf (Host.gather gather_S100000x40_S1700000x1_S1700000x40_1_0_n_n_0_1_140 n (wrapIdx dst)) (Host.gather gather_S100000x40_S1700000x1_S1700000x40_1_0_n_n_0_1_140 n (wrapIdx src))) (constant S_ .f32 0x00000000#32) reducesTo_S1700000x40_S1700000_d1 h_S_))) (Host.gather gather_S100000x40_S1700000x1_S1700000x40_1_0_n_n_0_1_140 h (wrapIdx src))

/-- Layer 2's aggregate. -/
def S_agg2 (dst : IVec S1700000 32) (msg : FVec F S1700000x40 .f32) : FVec F S100000x40 .f32 :=
  Host.scatterAdd scatter_S100000x40_S1700000x1_S1700000x40_1_0_0_1 (broadcastInDim S100000x40 ![] bcast_S_S100000x40 (constant S_ .f32 0x00000000#32)) (broadcastInDim S1700000x1 ![0] bcast_S1700000_S1700000x1_0 dst) msg

/-- Layer 2's counts. -/
def S_cnt2 (dst : IVec S1700000 32) : FVec F S100000 .f32 :=
  Host.scatterAdd scatter_S100000_S1700000x1_S1700000_n_0_0_1 (broadcastInDim S100000 ![] bcast_S_S100000 (constant S_ .f32 0x00000000#32)) (broadcastInDim S1700000x1 ![0] bcast_S1700000_S1700000x1_0 dst) (broadcastInDim S1700000 ![] bcast_S_S1700000 (constant S_ .f32 0x3F800000#32))

/-- Layer 2's pre-activation: the aggregate divided by the counts clamped below by one, plus the bias. -/
def S_pre2 (agg : FVec F S100000x40 .f32) (cnt : FVec F S100000 .f32) (x7 : FVec F S40 .f32) : FVec F S100000x40 .f32 :=
  addf (Host.divf agg (broadcastInDim S100000x40 ![0, 1] bcast_S100000x1_S100000x40_0_1 (broadcastInDim S100000x1 ![0] bcast_S100000_S100000x1_0 (maximumf cnt (broadcastInDim S100000 ![] bcast_S_S100000 (constant S_ .f32 0x3F800000#32)))))) (broadcastInDim S100000x40 ![0, 1] bcast_S1x40_S100000x40_0_1 (broadcastInDim S1x40 ![1] bcast_S40_S1x40_1 x7))

/-- The log-softmax along the rows: the block less its kept row maximum, less the logarithm of the kept row sum of
    the exponentials of the block less its kept row maximum. -/
def S_lsm (z : FVec F S100000x40 .f32) : FVec F S100000x40 .f32 :=
  subf
    (subf z (broadcastInDim S100000x40 ![0, 1] bcast_S100000x1_S100000x40_0_1 (broadcastInDim S100000x1 ![0] bcast_S100000_S100000x1_0 (maximumf (broadcastInDim S100000 ![] bcast_S_S100000 (constant S_ .f32 0xFF800000#32)) (Host.reduce FloatOps.maximumf z (constant S_ .f32 0xFF800000#32) reducesTo_S100000x40_S100000_d1 h_S_)))))
    (broadcastInDim S100000x40 ![0, 1] bcast_S100000x1_S100000x40_0_1 (Host.log (broadcastInDim S100000x1 ![0] bcast_S100000_S100000x1_0 (Host.reduceAdd (Host.exp (subf z (broadcastInDim S100000x40 ![0, 1] bcast_S100000x1_S100000x40_0_1 (broadcastInDim S100000x1 ![0] bcast_S100000_S100000x1_0 (maximumf (broadcastInDim S100000 ![] bcast_S_S100000 (constant S_ .f32 0xFF800000#32)) (Host.reduce FloatOps.maximumf z (constant S_ .f32 0xFF800000#32) reducesTo_S100000x40_S100000_d1 h_S_)))))) (constant S_ .f32 0x00000000#32) reducesTo_S100000x40_S100000_d1 h_S_))))

/-- Layer 1's output as a function of the arguments. -/
def refOut1 (x0 : FVec F S100000x128 .f32) (x1 : IVec S2x1600000 32) (x2 : FVec F S128x64 .f32) (x3 x4 : FVec F S64 .f32) : FVec F S100000x64 .f32 :=
  S_out1 (S_agg1 (S_dst x1) (S_msg1 (S_src x1) (S_dst x1) (S_lin1 x0 x2 x3) (S_nrm1 (S_lin1 x0 x2 x3) (S_len1 (S_lin1 x0 x2 x3))))) (S_cnt1 (S_dst x1)) x4

/-- Layer 2's affine map as a function of the arguments. -/
def refLin2 (x0 : FVec F S100000x128 .f32) (x1 : IVec S2x1600000 32) (x2 : FVec F S128x64 .f32) (x3 x4 : FVec F S64 .f32)
    (x5 : FVec F S64x40 .f32) (x6 : FVec F S40 .f32) : FVec F S100000x40 .f32 :=
  S_lin2 (refOut1 x0 x1 x2 x3 x4) x5 x6

/-- The result as a function of the eight arguments: the stages composed. -/
def refOut (x0 : FVec F S100000x128 .f32) (x1 : IVec S2x1600000 32) (x2 : FVec F S128x64 .f32) (x3 x4 : FVec F S64 .f32)
    (x5 : FVec F S64x40 .f32) (x6 x7 : FVec F S40 .f32) : FVec F S100000x40 .f32 :=
  S_lsm (S_pre2 (S_agg2 (S_dst x1) (S_msg2 (S_src x1) (S_dst x1) (refLin2 x0 x1 x2 x3 x4 x5 x6)
      (S_nrm2 (refLin2 x0 x1 x2 x3 x4 x5 x6) (S_len2 (refLin2 x0 x1 x2 x3 x4 x5 x6)))))
    (S_cnt2 (S_dst x1)) x7)

end Cert.ReferenceIdeal.Chain

end
-- ==== Proof.LibTypedRef.lean ====
/-
  A typed reference's two transports cancel.

  A called function's operations are stated over references that carry the type of the tensor value they hold; a value
  is moved from that type to the buffer's own type when it is written and back when it is read, along the equation of
  the two types. Writing and then reading is the identity, whatever that equation's proof.
-/
import Idealize.ShloMosaic.Lib.StableHlo

namespace Cert.LibTypedRef

open Idealize.ShloMosaic Idealize.ShloMosaic.StableHlo

variable {sig : RefSig} {T : BufTy} {Val : EltTy → Type}

/-- A value moved to the buffer's type and back is unchanged. -/
theorem ofBuf_toBuf (x : TRef sig T) (v : T.Contents Val) : x.ofBuf (x.toBuf v) = v := by
  obtain ⟨r, h, _, _⟩ := x
  subst h
  rfl

/-- A buffer's contents moved to the value's type and back are unchanged. -/
theorem toBuf_ofBuf (x : TRef sig T) (v : x.ref.ty.Contents Val) : x.toBuf (x.ofBuf v) = v := by
  obtain ⟨r, h, _, _⟩ := x
  subst h
  rfl

end Cert.LibTypedRef
-- ==== Proof.RefChain.lean ====
/-
  The reference program's result as a composition of named stages.

  The reference is a straight line of 157 host operations: a two-layer graph network on 100000 nodes and 1700000 edges
  (the 1600000 given edges and one loop per node). Each layer is a dense affine map of the node features; the
  Euclidean length of each row clamped below; the rows divided by it; per edge, the inner product of the normalised rows
  of its two ends times the affine row of its source; the sum of those messages over the edges into each node; the
  number of edges into each node; and the sum divided by that number clamped below by one, plus a bias, then a clamp at
  zero (layer 1) or a log-softmax along the rows (layer 2). Each stage is literally the host operations of one such
  step, composed, as a function of the buffers the step reads. The line is cut at the steps' boundaries; the
  contents after a concatenation of two lines are the contents after the second from the contents after the first,
  so the result buffer is the stages composed down to the eight arguments, and the arguments, which no operation
  writes, end as launched.
-/
import proofs.«154407_j62689342652829_2_alg».proof.Proof.RefRunP
import proofs.«154407_j62689342652829_2_alg».proof.Proof.RefStageDefs
import proofs.«154407_j62689342652829_2_alg».proof.Proof.LibTypedRef
import Idealize.ShloMosaic.Lib.StableHlo.Run

noncomputable section

namespace Cert.ReferenceIdeal.Chain

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F]

/-! ## The line cut at the stages' boundaries -/

/-- The contents after two lines run one after the other: after the second, from the contents after the first. -/
theorem after_append {τ' : Topo} {sig' : RefSig} {Val : EltTy → Type} (l₁ l₂ : List (HloOp τ' sig' Val)) (V : Valuation τ' sig' Val) :
    after (l₁ ++ l₂) V = after l₂ (after l₁ V) := by
  induction l₁ generalizing V with
  | nil => rfl
  | cons op l ih => exact ih (op.result V)

/-- The 7 operations of the edges' two ends. -/
abbrev ops_idx : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) ]

/-- The 4 operations of layer 1's affine map. -/
abbrev ops_lin1 : List (HloOp τ sig (Elt F)) :=
  [ binary main_arg0 main_arg2 main_v7 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg3 main_v8 (broadcastInDim S1x64 ![1] bcast_S64_S1x64_1 : (⟨S64, .f32⟩ : BufTy).Contents (Elt F) → (⟨S1x64, .f32⟩ : BufTy).Contents (Elt F)),
    unary main_v8 main_v9 (broadcastInDim S100000x64 ![0, 1] bcast_S1x64_S100000x64_0_1 : (⟨S1x64, .f32⟩ : BufTy).Contents (Elt F) → (⟨S100000x64, .f32⟩ : BufTy).Contents (Elt F)),
    binary main_v7 main_v9 main_v10 (addf : (⟨S100000x64, .f32⟩ : BufTy).Contents (Elt F) → (⟨S100000x64, .f32⟩ : BufTy).Contents (Elt F) → (⟨S100000x64, .f32⟩ : BufTy).Contents (Elt F)) ]

/-- The 8 operations of layer 1's clamped row lengths. -/
abbrev ops_len1 : List (HloOp τ sig (Elt F)) :=
  [ TRef.binary (TRef.of (T := ⟨S100000x64, .f32⟩) main_v10) (TRef.of (T := ⟨S100000x64, .f32⟩) main_v10) (TRef.of (T := ⟨S100000x64, .f32⟩) main_call0_v0) mulf,
    TRef.nullary (TRef.of (T := ⟨S_, .f32⟩) main_call0_cst) (constant S_ .f32 0x00000000#32),
    TRef.binary (TRef.of (T := ⟨S100000x64, .f32⟩) main_call0_v0) (TRef.of (T := ⟨S_, .f32⟩) main_call0_cst) (TRef.of (T := ⟨S100000, .f32⟩) main_call0_v1) (fun x v => Host.reduceAdd x v reducesTo_S100000x64_S100000_d1 h_S_),
    TRef.unary (TRef.of (T := ⟨S100000, .f32⟩) main_call0_v1) (TRef.of (T := ⟨S100000x1, .f32⟩) main_call0_v2) (broadcastInDim S100000x1 ![0] bcast_S100000_S100000x1_0),
    TRef.unary (TRef.of (T := ⟨S100000x1, .f32⟩) main_call0_v2) (TRef.of (T := ⟨S100000x1, .f32⟩) main_v11) Host.sqrt,
    nullary main_cst (constant S_ .f32 0x2B8CBCCC#32),
    unary main_cst main_v12 (broadcastInDim S100000x1 ![] bcast_S_S100000x1 : (⟨S_, .f32⟩ : BufTy).Contents (Elt F) → (⟨S100000x1, .f32⟩ : BufTy).Contents (Elt F)),
    binary main_v11 main_v12 main_v13 (maximumf : (⟨S100000x1, .f32⟩ : BufTy).Contents (Elt F) → (⟨S100000x1, .f32⟩ : BufTy).Contents (Elt F) → (⟨S100000x1, .f32⟩ : BufTy).Contents (Elt F)) ]

/-- The 2 operations of layer 1's normalised rows. -/
abbrev ops_nrm1 : List (HloOp τ sig (Elt F)) :=
  [ unary main_v13 main_v14 (broadcastInDim S100000x64 ![0, 1] bcast_S100000x1_S100000x64_0_1 : (⟨S100000x1, .f32⟩ : BufTy).Contents (Elt F) → (⟨S100000x64, .f32⟩ : BufTy).Contents (Elt F)),
    binary main_v10 main_v14 main_v15 (Host.divf : (⟨S100000x64, .f32⟩ : BufTy).Contents (Elt F) → (⟨S100000x64, .f32⟩ : BufTy).Contents (Elt F) → (⟨S100000x64, .f32⟩ : BufTy).Contents (Elt F)) ]

/-- The 33 operations of layer 1's messages. -/
abbrev ops_msg1 : List (HloOp τ sig (Elt F)) :=
  [ nullary main_c (constantI S_ 32 0#32),
    unary main_c main_v16 (broadcastInDim S1700000 ![] bcast_S_S1700000 : (⟨S_, .i32⟩ : BufTy).Contents (Elt F) → (⟨S1700000, .i32⟩ : BufTy).Contents (Elt F)),
    binary main_v6 main_v16 main_v17 (cmpi .slt : (⟨S1700000, .i32⟩ : BufTy).Contents (Elt F) → (⟨S1700000, .i32⟩ : BufTy).Contents (Elt F) → (⟨S1700000, .i1⟩ : BufTy).Contents (Elt F)),
    nullary main_c_0 (constantI S_ 32 100000#32),
    unary main_c_0 main_v18 (broadcastInDim S1700000 ![] bcast_S_S1700000 : (⟨S_, .i32⟩ : BufTy).Contents (Elt F) → (⟨S1700000, .i32⟩ : BufTy).Contents (Elt F)),
    binary main_v6 main_v18 main_v19 (addi : (⟨S1700000, .i32⟩ : BufTy).Contents (Elt F) → (⟨S1700000, .i32⟩ : BufTy).Contents (Elt F) → (⟨S1700000, .i32⟩ : BufTy).Contents (Elt F)),
    ternary main_v17 main_v19 main_v6 main_v20 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v20 main_v21 (broadcastInDim S1700000x1 ![0] bcast_S1700000_S1700000x1_0 : (⟨S1700000, .i32⟩ : BufTy).Contents (Elt F) → (⟨S1700000x1, .i32⟩ : BufTy).Contents (Elt F)),
    binary main_v15 main_v21 main_v22 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    nullary main_c_1 (constantI S_ 32 0#32),
    unary main_c_1 main_v23 (broadcastInDim S1700000 ![] bcast_S_S1700000 : (⟨S_, .i32⟩ : BufTy).Contents (Elt F) → (⟨S1700000, .i32⟩ : BufTy).Contents (Elt F)),
    binary main_v3 main_v23 main_v24 (cmpi .slt : (⟨S1700000, .i32⟩ : BufTy).Contents (Elt F) → (⟨S1700000, .i32⟩ : BufTy).Contents (Elt F) → (⟨S1700000, .i1⟩ : BufTy).Contents (Elt F)),
    nullary main_c_2 (constantI S_ 32 100000#32),
    unary main_c_2 main_v25 (broadcastInDim S1700000 ![] bcast_S_S1700000 : (⟨S_, .i32⟩ : BufTy).Contents (Elt F) → (⟨S1700000, .i32⟩ : BufTy).Contents (Elt F)),
    binary main_v3 main_v25 main_v26 (addi : (⟨S1700000, .i32⟩ : BufTy).Contents (Elt F) → (⟨S1700000, .i32⟩ : BufTy).Contents (Elt F) → (⟨S1700000, .i32⟩ : BufTy).Contents (Elt F)),
    ternary main_v24 main_v26 main_v3 main_v27 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v27 main_v28 (broadcastInDim S1700000x1 ![0] bcast_S1700000_S1700000x1_0 : (⟨S1700000, .i32⟩ : BufTy).Contents (Elt F) → (⟨S1700000x1, .i32⟩ : BufTy).Contents (Elt F)),
    binary main_v15 main_v28 main_v29 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    binary main_v22 main_v29 main_v30 (mulf : (⟨S1700000x64, .f32⟩ : BufTy).Contents (Elt F) → (⟨S1700000x64, .f32⟩ : BufTy).Contents (Elt F) → (⟨S1700000x64, .f32⟩ : BufTy).Contents (Elt F)),
    nullary main_cst_3 (constant S_ .f32 0x00000000#32),
    binary main_v30 main_cst_3 main_v31 ((fun x v => Host.reduceAdd x v reducesTo_S1700000x64_S1700000_d1 h_S_) : (⟨S1700000x64, .f32⟩ : BufTy).Contents (Elt F) → (⟨S_, .f32⟩ : BufTy).Contents (Elt F) → (⟨S1700000, .f32⟩ : BufTy).Contents (Elt F)),
    unary main_v31 main_v32 (broadcastInDim S1700000x1 ![0] bcast_S1700000_S1700000x1_0 : (⟨S1700000, .f32⟩ : BufTy).Contents (Elt F) → (⟨S1700000x1, .f32⟩ : BufTy).Contents (Elt F)),
    nullary main_c_4 (constantI S_ 32 0#32),
    unary main_c_4 main_v33 (broadcastInDim S1700000 ![] bcast_S_S1700000 : (⟨S_, .i32⟩ : BufTy).Contents (Elt F) → (⟨S1700000, .i32⟩ : BufTy).Contents (Elt F)),
    binary main_v3 main_v33 main_v34 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v35 (broadcastInDim S1700000 ![] bcast_S_S1700000 : (⟨S_, .i32⟩ : BufTy).Contents (Elt F) → (⟨S1700000, .i32⟩ : BufTy).Contents (Elt F)),
    binary main_v3 main_v35 main_v36 (addi : (⟨S1700000, .i32⟩ : BufTy).Contents (Elt F) → (⟨S1700000, .i32⟩ : BufTy).Contents (Elt F) → (⟨S1700000, .i32⟩ : BufTy).Contents (Elt F)),
    ternary main_v34 main_v36 main_v3 main_v37 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v37 main_v38 (broadcastInDim S1700000x1 ![0] bcast_S1700000_S1700000x1_0 : (⟨S1700000, .i32⟩ : BufTy).Contents (Elt F) → (⟨S1700000x1, .i32⟩ : BufTy).Contents (Elt F)),
    binary main_v10 main_v38 main_v39 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v32 main_v40 (broadcastInDim S1700000x64 ![0, 1] bcast_S1700000x1_S1700000x64_0_1 : (⟨S1700000x1, .f32⟩ : BufTy).Contents (Elt F) → (⟨S1700000x64, .f32⟩ : BufTy).Contents (Elt F)),
    binary main_v40 main_v39 main_v41 (mulf : (⟨S1700000x64, .f32⟩ : BufTy).Contents (Elt F) → (⟨S1700000x64, .f32⟩ : BufTy).Contents (Elt F) → (⟨S1700000x64, .f32⟩ : BufTy).Contents (Elt F)) ]

/-- The 4 operations of layer 1's aggregate. -/
abbrev ops_agg1 : List (HloOp τ sig (Elt F)) :=
  [ nullary main_cst_6 (constant S_ .f32 0x00000000#32),
    unary main_cst_6 main_v42 (broadcastInDim S100000x64 ![] bcast_S_S100000x64 : (⟨S_, .f32⟩ : BufTy).Contents (Elt F) → (⟨S100000x64, .f32⟩ : BufTy).Contents (Elt F)),
    unary main_v6 main_v43 (broadcastInDim S1700000x1 ![0] bcast_S1700000_S1700000x1_0 : (⟨S1700000, .i32⟩ : BufTy).Contents (Elt F) → (⟨S1700000x1, .i32⟩ : BufTy).Contents (Elt F)),
    ternary main_v42 main_v43 main_v41 main_v44 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)) ]

/-- The 6 operations of layer 1's counts. -/
abbrev ops_cnt1 : List (HloOp τ sig (Elt F)) :=
  [ nullary main_cst_7 (constant S_ .f32 0x3F800000#32),
    unary main_cst_7 main_v45 (broadcastInDim S1700000 ![] bcast_S_S1700000 : (⟨S_, .f32⟩ : BufTy).Contents (Elt F) → (⟨S1700000, .f32⟩ : BufTy).Contents (Elt F)),
    nullary main_cst_8 (constant S_ .f32 0x00000000#32),
    unary main_cst_8 main_v46 (broadcastInDim S100000 ![] bcast_S_S100000 : (⟨S_, .f32⟩ : BufTy).Contents (Elt F) → (⟨S100000, .f32⟩ : BufTy).Contents (Elt F)),
    unary main_v6 main_v47 (broadcastInDim S1700000x1 ![0] bcast_S1700000_S1700000x1_0 : (⟨S1700000, .i32⟩ : BufTy).Contents (Elt F) → (⟨S1700000x1, .i32⟩ : BufTy).Contents (Elt F)),
    ternary main_v46 main_v47 main_v45 main_v48 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)) ]

/-- The 12 operations of layer 1's output. -/
abbrev ops_out1 : List (HloOp τ sig (Elt F)) :=
  [ nullary main_cst_9 (constant S_ .f32 0x3F800000#32),
    unary main_cst_9 main_v49 (broadcastInDim S100000 ![] bcast_S_S100000 : (⟨S_, .f32⟩ : BufTy).Contents (Elt F) → (⟨S100000, .f32⟩ : BufTy).Contents (Elt F)),
    binary main_v48 main_v49 main_v50 (maximumf : (⟨S100000, .f32⟩ : BufTy).Contents (Elt F) → (⟨S100000, .f32⟩ : BufTy).Contents (Elt F) → (⟨S100000, .f32⟩ : BufTy).Contents (Elt F)),
    unary main_v50 main_v51 (broadcastInDim S100000x1 ![0] bcast_S100000_S100000x1_0 : (⟨S100000, .f32⟩ : BufTy).Contents (Elt F) → (⟨S100000x1, .f32⟩ : BufTy).Contents (Elt F)),
    unary main_v51 main_v52 (broadcastInDim S100000x64 ![0, 1] bcast_S100000x1_S100000x64_0_1 : (⟨S100000x1, .f32⟩ : BufTy).Contents (Elt F) → (⟨S100000x64, .f32⟩ : BufTy).Contents (Elt F)),
    binary main_v44 main_v52 main_v53 (Host.divf : (⟨S100000x64, .f32⟩ : BufTy).Contents (Elt F) → (⟨S100000x64, .f32⟩ : BufTy).Contents (Elt F) → (⟨S100000x64, .f32⟩ : BufTy).Contents (Elt F)),
    unary main_arg4 main_v54 (broadcastInDim S1x64 ![1] bcast_S64_S1x64_1 : (⟨S64, .f32⟩ : BufTy).Contents (Elt F) → (⟨S1x64, .f32⟩ : BufTy).Contents (Elt F)),
    unary main_v54 main_v55 (broadcastInDim S100000x64 ![0, 1] bcast_S1x64_S100000x64_0_1 : (⟨S1x64, .f32⟩ : BufTy).Contents (Elt F) → (⟨S100000x64, .f32⟩ : BufTy).Contents (Elt F)),
    binary main_v53 main_v55 main_v56 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v56) (TRef.of (T := ⟨S100000x64, .f32⟩) main_call1_v0) (TRef.of (T := ⟨S100000x64, .f32⟩) main_v57) maximumf ]

/-- The 4 operations of layer 2's affine map. -/
abbrev ops_lin2 : List (HloOp τ sig (Elt F)) :=
  [ binary main_v57 main_arg5 main_v58 ((fun l r => Host.dotGeneral dot_S100000x64_S64x40_S100000x40_1_0_0_1_n_n none l r) : (⟨S100000x64, .f32⟩ : BufTy).Contents (Elt F) → (⟨S64x40, .f32⟩ : BufTy).Contents (Elt F) → (⟨S100000x40, .f32⟩ : BufTy).Contents (Elt F)),
    unary main_arg6 main_v59 (broadcastInDim S1x40 ![1] bcast_S40_S1x40_1 : (⟨S40, .f32⟩ : BufTy).Contents (Elt F) → (⟨S1x40, .f32⟩ : BufTy).Contents (Elt F)),
    unary main_v59 main_v60 (broadcastInDim S100000x40 ![0, 1] bcast_S1x40_S100000x40_0_1 : (⟨S1x40, .f32⟩ : BufTy).Contents (Elt F) → (⟨S100000x40, .f32⟩ : BufTy).Contents (Elt F)),
    binary main_v58 main_v60 main_v61 (addf : (⟨S100000x40, .f32⟩ : BufTy).Contents (Elt F) → (⟨S100000x40, .f32⟩ : BufTy).Contents (Elt F) → (⟨S100000x40, .f32⟩ : BufTy).Contents (Elt F)) ]

/-- The 8 operations of layer 2's clamped row lengths. -/
abbrev ops_len2 : List (HloOp τ sig (Elt F)) :=
  [ TRef.binary (TRef.of (T := ⟨S100000x40, .f32⟩) main_v61) (TRef.of (T := ⟨S100000x40, .f32⟩) main_v61) (TRef.of (T := ⟨S100000x40, .f32⟩) main_call2_v0) mulf,
    TRef.nullary (TRef.of (T := ⟨S_, .f32⟩) main_call2_cst) (constant S_ .f32 0x00000000#32),
    TRef.binary (TRef.of (T := ⟨S100000x40, .f32⟩) main_call2_v0) (TRef.of (T := ⟨S_, .f32⟩) main_call2_cst) (TRef.of (T := ⟨S100000, .f32⟩) main_call2_v1) (fun x v => Host.reduceAdd x v reducesTo_S100000x40_S100000_d1 h_S_),
    TRef.unary (TRef.of (T := ⟨S100000, .f32⟩) main_call2_v1) (TRef.of (T := ⟨S100000x1, .f32⟩) main_call2_v2) (broadcastInDim S100000x1 ![0] bcast_S100000_S100000x1_0),
    TRef.unary (TRef.of (T := ⟨S100000x1, .f32⟩) main_call2_v2) (TRef.of (T := ⟨S100000x1, .f32⟩) main_v62) Host.sqrt,
    nullary main_cst_10 (constant S_ .f32 0x2B8CBCCC#32),
    unary main_cst_10 main_v63 (broadcastInDim S100000x1 ![] bcast_S_S100000x1 : (⟨S_, .f32⟩ : BufTy).Contents (Elt F) → (⟨S100000x1, .f32⟩ : BufTy).Contents (Elt F)),
    binary main_v62 main_v63 main_v64 (maximumf : (⟨S100000x1, .f32⟩ : BufTy).Contents (Elt F) → (⟨S100000x1, .f32⟩ : BufTy).Contents (Elt F) → (⟨S100000x1, .f32⟩ : BufTy).Contents (Elt F)) ]

/-- The 2 operations of layer 2's normalised rows. -/
abbrev ops_nrm2 : List (HloOp τ sig (Elt F)) :=
  [ unary main_v64 main_v65 (broadcastInDim S100000x40 ![0, 1] bcast_S100000x1_S100000x40_0_1 : (⟨S100000x1, .f32⟩ : BufTy).Contents (Elt F) → (⟨S100000x40, .f32⟩ : BufTy).Contents (Elt F)),
    binary main_v61 main_v65 main_v66 (Host.divf : (⟨S100000x40, .f32⟩ : BufTy).Contents (Elt F) → (⟨S100000x40, .f32⟩ : BufTy).Contents (Elt F) → (⟨S100000x40, .f32⟩ : BufTy).Contents (Elt F)) ]

/-- The 33 operations of layer 2's messages. -/
abbrev ops_msg2 : List (HloOp τ sig (Elt F)) :=
  [ nullary main_c_11 (constantI S_ 32 0#32),
    unary main_c_11 main_v67 (broadcastInDim S1700000 ![] bcast_S_S1700000 : (⟨S_, .i32⟩ : BufTy).Contents (Elt F) → (⟨S1700000, .i32⟩ : BufTy).Contents (Elt F)),
    binary main_v6 main_v67 main_v68 (cmpi .slt : (⟨S1700000, .i32⟩ : BufTy).Contents (Elt F) → (⟨S1700000, .i32⟩ : BufTy).Contents (Elt F) → (⟨S1700000, .i1⟩ : BufTy).Contents (Elt F)),
    nullary main_c_12 (constantI S_ 32 100000#32),
    unary main_c_12 main_v69 (broadcastInDim S1700000 ![] bcast_S_S1700000 : (⟨S_, .i32⟩ : BufTy).Contents (Elt F) → (⟨S1700000, .i32⟩ : BufTy).Contents (Elt F)),
    binary main_v6 main_v69 main_v70 (addi : (⟨S1700000, .i32⟩ : BufTy).Contents (Elt F) → (⟨S1700000, .i32⟩ : BufTy).Contents (Elt F) → (⟨S1700000, .i32⟩ : BufTy).Contents (Elt F)),
    ternary main_v68 main_v70 main_v6 main_v71 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v71 main_v72 (broadcastInDim S1700000x1 ![0] bcast_S1700000_S1700000x1_0 : (⟨S1700000, .i32⟩ : BufTy).Contents (Elt F) → (⟨S1700000x1, .i32⟩ : BufTy).Contents (Elt F)),
    binary main_v66 main_v72 main_v73 ((fun x i => Host.gather gather_S100000x40_S1700000x1_S1700000x40_1_0_n_n_0_1_140 x i) : (⟨S100000x40, .f32⟩ : BufTy).Contents (Elt F) → (⟨S1700000x1, .i32⟩ : BufTy).Contents (Elt F) → (⟨S1700000x40, .f32⟩ : BufTy).Contents (Elt F)),
    nullary main_c_13 (constantI S_ 32 0#32),
    unary main_c_13 main_v74 (broadcastInDim S1700000 ![] bcast_S_S1700000 : (⟨S_, .i32⟩ : BufTy).Contents (Elt F) → (⟨S1700000, .i32⟩ : BufTy).Contents (Elt F)),
    binary main_v3 main_v74 main_v75 (cmpi .slt : (⟨S1700000, .i32⟩ : BufTy).Contents (Elt F) → (⟨S1700000, .i32⟩ : BufTy).Contents (Elt F) → (⟨S1700000, .i1⟩ : BufTy).Contents (Elt F)),
    nullary main_c_14 (constantI S_ 32 100000#32),
    unary main_c_14 main_v76 (broadcastInDim S1700000 ![] bcast_S_S1700000 : (⟨S_, .i32⟩ : BufTy).Contents (Elt F) → (⟨S1700000, .i32⟩ : BufTy).Contents (Elt F)),
    binary main_v3 main_v76 main_v77 (addi : (⟨S1700000, .i32⟩ : BufTy).Contents (Elt F) → (⟨S1700000, .i32⟩ : BufTy).Contents (Elt F) → (⟨S1700000, .i32⟩ : BufTy).Contents (Elt F)),
    ternary main_v75 main_v77 main_v3 main_v78 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v78 main_v79 (broadcastInDim S1700000x1 ![0] bcast_S1700000_S1700000x1_0 : (⟨S1700000, .i32⟩ : BufTy).Contents (Elt F) → (⟨S1700000x1, .i32⟩ : BufTy).Contents (Elt F)),
    binary main_v66 main_v79 main_v80 ((fun x i => Host.gather gather_S100000x40_S1700000x1_S1700000x40_1_0_n_n_0_1_140 x i) : (⟨S100000x40, .f32⟩ : BufTy).Contents (Elt F) → (⟨S1700000x1, .i32⟩ : BufTy).Contents (Elt F) → (⟨S1700000x40, .f32⟩ : BufTy).Contents (Elt F)),
    binary main_v73 main_v80 main_v81 (mulf : (⟨S1700000x40, .f32⟩ : BufTy).Contents (Elt F) → (⟨S1700000x40, .f32⟩ : BufTy).Contents (Elt F) → (⟨S1700000x40, .f32⟩ : BufTy).Contents (Elt F)),
    nullary main_cst_15 (constant S_ .f32 0x00000000#32),
    binary main_v81 main_cst_15 main_v82 ((fun x v => Host.reduceAdd x v reducesTo_S1700000x40_S1700000_d1 h_S_) : (⟨S1700000x40, .f32⟩ : BufTy).Contents (Elt F) → (⟨S_, .f32⟩ : BufTy).Contents (Elt F) → (⟨S1700000, .f32⟩ : BufTy).Contents (Elt F)),
    unary main_v82 main_v83 (broadcastInDim S1700000x1 ![0] bcast_S1700000_S1700000x1_0 : (⟨S1700000, .f32⟩ : BufTy).Contents (Elt F) → (⟨S1700000x1, .f32⟩ : BufTy).Contents (Elt F)),
    nullary main_c_16 (constantI S_ 32 0#32),
    unary main_c_16 main_v84 (broadcastInDim S1700000 ![] bcast_S_S1700000 : (⟨S_, .i32⟩ : BufTy).Contents (Elt F) → (⟨S1700000, .i32⟩ : BufTy).Contents (Elt F)),
    binary main_v3 main_v84 main_v85 (cmpi .slt : (⟨S1700000, .i32⟩ : BufTy).Contents (Elt F) → (⟨S1700000, .i32⟩ : BufTy).Contents (Elt F) → (⟨S1700000, .i1⟩ : BufTy).Contents (Elt F)),
    nullary main_c_17 (constantI S_ 32 100000#32),
    unary main_c_17 main_v86 (broadcastInDim S1700000 ![] bcast_S_S1700000 : (⟨S_, .i32⟩ : BufTy).Contents (Elt F) → (⟨S1700000, .i32⟩ : BufTy).Contents (Elt F)),
    binary main_v3 main_v86 main_v87 (addi : (⟨S1700000, .i32⟩ : BufTy).Contents (Elt F) → (⟨S1700000, .i32⟩ : BufTy).Contents (Elt F) → (⟨S1700000, .i32⟩ : BufTy).Contents (Elt F)),
    ternary main_v85 main_v87 main_v3 main_v88 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v88 main_v89 (broadcastInDim S1700000x1 ![0] bcast_S1700000_S1700000x1_0 : (⟨S1700000, .i32⟩ : BufTy).Contents (Elt F) → (⟨S1700000x1, .i32⟩ : BufTy).Contents (Elt F)),
    binary main_v61 main_v89 main_v90 ((fun x i => Host.gather gather_S100000x40_S1700000x1_S1700000x40_1_0_n_n_0_1_140 x i) : (⟨S100000x40, .f32⟩ : BufTy).Contents (Elt F) → (⟨S1700000x1, .i32⟩ : BufTy).Contents (Elt F) → (⟨S1700000x40, .f32⟩ : BufTy).Contents (Elt F)),
    unary main_v83 main_v91 (broadcastInDim S1700000x40 ![0, 1] bcast_S1700000x1_S1700000x40_0_1 : (⟨S1700000x1, .f32⟩ : BufTy).Contents (Elt F) → (⟨S1700000x40, .f32⟩ : BufTy).Contents (Elt F)),
    binary main_v91 main_v90 main_v92 (mulf : (⟨S1700000x40, .f32⟩ : BufTy).Contents (Elt F) → (⟨S1700000x40, .f32⟩ : BufTy).Contents (Elt F) → (⟨S1700000x40, .f32⟩ : BufTy).Contents (Elt F)) ]

/-- The 4 operations of layer 2's aggregate. -/
abbrev ops_agg2 : List (HloOp τ sig (Elt F)) :=
  [ nullary main_cst_18 (constant S_ .f32 0x00000000#32),
    unary main_cst_18 main_v93 (broadcastInDim S100000x40 ![] bcast_S_S100000x40 : (⟨S_, .f32⟩ : BufTy).Contents (Elt F) → (⟨S100000x40, .f32⟩ : BufTy).Contents (Elt F)),
    unary main_v6 main_v94 (broadcastInDim S1700000x1 ![0] bcast_S1700000_S1700000x1_0 : (⟨S1700000, .i32⟩ : BufTy).Contents (Elt F) → (⟨S1700000x1, .i32⟩ : BufTy).Contents (Elt F)),
    ternary main_v93 main_v94 main_v92 main_v95 ((fun x i u => Host.scatterAdd scatter_S100000x40_S1700000x1_S1700000x40_1_0_0_1 x i u) : (⟨S100000x40, .f32⟩ : BufTy).Contents (Elt F) → (⟨S1700000x1, .i32⟩ : BufTy).Contents (Elt F) → (⟨S1700000x40, .f32⟩ : BufTy).Contents (Elt F) → (⟨S100000x40, .f32⟩ : BufTy).Contents (Elt F)) ]

/-- The 6 operations of layer 2's counts. -/
abbrev ops_cnt2 : List (HloOp τ sig (Elt F)) :=
  [ nullary main_cst_19 (constant S_ .f32 0x3F800000#32),
    unary main_cst_19 main_v96 (broadcastInDim S1700000 ![] bcast_S_S1700000 : (⟨S_, .f32⟩ : BufTy).Contents (Elt F) → (⟨S1700000, .f32⟩ : BufTy).Contents (Elt F)),
    nullary main_cst_20 (constant S_ .f32 0x00000000#32),
    unary main_cst_20 main_v97 (broadcastInDim S100000 ![] bcast_S_S100000 : (⟨S_, .f32⟩ : BufTy).Contents (Elt F) → (⟨S100000, .f32⟩ : BufTy).Contents (Elt F)),
    unary main_v6 main_v98 (broadcastInDim S1700000x1 ![0] bcast_S1700000_S1700000x1_0 : (⟨S1700000, .i32⟩ : BufTy).Contents (Elt F) → (⟨S1700000x1, .i32⟩ : BufTy).Contents (Elt F)),
    ternary main_v97 main_v98 main_v96 main_v99 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)) ]

/-- The 9 operations of layer 2's pre-activation. -/
abbrev ops_pre2 : List (HloOp τ sig (Elt F)) :=
  [ nullary main_cst_21 (constant S_ .f32 0x3F800000#32),
    unary main_cst_21 main_v100 (broadcastInDim S100000 ![] bcast_S_S100000 : (⟨S_, .f32⟩ : BufTy).Contents (Elt F) → (⟨S100000, .f32⟩ : BufTy).Contents (Elt F)),
    binary main_v99 main_v100 main_v101 (maximumf : (⟨S100000, .f32⟩ : BufTy).Contents (Elt F) → (⟨S100000, .f32⟩ : BufTy).Contents (Elt F) → (⟨S100000, .f32⟩ : BufTy).Contents (Elt F)),
    unary main_v101 main_v102 (broadcastInDim S100000x1 ![0] bcast_S100000_S100000x1_0 : (⟨S100000, .f32⟩ : BufTy).Contents (Elt F) → (⟨S100000x1, .f32⟩ : BufTy).Contents (Elt F)),
    unary main_v102 main_v103 (broadcastInDim S100000x40 ![0, 1] bcast_S100000x1_S100000x40_0_1 : (⟨S100000x1, .f32⟩ : BufTy).Contents (Elt F) → (⟨S100000x40, .f32⟩ : BufTy).Contents (Elt F)),
    binary main_v95 main_v103 main_v104 (Host.divf : (⟨S100000x40, .f32⟩ : BufTy).Contents (Elt F) → (⟨S100000x40, .f32⟩ : BufTy).Contents (Elt F) → (⟨S100000x40, .f32⟩ : BufTy).Contents (Elt F)),
    unary main_arg7 main_v105 (broadcastInDim S1x40 ![1] bcast_S40_S1x40_1 : (⟨S40, .f32⟩ : BufTy).Contents (Elt F) → (⟨S1x40, .f32⟩ : BufTy).Contents (Elt F)),
    unary main_v105 main_v106 (broadcastInDim S100000x40 ![0, 1] bcast_S1x40_S100000x40_0_1 : (⟨S1x40, .f32⟩ : BufTy).Contents (Elt F) → (⟨S100000x40, .f32⟩ : BufTy).Contents (Elt F)),
    binary main_v104 main_v106 main_v107 (addf : (⟨S100000x40, .f32⟩ : BufTy).Contents (Elt F) → (⟨S100000x40, .f32⟩ : BufTy).Contents (Elt F) → (⟨S100000x40, .f32⟩ : BufTy).Contents (Elt F)) ]

/-- The 15 operations of the log-softmax. -/
abbrev ops_lsm : List (HloOp τ sig (Elt F)) :=
  [ TRef.nullary (TRef.of (T := ⟨S_, .f32⟩) main_call3_cst) (constant S_ .f32 0xFF800000#32),
    TRef.binary (TRef.of (T := ⟨S100000x40, .f32⟩) main_v107) (TRef.of (T := ⟨S_, .f32⟩) main_call3_cst) (TRef.of (T := ⟨S100000, .f32⟩) main_call3_v0) (fun x v => Host.reduce FloatOps.maximumf x v reducesTo_S100000x40_S100000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf,
    TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x40, .f32⟩) main_call3_v4) (broadcastInDim S100000x40 ![0, 1] bcast_S100000x1_S100000x40_0_1),
    TRef.binary (TRef.of (T := ⟨S100000x40, .f32⟩) main_v107) (TRef.of (T := ⟨S100000x40, .f32⟩) main_call3_v4) (TRef.of (T := ⟨S100000x40, .f32⟩) main_call3_v5) subf,
    TRef.unary (TRef.of (T := ⟨S100000x40, .f32⟩) main_call3_v5) (TRef.of (T := ⟨S100000x40, .f32⟩) main_call3_v6) Host.exp,
    TRef.nullary (TRef.of (T := ⟨S_, .f32⟩) main_call3_cst_1) (constant S_ .f32 0x00000000#32),
    TRef.binary (TRef.of (T := ⟨S100000x40, .f32⟩) main_call3_v6) (TRef.of (T := ⟨S_, .f32⟩) main_call3_cst_1) (TRef.of (T := ⟨S100000, .f32⟩) main_call3_v7) (fun x v => Host.reduceAdd x v reducesTo_S100000x40_S100000_d1 h_S_),
    TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x40, .f32⟩) main_call3_v10) (broadcastInDim S100000x40 ![0, 1] bcast_S100000x1_S100000x40_0_1),
    TRef.binary (TRef.of (T := ⟨S100000x40, .f32⟩) main_call3_v5) (TRef.of (T := ⟨S100000x40, .f32⟩) main_call3_v10) (TRef.of (T := ⟨S100000x40, .f32⟩) main_v108) subf ]

/-- The program's line is the stages' lines in order. -/
theorem ops_eq : (ops : List (HloOp τ sig (Elt F))) = ops_idx ++ (ops_lin1 ++ (ops_len1 ++ (ops_nrm1 ++ (ops_msg1 ++ (ops_agg1 ++ (ops_cnt1 ++ (ops_out1 ++ (ops_lin2 ++ (ops_len2 ++ (ops_nrm2 ++ (ops_msg2 ++ (ops_agg2 ++ (ops_cnt2 ++ (ops_pre2 ++ (ops_lsm))))))))))))))) := rfl

/-- The contents after the whole line: after each stage's line in turn. -/
theorem after_ops (V : Valuation τ sig (Elt F)) :
    after (ops (F := F)) V = after ops_lsm (after ops_pre2 (after ops_cnt2 (after ops_agg2 (after ops_msg2 (after ops_nrm2 (after ops_len2 (after ops_lin2 (after ops_out1 (after ops_cnt1 (after ops_agg1 (after ops_msg1 (after ops_nrm1 (after ops_len1 (after ops_lin1 (after ops_idx V))))))))))))))) := by
  rw [ops_eq]; simp only [after_append]

/-! ## Each stage's line, from any contents -/

/-- After the edges' two ends's operations, from any contents, `main_v3` holds the stage's function of what the buffers it reads held. -/
theorem idx_src (V : Valuation τ sig (Elt F)) :
    after ops_idx V (Proc.devRef .tc main_v3) = S_src (V (Proc.devRef .tc main_arg1)) := by
  after_results_simp <;> rfl

/-- After the edges' two ends's operations, from any contents, `main_v6` holds the stage's function of what the buffers it reads held. -/
theorem idx_dst (V : Valuation τ sig (Elt F)) :
    after ops_idx V (Proc.devRef .tc main_v6) = S_dst (V (Proc.devRef .tc main_arg1)) := by
  after_results_simp <;> rfl

/-- After layer 1's affine map's operations, from any contents, `main_v10` holds the stage's function of what the buffers it reads held. -/
theorem lin1_out (V : Valuation τ sig (Elt F)) :
    after ops_lin1 V (Proc.devRef .tc main_v10) = S_lin1 (V (Proc.devRef .tc main_arg0)) (V (Proc.devRef .tc main_arg2)) (V (Proc.devRef .tc main_arg3)) := by
  after_results_simp <;> rfl

/-- After layer 1's clamped row lengths's operations, from any contents, `main_v13` holds the stage's function of what the buffers it reads held. -/
theorem len1_out (V : Valuation τ sig (Elt F)) :
    after ops_len1 V (Proc.devRef .tc main_v13) = S_len1 (V (Proc.devRef .tc main_v10)) := by
  after_results_simp <;> rfl

/-- After layer 1's normalised rows's operations, from any contents, `main_v15` holds the stage's function of what the buffers it reads held. -/
theorem nrm1_out (V : Valuation τ sig (Elt F)) :
    after ops_nrm1 V (Proc.devRef .tc main_v15) = S_nrm1 (V (Proc.devRef .tc main_v10)) (V (Proc.devRef .tc main_v13)) := by
  after_results_simp <;> rfl

/-- After layer 1's messages's operations, from any contents, `main_v41` holds the stage's function of what the buffers it reads held. -/
theorem msg1_out (V : Valuation τ sig (Elt F)) :
    after ops_msg1 V (Proc.devRef .tc main_v41) = S_msg1 (V (Proc.devRef .tc main_v3)) (V (Proc.devRef .tc main_v6)) (V (Proc.devRef .tc main_v10)) (V (Proc.devRef .tc main_v15)) := by
  after_results_simp <;> rfl

/-- After layer 1's aggregate's operations, from any contents, `main_v44` holds the stage's function of what the buffers it reads held. -/
theorem agg1_out (V : Valuation τ sig (Elt F)) :
    after ops_agg1 V (Proc.devRef .tc main_v44) = S_agg1 (V (Proc.devRef .tc main_v6)) (V (Proc.devRef .tc main_v41)) := by
  after_results_simp <;> rfl

/-- After layer 1's counts's operations, from any contents, `main_v48` holds the stage's function of what the buffers it reads held. -/
theorem cnt1_out (V : Valuation τ sig (Elt F)) :
    after ops_cnt1 V (Proc.devRef .tc main_v48) = S_cnt1 (V (Proc.devRef .tc main_v6)) := by
  after_results_simp <;> rfl

/-- After layer 1's output's operations, from any contents, `main_v57` holds the stage's function of what the buffers it reads held. -/
theorem out1_out (V : Valuation τ sig (Elt F)) :
    after ops_out1 V (Proc.devRef .tc main_v57) = S_out1 (V (Proc.devRef .tc main_v44)) (V (Proc.devRef .tc main_v48)) (V (Proc.devRef .tc main_arg4)) := by
  after_results_simp <;> rfl

/-- After layer 2's affine map's operations, from any contents, `main_v61` holds the stage's function of what the buffers it reads held. -/
theorem lin2_out (V : Valuation τ sig (Elt F)) :
    after ops_lin2 V (Proc.devRef .tc main_v61) = S_lin2 (V (Proc.devRef .tc main_v57)) (V (Proc.devRef .tc main_arg5)) (V (Proc.devRef .tc main_arg6)) := by
  after_results_simp <;> rfl

/-- After layer 2's clamped row lengths's operations, from any contents, `main_v64` holds the stage's function of what the buffers it reads held. -/
theorem len2_out (V : Valuation τ sig (Elt F)) :
    after ops_len2 V (Proc.devRef .tc main_v64) = S_len2 (V (Proc.devRef .tc main_v61)) := by
  after_results_simp <;> rfl

/-- After layer 2's normalised rows's operations, from any contents, `main_v66` holds the stage's function of what the buffers it reads held. -/
theorem nrm2_out (V : Valuation τ sig (Elt F)) :
    after ops_nrm2 V (Proc.devRef .tc main_v66) = S_nrm2 (V (Proc.devRef .tc main_v61)) (V (Proc.devRef .tc main_v64)) := by
  after_results_simp <;> rfl

/-- After layer 2's messages's operations, from any contents, `main_v92` holds the stage's function of what the buffers it reads held. -/
theorem msg2_out (V : Valuation τ sig (Elt F)) :
    after ops_msg2 V (Proc.devRef .tc main_v92) = S_msg2 (V (Proc.devRef .tc main_v3)) (V (Proc.devRef .tc main_v6)) (V (Proc.devRef .tc main_v61)) (V (Proc.devRef .tc main_v66)) := by
  after_results_simp <;> rfl

/-- After layer 2's aggregate's operations, from any contents, `main_v95` holds the stage's function of what the buffers it reads held. -/
theorem agg2_out (V : Valuation τ sig (Elt F)) :
    after ops_agg2 V (Proc.devRef .tc main_v95) = S_agg2 (V (Proc.devRef .tc main_v6)) (V (Proc.devRef .tc main_v92)) := by
  after_results_simp <;> rfl

/-- After layer 2's counts's operations, from any contents, `main_v99` holds the stage's function of what the buffers it reads held. -/
theorem cnt2_out (V : Valuation τ sig (Elt F)) :
    after ops_cnt2 V (Proc.devRef .tc main_v99) = S_cnt2 (V (Proc.devRef .tc main_v6)) := by
  after_results_simp <;> rfl

/-- After layer 2's pre-activation's operations, from any contents, `main_v107` holds the stage's function of what the buffers it reads held. -/
theorem pre2_out (V : Valuation τ sig (Elt F)) :
    after ops_pre2 V (Proc.devRef .tc main_v107) = S_pre2 (V (Proc.devRef .tc main_v95)) (V (Proc.devRef .tc main_v99)) (V (Proc.devRef .tc main_arg7)) := by
  after_results_simp <;> rfl

/-- After the log-softmax's operations, from any contents, `main_v108` holds the stage's function of what the buffers it reads held. -/
theorem lsm_out (V : Valuation τ sig (Elt F)) :
    after ops_lsm V (Proc.devRef .tc main_v108) = S_lsm (V (Proc.devRef .tc main_v107)) := by
  after_results_simp
  simp only [Cert.LibTypedRef.ofBuf_toBuf]
  rfl

/-! ## What a stage's line does not write, it leaves -/

/-- The edges' two ends's operations leave every buffer other than the ones they write. -/
theorem frame_idx (V : Valuation τ sig (Elt F)) (r : Ref sig .tc)
    (hr : r ∉ [main_v0, main_v1, main_v2, main_v3, main_v4, main_v5, main_v6]) :
    after ops_idx V (Proc.devRef .tc r) = V (Proc.devRef .tc r) :=
  after_of_forall_not_mem (b := Proc.devRef .tc r) _ V (List.forall_iff_forall_mem.mp (by
    simp only [List.Forall, nullary_writes, unary_writes, binary_writes, ternary_writes, reshape_writes, Finset.mem_singleton]
    repeat' apply And.intro
    all_goals exact devRef_ne_of_ne (fun e => hr (by subst e; decide))))

/-- Layer 1's affine map's operations leave every buffer other than the ones they write. -/
theorem frame_lin1 (V : Valuation τ sig (Elt F)) (r : Ref sig .tc)
    (hr : r ∉ [main_v7, main_v8, main_v9, main_v10]) :
    after ops_lin1 V (Proc.devRef .tc r) = V (Proc.devRef .tc r) :=
  after_of_forall_not_mem (b := Proc.devRef .tc r) _ V (List.forall_iff_forall_mem.mp (by
    simp only [List.Forall, nullary_writes, unary_writes, binary_writes, ternary_writes, reshape_writes, Finset.mem_singleton]
    repeat' apply And.intro
    all_goals exact devRef_ne_of_ne (fun e => hr (by subst e; decide))))

/-- Layer 1's clamped row lengths's operations leave every buffer other than the ones they write. -/
theorem frame_len1 (V : Valuation τ sig (Elt F)) (r : Ref sig .tc)
    (hr : r ∉ [main_call0_v0, main_call0_cst, main_call0_v1, main_call0_v2, main_v11, main_cst, main_v12, main_v13]) :
    after ops_len1 V (Proc.devRef .tc r) = V (Proc.devRef .tc r) :=
  after_of_forall_not_mem (b := Proc.devRef .tc r) _ V (List.forall_iff_forall_mem.mp (by
    simp only [List.Forall, nullary_writes, unary_writes, binary_writes, ternary_writes, reshape_writes, Finset.mem_singleton]
    repeat' apply And.intro
    all_goals exact devRef_ne_of_ne (fun e => hr (by subst e; decide))))

/-- Layer 1's normalised rows's operations leave every buffer other than the ones they write. -/
theorem frame_nrm1 (V : Valuation τ sig (Elt F)) (r : Ref sig .tc)
    (hr : r ∉ [main_v14, main_v15]) :
    after ops_nrm1 V (Proc.devRef .tc r) = V (Proc.devRef .tc r) :=
  after_of_forall_not_mem (b := Proc.devRef .tc r) _ V (List.forall_iff_forall_mem.mp (by
    simp only [List.Forall, nullary_writes, unary_writes, binary_writes, ternary_writes, reshape_writes, Finset.mem_singleton]
    repeat' apply And.intro
    all_goals exact devRef_ne_of_ne (fun e => hr (by subst e; decide))))

/-- Layer 1's messages's operations leave every buffer other than the ones they write. -/
theorem frame_msg1 (V : Valuation τ sig (Elt F)) (r : Ref sig .tc)
    (hr : r ∉ [main_c, main_v16, main_v17, main_c_0, main_v18, main_v19, main_v20, main_v21, main_v22, main_c_1, main_v23, main_v24, main_c_2, main_v25, main_v26, main_v27, main_v28, main_v29, main_v30, main_cst_3, main_v31, main_v32, main_c_4, main_v33, main_v34, main_c_5, main_v35, main_v36, main_v37, main_v38, main_v39, main_v40, main_v41]) :
    after ops_msg1 V (Proc.devRef .tc r) = V (Proc.devRef .tc r) :=
  after_of_forall_not_mem (b := Proc.devRef .tc r) _ V (List.forall_iff_forall_mem.mp (by
    simp only [List.Forall, nullary_writes, unary_writes, binary_writes, ternary_writes, reshape_writes, Finset.mem_singleton]
    repeat' apply And.intro
    all_goals exact devRef_ne_of_ne (fun e => hr (by subst e; decide))))

/-- Layer 1's aggregate's operations leave every buffer other than the ones they write. -/
theorem frame_agg1 (V : Valuation τ sig (Elt F)) (r : Ref sig .tc)
    (hr : r ∉ [main_cst_6, main_v42, main_v43, main_v44]) :
    after ops_agg1 V (Proc.devRef .tc r) = V (Proc.devRef .tc r) :=
  after_of_forall_not_mem (b := Proc.devRef .tc r) _ V (List.forall_iff_forall_mem.mp (by
    simp only [List.Forall, nullary_writes, unary_writes, binary_writes, ternary_writes, reshape_writes, Finset.mem_singleton]
    repeat' apply And.intro
    all_goals exact devRef_ne_of_ne (fun e => hr (by subst e; decide))))

/-- Layer 1's counts's operations leave every buffer other than the ones they write. -/
theorem frame_cnt1 (V : Valuation τ sig (Elt F)) (r : Ref sig .tc)
    (hr : r ∉ [main_cst_7, main_v45, main_cst_8, main_v46, main_v47, main_v48]) :
    after ops_cnt1 V (Proc.devRef .tc r) = V (Proc.devRef .tc r) :=
  after_of_forall_not_mem (b := Proc.devRef .tc r) _ V (List.forall_iff_forall_mem.mp (by
    simp only [List.Forall, nullary_writes, unary_writes, binary_writes, ternary_writes, reshape_writes, Finset.mem_singleton]
    repeat' apply And.intro
    all_goals exact devRef_ne_of_ne (fun e => hr (by subst e; decide))))

/-- Layer 1's output's operations leave every buffer other than the ones they write. -/
theorem frame_out1 (V : Valuation τ sig (Elt F)) (r : Ref sig .tc)
    (hr : r ∉ [main_cst_9, main_v49, main_v50, main_v51, main_v52, main_v53, main_v54, main_v55, main_v56, main_call1_cst, main_call1_v0, main_v57]) :
    after ops_out1 V (Proc.devRef .tc r) = V (Proc.devRef .tc r) :=
  after_of_forall_not_mem (b := Proc.devRef .tc r) _ V (List.forall_iff_forall_mem.mp (by
    simp only [List.Forall, nullary_writes, unary_writes, binary_writes, ternary_writes, reshape_writes, Finset.mem_singleton]
    repeat' apply And.intro
    all_goals exact devRef_ne_of_ne (fun e => hr (by subst e; decide))))

/-- Layer 2's affine map's operations leave every buffer other than the ones they write. -/
theorem frame_lin2 (V : Valuation τ sig (Elt F)) (r : Ref sig .tc)
    (hr : r ∉ [main_v58, main_v59, main_v60, main_v61]) :
    after ops_lin2 V (Proc.devRef .tc r) = V (Proc.devRef .tc r) :=
  after_of_forall_not_mem (b := Proc.devRef .tc r) _ V (List.forall_iff_forall_mem.mp (by
    simp only [List.Forall, nullary_writes, unary_writes, binary_writes, ternary_writes, reshape_writes, Finset.mem_singleton]
    repeat' apply And.intro
    all_goals exact devRef_ne_of_ne (fun e => hr (by subst e; decide))))

/-- Layer 2's clamped row lengths's operations leave every buffer other than the ones they write. -/
theorem frame_len2 (V : Valuation τ sig (Elt F)) (r : Ref sig .tc)
    (hr : r ∉ [main_call2_v0, main_call2_cst, main_call2_v1, main_call2_v2, main_v62, main_cst_10, main_v63, main_v64]) :
    after ops_len2 V (Proc.devRef .tc r) = V (Proc.devRef .tc r) :=
  after_of_forall_not_mem (b := Proc.devRef .tc r) _ V (List.forall_iff_forall_mem.mp (by
    simp only [List.Forall, nullary_writes, unary_writes, binary_writes, ternary_writes, reshape_writes, Finset.mem_singleton]
    repeat' apply And.intro
    all_goals exact devRef_ne_of_ne (fun e => hr (by subst e; decide))))

/-- Layer 2's normalised rows's operations leave every buffer other than the ones they write. -/
theorem frame_nrm2 (V : Valuation τ sig (Elt F)) (r : Ref sig .tc)
    (hr : r ∉ [main_v65, main_v66]) :
    after ops_nrm2 V (Proc.devRef .tc r) = V (Proc.devRef .tc r) :=
  after_of_forall_not_mem (b := Proc.devRef .tc r) _ V (List.forall_iff_forall_mem.mp (by
    simp only [List.Forall, nullary_writes, unary_writes, binary_writes, ternary_writes, reshape_writes, Finset.mem_singleton]
    repeat' apply And.intro
    all_goals exact devRef_ne_of_ne (fun e => hr (by subst e; decide))))

/-- Layer 2's messages's operations leave every buffer other than the ones they write. -/
theorem frame_msg2 (V : Valuation τ sig (Elt F)) (r : Ref sig .tc)
    (hr : r ∉ [main_c_11, main_v67, main_v68, main_c_12, main_v69, main_v70, main_v71, main_v72, main_v73, main_c_13, main_v74, main_v75, main_c_14, main_v76, main_v77, main_v78, main_v79, main_v80, main_v81, main_cst_15, main_v82, main_v83, main_c_16, main_v84, main_v85, main_c_17, main_v86, main_v87, main_v88, main_v89, main_v90, main_v91, main_v92]) :
    after ops_msg2 V (Proc.devRef .tc r) = V (Proc.devRef .tc r) :=
  after_of_forall_not_mem (b := Proc.devRef .tc r) _ V (List.forall_iff_forall_mem.mp (by
    simp only [List.Forall, nullary_writes, unary_writes, binary_writes, ternary_writes, reshape_writes, Finset.mem_singleton]
    repeat' apply And.intro
    all_goals exact devRef_ne_of_ne (fun e => hr (by subst e; decide))))

/-- Layer 2's aggregate's operations leave every buffer other than the ones they write. -/
theorem frame_agg2 (V : Valuation τ sig (Elt F)) (r : Ref sig .tc)
    (hr : r ∉ [main_cst_18, main_v93, main_v94, main_v95]) :
    after ops_agg2 V (Proc.devRef .tc r) = V (Proc.devRef .tc r) :=
  after_of_forall_not_mem (b := Proc.devRef .tc r) _ V (List.forall_iff_forall_mem.mp (by
    simp only [List.Forall, nullary_writes, unary_writes, binary_writes, ternary_writes, reshape_writes, Finset.mem_singleton]
    repeat' apply And.intro
    all_goals exact devRef_ne_of_ne (fun e => hr (by subst e; decide))))

/-- Layer 2's counts's operations leave every buffer other than the ones they write. -/
theorem frame_cnt2 (V : Valuation τ sig (Elt F)) (r : Ref sig .tc)
    (hr : r ∉ [main_cst_19, main_v96, main_cst_20, main_v97, main_v98, main_v99]) :
    after ops_cnt2 V (Proc.devRef .tc r) = V (Proc.devRef .tc r) :=
  after_of_forall_not_mem (b := Proc.devRef .tc r) _ V (List.forall_iff_forall_mem.mp (by
    simp only [List.Forall, nullary_writes, unary_writes, binary_writes, ternary_writes, reshape_writes, Finset.mem_singleton]
    repeat' apply And.intro
    all_goals exact devRef_ne_of_ne (fun e => hr (by subst e; decide))))

/-- Layer 2's pre-activation's operations leave every buffer other than the ones they write. -/
theorem frame_pre2 (V : Valuation τ sig (Elt F)) (r : Ref sig .tc)
    (hr : r ∉ [main_cst_21, main_v100, main_v101, main_v102, main_v103, main_v104, main_v105, main_v106, main_v107]) :
    after ops_pre2 V (Proc.devRef .tc r) = V (Proc.devRef .tc r) :=
  after_of_forall_not_mem (b := Proc.devRef .tc r) _ V (List.forall_iff_forall_mem.mp (by
    simp only [List.Forall, nullary_writes, unary_writes, binary_writes, ternary_writes, reshape_writes, Finset.mem_singleton]
    repeat' apply And.intro
    all_goals exact devRef_ne_of_ne (fun e => hr (by subst e; decide))))

/-- The log-softmax's operations leave every buffer other than the ones they write. -/
theorem frame_lsm (V : Valuation τ sig (Elt F)) (r : Ref sig .tc)
    (hr : r ∉ [main_call3_cst, main_call3_v0, main_call3_cst_0, main_call3_v1, main_call3_v2, main_call3_v3, main_call3_v4, main_call3_v5, main_call3_v6, main_call3_cst_1, main_call3_v7, main_call3_v8, main_call3_v9, main_call3_v10, main_v108]) :
    after ops_lsm V (Proc.devRef .tc r) = V (Proc.devRef .tc r) :=
  after_of_forall_not_mem (b := Proc.devRef .tc r) _ V (List.forall_iff_forall_mem.mp (by
    simp only [List.Forall, nullary_writes, unary_writes, binary_writes, ternary_writes, reshape_writes, Finset.mem_singleton]
    repeat' apply And.intro
    all_goals exact devRef_ne_of_ne (fun e => hr (by subst e; decide))))

/-! ## The whole line -/

/-- What the whole line leaves, from the launch contents: the result buffer holds the stages composed down to the
    arguments' launch contents, and each argument, which no operation writes, what it held. -/
theorem ref_values (m : (ℓ : Loc nD τ sig) → Buf (Elt F) ℓ) (d : Dev nD) :
    after (ops (F := F)) (launchContents m d) (Proc.devRef .tc main_v108) = refOut (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7))
    ∧ after (ops (F := F)) (launchContents m d) (Proc.devRef .tc main_arg0) = m ((d.tc : Thread nD τ).loc main_arg0)
    ∧ after (ops (F := F)) (launchContents m d) (Proc.devRef .tc main_arg1) = m ((d.tc : Thread nD τ).loc main_arg1)
    ∧ after (ops (F := F)) (launchContents m d) (Proc.devRef .tc main_arg2) = m ((d.tc : Thread nD τ).loc main_arg2)
    ∧ after (ops (F := F)) (launchContents m d) (Proc.devRef .tc main_arg3) = m ((d.tc : Thread nD τ).loc main_arg3)
    ∧ after (ops (F := F)) (launchContents m d) (Proc.devRef .tc main_arg4) = m ((d.tc : Thread nD τ).loc main_arg4)
    ∧ after (ops (F := F)) (launchContents m d) (Proc.devRef .tc main_arg5) = m ((d.tc : Thread nD τ).loc main_arg5)
    ∧ after (ops (F := F)) (launchContents m d) (Proc.devRef .tc main_arg6) = m ((d.tc : Thread nD τ).loc main_arg6)
    ∧ after (ops (F := F)) (launchContents m d) (Proc.devRef .tc main_arg7) = m ((d.tc : Thread nD τ).loc main_arg7) := by
  rw [after_ops]
  have h0_arg0 : (launchContents m d) (Proc.devRef .tc main_arg0) = m ((d.tc : Thread nD τ).loc main_arg0) := rfl
  have h0_arg1 : (launchContents m d) (Proc.devRef .tc main_arg1) = m ((d.tc : Thread nD τ).loc main_arg1) := rfl
  have h0_arg2 : (launchContents m d) (Proc.devRef .tc main_arg2) = m ((d.tc : Thread nD τ).loc main_arg2) := rfl
  have h0_arg3 : (launchContents m d) (Proc.devRef .tc main_arg3) = m ((d.tc : Thread nD τ).loc main_arg3) := rfl
  have h0_arg4 : (launchContents m d) (Proc.devRef .tc main_arg4) = m ((d.tc : Thread nD τ).loc main_arg4) := rfl
  have h0_arg5 : (launchContents m d) (Proc.devRef .tc main_arg5) = m ((d.tc : Thread nD τ).loc main_arg5) := rfl
  have h0_arg6 : (launchContents m d) (Proc.devRef .tc main_arg6) = m ((d.tc : Thread nD τ).loc main_arg6) := rfl
  have h0_arg7 : (launchContents m d) (Proc.devRef .tc main_arg7) = m ((d.tc : Thread nD τ).loc main_arg7) := rfl
  have h1_v3 : (after ops_idx (launchContents m d)) (Proc.devRef .tc main_v3) = S_src (m ((d.tc : Thread nD τ).loc main_arg1)) := by
    rw [idx_src, h0_arg1]
  have h1_v6 : (after ops_idx (launchContents m d)) (Proc.devRef .tc main_v6) = S_dst (m ((d.tc : Thread nD τ).loc main_arg1)) := by
    rw [idx_dst, h0_arg1]
  have h1_arg0 : (after ops_idx (launchContents m d)) (Proc.devRef .tc main_arg0) = m ((d.tc : Thread nD τ).loc main_arg0) :=
    (frame_idx _ main_arg0 (by decide)).trans h0_arg0
  have h1_arg1 : (after ops_idx (launchContents m d)) (Proc.devRef .tc main_arg1) = m ((d.tc : Thread nD τ).loc main_arg1) :=
    (frame_idx _ main_arg1 (by decide)).trans h0_arg1
  have h1_arg2 : (after ops_idx (launchContents m d)) (Proc.devRef .tc main_arg2) = m ((d.tc : Thread nD τ).loc main_arg2) :=
    (frame_idx _ main_arg2 (by decide)).trans h0_arg2
  have h1_arg3 : (after ops_idx (launchContents m d)) (Proc.devRef .tc main_arg3) = m ((d.tc : Thread nD τ).loc main_arg3) :=
    (frame_idx _ main_arg3 (by decide)).trans h0_arg3
  have h1_arg4 : (after ops_idx (launchContents m d)) (Proc.devRef .tc main_arg4) = m ((d.tc : Thread nD τ).loc main_arg4) :=
    (frame_idx _ main_arg4 (by decide)).trans h0_arg4
  have h1_arg5 : (after ops_idx (launchContents m d)) (Proc.devRef .tc main_arg5) = m ((d.tc : Thread nD τ).loc main_arg5) :=
    (frame_idx _ main_arg5 (by decide)).trans h0_arg5
  have h1_arg6 : (after ops_idx (launchContents m d)) (Proc.devRef .tc main_arg6) = m ((d.tc : Thread nD τ).loc main_arg6) :=
    (frame_idx _ main_arg6 (by decide)).trans h0_arg6
  have h1_arg7 : (after ops_idx (launchContents m d)) (Proc.devRef .tc main_arg7) = m ((d.tc : Thread nD τ).loc main_arg7) :=
    (frame_idx _ main_arg7 (by decide)).trans h0_arg7
  have h2_v10 : (after ops_lin1 (after ops_idx (launchContents m d))) (Proc.devRef .tc main_v10) = S_lin1 (m ((d.tc : Thread nD τ).loc main_arg0)) (m ((d.tc : Thread nD τ).loc main_arg2)) (m ((d.tc : Thread nD τ).loc main_arg3)) := by
    rw [lin1_out, h1_arg0, h1_arg2, h1_arg3]
  have h2_arg0 : (after ops_lin1 (after ops_idx (launchContents m d))) (Proc.devRef .tc main_arg0) = m ((d.tc : Thread nD τ).loc main_arg0) :=
    (frame_lin1 _ main_arg0 (by decide)).trans h1_arg0
  have h2_arg1 : (after ops_lin1 (after ops_idx (launchContents m d))) (Proc.devRef .tc main_arg1) = m ((d.tc : Thread nD τ).loc main_arg1) :=
    (frame_lin1 _ main_arg1 (by decide)).trans h1_arg1
  have h2_arg2 : (after ops_lin1 (after ops_idx (launchContents m d))) (Proc.devRef .tc main_arg2) = m ((d.tc : Thread nD τ).loc main_arg2) :=
    (frame_lin1 _ main_arg2 (by decide)).trans h1_arg2
  have h2_arg3 : (after ops_lin1 (after ops_idx (launchContents m d))) (Proc.devRef .tc main_arg3) = m ((d.tc : Thread nD τ).loc main_arg3) :=
    (frame_lin1 _ main_arg3 (by decide)).trans h1_arg3
  have h2_arg4 : (after ops_lin1 (after ops_idx (launchContents m d))) (Proc.devRef .tc main_arg4) = m ((d.tc : Thread nD τ).loc main_arg4) :=
    (frame_lin1 _ main_arg4 (by decide)).trans h1_arg4
  have h2_arg5 : (after ops_lin1 (after ops_idx (launchContents m d))) (Proc.devRef .tc main_arg5) = m ((d.tc : Thread nD τ).loc main_arg5) :=
    (frame_lin1 _ main_arg5 (by decide)).trans h1_arg5
  have h2_arg6 : (after ops_lin1 (after ops_idx (launchContents m d))) (Proc.devRef .tc main_arg6) = m ((d.tc : Thread nD τ).loc main_arg6) :=
    (frame_lin1 _ main_arg6 (by decide)).trans h1_arg6
  have h2_arg7 : (after ops_lin1 (after ops_idx (launchContents m d))) (Proc.devRef .tc main_arg7) = m ((d.tc : Thread nD τ).loc main_arg7) :=
    (frame_lin1 _ main_arg7 (by decide)).trans h1_arg7
  have h2_v3 : (after ops_lin1 (after ops_idx (launchContents m d))) (Proc.devRef .tc main_v3) = S_src (m ((d.tc : Thread nD τ).loc main_arg1)) :=
    (frame_lin1 _ main_v3 (by decide)).trans h1_v3
  have h2_v6 : (after ops_lin1 (after ops_idx (launchContents m d))) (Proc.devRef .tc main_v6) = S_dst (m ((d.tc : Thread nD τ).loc main_arg1)) :=
    (frame_lin1 _ main_v6 (by decide)).trans h1_v6
  have h3_v13 : (after ops_len1 (after ops_lin1 (after ops_idx (launchContents m d)))) (Proc.devRef .tc main_v13) = S_len1 (S_lin1 (m ((d.tc : Thread nD τ).loc main_arg0)) (m ((d.tc : Thread nD τ).loc main_arg2)) (m ((d.tc : Thread nD τ).loc main_arg3))) := by
    rw [len1_out, h2_v10]
  have h3_arg0 : (after ops_len1 (after ops_lin1 (after ops_idx (launchContents m d)))) (Proc.devRef .tc main_arg0) = m ((d.tc : Thread nD τ).loc main_arg0) :=
    (frame_len1 _ main_arg0 (by decide)).trans h2_arg0
  have h3_arg1 : (after ops_len1 (after ops_lin1 (after ops_idx (launchContents m d)))) (Proc.devRef .tc main_arg1) = m ((d.tc : Thread nD τ).loc main_arg1) :=
    (frame_len1 _ main_arg1 (by decide)).trans h2_arg1
  have h3_arg2 : (after ops_len1 (after ops_lin1 (after ops_idx (launchContents m d)))) (Proc.devRef .tc main_arg2) = m ((d.tc : Thread nD τ).loc main_arg2) :=
    (frame_len1 _ main_arg2 (by decide)).trans h2_arg2
  have h3_arg3 : (after ops_len1 (after ops_lin1 (after ops_idx (launchContents m d)))) (Proc.devRef .tc main_arg3) = m ((d.tc : Thread nD τ).loc main_arg3) :=
    (frame_len1 _ main_arg3 (by decide)).trans h2_arg3
  have h3_arg4 : (after ops_len1 (after ops_lin1 (after ops_idx (launchContents m d)))) (Proc.devRef .tc main_arg4) = m ((d.tc : Thread nD τ).loc main_arg4) :=
    (frame_len1 _ main_arg4 (by decide)).trans h2_arg4
  have h3_arg5 : (after ops_len1 (after ops_lin1 (after ops_idx (launchContents m d)))) (Proc.devRef .tc main_arg5) = m ((d.tc : Thread nD τ).loc main_arg5) :=
    (frame_len1 _ main_arg5 (by decide)).trans h2_arg5
  have h3_arg6 : (after ops_len1 (after ops_lin1 (after ops_idx (launchContents m d)))) (Proc.devRef .tc main_arg6) = m ((d.tc : Thread nD τ).loc main_arg6) :=
    (frame_len1 _ main_arg6 (by decide)).trans h2_arg6
  have h3_arg7 : (after ops_len1 (after ops_lin1 (after ops_idx (launchContents m d)))) (Proc.devRef .tc main_arg7) = m ((d.tc : Thread nD τ).loc main_arg7) :=
    (frame_len1 _ main_arg7 (by decide)).trans h2_arg7
  have h3_v3 : (after ops_len1 (after ops_lin1 (after ops_idx (launchContents m d)))) (Proc.devRef .tc main_v3) = S_src (m ((d.tc : Thread nD τ).loc main_arg1)) :=
    (frame_len1 _ main_v3 (by decide)).trans h2_v3
  have h3_v6 : (after ops_len1 (after ops_lin1 (after ops_idx (launchContents m d)))) (Proc.devRef .tc main_v6) = S_dst (m ((d.tc : Thread nD τ).loc main_arg1)) :=
    (frame_len1 _ main_v6 (by decide)).trans h2_v6
  have h3_v10 : (after ops_len1 (after ops_lin1 (after ops_idx (launchContents m d)))) (Proc.devRef .tc main_v10) = S_lin1 (m ((d.tc : Thread nD τ).loc main_arg0)) (m ((d.tc : Thread nD τ).loc main_arg2)) (m ((d.tc : Thread nD τ).loc main_arg3)) :=
    (frame_len1 _ main_v10 (by decide)).trans h2_v10
  have h4_v15 : (after ops_nrm1 (after ops_len1 (after ops_lin1 (after ops_idx (launchContents m d))))) (Proc.devRef .tc main_v15) = S_nrm1 (S_lin1 (m ((d.tc : Thread nD τ).loc main_arg0)) (m ((d.tc : Thread nD τ).loc main_arg2)) (m ((d.tc : Thread nD τ).loc main_arg3))) (S_len1 (S_lin1 (m ((d.tc : Thread nD τ).loc main_arg0)) (m ((d.tc : Thread nD τ).loc main_arg2)) (m ((d.tc : Thread nD τ).loc main_arg3)))) := by
    rw [nrm1_out, h3_v10, h3_v13]
  have h4_arg0 : (after ops_nrm1 (after ops_len1 (after ops_lin1 (after ops_idx (launchContents m d))))) (Proc.devRef .tc main_arg0) = m ((d.tc : Thread nD τ).loc main_arg0) :=
    (frame_nrm1 _ main_arg0 (by decide)).trans h3_arg0
  have h4_arg1 : (after ops_nrm1 (after ops_len1 (after ops_lin1 (after ops_idx (launchContents m d))))) (Proc.devRef .tc main_arg1) = m ((d.tc : Thread nD τ).loc main_arg1) :=
    (frame_nrm1 _ main_arg1 (by decide)).trans h3_arg1
  have h4_arg2 : (after ops_nrm1 (after ops_len1 (after ops_lin1 (after ops_idx (launchContents m d))))) (Proc.devRef .tc main_arg2) = m ((d.tc : Thread nD τ).loc main_arg2) :=
    (frame_nrm1 _ main_arg2 (by decide)).trans h3_arg2
  have h4_arg3 : (after ops_nrm1 (after ops_len1 (after ops_lin1 (after ops_idx (launchContents m d))))) (Proc.devRef .tc main_arg3) = m ((d.tc : Thread nD τ).loc main_arg3) :=
    (frame_nrm1 _ main_arg3 (by decide)).trans h3_arg3
  have h4_arg4 : (after ops_nrm1 (after ops_len1 (after ops_lin1 (after ops_idx (launchContents m d))))) (Proc.devRef .tc main_arg4) = m ((d.tc : Thread nD τ).loc main_arg4) :=
    (frame_nrm1 _ main_arg4 (by decide)).trans h3_arg4
  have h4_arg5 : (after ops_nrm1 (after ops_len1 (after ops_lin1 (after ops_idx (launchContents m d))))) (Proc.devRef .tc main_arg5) = m ((d.tc : Thread nD τ).loc main_arg5) :=
    (frame_nrm1 _ main_arg5 (by decide)).trans h3_arg5
  have h4_arg6 : (after ops_nrm1 (after ops_len1 (after ops_lin1 (after ops_idx (launchContents m d))))) (Proc.devRef .tc main_arg6) = m ((d.tc : Thread nD τ).loc main_arg6) :=
    (frame_nrm1 _ main_arg6 (by decide)).trans h3_arg6
  have h4_arg7 : (after ops_nrm1 (after ops_len1 (after ops_lin1 (after ops_idx (launchContents m d))))) (Proc.devRef .tc main_arg7) = m ((d.tc : Thread nD τ).loc main_arg7) :=
    (frame_nrm1 _ main_arg7 (by decide)).trans h3_arg7
  have h4_v3 : (after ops_nrm1 (after ops_len1 (after ops_lin1 (after ops_idx (launchContents m d))))) (Proc.devRef .tc main_v3) = S_src (m ((d.tc : Thread nD τ).loc main_arg1)) :=
    (frame_nrm1 _ main_v3 (by decide)).trans h3_v3
  have h4_v6 : (after ops_nrm1 (after ops_len1 (after ops_lin1 (after ops_idx (launchContents m d))))) (Proc.devRef .tc main_v6) = S_dst (m ((d.tc : Thread nD τ).loc main_arg1)) :=
    (frame_nrm1 _ main_v6 (by decide)).trans h3_v6
  have h4_v10 : (after ops_nrm1 (after ops_len1 (after ops_lin1 (after ops_idx (launchContents m d))))) (Proc.devRef .tc main_v10) = S_lin1 (m ((d.tc : Thread nD τ).loc main_arg0)) (m ((d.tc : Thread nD τ).loc main_arg2)) (m ((d.tc : Thread nD τ).loc main_arg3)) :=
    (frame_nrm1 _ main_v10 (by decide)).trans h3_v10
  have h5_v41 : (after ops_msg1 (after ops_nrm1 (after ops_len1 (after ops_lin1 (after ops_idx (launchContents m d)))))) (Proc.devRef .tc main_v41) = S_msg1 (S_src (m ((d.tc : Thread nD τ).loc main_arg1))) (S_dst (m ((d.tc : Thread nD τ).loc main_arg1))) (S_lin1 (m ((d.tc : Thread nD τ).loc main_arg0)) (m ((d.tc : Thread nD τ).loc main_arg2)) (m ((d.tc : Thread nD τ).loc main_arg3))) (S_nrm1 (S_lin1 (m ((d.tc : Thread nD τ).loc main_arg0)) (m ((d.tc : Thread nD τ).loc main_arg2)) (m ((d.tc : Thread nD τ).loc main_arg3))) (S_len1 (S_lin1 (m ((d.tc : Thread nD τ).loc main_arg0)) (m ((d.tc : Thread nD τ).loc main_arg2)) (m ((d.tc : Thread nD τ).loc main_arg3))))) := by
    rw [msg1_out, h4_v3, h4_v6, h4_v10, h4_v15]
  have h5_arg0 : (after ops_msg1 (after ops_nrm1 (after ops_len1 (after ops_lin1 (after ops_idx (launchContents m d)))))) (Proc.devRef .tc main_arg0) = m ((d.tc : Thread nD τ).loc main_arg0) :=
    (frame_msg1 _ main_arg0 (by decide)).trans h4_arg0
  have h5_arg1 : (after ops_msg1 (after ops_nrm1 (after ops_len1 (after ops_lin1 (after ops_idx (launchContents m d)))))) (Proc.devRef .tc main_arg1) = m ((d.tc : Thread nD τ).loc main_arg1) :=
    (frame_msg1 _ main_arg1 (by decide)).trans h4_arg1
  have h5_arg2 : (after ops_msg1 (after ops_nrm1 (after ops_len1 (after ops_lin1 (after ops_idx (launchContents m d)))))) (Proc.devRef .tc main_arg2) = m ((d.tc : Thread nD τ).loc main_arg2) :=
    (frame_msg1 _ main_arg2 (by decide)).trans h4_arg2
  have h5_arg3 : (after ops_msg1 (after ops_nrm1 (after ops_len1 (after ops_lin1 (after ops_idx (launchContents m d)))))) (Proc.devRef .tc main_arg3) = m ((d.tc : Thread nD τ).loc main_arg3) :=
    (frame_msg1 _ main_arg3 (by decide)).trans h4_arg3
  have h5_arg4 : (after ops_msg1 (after ops_nrm1 (after ops_len1 (after ops_lin1 (after ops_idx (launchContents m d)))))) (Proc.devRef .tc main_arg4) = m ((d.tc : Thread nD τ).loc main_arg4) :=
    (frame_msg1 _ main_arg4 (by decide)).trans h4_arg4
  have h5_arg5 : (after ops_msg1 (after ops_nrm1 (after ops_len1 (after ops_lin1 (after ops_idx (launchContents m d)))))) (Proc.devRef .tc main_arg5) = m ((d.tc : Thread nD τ).loc main_arg5) :=
    (frame_msg1 _ main_arg5 (by decide)).trans h4_arg5
  have h5_arg6 : (after ops_msg1 (after ops_nrm1 (after ops_len1 (after ops_lin1 (after ops_idx (launchContents m d)))))) (Proc.devRef .tc main_arg6) = m ((d.tc : Thread nD τ).loc main_arg6) :=
    (frame_msg1 _ main_arg6 (by decide)).trans h4_arg6
  have h5_arg7 : (after ops_msg1 (after ops_nrm1 (after ops_len1 (after ops_lin1 (after ops_idx (launchContents m d)))))) (Proc.devRef .tc main_arg7) = m ((d.tc : Thread nD τ).loc main_arg7) :=
    (frame_msg1 _ main_arg7 (by decide)).trans h4_arg7
  have h5_v3 : (after ops_msg1 (after ops_nrm1 (after ops_len1 (after ops_lin1 (after ops_idx (launchContents m d)))))) (Proc.devRef .tc main_v3) = S_src (m ((d.tc : Thread nD τ).loc main_arg1)) :=
    (frame_msg1 _ main_v3 (by decide)).trans h4_v3
  have h5_v6 : (after ops_msg1 (after ops_nrm1 (after ops_len1 (after ops_lin1 (after ops_idx (launchContents m d)))))) (Proc.devRef .tc main_v6) = S_dst (m ((d.tc : Thread nD τ).loc main_arg1)) :=
    (frame_msg1 _ main_v6 (by decide)).trans h4_v6
  have h6_v44 : (after ops_agg1 (after ops_msg1 (after ops_nrm1 (after ops_len1 (after ops_lin1 (after ops_idx (launchContents m d))))))) (Proc.devRef .tc main_v44) = S_agg1 (S_dst (m ((d.tc : Thread nD τ).loc main_arg1))) (S_msg1 (S_src (m ((d.tc : Thread nD τ).loc main_arg1))) (S_dst (m ((d.tc : Thread nD τ).loc main_arg1))) (S_lin1 (m ((d.tc : Thread nD τ).loc main_arg0)) (m ((d.tc : Thread nD τ).loc main_arg2)) (m ((d.tc : Thread nD τ).loc main_arg3))) (S_nrm1 (S_lin1 (m ((d.tc : Thread nD τ).loc main_arg0)) (m ((d.tc : Thread nD τ).loc main_arg2)) (m ((d.tc : Thread nD τ).loc main_arg3))) (S_len1 (S_lin1 (m ((d.tc : Thread nD τ).loc main_arg0)) (m ((d.tc : Thread nD τ).loc main_arg2)) (m ((d.tc : Thread nD τ).loc main_arg3)))))) := by
    rw [agg1_out, h5_v6, h5_v41]
  have h6_arg0 : (after ops_agg1 (after ops_msg1 (after ops_nrm1 (after ops_len1 (after ops_lin1 (after ops_idx (launchContents m d))))))) (Proc.devRef .tc main_arg0) = m ((d.tc : Thread nD τ).loc main_arg0) :=
    (frame_agg1 _ main_arg0 (by decide)).trans h5_arg0
  have h6_arg1 : (after ops_agg1 (after ops_msg1 (after ops_nrm1 (after ops_len1 (after ops_lin1 (after ops_idx (launchContents m d))))))) (Proc.devRef .tc main_arg1) = m ((d.tc : Thread nD τ).loc main_arg1) :=
    (frame_agg1 _ main_arg1 (by decide)).trans h5_arg1
  have h6_arg2 : (after ops_agg1 (after ops_msg1 (after ops_nrm1 (after ops_len1 (after ops_lin1 (after ops_idx (launchContents m d))))))) (Proc.devRef .tc main_arg2) = m ((d.tc : Thread nD τ).loc main_arg2) :=
    (frame_agg1 _ main_arg2 (by decide)).trans h5_arg2
  have h6_arg3 : (after ops_agg1 (after ops_msg1 (after ops_nrm1 (after ops_len1 (after ops_lin1 (after ops_idx (launchContents m d))))))) (Proc.devRef .tc main_arg3) = m ((d.tc : Thread nD τ).loc main_arg3) :=
    (frame_agg1 _ main_arg3 (by decide)).trans h5_arg3
  have h6_arg4 : (after ops_agg1 (after ops_msg1 (after ops_nrm1 (after ops_len1 (after ops_lin1 (after ops_idx (launchContents m d))))))) (Proc.devRef .tc main_arg4) = m ((d.tc : Thread nD τ).loc main_arg4) :=
    (frame_agg1 _ main_arg4 (by decide)).trans h5_arg4
  have h6_arg5 : (after ops_agg1 (after ops_msg1 (after ops_nrm1 (after ops_len1 (after ops_lin1 (after ops_idx (launchContents m d))))))) (Proc.devRef .tc main_arg5) = m ((d.tc : Thread nD τ).loc main_arg5) :=
    (frame_agg1 _ main_arg5 (by decide)).trans h5_arg5
  have h6_arg6 : (after ops_agg1 (after ops_msg1 (after ops_nrm1 (after ops_len1 (after ops_lin1 (after ops_idx (launchContents m d))))))) (Proc.devRef .tc main_arg6) = m ((d.tc : Thread nD τ).loc main_arg6) :=
    (frame_agg1 _ main_arg6 (by decide)).trans h5_arg6
  have h6_arg7 : (after ops_agg1 (after ops_msg1 (after ops_nrm1 (after ops_len1 (after ops_lin1 (after ops_idx (launchContents m d))))))) (Proc.devRef .tc main_arg7) = m ((d.tc : Thread nD τ).loc main_arg7) :=
    (frame_agg1 _ main_arg7 (by decide)).trans h5_arg7
  have h6_v3 : (after ops_agg1 (after ops_msg1 (after ops_nrm1 (after ops_len1 (after ops_lin1 (after ops_idx (launchContents m d))))))) (Proc.devRef .tc main_v3) = S_src (m ((d.tc : Thread nD τ).loc main_arg1)) :=
    (frame_agg1 _ main_v3 (by decide)).trans h5_v3
  have h6_v6 : (after ops_agg1 (after ops_msg1 (after ops_nrm1 (after ops_len1 (after ops_lin1 (after ops_idx (launchContents m d))))))) (Proc.devRef .tc main_v6) = S_dst (m ((d.tc : Thread nD τ).loc main_arg1)) :=
    (frame_agg1 _ main_v6 (by decide)).trans h5_v6
  have h7_v48 : (after ops_cnt1 (after ops_agg1 (after ops_msg1 (after ops_nrm1 (after ops_len1 (after ops_lin1 (after ops_idx (launchContents m d)))))))) (Proc.devRef .tc main_v48) = S_cnt1 (S_dst (m ((d.tc : Thread nD τ).loc main_arg1))) := by
    rw [cnt1_out, h6_v6]
  have h7_arg0 : (after ops_cnt1 (after ops_agg1 (after ops_msg1 (after ops_nrm1 (after ops_len1 (after ops_lin1 (after ops_idx (launchContents m d)))))))) (Proc.devRef .tc main_arg0) = m ((d.tc : Thread nD τ).loc main_arg0) :=
    (frame_cnt1 _ main_arg0 (by decide)).trans h6_arg0
  have h7_arg1 : (after ops_cnt1 (after ops_agg1 (after ops_msg1 (after ops_nrm1 (after ops_len1 (after ops_lin1 (after ops_idx (launchContents m d)))))))) (Proc.devRef .tc main_arg1) = m ((d.tc : Thread nD τ).loc main_arg1) :=
    (frame_cnt1 _ main_arg1 (by decide)).trans h6_arg1
  have h7_arg2 : (after ops_cnt1 (after ops_agg1 (after ops_msg1 (after ops_nrm1 (after ops_len1 (after ops_lin1 (after ops_idx (launchContents m d)))))))) (Proc.devRef .tc main_arg2) = m ((d.tc : Thread nD τ).loc main_arg2) :=
    (frame_cnt1 _ main_arg2 (by decide)).trans h6_arg2
  have h7_arg3 : (after ops_cnt1 (after ops_agg1 (after ops_msg1 (after ops_nrm1 (after ops_len1 (after ops_lin1 (after ops_idx (launchContents m d)))))))) (Proc.devRef .tc main_arg3) = m ((d.tc : Thread nD τ).loc main_arg3) :=
    (frame_cnt1 _ main_arg3 (by decide)).trans h6_arg3
  have h7_arg4 : (after ops_cnt1 (after ops_agg1 (after ops_msg1 (after ops_nrm1 (after ops_len1 (after ops_lin1 (after ops_idx (launchContents m d)))))))) (Proc.devRef .tc main_arg4) = m ((d.tc : Thread nD τ).loc main_arg4) :=
    (frame_cnt1 _ main_arg4 (by decide)).trans h6_arg4
  have h7_arg5 : (after ops_cnt1 (after ops_agg1 (after ops_msg1 (after ops_nrm1 (after ops_len1 (after ops_lin1 (after ops_idx (launchContents m d)))))))) (Proc.devRef .tc main_arg5) = m ((d.tc : Thread nD τ).loc main_arg5) :=
    (frame_cnt1 _ main_arg5 (by decide)).trans h6_arg5
  have h7_arg6 : (after ops_cnt1 (after ops_agg1 (after ops_msg1 (after ops_nrm1 (after ops_len1 (after ops_lin1 (after ops_idx (launchContents m d)))))))) (Proc.devRef .tc main_arg6) = m ((d.tc : Thread nD τ).loc main_arg6) :=
    (frame_cnt1 _ main_arg6 (by decide)).trans h6_arg6
  have h7_arg7 : (after ops_cnt1 (after ops_agg1 (after ops_msg1 (after ops_nrm1 (after ops_len1 (after ops_lin1 (after ops_idx (launchContents m d)))))))) (Proc.devRef .tc main_arg7) = m ((d.tc : Thread nD τ).loc main_arg7) :=
    (frame_cnt1 _ main_arg7 (by decide)).trans h6_arg7
  have h7_v3 : (after ops_cnt1 (after ops_agg1 (after ops_msg1 (after ops_nrm1 (after ops_len1 (after ops_lin1 (after ops_idx (launchContents m d)))))))) (Proc.devRef .tc main_v3) = S_src (m ((d.tc : Thread nD τ).loc main_arg1)) :=
    (frame_cnt1 _ main_v3 (by decide)).trans h6_v3
  have h7_v6 : (after ops_cnt1 (after ops_agg1 (after ops_msg1 (after ops_nrm1 (after ops_len1 (after ops_lin1 (after ops_idx (launchContents m d)))))))) (Proc.devRef .tc main_v6) = S_dst (m ((d.tc : Thread nD τ).loc main_arg1)) :=
    (frame_cnt1 _ main_v6 (by decide)).trans h6_v6
  have h7_v44 : (after ops_cnt1 (after ops_agg1 (after ops_msg1 (after ops_nrm1 (after ops_len1 (after ops_lin1 (after ops_idx (launchContents m d)))))))) (Proc.devRef .tc main_v44) = S_agg1 (S_dst (m ((d.tc : Thread nD τ).loc main_arg1))) (S_msg1 (S_src (m ((d.tc : Thread nD τ).loc main_arg1))) (S_dst (m ((d.tc : Thread nD τ).loc main_arg1))) (S_lin1 (m ((d.tc : Thread nD τ).loc main_arg0)) (m ((d.tc : Thread nD τ).loc main_arg2)) (m ((d.tc : Thread nD τ).loc main_arg3))) (S_nrm1 (S_lin1 (m ((d.tc : Thread nD τ).loc main_arg0)) (m ((d.tc : Thread nD τ).loc main_arg2)) (m ((d.tc : Thread nD τ).loc main_arg3))) (S_len1 (S_lin1 (m ((d.tc : Thread nD τ).loc main_arg0)) (m ((d.tc : Thread nD τ).loc main_arg2)) (m ((d.tc : Thread nD τ).loc main_arg3)))))) :=
    (frame_cnt1 _ main_v44 (by decide)).trans h6_v44
  have h8_v57 : (after ops_out1 (after ops_cnt1 (after ops_agg1 (after ops_msg1 (after ops_nrm1 (after ops_len1 (after ops_lin1 (after ops_idx (launchContents m d))))))))) (Proc.devRef .tc main_v57) = refOut1 (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) := by
    rw [out1_out, h7_v44, h7_v48, h7_arg4]; rfl
  have h8_arg0 : (after ops_out1 (after ops_cnt1 (after ops_agg1 (after ops_msg1 (after ops_nrm1 (after ops_len1 (after ops_lin1 (after ops_idx (launchContents m d))))))))) (Proc.devRef .tc main_arg0) = m ((d.tc : Thread nD τ).loc main_arg0) :=
    (frame_out1 _ main_arg0 (by decide)).trans h7_arg0
  have h8_arg1 : (after ops_out1 (after ops_cnt1 (after ops_agg1 (after ops_msg1 (after ops_nrm1 (after ops_len1 (after ops_lin1 (after ops_idx (launchContents m d))))))))) (Proc.devRef .tc main_arg1) = m ((d.tc : Thread nD τ).loc main_arg1) :=
    (frame_out1 _ main_arg1 (by decide)).trans h7_arg1
  have h8_arg2 : (after ops_out1 (after ops_cnt1 (after ops_agg1 (after ops_msg1 (after ops_nrm1 (after ops_len1 (after ops_lin1 (after ops_idx (launchContents m d))))))))) (Proc.devRef .tc main_arg2) = m ((d.tc : Thread nD τ).loc main_arg2) :=
    (frame_out1 _ main_arg2 (by decide)).trans h7_arg2
  have h8_arg3 : (after ops_out1 (after ops_cnt1 (after ops_agg1 (after ops_msg1 (after ops_nrm1 (after ops_len1 (after ops_lin1 (after ops_idx (launchContents m d))))))))) (Proc.devRef .tc main_arg3) = m ((d.tc : Thread nD τ).loc main_arg3) :=
    (frame_out1 _ main_arg3 (by decide)).trans h7_arg3
  have h8_arg4 : (after ops_out1 (after ops_cnt1 (after ops_agg1 (after ops_msg1 (after ops_nrm1 (after ops_len1 (after ops_lin1 (after ops_idx (launchContents m d))))))))) (Proc.devRef .tc main_arg4) = m ((d.tc : Thread nD τ).loc main_arg4) :=
    (frame_out1 _ main_arg4 (by decide)).trans h7_arg4
  have h8_arg5 : (after ops_out1 (after ops_cnt1 (after ops_agg1 (after ops_msg1 (after ops_nrm1 (after ops_len1 (after ops_lin1 (after ops_idx (launchContents m d))))))))) (Proc.devRef .tc main_arg5) = m ((d.tc : Thread nD τ).loc main_arg5) :=
    (frame_out1 _ main_arg5 (by decide)).trans h7_arg5
  have h8_arg6 : (after ops_out1 (after ops_cnt1 (after ops_agg1 (after ops_msg1 (after ops_nrm1 (after ops_len1 (after ops_lin1 (after ops_idx (launchContents m d))))))))) (Proc.devRef .tc main_arg6) = m ((d.tc : Thread nD τ).loc main_arg6) :=
    (frame_out1 _ main_arg6 (by decide)).trans h7_arg6
  have h8_arg7 : (after ops_out1 (after ops_cnt1 (after ops_agg1 (after ops_msg1 (after ops_nrm1 (after ops_len1 (after ops_lin1 (after ops_idx (launchContents m d))))))))) (Proc.devRef .tc main_arg7) = m ((d.tc : Thread nD τ).loc main_arg7) :=
    (frame_out1 _ main_arg7 (by decide)).trans h7_arg7
  have h8_v3 : (after ops_out1 (after ops_cnt1 (after ops_agg1 (after ops_msg1 (after ops_nrm1 (after ops_len1 (after ops_lin1 (after ops_idx (launchContents m d))))))))) (Proc.devRef .tc main_v3) = S_src (m ((d.tc : Thread nD τ).loc main_arg1)) :=
    (frame_out1 _ main_v3 (by decide)).trans h7_v3
  have h8_v6 : (after ops_out1 (after ops_cnt1 (after ops_agg1 (after ops_msg1 (after ops_nrm1 (after ops_len1 (after ops_lin1 (after ops_idx (launchContents m d))))))))) (Proc.devRef .tc main_v6) = S_dst (m ((d.tc : Thread nD τ).loc main_arg1)) :=
    (frame_out1 _ main_v6 (by decide)).trans h7_v6
  have h9_v61 : (after ops_lin2 (after ops_out1 (after ops_cnt1 (after ops_agg1 (after ops_msg1 (after ops_nrm1 (after ops_len1 (after ops_lin1 (after ops_idx (launchContents m d)))))))))) (Proc.devRef .tc main_v61) = refLin2 (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) := by
    rw [lin2_out, h8_v57, h8_arg5, h8_arg6]; rfl
  have h9_arg0 : (after ops_lin2 (after ops_out1 (after ops_cnt1 (after ops_agg1 (after ops_msg1 (after ops_nrm1 (after ops_len1 (after ops_lin1 (after ops_idx (launchContents m d)))))))))) (Proc.devRef .tc main_arg0) = m ((d.tc : Thread nD τ).loc main_arg0) :=
    (frame_lin2 _ main_arg0 (by decide)).trans h8_arg0
  have h9_arg1 : (after ops_lin2 (after ops_out1 (after ops_cnt1 (after ops_agg1 (after ops_msg1 (after ops_nrm1 (after ops_len1 (after ops_lin1 (after ops_idx (launchContents m d)))))))))) (Proc.devRef .tc main_arg1) = m ((d.tc : Thread nD τ).loc main_arg1) :=
    (frame_lin2 _ main_arg1 (by decide)).trans h8_arg1
  have h9_arg2 : (after ops_lin2 (after ops_out1 (after ops_cnt1 (after ops_agg1 (after ops_msg1 (after ops_nrm1 (after ops_len1 (after ops_lin1 (after ops_idx (launchContents m d)))))))))) (Proc.devRef .tc main_arg2) = m ((d.tc : Thread nD τ).loc main_arg2) :=
    (frame_lin2 _ main_arg2 (by decide)).trans h8_arg2
  have h9_arg3 : (after ops_lin2 (after ops_out1 (after ops_cnt1 (after ops_agg1 (after ops_msg1 (after ops_nrm1 (after ops_len1 (after ops_lin1 (after ops_idx (launchContents m d)))))))))) (Proc.devRef .tc main_arg3) = m ((d.tc : Thread nD τ).loc main_arg3) :=
    (frame_lin2 _ main_arg3 (by decide)).trans h8_arg3
  have h9_arg4 : (after ops_lin2 (after ops_out1 (after ops_cnt1 (after ops_agg1 (after ops_msg1 (after ops_nrm1 (after ops_len1 (after ops_lin1 (after ops_idx (launchContents m d)))))))))) (Proc.devRef .tc main_arg4) = m ((d.tc : Thread nD τ).loc main_arg4) :=
    (frame_lin2 _ main_arg4 (by decide)).trans h8_arg4
  have h9_arg5 : (after ops_lin2 (after ops_out1 (after ops_cnt1 (after ops_agg1 (after ops_msg1 (after ops_nrm1 (after ops_len1 (after ops_lin1 (after ops_idx (launchContents m d)))))))))) (Proc.devRef .tc main_arg5) = m ((d.tc : Thread nD τ).loc main_arg5) :=
    (frame_lin2 _ main_arg5 (by decide)).trans h8_arg5
  have h9_arg6 : (after ops_lin2 (after ops_out1 (after ops_cnt1 (after ops_agg1 (after ops_msg1 (after ops_nrm1 (after ops_len1 (after ops_lin1 (after ops_idx (launchContents m d)))))))))) (Proc.devRef .tc main_arg6) = m ((d.tc : Thread nD τ).loc main_arg6) :=
    (frame_lin2 _ main_arg6 (by decide)).trans h8_arg6
  have h9_arg7 : (after ops_lin2 (after ops_out1 (after ops_cnt1 (after ops_agg1 (after ops_msg1 (after ops_nrm1 (after ops_len1 (after ops_lin1 (after ops_idx (launchContents m d)))))))))) (Proc.devRef .tc main_arg7) = m ((d.tc : Thread nD τ).loc main_arg7) :=
    (frame_lin2 _ main_arg7 (by decide)).trans h8_arg7
  have h9_v3 : (after ops_lin2 (after ops_out1 (after ops_cnt1 (after ops_agg1 (after ops_msg1 (after ops_nrm1 (after ops_len1 (after ops_lin1 (after ops_idx (launchContents m d)))))))))) (Proc.devRef .tc main_v3) = S_src (m ((d.tc : Thread nD τ).loc main_arg1)) :=
    (frame_lin2 _ main_v3 (by decide)).trans h8_v3
  have h9_v6 : (after ops_lin2 (after ops_out1 (after ops_cnt1 (after ops_agg1 (after ops_msg1 (after ops_nrm1 (after ops_len1 (after ops_lin1 (after ops_idx (launchContents m d)))))))))) (Proc.devRef .tc main_v6) = S_dst (m ((d.tc : Thread nD τ).loc main_arg1)) :=
    (frame_lin2 _ main_v6 (by decide)).trans h8_v6
  have h10_v64 : (after ops_len2 (after ops_lin2 (after ops_out1 (after ops_cnt1 (after ops_agg1 (after ops_msg1 (after ops_nrm1 (after ops_len1 (after ops_lin1 (after ops_idx (launchContents m d))))))))))) (Proc.devRef .tc main_v64) = S_len2 (refLin2 (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6))) := by
    rw [len2_out, h9_v61]
  have h10_arg0 : (after ops_len2 (after ops_lin2 (after ops_out1 (after ops_cnt1 (after ops_agg1 (after ops_msg1 (after ops_nrm1 (after ops_len1 (after ops_lin1 (after ops_idx (launchContents m d))))))))))) (Proc.devRef .tc main_arg0) = m ((d.tc : Thread nD τ).loc main_arg0) :=
    (frame_len2 _ main_arg0 (by decide)).trans h9_arg0
  have h10_arg1 : (after ops_len2 (after ops_lin2 (after ops_out1 (after ops_cnt1 (after ops_agg1 (after ops_msg1 (after ops_nrm1 (after ops_len1 (after ops_lin1 (after ops_idx (launchContents m d))))))))))) (Proc.devRef .tc main_arg1) = m ((d.tc : Thread nD τ).loc main_arg1) :=
    (frame_len2 _ main_arg1 (by decide)).trans h9_arg1
  have h10_arg2 : (after ops_len2 (after ops_lin2 (after ops_out1 (after ops_cnt1 (after ops_agg1 (after ops_msg1 (after ops_nrm1 (after ops_len1 (after ops_lin1 (after ops_idx (launchContents m d))))))))))) (Proc.devRef .tc main_arg2) = m ((d.tc : Thread nD τ).loc main_arg2) :=
    (frame_len2 _ main_arg2 (by decide)).trans h9_arg2
  have h10_arg3 : (after ops_len2 (after ops_lin2 (after ops_out1 (after ops_cnt1 (after ops_agg1 (after ops_msg1 (after ops_nrm1 (after ops_len1 (after ops_lin1 (after ops_idx (launchContents m d))))))))))) (Proc.devRef .tc main_arg3) = m ((d.tc : Thread nD τ).loc main_arg3) :=
    (frame_len2 _ main_arg3 (by decide)).trans h9_arg3
  have h10_arg4 : (after ops_len2 (after ops_lin2 (after ops_out1 (after ops_cnt1 (after ops_agg1 (after ops_msg1 (after ops_nrm1 (after ops_len1 (after ops_lin1 (after ops_idx (launchContents m d))))))))))) (Proc.devRef .tc main_arg4) = m ((d.tc : Thread nD τ).loc main_arg4) :=
    (frame_len2 _ main_arg4 (by decide)).trans h9_arg4
  have h10_arg5 : (after ops_len2 (after ops_lin2 (after ops_out1 (after ops_cnt1 (after ops_agg1 (after ops_msg1 (after ops_nrm1 (after ops_len1 (after ops_lin1 (after ops_idx (launchContents m d))))))))))) (Proc.devRef .tc main_arg5) = m ((d.tc : Thread nD τ).loc main_arg5) :=
    (frame_len2 _ main_arg5 (by decide)).trans h9_arg5
  have h10_arg6 : (after ops_len2 (after ops_lin2 (after ops_out1 (after ops_cnt1 (after ops_agg1 (after ops_msg1 (after ops_nrm1 (after ops_len1 (after ops_lin1 (after ops_idx (launchContents m d))))))))))) (Proc.devRef .tc main_arg6) = m ((d.tc : Thread nD τ).loc main_arg6) :=
    (frame_len2 _ main_arg6 (by decide)).trans h9_arg6
  have h10_arg7 : (after ops_len2 (after ops_lin2 (after ops_out1 (after ops_cnt1 (after ops_agg1 (after ops_msg1 (after ops_nrm1 (after ops_len1 (after ops_lin1 (after ops_idx (launchContents m d))))))))))) (Proc.devRef .tc main_arg7) = m ((d.tc : Thread nD τ).loc main_arg7) :=
    (frame_len2 _ main_arg7 (by decide)).trans h9_arg7
  have h10_v3 : (after ops_len2 (after ops_lin2 (after ops_out1 (after ops_cnt1 (after ops_agg1 (after ops_msg1 (after ops_nrm1 (after ops_len1 (after ops_lin1 (after ops_idx (launchContents m d))))))))))) (Proc.devRef .tc main_v3) = S_src (m ((d.tc : Thread nD τ).loc main_arg1)) :=
    (frame_len2 _ main_v3 (by decide)).trans h9_v3
  have h10_v6 : (after ops_len2 (after ops_lin2 (after ops_out1 (after ops_cnt1 (after ops_agg1 (after ops_msg1 (after ops_nrm1 (after ops_len1 (after ops_lin1 (after ops_idx (launchContents m d))))))))))) (Proc.devRef .tc main_v6) = S_dst (m ((d.tc : Thread nD τ).loc main_arg1)) :=
    (frame_len2 _ main_v6 (by decide)).trans h9_v6
  have h10_v61 : (after ops_len2 (after ops_lin2 (after ops_out1 (after ops_cnt1 (after ops_agg1 (after ops_msg1 (after ops_nrm1 (after ops_len1 (after ops_lin1 (after ops_idx (launchContents m d))))))))))) (Proc.devRef .tc main_v61) = refLin2 (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) :=
    (frame_len2 _ main_v61 (by decide)).trans h9_v61
  have h11_v66 : (after ops_nrm2 (after ops_len2 (after ops_lin2 (after ops_out1 (after ops_cnt1 (after ops_agg1 (after ops_msg1 (after ops_nrm1 (after ops_len1 (after ops_lin1 (after ops_idx (launchContents m d)))))))))))) (Proc.devRef .tc main_v66) = S_nrm2 (refLin2 (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6))) (S_len2 (refLin2 (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)))) := by
    rw [nrm2_out, h10_v61, h10_v64]
  have h11_arg0 : (after ops_nrm2 (after ops_len2 (after ops_lin2 (after ops_out1 (after ops_cnt1 (after ops_agg1 (after ops_msg1 (after ops_nrm1 (after ops_len1 (after ops_lin1 (after ops_idx (launchContents m d)))))))))))) (Proc.devRef .tc main_arg0) = m ((d.tc : Thread nD τ).loc main_arg0) :=
    (frame_nrm2 _ main_arg0 (by decide)).trans h10_arg0
  have h11_arg1 : (after ops_nrm2 (after ops_len2 (after ops_lin2 (after ops_out1 (after ops_cnt1 (after ops_agg1 (after ops_msg1 (after ops_nrm1 (after ops_len1 (after ops_lin1 (after ops_idx (launchContents m d)))))))))))) (Proc.devRef .tc main_arg1) = m ((d.tc : Thread nD τ).loc main_arg1) :=
    (frame_nrm2 _ main_arg1 (by decide)).trans h10_arg1
  have h11_arg2 : (after ops_nrm2 (after ops_len2 (after ops_lin2 (after ops_out1 (after ops_cnt1 (after ops_agg1 (after ops_msg1 (after ops_nrm1 (after ops_len1 (after ops_lin1 (after ops_idx (launchContents m d)))))))))))) (Proc.devRef .tc main_arg2) = m ((d.tc : Thread nD τ).loc main_arg2) :=
    (frame_nrm2 _ main_arg2 (by decide)).trans h10_arg2
  have h11_arg3 : (after ops_nrm2 (after ops_len2 (after ops_lin2 (after ops_out1 (after ops_cnt1 (after ops_agg1 (after ops_msg1 (after ops_nrm1 (after ops_len1 (after ops_lin1 (after ops_idx (launchContents m d)))))))))))) (Proc.devRef .tc main_arg3) = m ((d.tc : Thread nD τ).loc main_arg3) :=
    (frame_nrm2 _ main_arg3 (by decide)).trans h10_arg3
  have h11_arg4 : (after ops_nrm2 (after ops_len2 (after ops_lin2 (after ops_out1 (after ops_cnt1 (after ops_agg1 (after ops_msg1 (after ops_nrm1 (after ops_len1 (after ops_lin1 (after ops_idx (launchContents m d)))))))))))) (Proc.devRef .tc main_arg4) = m ((d.tc : Thread nD τ).loc main_arg4) :=
    (frame_nrm2 _ main_arg4 (by decide)).trans h10_arg4
  have h11_arg5 : (after ops_nrm2 (after ops_len2 (after ops_lin2 (after ops_out1 (after ops_cnt1 (after ops_agg1 (after ops_msg1 (after ops_nrm1 (after ops_len1 (after ops_lin1 (after ops_idx (launchContents m d)))))))))))) (Proc.devRef .tc main_arg5) = m ((d.tc : Thread nD τ).loc main_arg5) :=
    (frame_nrm2 _ main_arg5 (by decide)).trans h10_arg5
  have h11_arg6 : (after ops_nrm2 (after ops_len2 (after ops_lin2 (after ops_out1 (after ops_cnt1 (after ops_agg1 (after ops_msg1 (after ops_nrm1 (after ops_len1 (after ops_lin1 (after ops_idx (launchContents m d)))))))))))) (Proc.devRef .tc main_arg6) = m ((d.tc : Thread nD τ).loc main_arg6) :=
    (frame_nrm2 _ main_arg6 (by decide)).trans h10_arg6
  have h11_arg7 : (after ops_nrm2 (after ops_len2 (after ops_lin2 (after ops_out1 (after ops_cnt1 (after ops_agg1 (after ops_msg1 (after ops_nrm1 (after ops_len1 (after ops_lin1 (after ops_idx (launchContents m d)))))))))))) (Proc.devRef .tc main_arg7) = m ((d.tc : Thread nD τ).loc main_arg7) :=
    (frame_nrm2 _ main_arg7 (by decide)).trans h10_arg7
  have h11_v3 : (after ops_nrm2 (after ops_len2 (after ops_lin2 (after ops_out1 (after ops_cnt1 (after ops_agg1 (after ops_msg1 (after ops_nrm1 (after ops_len1 (after ops_lin1 (after ops_idx (launchContents m d)))))))))))) (Proc.devRef .tc main_v3) = S_src (m ((d.tc : Thread nD τ).loc main_arg1)) :=
    (frame_nrm2 _ main_v3 (by decide)).trans h10_v3
  have h11_v6 : (after ops_nrm2 (after ops_len2 (after ops_lin2 (after ops_out1 (after ops_cnt1 (after ops_agg1 (after ops_msg1 (after ops_nrm1 (after ops_len1 (after ops_lin1 (after ops_idx (launchContents m d)))))))))))) (Proc.devRef .tc main_v6) = S_dst (m ((d.tc : Thread nD τ).loc main_arg1)) :=
    (frame_nrm2 _ main_v6 (by decide)).trans h10_v6
  have h11_v61 : (after ops_nrm2 (after ops_len2 (after ops_lin2 (after ops_out1 (after ops_cnt1 (after ops_agg1 (after ops_msg1 (after ops_nrm1 (after ops_len1 (after ops_lin1 (after ops_idx (launchContents m d)))))))))))) (Proc.devRef .tc main_v61) = refLin2 (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) :=
    (frame_nrm2 _ main_v61 (by decide)).trans h10_v61
  have h12_v92 : (after ops_msg2 (after ops_nrm2 (after ops_len2 (after ops_lin2 (after ops_out1 (after ops_cnt1 (after ops_agg1 (after ops_msg1 (after ops_nrm1 (after ops_len1 (after ops_lin1 (after ops_idx (launchContents m d))))))))))))) (Proc.devRef .tc main_v92) = S_msg2 (S_src (m ((d.tc : Thread nD τ).loc main_arg1))) (S_dst (m ((d.tc : Thread nD τ).loc main_arg1))) (refLin2 (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6))) (S_nrm2 (refLin2 (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6))) (S_len2 (refLin2 (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6))))) := by
    rw [msg2_out, h11_v3, h11_v6, h11_v61, h11_v66]
  have h12_arg0 : (after ops_msg2 (after ops_nrm2 (after ops_len2 (after ops_lin2 (after ops_out1 (after ops_cnt1 (after ops_agg1 (after ops_msg1 (after ops_nrm1 (after ops_len1 (after ops_lin1 (after ops_idx (launchContents m d))))))))))))) (Proc.devRef .tc main_arg0) = m ((d.tc : Thread nD τ).loc main_arg0) :=
    (frame_msg2 _ main_arg0 (by decide)).trans h11_arg0
  have h12_arg1 : (after ops_msg2 (after ops_nrm2 (after ops_len2 (after ops_lin2 (after ops_out1 (after ops_cnt1 (after ops_agg1 (after ops_msg1 (after ops_nrm1 (after ops_len1 (after ops_lin1 (after ops_idx (launchContents m d))))))))))))) (Proc.devRef .tc main_arg1) = m ((d.tc : Thread nD τ).loc main_arg1) :=
    (frame_msg2 _ main_arg1 (by decide)).trans h11_arg1
  have h12_arg2 : (after ops_msg2 (after ops_nrm2 (after ops_len2 (after ops_lin2 (after ops_out1 (after ops_cnt1 (after ops_agg1 (after ops_msg1 (after ops_nrm1 (after ops_len1 (after ops_lin1 (after ops_idx (launchContents m d))))))))))))) (Proc.devRef .tc main_arg2) = m ((d.tc : Thread nD τ).loc main_arg2) :=
    (frame_msg2 _ main_arg2 (by decide)).trans h11_arg2
  have h12_arg3 : (after ops_msg2 (after ops_nrm2 (after ops_len2 (after ops_lin2 (after ops_out1 (after ops_cnt1 (after ops_agg1 (after ops_msg1 (after ops_nrm1 (after ops_len1 (after ops_lin1 (after ops_idx (launchContents m d))))))))))))) (Proc.devRef .tc main_arg3) = m ((d.tc : Thread nD τ).loc main_arg3) :=
    (frame_msg2 _ main_arg3 (by decide)).trans h11_arg3
  have h12_arg4 : (after ops_msg2 (after ops_nrm2 (after ops_len2 (after ops_lin2 (after ops_out1 (after ops_cnt1 (after ops_agg1 (after ops_msg1 (after ops_nrm1 (after ops_len1 (after ops_lin1 (after ops_idx (launchContents m d))))))))))))) (Proc.devRef .tc main_arg4) = m ((d.tc : Thread nD τ).loc main_arg4) :=
    (frame_msg2 _ main_arg4 (by decide)).trans h11_arg4
  have h12_arg5 : (after ops_msg2 (after ops_nrm2 (after ops_len2 (after ops_lin2 (after ops_out1 (after ops_cnt1 (after ops_agg1 (after ops_msg1 (after ops_nrm1 (after ops_len1 (after ops_lin1 (after ops_idx (launchContents m d))))))))))))) (Proc.devRef .tc main_arg5) = m ((d.tc : Thread nD τ).loc main_arg5) :=
    (frame_msg2 _ main_arg5 (by decide)).trans h11_arg5
  have h12_arg6 : (after ops_msg2 (after ops_nrm2 (after ops_len2 (after ops_lin2 (after ops_out1 (after ops_cnt1 (after ops_agg1 (after ops_msg1 (after ops_nrm1 (after ops_len1 (after ops_lin1 (after ops_idx (launchContents m d))))))))))))) (Proc.devRef .tc main_arg6) = m ((d.tc : Thread nD τ).loc main_arg6) :=
    (frame_msg2 _ main_arg6 (by decide)).trans h11_arg6
  have h12_arg7 : (after ops_msg2 (after ops_nrm2 (after ops_len2 (after ops_lin2 (after ops_out1 (after ops_cnt1 (after ops_agg1 (after ops_msg1 (after ops_nrm1 (after ops_len1 (after ops_lin1 (after ops_idx (launchContents m d))))))))))))) (Proc.devRef .tc main_arg7) = m ((d.tc : Thread nD τ).loc main_arg7) :=
    (frame_msg2 _ main_arg7 (by decide)).trans h11_arg7
  have h12_v6 : (after ops_msg2 (after ops_nrm2 (after ops_len2 (after ops_lin2 (after ops_out1 (after ops_cnt1 (after ops_agg1 (after ops_msg1 (after ops_nrm1 (after ops_len1 (after ops_lin1 (after ops_idx (launchContents m d))))))))))))) (Proc.devRef .tc main_v6) = S_dst (m ((d.tc : Thread nD τ).loc main_arg1)) :=
    (frame_msg2 _ main_v6 (by decide)).trans h11_v6
  have h13_v95 : (after ops_agg2 (after ops_msg2 (after ops_nrm2 (after ops_len2 (after ops_lin2 (after ops_out1 (after ops_cnt1 (after ops_agg1 (after ops_msg1 (after ops_nrm1 (after ops_len1 (after ops_lin1 (after ops_idx (launchContents m d)))))))))))))) (Proc.devRef .tc main_v95) = S_agg2 (S_dst (m ((d.tc : Thread nD τ).loc main_arg1))) (S_msg2 (S_src (m ((d.tc : Thread nD τ).loc main_arg1))) (S_dst (m ((d.tc : Thread nD τ).loc main_arg1))) (refLin2 (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6))) (S_nrm2 (refLin2 (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6))) (S_len2 (refLin2 (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)))))) := by
    rw [agg2_out, h12_v6, h12_v92]
  have h13_arg0 : (after ops_agg2 (after ops_msg2 (after ops_nrm2 (after ops_len2 (after ops_lin2 (after ops_out1 (after ops_cnt1 (after ops_agg1 (after ops_msg1 (after ops_nrm1 (after ops_len1 (after ops_lin1 (after ops_idx (launchContents m d)))))))))))))) (Proc.devRef .tc main_arg0) = m ((d.tc : Thread nD τ).loc main_arg0) :=
    (frame_agg2 _ main_arg0 (by decide)).trans h12_arg0
  have h13_arg1 : (after ops_agg2 (after ops_msg2 (after ops_nrm2 (after ops_len2 (after ops_lin2 (after ops_out1 (after ops_cnt1 (after ops_agg1 (after ops_msg1 (after ops_nrm1 (after ops_len1 (after ops_lin1 (after ops_idx (launchContents m d)))))))))))))) (Proc.devRef .tc main_arg1) = m ((d.tc : Thread nD τ).loc main_arg1) :=
    (frame_agg2 _ main_arg1 (by decide)).trans h12_arg1
  have h13_arg2 : (after ops_agg2 (after ops_msg2 (after ops_nrm2 (after ops_len2 (after ops_lin2 (after ops_out1 (after ops_cnt1 (after ops_agg1 (after ops_msg1 (after ops_nrm1 (after ops_len1 (after ops_lin1 (after ops_idx (launchContents m d)))))))))))))) (Proc.devRef .tc main_arg2) = m ((d.tc : Thread nD τ).loc main_arg2) :=
    (frame_agg2 _ main_arg2 (by decide)).trans h12_arg2
  have h13_arg3 : (after ops_agg2 (after ops_msg2 (after ops_nrm2 (after ops_len2 (after ops_lin2 (after ops_out1 (after ops_cnt1 (after ops_agg1 (after ops_msg1 (after ops_nrm1 (after ops_len1 (after ops_lin1 (after ops_idx (launchContents m d)))))))))))))) (Proc.devRef .tc main_arg3) = m ((d.tc : Thread nD τ).loc main_arg3) :=
    (frame_agg2 _ main_arg3 (by decide)).trans h12_arg3
  have h13_arg4 : (after ops_agg2 (after ops_msg2 (after ops_nrm2 (after ops_len2 (after ops_lin2 (after ops_out1 (after ops_cnt1 (after ops_agg1 (after ops_msg1 (after ops_nrm1 (after ops_len1 (after ops_lin1 (after ops_idx (launchContents m d)))))))))))))) (Proc.devRef .tc main_arg4) = m ((d.tc : Thread nD τ).loc main_arg4) :=
    (frame_agg2 _ main_arg4 (by decide)).trans h12_arg4
  have h13_arg5 : (after ops_agg2 (after ops_msg2 (after ops_nrm2 (after ops_len2 (after ops_lin2 (after ops_out1 (after ops_cnt1 (after ops_agg1 (after ops_msg1 (after ops_nrm1 (after ops_len1 (after ops_lin1 (after ops_idx (launchContents m d)))))))))))))) (Proc.devRef .tc main_arg5) = m ((d.tc : Thread nD τ).loc main_arg5) :=
    (frame_agg2 _ main_arg5 (by decide)).trans h12_arg5
  have h13_arg6 : (after ops_agg2 (after ops_msg2 (after ops_nrm2 (after ops_len2 (after ops_lin2 (after ops_out1 (after ops_cnt1 (after ops_agg1 (after ops_msg1 (after ops_nrm1 (after ops_len1 (after ops_lin1 (after ops_idx (launchContents m d)))))))))))))) (Proc.devRef .tc main_arg6) = m ((d.tc : Thread nD τ).loc main_arg6) :=
    (frame_agg2 _ main_arg6 (by decide)).trans h12_arg6
  have h13_arg7 : (after ops_agg2 (after ops_msg2 (after ops_nrm2 (after ops_len2 (after ops_lin2 (after ops_out1 (after ops_cnt1 (after ops_agg1 (after ops_msg1 (after ops_nrm1 (after ops_len1 (after ops_lin1 (after ops_idx (launchContents m d)))))))))))))) (Proc.devRef .tc main_arg7) = m ((d.tc : Thread nD τ).loc main_arg7) :=
    (frame_agg2 _ main_arg7 (by decide)).trans h12_arg7
  have h13_v6 : (after ops_agg2 (after ops_msg2 (after ops_nrm2 (after ops_len2 (after ops_lin2 (after ops_out1 (after ops_cnt1 (after ops_agg1 (after ops_msg1 (after ops_nrm1 (after ops_len1 (after ops_lin1 (after ops_idx (launchContents m d)))))))))))))) (Proc.devRef .tc main_v6) = S_dst (m ((d.tc : Thread nD τ).loc main_arg1)) :=
    (frame_agg2 _ main_v6 (by decide)).trans h12_v6
  have h14_v99 : (after ops_cnt2 (after ops_agg2 (after ops_msg2 (after ops_nrm2 (after ops_len2 (after ops_lin2 (after ops_out1 (after ops_cnt1 (after ops_agg1 (after ops_msg1 (after ops_nrm1 (after ops_len1 (after ops_lin1 (after ops_idx (launchContents m d))))))))))))))) (Proc.devRef .tc main_v99) = S_cnt2 (S_dst (m ((d.tc : Thread nD τ).loc main_arg1))) := by
    rw [cnt2_out, h13_v6]
  have h14_arg0 : (after ops_cnt2 (after ops_agg2 (after ops_msg2 (after ops_nrm2 (after ops_len2 (after ops_lin2 (after ops_out1 (after ops_cnt1 (after ops_agg1 (after ops_msg1 (after ops_nrm1 (after ops_len1 (after ops_lin1 (after ops_idx (launchContents m d))))))))))))))) (Proc.devRef .tc main_arg0) = m ((d.tc : Thread nD τ).loc main_arg0) :=
    (frame_cnt2 _ main_arg0 (by decide)).trans h13_arg0
  have h14_arg1 : (after ops_cnt2 (after ops_agg2 (after ops_msg2 (after ops_nrm2 (after ops_len2 (after ops_lin2 (after ops_out1 (after ops_cnt1 (after ops_agg1 (after ops_msg1 (after ops_nrm1 (after ops_len1 (after ops_lin1 (after ops_idx (launchContents m d))))))))))))))) (Proc.devRef .tc main_arg1) = m ((d.tc : Thread nD τ).loc main_arg1) :=
    (frame_cnt2 _ main_arg1 (by decide)).trans h13_arg1
  have h14_arg2 : (after ops_cnt2 (after ops_agg2 (after ops_msg2 (after ops_nrm2 (after ops_len2 (after ops_lin2 (after ops_out1 (after ops_cnt1 (after ops_agg1 (after ops_msg1 (after ops_nrm1 (after ops_len1 (after ops_lin1 (after ops_idx (launchContents m d))))))))))))))) (Proc.devRef .tc main_arg2) = m ((d.tc : Thread nD τ).loc main_arg2) :=
    (frame_cnt2 _ main_arg2 (by decide)).trans h13_arg2
  have h14_arg3 : (after ops_cnt2 (after ops_agg2 (after ops_msg2 (after ops_nrm2 (after ops_len2 (after ops_lin2 (after ops_out1 (after ops_cnt1 (after ops_agg1 (after ops_msg1 (after ops_nrm1 (after ops_len1 (after ops_lin1 (after ops_idx (launchContents m d))))))))))))))) (Proc.devRef .tc main_arg3) = m ((d.tc : Thread nD τ).loc main_arg3) :=
    (frame_cnt2 _ main_arg3 (by decide)).trans h13_arg3
  have h14_arg4 : (after ops_cnt2 (after ops_agg2 (after ops_msg2 (after ops_nrm2 (after ops_len2 (after ops_lin2 (after ops_out1 (after ops_cnt1 (after ops_agg1 (after ops_msg1 (after ops_nrm1 (after ops_len1 (after ops_lin1 (after ops_idx (launchContents m d))))))))))))))) (Proc.devRef .tc main_arg4) = m ((d.tc : Thread nD τ).loc main_arg4) :=
    (frame_cnt2 _ main_arg4 (by decide)).trans h13_arg4
  have h14_arg5 : (after ops_cnt2 (after ops_agg2 (after ops_msg2 (after ops_nrm2 (after ops_len2 (after ops_lin2 (after ops_out1 (after ops_cnt1 (after ops_agg1 (after ops_msg1 (after ops_nrm1 (after ops_len1 (after ops_lin1 (after ops_idx (launchContents m d))))))))))))))) (Proc.devRef .tc main_arg5) = m ((d.tc : Thread nD τ).loc main_arg5) :=
    (frame_cnt2 _ main_arg5 (by decide)).trans h13_arg5
  have h14_arg6 : (after ops_cnt2 (after ops_agg2 (after ops_msg2 (after ops_nrm2 (after ops_len2 (after ops_lin2 (after ops_out1 (after ops_cnt1 (after ops_agg1 (after ops_msg1 (after ops_nrm1 (after ops_len1 (after ops_lin1 (after ops_idx (launchContents m d))))))))))))))) (Proc.devRef .tc main_arg6) = m ((d.tc : Thread nD τ).loc main_arg6) :=
    (frame_cnt2 _ main_arg6 (by decide)).trans h13_arg6
  have h14_arg7 : (after ops_cnt2 (after ops_agg2 (after ops_msg2 (after ops_nrm2 (after ops_len2 (after ops_lin2 (after ops_out1 (after ops_cnt1 (after ops_agg1 (after ops_msg1 (after ops_nrm1 (after ops_len1 (after ops_lin1 (after ops_idx (launchContents m d))))))))))))))) (Proc.devRef .tc main_arg7) = m ((d.tc : Thread nD τ).loc main_arg7) :=
    (frame_cnt2 _ main_arg7 (by decide)).trans h13_arg7
  have h14_v95 : (after ops_cnt2 (after ops_agg2 (after ops_msg2 (after ops_nrm2 (after ops_len2 (after ops_lin2 (after ops_out1 (after ops_cnt1 (after ops_agg1 (after ops_msg1 (after ops_nrm1 (after ops_len1 (after ops_lin1 (after ops_idx (launchContents m d))))))))))))))) (Proc.devRef .tc main_v95) = S_agg2 (S_dst (m ((d.tc : Thread nD τ).loc main_arg1))) (S_msg2 (S_src (m ((d.tc : Thread nD τ).loc main_arg1))) (S_dst (m ((d.tc : Thread nD τ).loc main_arg1))) (refLin2 (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6))) (S_nrm2 (refLin2 (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6))) (S_len2 (refLin2 (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)))))) :=
    (frame_cnt2 _ main_v95 (by decide)).trans h13_v95
  have h15_v107 : (after ops_pre2 (after ops_cnt2 (after ops_agg2 (after ops_msg2 (after ops_nrm2 (after ops_len2 (after ops_lin2 (after ops_out1 (after ops_cnt1 (after ops_agg1 (after ops_msg1 (after ops_nrm1 (after ops_len1 (after ops_lin1 (after ops_idx (launchContents m d)))))))))))))))) (Proc.devRef .tc main_v107) = S_pre2 (S_agg2 (S_dst (m ((d.tc : Thread nD τ).loc main_arg1))) (S_msg2 (S_src (m ((d.tc : Thread nD τ).loc main_arg1))) (S_dst (m ((d.tc : Thread nD τ).loc main_arg1))) (refLin2 (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6))) (S_nrm2 (refLin2 (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6))) (S_len2 (refLin2 (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6))))))) (S_cnt2 (S_dst (m ((d.tc : Thread nD τ).loc main_arg1)))) (m ((d.tc : Thread nD τ).loc main_arg7)) := by
    rw [pre2_out, h14_v95, h14_v99, h14_arg7]
  have h15_arg0 : (after ops_pre2 (after ops_cnt2 (after ops_agg2 (after ops_msg2 (after ops_nrm2 (after ops_len2 (after ops_lin2 (after ops_out1 (after ops_cnt1 (after ops_agg1 (after ops_msg1 (after ops_nrm1 (after ops_len1 (after ops_lin1 (after ops_idx (launchContents m d)))))))))))))))) (Proc.devRef .tc main_arg0) = m ((d.tc : Thread nD τ).loc main_arg0) :=
    (frame_pre2 _ main_arg0 (by decide)).trans h14_arg0
  have h15_arg1 : (after ops_pre2 (after ops_cnt2 (after ops_agg2 (after ops_msg2 (after ops_nrm2 (after ops_len2 (after ops_lin2 (after ops_out1 (after ops_cnt1 (after ops_agg1 (after ops_msg1 (after ops_nrm1 (after ops_len1 (after ops_lin1 (after ops_idx (launchContents m d)))))))))))))))) (Proc.devRef .tc main_arg1) = m ((d.tc : Thread nD τ).loc main_arg1) :=
    (frame_pre2 _ main_arg1 (by decide)).trans h14_arg1
  have h15_arg2 : (after ops_pre2 (after ops_cnt2 (after ops_agg2 (after ops_msg2 (after ops_nrm2 (after ops_len2 (after ops_lin2 (after ops_out1 (after ops_cnt1 (after ops_agg1 (after ops_msg1 (after ops_nrm1 (after ops_len1 (after ops_lin1 (after ops_idx (launchContents m d)))))))))))))))) (Proc.devRef .tc main_arg2) = m ((d.tc : Thread nD τ).loc main_arg2) :=
    (frame_pre2 _ main_arg2 (by decide)).trans h14_arg2
  have h15_arg3 : (after ops_pre2 (after ops_cnt2 (after ops_agg2 (after ops_msg2 (after ops_nrm2 (after ops_len2 (after ops_lin2 (after ops_out1 (after ops_cnt1 (after ops_agg1 (after ops_msg1 (after ops_nrm1 (after ops_len1 (after ops_lin1 (after ops_idx (launchContents m d)))))))))))))))) (Proc.devRef .tc main_arg3) = m ((d.tc : Thread nD τ).loc main_arg3) :=
    (frame_pre2 _ main_arg3 (by decide)).trans h14_arg3
  have h15_arg4 : (after ops_pre2 (after ops_cnt2 (after ops_agg2 (after ops_msg2 (after ops_nrm2 (after ops_len2 (after ops_lin2 (after ops_out1 (after ops_cnt1 (after ops_agg1 (after ops_msg1 (after ops_nrm1 (after ops_len1 (after ops_lin1 (after ops_idx (launchContents m d)))))))))))))))) (Proc.devRef .tc main_arg4) = m ((d.tc : Thread nD τ).loc main_arg4) :=
    (frame_pre2 _ main_arg4 (by decide)).trans h14_arg4
  have h15_arg5 : (after ops_pre2 (after ops_cnt2 (after ops_agg2 (after ops_msg2 (after ops_nrm2 (after ops_len2 (after ops_lin2 (after ops_out1 (after ops_cnt1 (after ops_agg1 (after ops_msg1 (after ops_nrm1 (after ops_len1 (after ops_lin1 (after ops_idx (launchContents m d)))))))))))))))) (Proc.devRef .tc main_arg5) = m ((d.tc : Thread nD τ).loc main_arg5) :=
    (frame_pre2 _ main_arg5 (by decide)).trans h14_arg5
  have h15_arg6 : (after ops_pre2 (after ops_cnt2 (after ops_agg2 (after ops_msg2 (after ops_nrm2 (after ops_len2 (after ops_lin2 (after ops_out1 (after ops_cnt1 (after ops_agg1 (after ops_msg1 (after ops_nrm1 (after ops_len1 (after ops_lin1 (after ops_idx (launchContents m d)))))))))))))))) (Proc.devRef .tc main_arg6) = m ((d.tc : Thread nD τ).loc main_arg6) :=
    (frame_pre2 _ main_arg6 (by decide)).trans h14_arg6
  have h15_arg7 : (after ops_pre2 (after ops_cnt2 (after ops_agg2 (after ops_msg2 (after ops_nrm2 (after ops_len2 (after ops_lin2 (after ops_out1 (after ops_cnt1 (after ops_agg1 (after ops_msg1 (after ops_nrm1 (after ops_len1 (after ops_lin1 (after ops_idx (launchContents m d)))))))))))))))) (Proc.devRef .tc main_arg7) = m ((d.tc : Thread nD τ).loc main_arg7) :=
    (frame_pre2 _ main_arg7 (by decide)).trans h14_arg7
  have h16_v108 : (after ops_lsm (after ops_pre2 (after ops_cnt2 (after ops_agg2 (after ops_msg2 (after ops_nrm2 (after ops_len2 (after ops_lin2 (after ops_out1 (after ops_cnt1 (after ops_agg1 (after ops_msg1 (after ops_nrm1 (after ops_len1 (after ops_lin1 (after ops_idx (launchContents m d))))))))))))))))) (Proc.devRef .tc main_v108) = refOut (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) := by
    rw [lsm_out, h15_v107]; rfl
  have h16_arg0 : (after ops_lsm (after ops_pre2 (after ops_cnt2 (after ops_agg2 (after ops_msg2 (after ops_nrm2 (after ops_len2 (after ops_lin2 (after ops_out1 (after ops_cnt1 (after ops_agg1 (after ops_msg1 (after ops_nrm1 (after ops_len1 (after ops_lin1 (after ops_idx (launchContents m d))))))))))))))))) (Proc.devRef .tc main_arg0) = m ((d.tc : Thread nD τ).loc main_arg0) :=
    (frame_lsm _ main_arg0 (by decide)).trans h15_arg0
  have h16_arg1 : (after ops_lsm (after ops_pre2 (after ops_cnt2 (after ops_agg2 (after ops_msg2 (after ops_nrm2 (after ops_len2 (after ops_lin2 (after ops_out1 (after ops_cnt1 (after ops_agg1 (after ops_msg1 (after ops_nrm1 (after ops_len1 (after ops_lin1 (after ops_idx (launchContents m d))))))))))))))))) (Proc.devRef .tc main_arg1) = m ((d.tc : Thread nD τ).loc main_arg1) :=
    (frame_lsm _ main_arg1 (by decide)).trans h15_arg1
  have h16_arg2 : (after ops_lsm (after ops_pre2 (after ops_cnt2 (after ops_agg2 (after ops_msg2 (after ops_nrm2 (after ops_len2 (after ops_lin2 (after ops_out1 (after ops_cnt1 (after ops_agg1 (after ops_msg1 (after ops_nrm1 (after ops_len1 (after ops_lin1 (after ops_idx (launchContents m d))))))))))))))))) (Proc.devRef .tc main_arg2) = m ((d.tc : Thread nD τ).loc main_arg2) :=
    (frame_lsm _ main_arg2 (by decide)).trans h15_arg2
  have h16_arg3 : (after ops_lsm (after ops_pre2 (after ops_cnt2 (after ops_agg2 (after ops_msg2 (after ops_nrm2 (after ops_len2 (after ops_lin2 (after ops_out1 (after ops_cnt1 (after ops_agg1 (after ops_msg1 (after ops_nrm1 (after ops_len1 (after ops_lin1 (after ops_idx (launchContents m d))))))))))))))))) (Proc.devRef .tc main_arg3) = m ((d.tc : Thread nD τ).loc main_arg3) :=
    (frame_lsm _ main_arg3 (by decide)).trans h15_arg3
  have h16_arg4 : (after ops_lsm (after ops_pre2 (after ops_cnt2 (after ops_agg2 (after ops_msg2 (after ops_nrm2 (after ops_len2 (after ops_lin2 (after ops_out1 (after ops_cnt1 (after ops_agg1 (after ops_msg1 (after ops_nrm1 (after ops_len1 (after ops_lin1 (after ops_idx (launchContents m d))))))))))))))))) (Proc.devRef .tc main_arg4) = m ((d.tc : Thread nD τ).loc main_arg4) :=
    (frame_lsm _ main_arg4 (by decide)).trans h15_arg4
  have h16_arg5 : (after ops_lsm (after ops_pre2 (after ops_cnt2 (after ops_agg2 (after ops_msg2 (after ops_nrm2 (after ops_len2 (after ops_lin2 (after ops_out1 (after ops_cnt1 (after ops_agg1 (after ops_msg1 (after ops_nrm1 (after ops_len1 (after ops_lin1 (after ops_idx (launchContents m d))))))))))))))))) (Proc.devRef .tc main_arg5) = m ((d.tc : Thread nD τ).loc main_arg5) :=
    (frame_lsm _ main_arg5 (by decide)).trans h15_arg5
  have h16_arg6 : (after ops_lsm (after ops_pre2 (after ops_cnt2 (after ops_agg2 (after ops_msg2 (after ops_nrm2 (after ops_len2 (after ops_lin2 (after ops_out1 (after ops_cnt1 (after ops_agg1 (after ops_msg1 (after ops_nrm1 (after ops_len1 (after ops_lin1 (after ops_idx (launchContents m d))))))))))))))))) (Proc.devRef .tc main_arg6) = m ((d.tc : Thread nD τ).loc main_arg6) :=
    (frame_lsm _ main_arg6 (by decide)).trans h15_arg6
  have h16_arg7 : (after ops_lsm (after ops_pre2 (after ops_cnt2 (after ops_agg2 (after ops_msg2 (after ops_nrm2 (after ops_len2 (after ops_lin2 (after ops_out1 (after ops_cnt1 (after ops_agg1 (after ops_msg1 (after ops_nrm1 (after ops_len1 (after ops_lin1 (after ops_idx (launchContents m d))))))))))))))))) (Proc.devRef .tc main_arg7) = m ((d.tc : Thread nD τ).loc main_arg7) :=
    (frame_lsm _ main_arg7 (by decide)).trans h15_arg7
  exact ⟨h16_v108, h16_arg0, h16_arg1, h16_arg2, h16_arg3, h16_arg4, h16_arg5, h16_arg6, h16_arg7⟩

/-- The result buffer after the whole line, from the launch contents: the stages composed down to the arguments. -/
theorem ref_value (m : (ℓ : Loc nD τ sig) → Buf (Elt F) ℓ) (d : Dev nD) :
    after (ops (F := F)) (launchContents m d) (Proc.devRef .tc main_v108) = refOut (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) :=
  (ref_values m d).1

/-- On every device, for any float values, from any memory with zero counters: every weakly fair execution of the
    reference's @main terminates with the result buffer at the stages composed down to the arguments' launch contents
    and the arguments unchanged. -/
theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v108) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => by
      obtain ⟨e, e0, e1, e2, e3, e4, e5, e6, e7⟩ := ref_values m c
      exact ⟨(h c main_v108).trans e, (h c main_arg0).trans e0, (h c main_arg1).trans e1, (h c main_arg2).trans e2,
        (h c main_arg3).trans e3, (h c main_arg4).trans e4, (h c main_arg5).trans e5, (h c main_arg6).trans e6,
        (h c main_arg7).trans e7⟩)
    (run_raw m ρ)

end Cert.ReferenceIdeal.Chain

end
-- ==== Proof.LibEdgeGate.lean ====
/-
  The algebra of an edge gate over the extended reals.

  A row `z` is normalised by dividing each entry by its Euclidean length, the length clamped below by a positive
  `eps`. The gate of an edge is the inner product of the two normalised endpoint rows. Multiplying the gate by the
  clamped length of the source row and then by a normalised source entry gives the gate times the source entry
  itself: the clamped length is positive, so it is a positive real or `+∞`; a positive real cancels against its
  inverse, and at `+∞` every normalised entry is `0`, so both sides vanish. Also here: the two float constants the
  computation spells (the clamp `eps` and `1`), and the mean as a product with the reciprocal of a clamped count.
-/
import Idealize.ShloMosaic.PureOps.Ideal
import Idealize.ShloMosaic.PureOps.Ideal.Laws
import proofs.«154407_j62689342652829_2_alg».proof.Proof.LibSageRow

noncomputable section

namespace Cert.LibEdgeGate

open Idealize.ShloMosaic
open Cert.LibSageRow (unit)

variable {M : ℕ}

/-- The Euclidean length of a row, clamped below by `eps`. -/
def len (z : Fin M → EReal) (eps : EReal) : EReal := max (Ideal.sqrt (∑ c, z c * z c)) eps

/-- A normalised entry is the entry divided by the clamped length of its row. -/
theorem unit_eq (z : Fin M → EReal) (eps : EReal) (c : Fin M) :
    unit z eps c = Ideal.div (z c) (len z eps) := rfl

/-- For a positive clamp the clamped length is positive. -/
theorem len_pos (z : Fin M → EReal) {eps : EReal} (h0 : 0 < eps) : 0 < len z eps :=
  lt_of_lt_of_le h0 (le_max_right _ _)

/-- For a positive clamp a normalised entry is the entry times the inverse of the clamped length. -/
theorem unit_eq_mul_inv (z : Fin M → EReal) {eps : EReal} (h0 : 0 < eps) (c : Fin M) :
    unit z eps c = z c * (len z eps)⁻¹ := by
  rw [unit_eq]; unfold Ideal.div; rw [if_neg (ne_of_gt (len_pos z h0))]

/-- For `0 < eps` the clamped length is positive, so it is either a positive real or `+∞`. If it is a real,
    length times the normalised entry is the entry (for every extended real entry); if it is `+∞`, every
    normalised entry of the row is `0`. Hence the gate times the length times a normalised source entry is the
    gate times the source entry. -/
theorem gate_law (zs zd : Fin M → EReal) (eps : EReal) (h0 : 0 < eps) (c : Fin M) :
    ((∑ k, unit zs eps k * unit zd eps k) * len zs eps) * unit zs eps c
      = (0 + ∑ k, unit zd eps k * unit zs eps k) * zs c := by
  have hS : (∑ k, unit zd eps k * unit zs eps k) = ∑ k, unit zs eps k * unit zd eps k :=
    Finset.sum_congr rfl (fun k _ => mul_comm _ _)
  rw [zero_add, hS]
  have hpos : 0 < len zs eps := len_pos zs h0
  by_cases htop : len zs eps = ⊤
  · have hu : ∀ k, unit zs eps k = 0 := fun k => by
      rw [unit_eq_mul_inv zs h0 k, htop, EReal.inv_top, mul_zero]
    have hsum : (∑ k, unit zs eps k * unit zd eps k) = 0 :=
      Finset.sum_eq_zero (fun k _ => by rw [hu k, zero_mul])
    rw [hsum, zero_mul, zero_mul, zero_mul]
  · have hbot : len zs eps ≠ ⊥ := ne_of_gt (lt_trans EReal.bot_lt_zero hpos)
    have h1 : len zs eps * (len zs eps)⁻¹ = 1 := by
      rw [← div_eq_mul_inv]; exact EReal.div_self hbot htop (ne_of_gt hpos)
    rw [unit_eq_mul_inv zs h0 c, mul_mul_mul_comm, h1, mul_one]

/-- The clamp: the binary32 word `0x2B8CBCCC` denotes a positive real, `9223372 · 2⁻⁶³`. -/
theorem eps_pos : (0 : EReal) < Ideal.ofBits .f32 0x2B8CBCCC#32 := by
  have h : Ideal.ofBits .f32 0x2B8CBCCC#32 = (((9223372 : ℝ) * (2 : ℝ) ^ (-63 : ℤ) : ℝ) : EReal) := by
    simp [Ideal.ofBits, Ideal.ieee, -EReal.coe_mul]
  rw [h]; exact EReal.coe_pos.2 (by positivity)

/-- The binary32 word `0x3F800000` denotes `1`. -/
theorem ofBits_one : Ideal.ofBits .f32 0x3F800000#32 = 1 := by
  simp [Ideal.ofBits, Ideal.ieee, -EReal.coe_mul]; norm_num

/-- A mean: multiplying a sum by the reciprocal of the count clamped below by one is dividing by that clamped
    count. -/
theorem mean_law (a cnt : EReal) :
    a * Ideal.div (Ideal.ofBits .f32 0x3F800000#32) (max cnt (Ideal.ofBits .f32 0x3F800000#32))
      = Ideal.div a (max cnt (Ideal.ofBits .f32 0x3F800000#32)) := by
  rw [ofBits_one]; exact Cert.LibSageRow.mul_one_div (Cert.LibSageRow.max_one_ne_zero cnt)

end Cert.LibEdgeGate

end
-- ==== Proof.LibGatherRows.lean ====
/-
  Taking rows of a matrix, read at an entry.

  `x[idx]` for an `[N, M]` matrix `x` and an `[E, 1]` array `idx` of row numbers is a gather whose slices are
  whole rows: slice sizes `(1, M)`, the row axis collapsed, the start index a single component for the row axis, the
  column axis the one offset axis of the result. Entry `(e, c)` of the result is `x` at row `idx[e, 0]` — read as a
  signed integer and clamped into `[0, N - 1]` — and column `c`: on the row axis the clamped start, with no batching
  and no offset; on the column axis the start is `0` (it is not in the start index map) and the offset is `c`.
-/
import Idealize.ShloMosaic.PureOps.Dims
import Idealize.ShloMosaic.PureOps.ShapeOps
import Idealize.ShloMosaic.Lib.ValueIdx

noncomputable section

namespace Cert.LibGatherRows

open Idealize.ShloMosaic Idealize.ShloMosaic.ValueIdx

variable {α : Type} {N M E w : ℕ}

/-- The dimension numbers of `x[idx]` for an `[N, M]` matrix `x` and an `[E, 1]` array of row numbers:
    offset_dims `[1]`, collapsed_slice_dims `[0]`, start_index_map `[0]`, index_vector_dim `1`, slice sizes
    `(1, M)`, no batching. -/
structure IsRowTake (d : GatherDims ⟨2, ![N, M]⟩ ⟨2, ![E, 1]⟩ ⟨2, ![E, M]⟩) : Prop where
  od : d.offsetDims = [1]
  cs : d.collapsedSliceDims = [0]
  ob : d.operandBatchingDims = []
  sb : d.startIndicesBatchingDims = []
  sm : d.startIndexMap = [0]
  iv : d.indexVectorDim = 1
  ss : d.sliceSizes = ![1, M]

/-- The row an entry of the index array selects: the entry read as a signed integer, clamped into `[0, N - 1]`.
    It depends on neither `M` nor the record. -/
def rowOf (hN : 0 < N) (idx : IVec ⟨2, ![E, 1]⟩ w) (e : Fin E) : Fin N :=
  ⟨min (idx (ix2 e (0 : Fin 1))).toInt.toNat (N - 1), by omega⟩

/-- Entry `(e, c)` of the gathered rows is the matrix at the selected row and column `c`. -/
theorem gather_rows_apply (hN : 0 < N) (d : GatherDims ⟨2, ![N, M]⟩ ⟨2, ![E, 1]⟩ ⟨2, ![E, M]⟩) (hd : IsRowTake d)
    (x : (⟨2, ![N, M]⟩ : Shape).Idx → α) (idx : IVec ⟨2, ![E, 1]⟩ w) (e : Fin E) (c : Fin M) :
    Host.gather d x idx (ix2 e c) = x (ix2 (rowOf hN idx e) c) := by
  obtain ⟨od, cs, ob, sb, sm, iv, ss, wf⟩ := d
  obtain ⟨h1, h2, h3, h4, h5, h6, h7⟩ := hd
  simp only at h1 h2 h3 h4 h5 h6 h7
  subst h1 h2 h3 h4 h5 h6 h7
  let d : GatherDims ⟨2, ![N, M]⟩ ⟨2, ![E, 1]⟩ ⟨2, ![E, M]⟩ := ⟨[1], [0], [], [], [0], 1, ![1, M], wf⟩
  show Host.gather d x idx (ix2 e c) = _
  unfold Host.gather
  congr 1
  funext a
  refine Fin.ext ?_
  match a with
  | ⟨0, _⟩ =>
    show d.start (ix2 e c) idx 0 + d.batchCoord (ix2 e c) 0 + d.offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ d.startIndexMap from List.mem_singleton.mpr rfl)]
    have hsi : d.siIdx (ix2 e c) ⟨List.idxOf (0 : Fin 2) d.startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show d.start (ix2 e c) idx 1 + d.batchCoord (ix2 e c) 1 + d.offCoord (ix2 e c) 1 = c.val
    rw [GatherDims.batchCoord_eq_zero _ _ _ List.not_mem_nil]
    have hs : d.start (ix2 e c) idx 1 = 0 := by
      unfold GatherDims.start
      rw [dif_neg (show ¬ (1 : Fin 2) ∈ ([0] : List (Fin 2)) from by decide)]
    have ho : d.offCoord (ix2 e c) 1 = c.val := by
      unfold GatherDims.offCoord
      rw [dif_pos (show (1 : Fin 2) ∈ d.sKept from (GatherDims.mem_sKept d 1).2
        ⟨(show (1 : Fin 2) ∉ ([0] : List (Fin 2)) from by decide), List.not_mem_nil⟩)]
      rfl
    rw [hs, ho]; omega

end Cert.LibGatherRows

end
-- ==== Proof.GnnBridge.lean ====
/-
  The kernel's stages and the host's spelling of the same layer are one function, stage by stage, over the extended reals.

  Linear stage: the rows of x·W + b are the same affine rows whether the product is a matrix-unit product with a one-row
  bias or a dot_general with a bias vector, so the normalised rows and their clamped lengths agree.
  Edge stage: the kernel sends (gate · length of the source row) · normalised source row, the host gate · source row.
  The clamped length is at least the positive clamp: if it is a real it cancels against the normalisation, and if it is
  +∞ every normalised entry of that row is 0, hence the gate is 0 and both messages are 0. Rows are selected by the same
  clamped start indices on both sides, whatever the width of the gathered rows.
-/
import proofs.«154407_j62689342652829_2_alg».proof.Proof.GnnSpec
import proofs.«154407_j62689342652829_2_alg».proof.Proof.LibEdgeGate
import proofs.«154407_j62689342652829_2_alg».proof.Proof.LibGatherRows
import proofs.«154407_j62689342652829_2_alg».proof.Proof.LibGateSpell
import proofs.«154407_j62689342652829_2_alg».proof.Proof.LibDenseLayer
import Idealize.ShloMosaic.Lib.ValueIdx
import Idealize.ShloMosaic.Lib.Pipeline.Value

noncomputable section

namespace Cert.GnnBridge

open Idealize.ShloMosaic Idealize.ShloMosaic.ValueIdx
open Cert.GnnSpec Cert.LibDenseLayer Cert.LibGatherRows

variable {n K M N E w : ℕ}

/-- The normalised linear stage is the host's quotient of x·W + b by its rows' clamped lengths. -/
theorem nrm_bridge (d : DotDims ⟨2, ![n, K]⟩ ⟨2, ![K, M]⟩ ⟨2, ![n, M]⟩) (hd : Cert.LibPlainDot.IsPlain d)
    (X : FVec Ideal ⟨2, ![n, K]⟩ .f32) (W : FVec Ideal ⟨2, ![K, M]⟩ .f32) (b : FVec Ideal ⟨1, ![M]⟩ .f32)
    (sc : (⟨1, ![M]⟩ : Shape).ShapeCasts ⟨2, ![1, M]⟩)
    (h1 : (⟨1, ![M]⟩ : Shape).BroadcastsInDim ⟨2, ![1, M]⟩ ![1])
    (h2 : (⟨2, ![1, M]⟩ : Shape).BroadcastsInDim ⟨2, ![n, M]⟩ ![0, 1])
    (hr' : (⟨2, ![n, M]⟩ : Shape).ReducesTo [1] ⟨1, ![n]⟩) (hr : (⟨2, ![n, M]⟩ : Shape).Reduces [1] ⟨1, ![n]⟩)
    (hS : 0 < (⟨0, ![]⟩ : Shape).numel) (b0 : (⟨1, ![n]⟩ : Shape).BroadcastsInDim ⟨2, ![n, 1]⟩ ![0])
    (b1 : (⟨2, ![n, 1]⟩ : Shape).BroadcastsInDim ⟨2, ![n, M]⟩ ![0, 1])
    (be : (⟨0, ![]⟩ : Shape).BroadcastsInDim ⟨2, ![n, 1]⟩ ![]) :
    nrmOf X W (shapeCast ⟨2, ![1, M]⟩ b sc)
      = Host.divf (hAffine d X W b h1 h2) (broadcastInDim ⟨2, ![n, M]⟩ ![0, 1] b1
          (Cert.LibGateSpell.hLen (hAffine d X W b h1 h2) hr' hS b0 be 0x2B8CBCCC#32)) := by
  funext i
  obtain ⟨p, c, rfl⟩ : ∃ (p : Fin n) (c : Fin M), i = ix2 p c := ⟨i 0, i 1, eq_ix2 i⟩
  rw [Cert.LibGateSpell.hUnit_apply (hAffine d X W b h1 h2) hr' hr hS b0 b1 be 0x2B8CBCCC#32 p c]
  show Cert.LibSageRow.unit (linRow X W (shapeCast ⟨2, ![1, M]⟩ b sc) p) eps c
    = Cert.LibSageRow.unit (row (hAffine d X W b h1 h2) p) eps c
  rw [row_hAffine d hd X W b h1 h2 p]
  unfold linRow
  rw [row_shapeCast_vec]

/-- The clamped lengths of the rows of x·W + b are the host's. -/
theorem len_bridge (d : DotDims ⟨2, ![n, K]⟩ ⟨2, ![K, M]⟩ ⟨2, ![n, M]⟩) (hd : Cert.LibPlainDot.IsPlain d)
    (X : FVec Ideal ⟨2, ![n, K]⟩ .f32) (W : FVec Ideal ⟨2, ![K, M]⟩ .f32) (b : FVec Ideal ⟨1, ![M]⟩ .f32)
    (sc : (⟨1, ![M]⟩ : Shape).ShapeCasts ⟨2, ![1, M]⟩)
    (h1 : (⟨1, ![M]⟩ : Shape).BroadcastsInDim ⟨2, ![1, M]⟩ ![1])
    (h2 : (⟨2, ![1, M]⟩ : Shape).BroadcastsInDim ⟨2, ![n, M]⟩ ![0, 1])
    (hr' : (⟨2, ![n, M]⟩ : Shape).ReducesTo [1] ⟨1, ![n]⟩) (hr : (⟨2, ![n, M]⟩ : Shape).Reduces [1] ⟨1, ![n]⟩)
    (hS : 0 < (⟨0, ![]⟩ : Shape).numel) (b0 : (⟨1, ![n]⟩ : Shape).BroadcastsInDim ⟨2, ![n, 1]⟩ ![0])
    (be : (⟨0, ![]⟩ : Shape).BroadcastsInDim ⟨2, ![n, 1]⟩ ![]) :
    lenOf X W (shapeCast ⟨2, ![1, M]⟩ b sc)
      = Cert.LibGateSpell.hLen (hAffine d X W b h1 h2) hr' hS b0 be 0x2B8CBCCC#32 := by
  funext i
  obtain ⟨p, u, rfl⟩ : ∃ (p : Fin n) (u : Fin 1), i = ix2 p u := ⟨i 0, i 1, eq_ix2 i⟩
  rw [Cert.LibGateSpell.hLen_apply (hAffine d X W b h1 h2) hr' hr hS b0 be 0x2B8CBCCC#32 p u]
  show rowLen (linRow X W (shapeCast ⟨2, ![1, M]⟩ b sc) p) eps = rowLen (row (hAffine d X W b h1 h2) p) eps
  rw [row_hAffine d hd X W b h1 h2 p]
  unfold linRow
  rw [row_shapeCast_vec]

/-- The kernel's per-edge message is the host's: for normalised rows nrm of h with clamped lengths len (clamp e0 > 0),
    (gate · length) · normalised source row = gate · source row, edge by edge and entry by entry. -/
theorem msg_bridge (hN : 0 < N) (g : GatherDims ⟨2, ![N, M]⟩ ⟨2, ![E, 1]⟩ ⟨2, ![E, M]⟩) (hg : IsRowTake g)
    (g1 : GatherDims ⟨2, ![N, 1]⟩ ⟨2, ![E, 1]⟩ ⟨2, ![E, 1]⟩) (hg1 : IsRowTake g1)
    (nrm h : FVec Ideal ⟨2, ![N, M]⟩ .f32) (len : FVec Ideal ⟨2, ![N, 1]⟩ .f32) (e0 : EReal) (he : 0 < e0)
    (hnrm : ∀ (p : Fin N) (c : Fin M), nrm (ix2 p c) = Cert.LibSageRow.unit (fun c' => h (ix2 p c')) e0 c)
    (hlen : ∀ (p : Fin N) (u : Fin 1), len (ix2 p u) = rowLen (fun c' => h (ix2 p c')) e0)
    (iS iD : IVec ⟨2, ![E, 1]⟩ w)
    (hr' : (⟨2, ![E, M]⟩ : Shape).ReducesTo [1] ⟨1, ![E]⟩) (hr : (⟨2, ![E, M]⟩ : Shape).Reduces [1] ⟨1, ![E]⟩)
    (hS : 0 < (⟨0, ![]⟩ : Shape).numel) (c0 : (⟨1, ![E]⟩ : Shape).BroadcastsInDim ⟨2, ![E, 1]⟩ ![0])
    (c1 : (⟨2, ![E, 1]⟩ : Shape).BroadcastsInDim ⟨2, ![E, M]⟩ ![0, 1]) :
    gateOf (Host.gather g nrm iS) (Host.gather g nrm iD) (Host.gather g1 len iS)
      = mulf (broadcastInDim ⟨2, ![E, M]⟩ ![0, 1] c1 (broadcastInDim ⟨2, ![E, 1]⟩ ![0] c0
          (Host.reduceAdd (mulf (Host.gather g nrm iD) (Host.gather g nrm iS)) (constant (F := Ideal) ⟨0, ![]⟩ .f32 0x00000000#32) hr' hS)))
          (Host.gather g h iS) := by
  funext i
  obtain ⟨e, c, rfl⟩ : ∃ (e : Fin E) (c : Fin M), i = ix2 e c := ⟨i 0, i 1, eq_ix2 i⟩
  rw [Cert.LibGateSpell.hMsg_apply (Host.gather g nrm iD) (Host.gather g nrm iS) (Host.gather g h iS) hr' hr hS c0 c1 e c]
  show ((∑ k : Fin M, Host.gather g nrm iS (ix2 e k) * Host.gather g nrm iD (ix2 e k)) * Host.gather g1 len iS (ix2 e (0 : Fin 1)))
      * Host.gather g nrm iS (ix2 e c) = _
  simp only [gather_rows_apply hN g hg, gather_rows_apply hN g1 hg1, hnrm, hlen]
  exact Cert.LibEdgeGate.gate_law (fun c' => h (ix2 (rowOf hN iS e) c')) (fun c' => h (ix2 (rowOf hN iD e) c')) e0 he c

end Cert.GnnBridge

end
-- ==== Proof.MeanBridge.lean ====
/-
  The finishing stage of a layer, kernel against host, over the extended reals.

  The kernel multiplies a node's aggregate by the reciprocal of its in-degree clamped below by one, the host divides by
  that clamped in-degree. The clamped count is at least one, hence not zero, and a quotient by a nonzero extended real is
  by definition the product with its inverse: the two agree for every aggregate, finite or not. The bias is the same
  vector, read as row 0 of a one-row matrix or broadcast in two steps. The clamp at zero and the log-softmax of the row
  are then the same functions of equal rows.
-/
import proofs.«154407_j62689342652829_2_alg».proof.Proof.GnnSpec
import proofs.«154407_j62689342652829_2_alg».proof.Proof.LibEdgeGate
import proofs.«154407_j62689342652829_2_alg».proof.Proof.LibMeanSpell
import proofs.«154407_j62689342652829_2_alg».proof.Proof.LibDenseLayer
import Idealize.ShloMosaic.Lib.ValueIdx
import Idealize.ShloMosaic.Lib.Pipeline.Value

noncomputable section

namespace Cert.MeanBridge

open Idealize.ShloMosaic Idealize.ShloMosaic.ValueIdx
open Cert.GnnSpec Cert.LibMeanSpell

variable {n M : ℕ}

/-- Entry (p, q) before the clamp or the log-softmax: aggregate times reciprocal clamped count plus bias is aggregate over
    clamped count plus bias. -/
theorem pre_bridge (agg : FVec Ideal ⟨2, ![n, M]⟩ .f32) (cnt ones : FVec Ideal ⟨1, ![n]⟩ .f32) (b : FVec Ideal ⟨1, ![M]⟩ .f32)
    (hones : ∀ p : Fin n, ones (ix1 p) = Ideal.ofBits .f32 0x3F800000#32)
    (hc : (⟨1, ![n]⟩ : Shape).ShapeCasts ⟨2, ![n, 1]⟩) (sc : (⟨1, ![M]⟩ : Shape).ShapeCasts ⟨2, ![1, M]⟩)
    (d0 : (⟨1, ![n]⟩ : Shape).BroadcastsInDim ⟨2, ![n, 1]⟩ ![0]) (d1 : (⟨2, ![n, 1]⟩ : Shape).BroadcastsInDim ⟨2, ![n, M]⟩ ![0, 1])
    (e1 : (⟨1, ![M]⟩ : Shape).BroadcastsInDim ⟨2, ![1, M]⟩ ![1]) (e2 : (⟨2, ![1, M]⟩ : Shape).BroadcastsInDim ⟨2, ![n, M]⟩ ![0, 1])
    (p : Fin n) (q : Fin M) :
    preRow agg (shapeCast ⟨2, ![n, 1]⟩ (Host.divf ones (maximumf cnt ones)) hc) (shapeCast ⟨2, ![1, M]⟩ b sc) p q
      = hPre agg cnt ones b d0 d1 e1 e2 (ix2 p q) := by
  rw [hPre_apply]
  show agg (ix2 p q) * shapeCast ⟨2, ![n, 1]⟩ (Host.divf ones (maximumf cnt ones)) hc (ix2 p (0 : Fin 1))
      + shapeCast ⟨2, ![1, M]⟩ b sc (ix2 (0 : Fin 1) q) = _
  rw [invCol_apply, hones, Cert.LibEdgeGate.mean_law]
  exact congrArg (_ + ·) (congrFun (Cert.LibDenseLayer.row_shapeCast_vec b sc) q)

/-- The first layer's finish: both clamp equal rows at zero. -/
theorem relu_bridge (agg : FVec Ideal ⟨2, ![n, M]⟩ .f32) (cnt ones : FVec Ideal ⟨1, ![n]⟩ .f32) (b : FVec Ideal ⟨1, ![M]⟩ .f32)
    (hones : ∀ p : Fin n, ones (ix1 p) = Ideal.ofBits .f32 0x3F800000#32)
    (hc : (⟨1, ![n]⟩ : Shape).ShapeCasts ⟨2, ![n, 1]⟩) (sc : (⟨1, ![M]⟩ : Shape).ShapeCasts ⟨2, ![1, M]⟩)
    (d0 : (⟨1, ![n]⟩ : Shape).BroadcastsInDim ⟨2, ![n, 1]⟩ ![0]) (d1 : (⟨2, ![n, 1]⟩ : Shape).BroadcastsInDim ⟨2, ![n, M]⟩ ![0, 1])
    (e1 : (⟨1, ![M]⟩ : Shape).BroadcastsInDim ⟨2, ![1, M]⟩ ![1]) (e2 : (⟨2, ![1, M]⟩ : Shape).BroadcastsInDim ⟨2, ![n, M]⟩ ![0, 1])
    (z0 : (⟨0, ![]⟩ : Shape).BroadcastsInDim ⟨2, ![n, M]⟩ ![]) :
    meanReluOf agg (shapeCast ⟨2, ![n, 1]⟩ (Host.divf ones (maximumf cnt ones)) hc) (shapeCast ⟨2, ![1, M]⟩ b sc)
      = maximumf (hPre agg cnt ones b d0 d1 e1 e2) (broadcastInDim ⟨2, ![n, M]⟩ ![] z0 (constant (F := Ideal) ⟨0, ![]⟩ .f32 0x00000000#32)) := by
  funext i
  obtain ⟨p, q, rfl⟩ : ∃ (p : Fin n) (q : Fin M), i = ix2 p q := ⟨i 0, i 1, eq_ix2 i⟩
  rw [hRelu_apply agg cnt ones b d0 d1 e1 e2 z0 p q]
  exact congrArg (max · (Ideal.ofBits .f32 0x00000000#32)) (pre_bridge agg cnt ones b hones hc sc d0 d1 e1 e2 p q)

/-- The second layer's finish: both take the log-softmax of equal rows. -/
theorem lsm_bridge (agg : FVec Ideal ⟨2, ![n, M]⟩ .f32) (cnt ones : FVec Ideal ⟨1, ![n]⟩ .f32) (b : FVec Ideal ⟨1, ![M]⟩ .f32)
    (hones : ∀ p : Fin n, ones (ix1 p) = Ideal.ofBits .f32 0x3F800000#32)
    (hc : (⟨1, ![n]⟩ : Shape).ShapeCasts ⟨2, ![n, 1]⟩) (sc : (⟨1, ![M]⟩ : Shape).ShapeCasts ⟨2, ![1, M]⟩)
    (d0 : (⟨1, ![n]⟩ : Shape).BroadcastsInDim ⟨2, ![n, 1]⟩ ![0]) (d1 : (⟨2, ![n, 1]⟩ : Shape).BroadcastsInDim ⟨2, ![n, M]⟩ ![0, 1])
    (e1 : (⟨1, ![M]⟩ : Shape).BroadcastsInDim ⟨2, ![1, M]⟩ ![1]) (e2 : (⟨2, ![1, M]⟩ : Shape).BroadcastsInDim ⟨2, ![n, M]⟩ ![0, 1])
    (hr' : (⟨2, ![n, M]⟩ : Shape).ReducesTo [1] ⟨1, ![n]⟩) (hr : (⟨2, ![n, M]⟩ : Shape).Reduces [1] ⟨1, ![n]⟩)
    (hS : 0 < (⟨0, ![]⟩ : Shape).numel) (f0 : (⟨0, ![]⟩ : Shape).BroadcastsInDim ⟨1, ![n]⟩ ![]) :
    meanLsmOf agg (shapeCast ⟨2, ![n, 1]⟩ (Host.divf ones (maximumf cnt ones)) hc) (shapeCast ⟨2, ![1, M]⟩ b sc)
      = hLsm (hPre agg cnt ones b d0 d1 e1 e2) hr' hS f0 d0 d1 := by
  funext i
  obtain ⟨p, q, rfl⟩ : ∃ (p : Fin n) (q : Fin M), i = ix2 p q := ⟨i 0, i 1, eq_ix2 i⟩
  rw [hLsm_apply (hPre agg cnt ones b d0 d1 e1 e2) hr' hr hS f0 d0 d1 p q]
  exact congrArg (fun z => Cert.LibLsmRow.lsmRow z q) (funext fun q' => pre_bridge agg cnt ones b hones hc sc d0 d1 e1 e2 p q')

end Cert.MeanBridge

end
-- ==== Proof.Agree.lean ====
/-
  The idealized kernel's result and the reference's result are one function of the eight arguments.

  Both are the same two-layer network over the extended reals, stage by stage. The index arrays (the edge list's two
  rows with one loop per node appended, the wrapped and the plain index columns) and the in-degrees are the same
  expressions. The linear stage's normalised rows and clamped lengths are the quotient and the lengths the reference
  computes from the same affine rows. An edge's message, (gate · clamped length of the source row) · normalised source
  row, is the reference's gate · source row, because the clamp is positive. The aggregate is the same scatter into
  zeros. The finish multiplies by the reciprocal of the clamped in-degree where the reference divides by it, which is
  the same for a divisor that is not zero, and then clamps at zero (first layer) or takes the log-softmax of the row
  (second layer). Composing the stage equalities, first layer then second, gives the equality of the results.
-/
import proofs.«154407_j62689342652829_2_alg».proof.Proof.KOut
import proofs.«154407_j62689342652829_2_alg».proof.Proof.RefStageDefs
import proofs.«154407_j62689342652829_2_alg».proof.Proof.GnnBridge
import proofs.«154407_j62689342652829_2_alg».proof.Proof.MeanBridge
import proofs.«154407_j62689342652829_2_alg».proof.Proof.LibGateSpell
import proofs.«154407_j62689342652829_2_alg».proof.Proof.LibEdgeGate
import proofs.«154407_j62689342652829_2_alg».proof.Proof.LibGatherRows
import proofs.«154407_j62689342652829_2_alg».proof.Proof.LibMeanSpell
import proofs.«154407_j62689342652829_2_alg».proof.Proof.LibDenseLayer

set_option maxRecDepth 16384

noncomputable section

namespace Cert.Agree

open Idealize.ShloMosaic Idealize.ShloMosaic.ValueIdx
open Cert.GnnSpec
open Cert.KernelIdeal.KFold
open Cert.ReferenceIdeal Cert.ReferenceIdeal.Gen Cert.ReferenceIdeal.Chain

/-! ## The index arrays and the in-degrees -/

/-- The edges' sources are the same array. -/
theorem src_eq (x1 : (⟨Cert.KernelIdeal.S2x1600000, .i32⟩ : BufTy).Contents (Elt Ideal)) : srcT x1 = S_src x1 := rfl

/-- The edges' destinations are the same array. -/
theorem dst_eq (x1 : (⟨Cert.KernelIdeal.S2x1600000, .i32⟩ : BufTy).Contents (Elt Ideal)) : dstT x1 = S_dst x1 := rfl

/-- The wrapped index column is the same array. -/
theorem wrap_eq (i : (⟨Cert.KernelIdeal.S1700000, .i32⟩ : BufTy).Contents (Elt Ideal)) : wrapT i = wrapIdx i := rfl

/-- The in-degrees are the same array, in both layers. -/
theorem cnt1_eq (d : (⟨Cert.KernelIdeal.S1700000, .i32⟩ : BufTy).Contents (Elt Ideal)) : cntT d = S_cnt1 (F := Ideal) d := rfl
theorem cnt2_eq (d : (⟨Cert.KernelIdeal.S1700000, .i32⟩ : BufTy).Contents (Elt Ideal)) : cntT d = S_cnt2 (F := Ideal) d := rfl

/-! ## The first layer -/

/-- The normalised rows of the first linear stage are the reference's quotient. -/
theorem nrm1_eq (x0 : FVec Ideal Cert.KernelIdeal.S100000x128 .f32) (x2 : FVec Ideal Cert.KernelIdeal.S128x64 .f32)
    (x3 : FVec Ideal Cert.KernelIdeal.S64 .f32) :
    nrm1 x0 x2 x3 = S_nrm1 (F := Ideal) (S_lin1 x0 x2 x3) (S_len1 (S_lin1 x0 x2 x3)) :=
  Cert.GnnBridge.nrm_bridge (n := 100000) (K := 128) (M := 64) dot_S100000x128_S128x64_S100000x64_1_0_0_1_n_n
    ⟨rfl, rfl, rfl, rfl, rfl, rfl⟩ x0 x2 x3 Cert.KernelIdeal.Gen.shapeCasts_S64_S1x64 bcast_S64_S1x64_1
    bcast_S1x64_S100000x64_0_1 reducesTo_S100000x64_S100000_d1 (by decide) h_S_ bcast_S100000_S100000x1_0
    bcast_S100000x1_S100000x64_0_1 bcast_S_S100000x1

/-- The clamped lengths of the first linear stage are the reference's. -/
theorem len1_eq (x0 : FVec Ideal Cert.KernelIdeal.S100000x128 .f32) (x2 : FVec Ideal Cert.KernelIdeal.S128x64 .f32)
    (x3 : FVec Ideal Cert.KernelIdeal.S64 .f32) :
    len1 x0 x2 x3 = S_len1 (F := Ideal) (S_lin1 x0 x2 x3) :=
  Cert.GnnBridge.len_bridge (n := 100000) (K := 128) (M := 64) dot_S100000x128_S128x64_S100000x64_1_0_0_1_n_n
    ⟨rfl, rfl, rfl, rfl, rfl, rfl⟩ x0 x2 x3 Cert.KernelIdeal.Gen.shapeCasts_S64_S1x64 bcast_S64_S1x64_1
    bcast_S1x64_S100000x64_0_1 reducesTo_S100000x64_S100000_d1 (by decide) h_S_ bcast_S100000_S100000x1_0
    bcast_S_S100000x1

/-- The first layer's messages are the reference's, for the normalised rows and clamped lengths of any array h. -/
theorem msg1_eq (x1 : (⟨Cert.KernelIdeal.S2x1600000, .i32⟩ : BufTy).Contents (Elt Ideal)) (h : FVec Ideal S100000x64 .f32) :
    msgK64 (S_nrm1 h (S_len1 h)) (S_len1 h) (srcT x1) (dstT x1)
      = S_msg1 (S_src x1) (S_dst x1) h (S_nrm1 h (S_len1 h)) :=
  Cert.GnnBridge.msg_bridge (N := 100000) (M := 64) (E := 1700000) (w := 32) (by decide)
    gather_S100000x64_S1700000x1_S1700000x64_1_0_n_n_0_1_164 ⟨rfl, rfl, rfl, rfl, rfl, rfl, rfl⟩
    g1 ⟨rfl, rfl, rfl, rfl, rfl, rfl, rfl⟩
    (S_nrm1 h (S_len1 h)) h (S_len1 h) (Ideal.ofBits .f32 0x2B8CBCCC#32) Cert.LibEdgeGate.eps_pos
    (fun p c => Cert.LibGateSpell.hUnit_apply h reducesTo_S100000x64_S100000_d1 (by decide) h_S_ bcast_S100000_S100000x1_0
      bcast_S100000x1_S100000x64_0_1 bcast_S_S100000x1 0x2B8CBCCC#32 p c)
    (fun p u => Cert.LibGateSpell.hLen_apply h reducesTo_S100000x64_S100000_d1 (by decide) h_S_ bcast_S100000_S100000x1_0
      bcast_S_S100000x1 0x2B8CBCCC#32 p u)
    (wrapIdx (S_src x1)) (wrapIdx (S_dst x1)) reducesTo_S1700000x64_S1700000_d1 (by decide) h_S_
    bcast_S1700000_S1700000x1_0 bcast_S1700000x1_S1700000x64_0_1

/-- The first layer's aggregate is the same scatter. -/
theorem agg1_eq (x1 : (⟨Cert.KernelIdeal.S2x1600000, .i32⟩ : BufTy).Contents (Elt Ideal)) (msg : FVec Ideal S1700000x64 .f32) :
    aggK64 msg (dstT x1) = S_agg1 (S_dst x1) msg := rfl

/-- The first layer's finish is the reference's. -/
theorem out1_eq (x1 : (⟨Cert.KernelIdeal.S2x1600000, .i32⟩ : BufTy).Contents (Elt Ideal)) (agg : FVec Ideal S100000x64 .f32)
    (x4 : FVec Ideal Cert.KernelIdeal.S64 .f32) :
    out1 agg (dstT x1) x4 = S_out1 agg (S_cnt1 (S_dst x1)) x4 :=
  Cert.MeanBridge.relu_bridge (n := 100000) (M := 64) agg (S_cnt1 (S_dst x1)) onesN x4 (fun p => rfl)
    Cert.KernelIdeal.Gen.shapeCasts_S100000_S100000x1 Cert.KernelIdeal.Gen.shapeCasts_S64_S1x64
    bcast_S100000_S100000x1_0 bcast_S100000x1_S100000x64_0_1 bcast_S64_S1x64_1 bcast_S1x64_S100000x64_0_1 bcast_S_S100000x64

/-- The first layer's output is the reference's, as a function of the arguments. -/
theorem layer1 (x0 : FVec Ideal Cert.KernelIdeal.S100000x128 .f32) (x1 : (⟨Cert.KernelIdeal.S2x1600000, .i32⟩ : BufTy).Contents (Elt Ideal))
    (x2 : FVec Ideal Cert.KernelIdeal.S128x64 .f32) (x3 x4 : FVec Ideal Cert.KernelIdeal.S64 .f32) :
    out1 (aggK64 (msgK64 (nrm1 x0 x2 x3) (len1 x0 x2 x3) (srcT x1) (dstT x1)) (dstT x1)) (dstT x1) x4
      = refOut1 (F := Ideal) x0 x1 x2 x3 x4 := by
  rw [nrm1_eq, len1_eq, msg1_eq x1 (S_lin1 x0 x2 x3)]
  exact out1_eq x1 _ x4

/-! ## The second layer -/

/-- The normalised rows of the second linear stage are the reference's quotient. -/
theorem nrm2_eq (y : FVec Ideal Cert.KernelIdeal.S100000x64 .f32) (x5 : FVec Ideal Cert.KernelIdeal.S64x40 .f32)
    (x6 : FVec Ideal Cert.KernelIdeal.S40 .f32) :
    nrm2 y x5 x6 = S_nrm2 (F := Ideal) (S_lin2 y x5 x6) (S_len2 (S_lin2 y x5 x6)) :=
  Cert.GnnBridge.nrm_bridge (n := 100000) (K := 64) (M := 40) dot_S100000x64_S64x40_S100000x40_1_0_0_1_n_n
    ⟨rfl, rfl, rfl, rfl, rfl, rfl⟩ y x5 x6 Cert.KernelIdeal.Gen.shapeCasts_S40_S1x40 bcast_S40_S1x40_1
    bcast_S1x40_S100000x40_0_1 reducesTo_S100000x40_S100000_d1 (by decide) h_S_ bcast_S100000_S100000x1_0
    bcast_S100000x1_S100000x40_0_1 bcast_S_S100000x1

/-- The clamped lengths of the second linear stage are the reference's. -/
theorem len2_eq (y : FVec Ideal Cert.KernelIdeal.S100000x64 .f32) (x5 : FVec Ideal Cert.KernelIdeal.S64x40 .f32)
    (x6 : FVec Ideal Cert.KernelIdeal.S40 .f32) :
    len2 y x5 x6 = S_len2 (F := Ideal) (S_lin2 y x5 x6) :=
  Cert.GnnBridge.len_bridge (n := 100000) (K := 64) (M := 40) dot_S100000x64_S64x40_S100000x40_1_0_0_1_n_n
    ⟨rfl, rfl, rfl, rfl, rfl, rfl⟩ y x5 x6 Cert.KernelIdeal.Gen.shapeCasts_S40_S1x40 bcast_S40_S1x40_1
    bcast_S1x40_S100000x40_0_1 reducesTo_S100000x40_S100000_d1 (by decide) h_S_ bcast_S100000_S100000x1_0
    bcast_S_S100000x1

/-- The second layer's messages are the reference's. -/
theorem msg2_eq (x1 : (⟨Cert.KernelIdeal.S2x1600000, .i32⟩ : BufTy).Contents (Elt Ideal)) (h : FVec Ideal S100000x40 .f32) :
    msgK40 (S_nrm2 h (S_len2 h)) (S_len2 h) (srcT x1) (dstT x1)
      = S_msg2 (S_src x1) (S_dst x1) h (S_nrm2 h (S_len2 h)) :=
  Cert.GnnBridge.msg_bridge (N := 100000) (M := 40) (E := 1700000) (w := 32) (by decide)
    gather_S100000x40_S1700000x1_S1700000x40_1_0_n_n_0_1_140 ⟨rfl, rfl, rfl, rfl, rfl, rfl, rfl⟩
    g1 ⟨rfl, rfl, rfl, rfl, rfl, rfl, rfl⟩
    (S_nrm2 h (S_len2 h)) h (S_len2 h) (Ideal.ofBits .f32 0x2B8CBCCC#32) Cert.LibEdgeGate.eps_pos
    (fun p c => Cert.LibGateSpell.hUnit_apply h reducesTo_S100000x40_S100000_d1 (by decide) h_S_ bcast_S100000_S100000x1_0
      bcast_S100000x1_S100000x40_0_1 bcast_S_S100000x1 0x2B8CBCCC#32 p c)
    (fun p u => Cert.LibGateSpell.hLen_apply h reducesTo_S100000x40_S100000_d1 (by decide) h_S_ bcast_S100000_S100000x1_0
      bcast_S_S100000x1 0x2B8CBCCC#32 p u)
    (wrapIdx (S_src x1)) (wrapIdx (S_dst x1)) reducesTo_S1700000x40_S1700000_d1 (by decide) h_S_
    bcast_S1700000_S1700000x1_0 bcast_S1700000x1_S1700000x40_0_1

/-- The second layer's aggregate is the same scatter. -/
theorem agg2_eq (x1 : (⟨Cert.KernelIdeal.S2x1600000, .i32⟩ : BufTy).Contents (Elt Ideal)) (msg : FVec Ideal S1700000x40 .f32) :
    aggK40 msg (dstT x1) = S_agg2 (S_dst x1) msg := rfl

/-- The second layer's finish is the reference's. -/
theorem out2_eq (x1 : (⟨Cert.KernelIdeal.S2x1600000, .i32⟩ : BufTy).Contents (Elt Ideal)) (agg : FVec Ideal S100000x40 .f32)
    (x7 : FVec Ideal Cert.KernelIdeal.S40 .f32) :
    out2 agg (dstT x1) x7 = S_lsm (S_pre2 agg (S_cnt2 (S_dst x1)) x7) :=
  Cert.MeanBridge.lsm_bridge (n := 100000) (M := 40) agg (S_cnt2 (S_dst x1)) onesN x7 (fun p => rfl)
    Cert.KernelIdeal.Gen.shapeCasts_S100000_S100000x1 Cert.KernelIdeal.Gen.shapeCasts_S40_S1x40
    bcast_S100000_S100000x1_0 bcast_S100000x1_S100000x40_0_1 bcast_S40_S1x40_1 bcast_S1x40_S100000x40_0_1
    reducesTo_S100000x40_S100000_d1 (by decide) h_S_ bcast_S_S100000

/-! ## The results -/

/-- The idealized kernel's result function and the reference's are one function of the eight arguments. -/
theorem agree (x0 : FVec Ideal Cert.KernelIdeal.S100000x128 .f32) (x1 : (⟨Cert.KernelIdeal.S2x1600000, .i32⟩ : BufTy).Contents (Elt Ideal))
    (x2 : FVec Ideal Cert.KernelIdeal.S128x64 .f32) (x3 x4 : FVec Ideal Cert.KernelIdeal.S64 .f32)
    (x5 : FVec Ideal Cert.KernelIdeal.S64x40 .f32) (x6 x7 : FVec Ideal Cert.KernelIdeal.S40 .f32) :
    Cert.KernelIdeal.KFold.kOut x0 x1 x2 x3 x4 x5 x6 x7 = Cert.ReferenceIdeal.Chain.refOut (F := Ideal) x0 x1 x2 x3 x4 x5 x6 x7 := by
  unfold Cert.KernelIdeal.KFold.kOut
  rw [layer1 x0 x1 x2 x3 x4, nrm2_eq, len2_eq, msg2_eq x1 (S_lin2 (refOut1 x0 x1 x2 x3 x4) x5 x6)]
  exact out2_eq x1 _ x7

end Cert.Agree

end
-- ==== Proof.lean ====
/-
  Equivalence over the extended reals of a two-layer gated graph convolution written as six pallas regions among host
  gathers and scatters, against its plain reference.

  One layer: h = x·W + b row by row; nrm = h divided by its rows' Euclidean lengths clamped below by a small positive eps;
  for an edge e from s to d the gate is the inner product of rows s and d of nrm; the message of e is gate · row s of h;
  messages are summed at their destinations and divided by the in-degree clamped below by one; a bias is added. The first
  layer ends with a clamp at zero, the second with the log-softmax of each row.

  The kernel never stores h: it keeps nrm and the clamped length len, and sends (gate · len[s]) · nrm[s]. The two agree
  because len[s] is at least eps > 0: when it is a real it cancels against the normalisation (len · (h / len) = h for every
  extended real h), and when it is +∞ every entry of nrm[s] is 0, so the gate is 0 and both messages are 0. The kernel
  multiplies the aggregate by 1 / max(count, 1) where the reference divides by max(count, 1): a quotient by a nonzero
  extended real is the product with its inverse. Neither law needs the inputs finite, so the precondition is never opened.
  A matrix-unit product into a zero accumulator and a dot_general, a lane sum and a host sum, the narrowing casts (the
  identity here), the tiling into blocks of 5000 rows, and the order of the factors of the gate make no difference over
  the extended reals.

  The three frames: the two kernels' are the generated ones; the reference's is its run with the result dropped.
  The ideal pass rewrote nothing, so the idealization claim is trivial.
-/
import proofs.«154407_j62689342652829_2_alg».proof.Defs
import proofs.«154407_j62689342652829_2_alg».proof.Proof.Gen.Kernel
import proofs.«154407_j62689342652829_2_alg».proof.Proof.Gen.Kernel.Frame
import proofs.«154407_j62689342652829_2_alg».proof.Proof.Gen.KernelIdeal
import proofs.«154407_j62689342652829_2_alg».proof.Proof.Gen.KernelIdeal.Frame
import proofs.«154407_j62689342652829_2_alg».proof.Proof.Gen.ReferenceIdeal
import proofs.«154407_j62689342652829_2_alg».proof.Proof.Gen.Pre_finite_inputs
import proofs.«154407_j62689342652829_2_alg».proof.Proof.KRun
import proofs.«154407_j62689342652829_2_alg».proof.Proof.KFold
import proofs.«154407_j62689342652829_2_alg».proof.Proof.RefChain
import proofs.«154407_j62689342652829_2_alg».proof.Proof.Agree
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result dropped. -/
theorem frame_reference : Cert.frame_ReferenceIdeal := fun m ρ _ =>
  (θ_run Cert.ReferenceIdeal.defs _ _).mono (fun _ h c => (h c).2) (Cert.ReferenceIdeal.Chain.ref_run m ρ)

theorem preserves : Cert.preserves_Kernel_KernelIdeal := trivial

/-- Both runs end with the result at one function of the arguments: the kernel's by its twelve boundaries folded, the
    reference's by its operations composed, and the two functions agree stage by stage. -/
theorem algebraic : Cert.algebraic_KernelIdeal_ReferenceIdeal := by
  intro m ρ m' ρ' _ hagree
  refine ⟨fun c => Cert.KernelIdeal.KFold.kOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.KFold.kernel_value m ρ c), (h c).2⟩)
      (Cert.KernelIdeal.KRun.run_value (F := Ideal) m ρ)
  · refine (θ_run Cert.ReferenceIdeal.defs _ _).mono (fun r h c => ⟨(h c).1.trans ?_, (h c).2⟩)
      (Cert.ReferenceIdeal.Chain.ref_run m' ρ')
    obtain ⟨e0, e1, e2, e3, e4, e5, e6, e7⟩ := hagree c
    rw [e0, e1, e2, e3, e4, e5, e6, e7]
    exact (Cert.Agree.agree _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
